-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4x3072x1024 : Shape := ⟨3, ![4, 3072, 1024]⟩
abbrev S4x1024 : Shape := ⟨2, ![4, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x3072x1024 : S_.BroadcastsInDim S4x3072x1024 (![] : Fin 0 → Fin S4x3072x1024.rank)
  reducesTo_S4x3072x1024_S_d0_1_2 : S4x3072x1024.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8192x1024 .f32) (main_arg1 : FVec F S4x3072x1024 .f32) (main_arg2 : FVec F S4x1024 .f32) (main_arg3 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4x3072x1024 .f32 := Host.absf main_arg1
  let main_cst_0 : FVec F S_ .f32 := constant S_ .f32 0x7F800000#32
  let main_v5 : FVec F S4x3072x1024 .f32 := broadcastInDim S4x3072x1024 ![] bcast_S_S4x3072x1024 main_cst_0
  let main_v6 : IVec S4x3072x1024 1 := cmpf .olt main_v4 main_v5
  let main_c_1 : IVec S_ 1 := constantI S_ 1 1#1
  let main_v7 : IVec S_ 1 := (fun x v => Host.reduce IntOp.andi x v reducesTo_S4x3072x1024_S_d0_1_2 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8192x1024 : Shape := ⟨2, ![8192, 1024]⟩
abbrev S4x3072x1024 : Shape := ⟨3, ![4, 3072, 1024]⟩
abbrev S4x1024 : Shape := ⟨2, ![4, 1024]⟩
abbrev S1024 : Shape := ⟨1, ![1024]⟩
abbrev S1x3072x1024 : Shape := ⟨3, ![1, 3072, 1024]⟩
abbrev S3072x1024 : Shape := ⟨2, ![3072, 1024]⟩
abbrev S1024x1024 : Shape := ⟨2, ![1024, 1024]⟩
abbrev S1x1024 : Shape := ⟨2, ![1, 1024]⟩
abbrev S512x1024 : Shape := ⟨2, ![512, 1024]⟩
abbrev S8x1024 : Shape := ⟨2, ![8, 1024]⟩
abbrev S511x1024 : Shape := ⟨2, ![511, 1024]⟩
abbrev S2x1024 : Shape := ⟨2, ![2, 1024]⟩
abbrev S510x1024 : Shape := ⟨2, ![510, 1024]⟩
abbrev S508x1024 : Shape := ⟨2, ![508, 1024]⟩
abbrev S1x8192x1024 : Shape := ⟨3, ![1, 8192, 1024]⟩

abbrev nBuf : Space → Nat
  | .hbm => 49
  | .vmem => 60
  | .smem => 0
  | _ => 0

abbrev bufTy : (tb : Table) → Fin (tcTables nBuf tb) → BufTy
  | .hbm, ⟨0, _⟩ => ⟨S8192x1024, .f32⟩
  | .hbm, ⟨1, _⟩ => ⟨S4x3072x1024, .f32⟩
  | .hbm, ⟨2, _⟩ => ⟨S4x1024, .f32⟩
  | .hbm, ⟨3, _⟩ => ⟨S1024, .f32⟩
  | .hbm, ⟨4, _⟩ => ⟨S1x3072x1024, .f32⟩
  | .hbm, ⟨5, _⟩ => ⟨S3072x1024, .f32⟩
  | .hbm, ⟨6, _⟩ => ⟨S3072x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S8192x1024, .f32⟩
  | .hbm, ⟨15, _⟩ => ⟨S1x3072x1024, .f32⟩
  | .hbm, ⟨16, _⟩ => ⟨S3072x1024, .f32⟩
  | .hbm, ⟨17, _⟩ => ⟨S3072x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S8192x1024, .f32⟩
  | .hbm, ⟨26, _⟩ => ⟨S1x3072x1024, .f32⟩
  | .hbm, ⟨27, _⟩ => ⟨S3072x1024, .f32⟩
  | .hbm, ⟨28, _⟩ => ⟨S3072x1024, .bf16⟩
  | .hbm, ⟨29, _⟩ => ⟨S1024x1024, .bf16⟩
  | .hbm, ⟨30, _⟩ => ⟨S1024x1024, .bf16⟩
  | .hbm, ⟨31, _⟩ => ⟨S1024x1024, .bf16⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S1x1024, .f32⟩
  | .hbm, ⟨36, _⟩ => ⟨S8192x1024, .f32⟩
  | .hbm, ⟨37, _⟩ => ⟨S1x3072x1024, .f32⟩
  | .hbm, ⟨38, _⟩ => ⟨S3072x1024, .f32⟩
  | .hbm, ⟨39, _⟩ => ⟨S3072x1024, .bf16⟩
  | .hbm, ⟨40, _⟩ => ⟨S1024x1024, .bf16⟩
  | .hbm, ⟨41, _⟩ => ⟨S1024x1024, .bf16⟩
  | .hbm, ⟨42, _⟩ => ⟨S1024x1024, .bf16⟩
  | .hbm, ⟨43, _⟩ => ⟨S1x1024, .f32⟩
  | .hbm, ⟨44, _⟩ => ⟨S1024, .f32⟩
  | .hbm, ⟨45, _⟩ => ⟨S1x1024, .f32⟩
  | .hbm, ⟨46, _⟩ => ⟨S1x1024, .f32⟩
  | .hbm, ⟨47, _⟩ => ⟨S8192x1024, .f32⟩
  | .hbm, ⟨48, _⟩ => ⟨S1x8192x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S8x1024, .f32⟩
  | .local _ .vmem, ⟨18, _⟩ => ⟨S8x1024, .f32⟩
  | .local _ .vmem, ⟨19, _⟩ => ⟨S8x1024, .f32⟩
  | .local _ .vmem, ⟨20, _⟩ => ⟨S8x1024, .f32⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1x1024, .f32⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S8x1024, .f32⟩
  | .local _ .vmem, ⟨33, _⟩ => ⟨S8x1024, .f32⟩
  | .local _ .vmem, ⟨34, _⟩ => ⟨S8x1024, .f32⟩
  | .local _ .vmem, ⟨35, _⟩ => ⟨S8x1024, .f32⟩
  | .local _ .vmem, ⟨36, _⟩ => ⟨S1024x1024, .bf16⟩
  | .local _ .vmem, ⟨37, _⟩ => ⟨S1024x1024, .bf16⟩
  | .local _ .vmem, ⟨38, _⟩ => ⟨S1024x1024, .bf16⟩
  | .local _ .vmem, ⟨39, _⟩ => ⟨S1x1024, .f32⟩
  | .local _ .vmem, ⟨40, _⟩ => ⟨S1x1024, .f32⟩
  | .local _ .vmem, ⟨41, _⟩ => ⟨S512x1024, .f32⟩
  | .local _ .vmem, ⟨42, _⟩ => ⟨S512x1024, .f32⟩
  | .local _ .vmem, ⟨43, _⟩ => ⟨S512x1024, .f32⟩
  | .local _ .vmem, ⟨44, _⟩ => ⟨S512x1024, .f32⟩
  | .local _ .vmem, ⟨45, _⟩ => ⟨S512x1024, .f32⟩
  | .local _ .vmem, ⟨46, _⟩ => ⟨S512x1024, .f32⟩
  | .local _ .vmem, ⟨47, _⟩ => ⟨S8x1024, .f32⟩
  | .local _ .vmem, ⟨48, _⟩ => ⟨S8x1024, .f32⟩
  | .local _ .vmem, ⟨49, _⟩ => ⟨S8x1024, .f32⟩
  | .local _ .vmem, ⟨50, _⟩ => ⟨S8x1024, .f32⟩
  | .local _ .vmem, ⟨51, _⟩ => ⟨S1024x1024, .bf16⟩
  | .local _ .vmem, ⟨52, _⟩ => ⟨S1024x1024, .bf16⟩
  | .local _ .vmem, ⟨53, _⟩ => ⟨S1024x1024, .bf16⟩
  | .local _ .vmem, ⟨54, _⟩ => ⟨S1x1024, .f32⟩
  | .local _ .vmem, ⟨55, _⟩ => ⟨S1x1024, .f32⟩
  | .local _ .vmem, ⟨56, _⟩ => ⟨S512x1024, .f32⟩
  | .local _ .vmem, ⟨57, _⟩ => ⟨S512x1024, .f32⟩
  | .local _ .vmem, ⟨58, _⟩ => ⟨S512x1024, .f32⟩
  | .local _ .vmem, ⟨59, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_scratch0 : Ref sig .tc := ⟨.vmem, 28, rfl⟩
abbrev cc1_scratch1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg8_0 : Ref sig .tc := ⟨.vmem, 41, rfl⟩
abbrev cc2_stg8_1 : Ref sig .tc := ⟨.vmem, 42, rfl⟩
abbrev cc2_scratch0 : Ref sig .tc := ⟨.vmem, 43, rfl⟩
abbrev cc2_scratch1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg2_1 : Ref sig .tc := ⟨.vmem, 50, rfl⟩
abbrev cc3_stg3_0 : Ref sig .tc := ⟨.vmem, 51, rfl⟩
abbrev cc3_stg4_0 : Ref sig .tc := ⟨.vmem, 52, rfl⟩
abbrev cc3_stg5_0 : Ref sig .tc := ⟨.vmem, 53, rfl⟩
abbrev cc3_stg6_0 : Ref sig .tc := ⟨.vmem, 54, rfl⟩
abbrev cc3_stg7_0 : Ref sig .tc := ⟨.vmem, 55, rfl⟩
abbrev cc3_stg8_0 : Ref sig .tc := ⟨.vmem, 56, rfl⟩
abbrev cc3_stg8_1 : Ref sig .tc := ⟨.vmem, 57, rfl⟩
abbrev cc3_scratch0 : Ref sig .tc := ⟨.vmem, 58, rfl⟩
abbrev cc3_scratch1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem8_0 : DmaSem sig := 37
abbrev cc2_sem8_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem4_0 : DmaSem sig := 46
abbrev cc3_sem5_0 : DmaSem sig := 47
abbrev cc3_sem6_0 : DmaSem sig := 48
abbrev cc3_sem7_0 : DmaSem sig := 49
abbrev cc3_sem8_0 : DmaSem sig := 50
abbrev cc3_sem8_1 : DmaSem sig := 51

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc1_transform_2 (i : grid1.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc2_transform_2 (i : grid2.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S512x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc3_transform_2 (i : grid3.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1024x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1024x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1024x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S512x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S4x3072x1024_S1x3072x1024_0_0_0 : S4x3072x1024.Slices ![0, 0, 0] S1x3072x1024
  shapeCasts_S1x3072x1024_S3072x1024 : S1x3072x1024.ShapeCasts S3072x1024
  bitsLt_bf16_f32 : FTy.bits .bf16 < FTy.bits .f32
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  slices_S4x1024_S1x1024_0_0 : S4x1024.Slices ![0, 0] S1x1024
  shapeCasts_S1x1024_S1024 : S1x1024.ShapeCasts S1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S8x1024_S1x1024_7_0 : ∀ a, (![7, 0] : Fin 2 → Nat) a + S1x1024.size a ≤ S8x1024.size a
  inb_S8x1024_S1x1024_0_0 : ∀ a, (![0, 0] : Fin 2 → Nat) a + S1x1024.size a ≤ S8x1024.size a
  inb_S512x1024_S1x1024_0_0 : ∀ a, (![0, 0] : Fin 2 → Nat) a + S1x1024.size a ≤ S512x1024.size a
  slices_S512x1024_o0_0_S511x1024 : S512x1024.Slices ![0, 0] S511x1024
  inb_S512x1024_S511x1024_1_0 : ∀ a, (![1, 0] : Fin 2 → Nat) a + S511x1024.size a ≤ S512x1024.size a
  h_S511x1024 : 0 < S511x1024.numel
  shapeCasts_S511x1024_S511x1024 : S511x1024.ShapeCasts S511x1024
  slices_S512x1024_o1_0_S511x1024 : S512x1024.Slices ![1, 0] S511x1024
  inb_S512x1024_S511x1024_0_0 : ∀ a, (![0, 0] : Fin 2 → Nat) a + S511x1024.size a ≤ S512x1024.size a
  inb_S512x1024_S1x1024_511_0 : ∀ a, (![511, 0] : Fin 2 → Nat) a + S1x1024.size a ≤ S512x1024.size a
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S512x1024 : S1x1024.Broadcasts S512x1024
  slices_S4x3072x1024_S1x3072x1024_1_0_0 : S4x3072x1024.Slices ![1, 0, 0] S1x3072x1024
  slices_S4x1024_S1x1024_1_0 : S4x1024.Slices ![1, 0] S1x1024
  shapeCasts_S512x1024_S512x1024 : S512x1024.ShapeCasts S512x1024
  inb_S8x1024_S2x1024_6_0 : ∀ a, (![6, 0] : Fin 2 → Nat) a + S2x1024.size a ≤ S8x1024.size a
  h_S2x1024 : 0 < S2x1024.numel
  shapeCasts_S2x1024_S2x1024 : S2x1024.ShapeCasts S2x1024
  inb_S8x1024_S2x1024_0_0 : ∀ a, (![0, 0] : Fin 2 → Nat) a + S2x1024.size a ≤ S8x1024.size a
  broadcasts_S1x1024_S2x1024 : S1x1024.Broadcasts S2x1024
  inb_S512x1024_S2x1024_0_0 : ∀ a, (![0, 0] : Fin 2 → Nat) a + S2x1024.size a ≤ S512x1024.size a
  slices_S512x1024_o0_0_S510x1024 : S512x1024.Slices ![0, 0] S510x1024
  inb_S512x1024_S510x1024_2_0 : ∀ a, (![2, 0] : Fin 2 → Nat) a + S510x1024.size a ≤ S512x1024.size a
  h_S510x1024 : 0 < S510x1024.numel
  shapeCasts_S510x1024_S510x1024 : S510x1024.ShapeCasts S510x1024
  slices_S512x1024_o2_0_S510x1024 : S512x1024.Slices ![2, 0] S510x1024
  inb_S512x1024_S510x1024_0_0 : ∀ a, (![0, 0] : Fin 2 → Nat) a + S510x1024.size a ≤ S512x1024.size a
  inb_S512x1024_S2x1024_510_0 : ∀ a, (![510, 0] : Fin 2 → Nat) a + S2x1024.size a ≤ S512x1024.size a
  slices_S4x3072x1024_S1x3072x1024_2_0_0 : S4x3072x1024.Slices ![2, 0, 0] S1x3072x1024
  slices_S4x1024_S1x1024_2_0 : S4x1024.Slices ![2, 0] S1x1024
  inb_S8x1024_S4x1024_4_0 : ∀ a, (![4, 0] : Fin 2 → Nat) a + S4x1024.size a ≤ S8x1024.size a
  h_S4x1024 : 0 < S4x1024.numel
  shapeCasts_S4x1024_S4x1024 : S4x1024.ShapeCasts S4x1024
  inb_S8x1024_S4x1024_0_0 : ∀ a, (![0, 0] : Fin 2 → Nat) a + S4x1024.size a ≤ S8x1024.size a
  broadcasts_S1x1024_S4x1024 : S1x1024.Broadcasts S4x1024
  inb_S512x1024_S4x1024_0_0 : ∀ a, (![0, 0] : Fin 2 → Nat) a + S4x1024.size a ≤ S512x1024.size a
  slices_S512x1024_o0_0_S508x1024 : S512x1024.Slices ![0, 0] S508x1024
  inb_S512x1024_S508x1024_4_0 : ∀ a, (![4, 0] : Fin 2 → Nat) a + S508x1024.size a ≤ S512x1024.size a
  h_S508x1024 : 0 < S508x1024.numel
  shapeCasts_S508x1024_S508x1024 : S508x1024.ShapeCasts S508x1024
  slices_S512x1024_o4_0_S508x1024 : S512x1024.Slices ![4, 0] S508x1024
  inb_S512x1024_S508x1024_0_0 : ∀ a, (![0, 0] : Fin 2 → Nat) a + S508x1024.size a ≤ S512x1024.size a
  inb_S512x1024_S4x1024_508_0 : ∀ a, (![508, 0] : Fin 2 → Nat) a + S4x1024.size a ≤ S512x1024.size a
  slices_S4x3072x1024_S1x3072x1024_3_0_0 : S4x3072x1024.Slices ![3, 0, 0] S1x3072x1024
  slices_S4x1024_S1x1024_3_0 : S4x1024.Slices ![3, 0] S1x1024
  bcast_S8192x1024_S1x8192x1024_1_2 : S8192x1024.BroadcastsInDim S1x8192x1024 (![1, 2] : Fin 2 → Fin S1x8192x1024.rank)
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S8192x1024.size a
  hwx0_1 : ∀ i : grid0.Coords, EltTy.bits .f32 = 32 ∨ (Rect.block (s := S8192x1024) S8x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S8192x1024.size a
  hwx0_2 : ∀ i : grid0.Coords, EltTy.bits .f32 = 32 ∨ (Rect.block (s := S8192x1024) S8x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .f32 = 32 ∨ (Rect.block (s := S8192x1024) S512x1024.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x1024.size a ≤ S8192x1024.size a
  hwx1_1 : ∀ i : grid1.Coords, EltTy.bits .f32 = 32 ∨ (Rect.block (s := S8192x1024) S8x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x1024.size a ≤ S8192x1024.size a
  hwx1_2 : ∀ i : grid1.Coords, EltTy.bits .f32 = 32 ∨ (Rect.block (s := S8192x1024) S8x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .bf16 = 32 ∨ (Rect.block (s := S1024x1024) S1024x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x1024.size a
  hwx1_7 : ∀ i : grid1.Coords, EltTy.bits .f32 = 32 ∨ (Rect.block (s := S1x1024) S1x1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x1024.size a ≤ S8192x1024.size a
  hwx1_8 : ∀ i : grid1.Coords, EltTy.bits .f32 = 32 ∨ (Rect.block (s := S8192x1024) S512x1024.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .f32 = 32 ∨ (Rect.block (s := S8192x1024) S512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x1024.size a ≤ S8192x1024.size a
  hwx2_1 : ∀ i : grid2.Coords, EltTy.bits .f32 = 32 ∨ (Rect.block (s := S8192x1024) S8x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x1024.size a ≤ S8192x1024.size a
  hwx2_2 : ∀ i : grid2.Coords, EltTy.bits .f32 = 32 ∨ (Rect.block (s := S8192x1024) S8x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S1024x1024.size a
  hwx2_3 : ∀ i : grid2.Coords, EltTy.bits .bf16 = 32 ∨ (Rect.block (s := S1024x1024) S1024x1024.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S1024x1024.size a
  hwx2_4 : ∀ i : grid2.Coords, EltTy.bits .bf16 = 32 ∨ (Rect.block (s := S1024x1024) S1024x1024.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S1024x1024.size a
  hwx2_5 : ∀ i : grid2.Coords, EltTy.bits .bf16 = 32 ∨ (Rect.block (s := S1024x1024) S1024x1024.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1024.size a ≤ S1x1024.size a
  hwx2_6 : ∀ i : grid2.Coords, EltTy.bits .f32 = 32 ∨ (Rect.block (s := S1x1024) S1x1024.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1024.size a ≤ S1x1024.size a
  hwx2_7 : ∀ i : grid2.Coords, EltTy.bits .f32 = 32 ∨ (Rect.block (s := S1x1024) S1x1024.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S512x1024.size a ≤ S8192x1024.size a
  hwx2_8 : ∀ i : grid2.Coords, EltTy.bits .f32 = 32 ∨ (Rect.block (s := S8192x1024) S512x1024.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S8192x1024.size a
  hwx3_0 : ∀ i : grid3.Coords, EltTy.bits .f32 = 32 ∨ (Rect.block (s := S8192x1024) S512x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8x1024.size a ≤ S8192x1024.size a
  hwx3_1 : ∀ i : grid3.Coords, EltTy.bits .f32 = 32 ∨ (Rect.block (s := S8192x1024) S8x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8x1024.size a ≤ S8192x1024.size a
  hwx3_2 : ∀ i : grid3.Coords, EltTy.bits .f32 = 32 ∨ (Rect.block (s := S8192x1024) S8x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S1024x1024.size a
  hwx3_3 : ∀ i : grid3.Coords, EltTy.bits .bf16 = 32 ∨ (Rect.block (s := S1024x1024) S1024x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1024x1024.size a ≤ S1024x1024.size a
  hwx3_4 : ∀ i : grid3.Coords, EltTy.bits .bf16 = 32 ∨ (Rect.block (s := S1024x1024) S1024x1024.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1024x1024.size a ≤ S1024x1024.size a
  hwx3_5 : ∀ i : grid3.Coords, EltTy.bits .bf16 = 32 ∨ (Rect.block (s := S1024x1024) S1024x1024.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1024.size a ≤ S1x1024.size a
  hwx3_6 : ∀ i : grid3.Coords, EltTy.bits .f32 = 32 ∨ (Rect.block (s := S1x1024) S1x1024.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x1024.size a ≤ S1x1024.size a
  hwx3_7 : ∀ i : grid3.Coords, EltTy.bits .f32 = 32 ∨ (Rect.block (s := S1x1024) S1x1024.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S512x1024.size a ≤ S8192x1024.size a
  hwx3_8 : ∀ i : grid3.Coords, EltTy.bits .f32 = 32 ∨ (Rect.block (s := S8192x1024) S512x1024.size (cc3_transform_8 i) (hinb3_8 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S512x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v10) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S8x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S8x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v21) S512x1024.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v21) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S8x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S8x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1024x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S1024x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S1024x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v30) S1x1024.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v31) S1x1024.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v32) S512x1024.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v32) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S8x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S8x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1024x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v37) S1024x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v38) S1024x1024.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v41) S1x1024.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v42) S1x1024.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v43) S512x1024.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S8192x1024 : Shape := ⟨2, ![8192, 1024]⟩
abbrev S4x3072x1024 : Shape := ⟨3, ![4, 3072, 1024]⟩
abbrev S4x1024 : Shape := ⟨2, ![4, 1024]⟩
abbrev S1024 : Shape := ⟨1, ![1024]⟩
abbrev S8192 : Shape := ⟨1, ![8192]⟩
abbrev S_ : Shape := ⟨0, ![]⟩
abbrev S8192x1 : Shape := ⟨2, ![8192, 1]⟩
abbrev S8192x3072 : Shape := ⟨2, ![8192, 3072]⟩
abbrev S1x3072x1024 : Shape := ⟨3, ![1, 3072, 1024]⟩
abbrev S3072x1024 : Shape := ⟨2, ![3072, 1024]⟩
abbrev S1x1024 : Shape := ⟨2, ![1, 1024]⟩
abbrev S1x8192x1024 : Shape := ⟨3, ![1, 8192, 1024]⟩

abbrev nBuf : Space → Nat
  | .hbm => 298
  | .vmem => 0
  | .smem => 0
  | _ => 0

abbrev hbmTy0_0 (i : Nat) : BufTy := match i % 128 with
  | 0 => ⟨S8192x1024, .f32⟩
  | 1 => ⟨S4x3072x1024, .f32⟩
  | 2 => ⟨S4x1024, .f32⟩
  | 3 => ⟨S1024, .f32⟩
  | 4 => ⟨S8192, .i32⟩
  | 5 => ⟨S_, .i32⟩
  | 6 => ⟨S8192, .i32⟩
  | 7 => ⟨S8192, .i32⟩
  | 8 => ⟨S_, .i32⟩
  | 9 => ⟨S8192, .i32⟩
  | 10 => ⟨S8192, .i32⟩
  | 11 => ⟨S_, .i32⟩
  | 12 => ⟨S8192, .i32⟩
  | 13 => ⟨S8192, .i1⟩
  | 14 => ⟨S8192x1, .i1⟩
  | 15 => ⟨S_, .i32⟩
  | 16 => ⟨S_, .i32⟩
  | 17 => ⟨S_, .i32⟩
  | 18 => ⟨S8192, .i32⟩
  | 19 => ⟨S8192, .i32⟩
  | 20 => ⟨S_, .i32⟩
  | 21 => ⟨S8192, .i32⟩
  | 22 => ⟨S8192, .i32⟩
  | 23 => ⟨S_, .i32⟩
  | 24 => ⟨S8192, .i32⟩
  | 25 => ⟨S8192, .i1⟩
  | 26 => ⟨S_, .i32⟩
  | 27 => ⟨S8192, .i32⟩
  | 28 => ⟨S8192, .i32⟩
  | 29 => ⟨S8192, .i32⟩
  | 30 => ⟨S8192x1, .i32⟩
  | 31 => ⟨S8192x1024, .f32⟩
  | 32 => ⟨S8192x1024, .i1⟩
  | 33 => ⟨S8192x1024, .f32⟩
  | 34 => ⟨S8192x1024, .f32⟩
  | 35 => ⟨S_, .i32⟩
  | 36 => ⟨S8192, .i32⟩
  | 37 => ⟨S8192, .i1⟩
  | 38 => ⟨S8192x1, .i1⟩
  | 39 => ⟨S_, .i32⟩
  | 40 => ⟨S_, .i32⟩
  | 41 => ⟨S_, .i32⟩
  | 42 => ⟨S8192, .i32⟩
  | 43 => ⟨S8192, .i32⟩
  | 44 => ⟨S_, .i32⟩
  | 45 => ⟨S8192, .i32⟩
  | 46 => ⟨S8192, .i32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S8192x1024, .f32⟩
  | 56 => ⟨S8192x1024, .i1⟩
  | 57 => ⟨S8192x1024, .f32⟩
  | 58 => ⟨S8192x1024, .f32⟩
  | 59 => ⟨S8192x3072, .f32⟩
  | 60 => ⟨S_, .f32⟩
  | 61 => ⟨S8192x1024, .f32⟩
  | 62 => ⟨S8192x1024, .f32⟩
  | 63 => ⟨S1x3072x1024, .f32⟩
  | 64 => ⟨S3072x1024, .f32⟩
  | 65 => ⟨S8192x1024, .f32⟩
  | 66 => ⟨S1x1024, .f32⟩
  | 67 => ⟨S1024, .f32⟩
  | 68 => ⟨S1x1024, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S_, .f32⟩
  | 75 => ⟨S8192x1024, .f32⟩
  | 76 => ⟨S8192x1024, .f32⟩
  | 77 => ⟨S8192x1024, .f32⟩
  | 78 => ⟨S_, .i32⟩
  | 79 => ⟨S8192, .i32⟩
  | 80 => ⟨S8192, .i32⟩
  | 81 => ⟨S_, .i32⟩
  | 82 => ⟨S8192, .i32⟩
  | 83 => ⟨S8192, .i32⟩
  | 84 => ⟨S_, .i32⟩
  | 85 => ⟨S8192, .i32⟩
  | 86 => ⟨S8192, .i1⟩
  | 87 => ⟨S8192x1, .i1⟩
  | 88 => ⟨S_, .i32⟩
  | 89 => ⟨S_, .i32⟩
  | 90 => ⟨S_, .i32⟩
  | 91 => ⟨S8192, .i32⟩
  | 92 => ⟨S8192, .i32⟩
  | 93 => ⟨S_, .i32⟩
  | 94 => ⟨S8192, .i32⟩
  | 95 => ⟨S8192, .i32⟩
  | 96 => ⟨S_, .i32⟩
  | 97 => ⟨S8192, .i32⟩
  | 98 => ⟨S8192, .i1⟩
  | 99 => ⟨S_, .i32⟩
  | 100 => ⟨S8192, .i32⟩
  | 101 => ⟨S8192, .i32⟩
  | 102 => ⟨S8192, .i32⟩
  | 103 => ⟨S8192x1, .i32⟩
  | 104 => ⟨S8192x1024, .f32⟩
  | 105 => ⟨S8192x1024, .i1⟩
  | 106 => ⟨S8192x1024, .f32⟩
  | 107 => ⟨S8192x1024, .f32⟩
  | 108 => ⟨S_, .i32⟩
  | 109 => ⟨S8192, .i32⟩
  | 110 => ⟨S8192, .i1⟩
  | 111 => ⟨S8192x1, .i1⟩
  | 112 => ⟨S_, .i32⟩
  | 113 => ⟨S_, .i32⟩
  | 114 => ⟨S_, .i32⟩
  | 115 => ⟨S8192, .i32⟩
  | 116 => ⟨S8192, .i32⟩
  | 117 => ⟨S_, .i32⟩
  | 118 => ⟨S8192, .i32⟩
  | 119 => ⟨S8192, .i32⟩
  | 120 => ⟨S_, .i32⟩
  | 121 => ⟨S8192, .i32⟩
  | 122 => ⟨S8192, .i1⟩
  | 123 => ⟨S_, .i32⟩
  | 124 => ⟨S8192, .i32⟩
  | 125 => ⟨S8192, .i32⟩
  | 126 => ⟨S8192, .i32⟩
  | 127 => ⟨S8192x1, .i32⟩
  | _ => ⟨S8192x1024, .f32⟩

abbrev hbmTy0_1 (i : Nat) : BufTy := match i % 128 with
  | 0 => ⟨S8192x1024, .f32⟩
  | 1 => ⟨S8192x1024, .i1⟩
  | 2 => ⟨S8192x1024, .f32⟩
  | 3 => ⟨S8192x1024, .f32⟩
  | 4 => ⟨S8192x3072, .f32⟩
  | 5 => ⟨S_, .f32⟩
  | 6 => ⟨S8192x1024, .f32⟩
  | 7 => ⟨S8192x1024, .f32⟩
  | 8 => ⟨S1x3072x1024, .f32⟩
  | 9 => ⟨S3072x1024, .f32⟩
  | 10 => ⟨S8192x1024, .f32⟩
  | 11 => ⟨S1x1024, .f32⟩
  | 12 => ⟨S1024, .f32⟩
  | 13 => ⟨S1x1024, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S8192x1024, .f32⟩
  | 23 => ⟨S_, .i32⟩
  | 24 => ⟨S8192, .i32⟩
  | 25 => ⟨S8192, .i32⟩
  | 26 => ⟨S_, .i32⟩
  | 27 => ⟨S8192, .i32⟩
  | 28 => ⟨S8192, .i32⟩
  | 29 => ⟨S_, .i32⟩
  | 30 => ⟨S8192, .i32⟩
  | 31 => ⟨S8192, .i1⟩
  | 32 => ⟨S8192x1, .i1⟩
  | 33 => ⟨S_, .i32⟩
  | 34 => ⟨S_, .i32⟩
  | 35 => ⟨S_, .i32⟩
  | 36 => ⟨S8192, .i32⟩
  | 37 => ⟨S8192, .i32⟩
  | 38 => ⟨S_, .i32⟩
  | 39 => ⟨S8192, .i32⟩
  | 40 => ⟨S8192, .i32⟩
  | 41 => ⟨S_, .i32⟩
  | 42 => ⟨S8192, .i32⟩
  | 43 => ⟨S8192, .i1⟩
  | 44 => ⟨S_, .i32⟩
  | 45 => ⟨S8192, .i32⟩
  | 46 => ⟨S8192, .i32⟩
  | 47 => ⟨S8192, .i32⟩
  | 48 => ⟨S8192x1, .i32⟩
  | 49 => ⟨S8192x1024, .f32⟩
  | 50 => ⟨S8192x1024, .i1⟩
  | 51 => ⟨S8192x1024, .f32⟩
  | 52 => ⟨S8192x1024, .f32⟩
  | 53 => ⟨S_, .i32⟩
  | 54 => ⟨S8192, .i32⟩
  | 55 => ⟨S8192, .i1⟩
  | 56 => ⟨S8192x1, .i1⟩
  | 57 => ⟨S_, .i32⟩
  | 58 => ⟨S_, .i32⟩
  | 59 => ⟨S_, .i32⟩
  | 60 => ⟨S8192, .i32⟩
  | 61 => ⟨S8192, .i32⟩
  | 62 => ⟨S_, .i32⟩
  | 63 => ⟨S8192, .i32⟩
  | 64 => ⟨S8192, .i32⟩
  | 65 => ⟨S_, .i32⟩
  | 66 => ⟨S8192, .i32⟩
  | 67 => ⟨S8192, .i1⟩
  | 68 => ⟨S_, .i32⟩
  | 69 => ⟨S8192, .i32⟩
  | 70 => ⟨S8192, .i32⟩
  | 71 => ⟨S8192, .i32⟩
  | 72 => ⟨S8192x1, .i32⟩
  | 73 => ⟨S8192x1024, .f32⟩
  | 74 => ⟨S8192x1024, .i1⟩
  | 75 => ⟨S8192x1024, .f32⟩
  | 76 => ⟨S8192x1024, .f32⟩
  | 77 => ⟨S8192x3072, .f32⟩
  | 78 => ⟨S_, .f32⟩
  | 79 => ⟨S8192x1024, .f32⟩
  | 80 => ⟨S8192x1024, .f32⟩
  | 81 => ⟨S1x3072x1024, .f32⟩
  | 82 => ⟨S3072x1024, .f32⟩
  | 83 => ⟨S8192x1024, .f32⟩
  | 84 => ⟨S1x1024, .f32⟩
  | 85 => ⟨S1024, .f32⟩
  | 86 => ⟨S1x1024, .f32⟩
  | 87 => ⟨S8192x1024, .f32⟩
  | 88 => ⟨S8192x1024, .f32⟩
  | 89 => ⟨S_, .f32⟩
  | 90 => ⟨S8192x1024, .f32⟩
  | 91 => ⟨S8192x1024, .f32⟩
  | 92 => ⟨S_, .f32⟩
  | 93 => ⟨S8192x1024, .f32⟩
  | 94 => ⟨S8192x1024, .f32⟩
  | 95 => ⟨S8192x1024, .f32⟩
  | 96 => ⟨S_, .i32⟩
  | 97 => ⟨S8192, .i32⟩
  | 98 => ⟨S8192, .i32⟩
  | 99 => ⟨S_, .i32⟩
  | 100 => ⟨S8192, .i32⟩
  | 101 => ⟨S8192, .i32⟩
  | 102 => ⟨S_, .i32⟩
  | 103 => ⟨S8192, .i32⟩
  | 104 => ⟨S8192, .i1⟩
  | 105 => ⟨S8192x1, .i1⟩
  | 106 => ⟨S_, .i32⟩
  | 107 => ⟨S_, .i32⟩
  | 108 => ⟨S_, .i32⟩
  | 109 => ⟨S8192, .i32⟩
  | 110 => ⟨S8192, .i32⟩
  | 111 => ⟨S_, .i32⟩
  | 112 => ⟨S8192, .i32⟩
  | 113 => ⟨S8192, .i32⟩
  | 114 => ⟨S_, .i32⟩
  | 115 => ⟨S8192, .i32⟩
  | 116 => ⟨S8192, .i1⟩
  | 117 => ⟨S_, .i32⟩
  | 118 => ⟨S8192, .i32⟩
  | 119 => ⟨S8192, .i32⟩
  | 120 => ⟨S8192, .i32⟩
  | 121 => ⟨S8192x1, .i32⟩
  | 122 => ⟨S8192x1024, .f32⟩
  | 123 => ⟨S8192x1024, .i1⟩
  | 124 => ⟨S8192x1024, .f32⟩
  | 125 => ⟨S8192x1024, .f32⟩
  | 126 => ⟨S_, .i32⟩
  | 127 => ⟨S8192, .i32⟩
  | _ => ⟨S8192x1024, .f32⟩

abbrev hbmTy0_2 (i : Nat) : BufTy := match i % 128 with
  | 0 => ⟨S8192, .i1⟩
  | 1 => ⟨S8192x1, .i1⟩
  | 2 => ⟨S_, .i32⟩
  | 3 => ⟨S_, .i32⟩
  | 4 => ⟨S_, .i32⟩
  | 5 => ⟨S8192, .i32⟩
  | 6 => ⟨S8192, .i32⟩
  | 7 => ⟨S_, .i32⟩
  | 8 => ⟨S8192, .i32⟩
  | 9 => ⟨S8192, .i32⟩
  | 10 => ⟨S_, .i32⟩
  | 11 => ⟨S8192, .i32⟩
  | 12 => ⟨S8192, .i1⟩
  | 13 => ⟨S_, .i32⟩
  | 14 => ⟨S8192, .i32⟩
  | 15 => ⟨S8192, .i32⟩
  | 16 => ⟨S8192, .i32⟩
  | 17 => ⟨S8192x1, .i32⟩
  | 18 => ⟨S8192x1024, .f32⟩
  | 19 => ⟨S8192x1024, .i1⟩
  | 20 => ⟨S8192x1024, .f32⟩
  | 21 => ⟨S8192x1024, .f32⟩
  | 22 => ⟨S8192x3072, .f32⟩
  | 23 => ⟨S_, .f32⟩
  | 24 => ⟨S8192x1024, .f32⟩
  | 25 => ⟨S8192x1024, .f32⟩
  | 26 => ⟨S1x3072x1024, .f32⟩
  | 27 => ⟨S3072x1024, .f32⟩
  | 28 => ⟨S8192x1024, .f32⟩
  | 29 => ⟨S1x1024, .f32⟩
  | 30 => ⟨S1024, .f32⟩
  | 31 => ⟨S1x1024, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S8192x1024, .f32⟩
  | 41 => ⟨S1x8192x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_c_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v8 : Ref sig .tc := ⟨.hbm, 22, rfl⟩
abbrev main_c_4 : Ref sig .tc := ⟨.hbm, 23, rfl⟩
abbrev main_v9 : Ref sig .tc := ⟨.hbm, 24, rfl⟩
abbrev main_v10 : Ref sig .tc := ⟨.hbm, 25, rfl⟩
abbrev main_c_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call1_v0 : Ref sig .tc := ⟨.hbm, 32, rfl⟩
abbrev main_call1_v1 : Ref sig .tc := ⟨.hbm, 33, rfl⟩
abbrev main_v16 : Ref sig .tc := ⟨.hbm, 34, rfl⟩
abbrev main_c_6 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_7 : Ref sig .tc := ⟨.hbm, 39, rfl⟩
abbrev main_c_8 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v20 : Ref sig .tc := ⟨.hbm, 46, rfl⟩
abbrev main_c_9 : Ref sig .tc := ⟨.hbm, 47, rfl⟩
abbrev main_v21 : Ref sig .tc := ⟨.hbm, 48, rfl⟩
abbrev main_v22 : Ref sig .tc := ⟨.hbm, 49, rfl⟩
abbrev main_c_10 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call3_v0 : Ref sig .tc := ⟨.hbm, 56, rfl⟩
abbrev main_call3_v1 : Ref sig .tc := ⟨.hbm, 57, rfl⟩
abbrev main_v28 : Ref sig .tc := ⟨.hbm, 58, rfl⟩
abbrev main_v29 : Ref sig .tc := ⟨.hbm, 59, rfl⟩
abbrev main_cst : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_call4_cst : Ref sig .tc := ⟨.hbm, 71, rfl⟩
abbrev main_call4_v0 : Ref sig .tc := ⟨.hbm, 72, rfl⟩
abbrev main_v40 : Ref sig .tc := ⟨.hbm, 73, rfl⟩
abbrev main_cst_11 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_c_12 : Ref sig .tc := ⟨.hbm, 78, rfl⟩
abbrev main_v44 : Ref sig .tc := ⟨.hbm, 79, rfl⟩
abbrev main_v45 : Ref sig .tc := ⟨.hbm, 80, rfl⟩
abbrev main_c_13 : Ref sig .tc := ⟨.hbm, 81, rfl⟩
abbrev main_v46 : Ref sig .tc := ⟨.hbm, 82, rfl⟩
abbrev main_v47 : Ref sig .tc := ⟨.hbm, 83, rfl⟩
abbrev main_c_14 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_c_15 : Ref sig .tc := ⟨.hbm, 88, rfl⟩
abbrev main_c_16 : Ref sig .tc := ⟨.hbm, 89, rfl⟩
abbrev main_call5_v0 : Ref sig .tc := ⟨.hbm, 90, rfl⟩
abbrev main_call5_v1 : Ref sig .tc := ⟨.hbm, 91, rfl⟩
abbrev main_call5_v2 : Ref sig .tc := ⟨.hbm, 92, rfl⟩
abbrev main_call5_v3 : Ref sig .tc := ⟨.hbm, 93, rfl⟩
abbrev main_call5_v4 : Ref sig .tc := ⟨.hbm, 94, rfl⟩
abbrev main_v51 : Ref sig .tc := ⟨.hbm, 95, rfl⟩
abbrev main_c_17 : Ref sig .tc := ⟨.hbm, 96, rfl⟩
abbrev main_v52 : Ref sig .tc := ⟨.hbm, 97, rfl⟩
abbrev main_v53 : Ref sig .tc := ⟨.hbm, 98, rfl⟩
abbrev main_c_18 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_call6_v0 : Ref sig .tc := ⟨.hbm, 105, rfl⟩
abbrev main_call6_v1 : Ref sig .tc := ⟨.hbm, 106, rfl⟩
abbrev main_v59 : Ref sig .tc := ⟨.hbm, 107, rfl⟩
abbrev main_c_19 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_c_20 : Ref sig .tc := ⟨.hbm, 112, rfl⟩
abbrev main_c_21 : Ref sig .tc := ⟨.hbm, 113, rfl⟩
abbrev main_call7_v0 : Ref sig .tc := ⟨.hbm, 114, rfl⟩
abbrev main_call7_v1 : Ref sig .tc := ⟨.hbm, 115, rfl⟩
abbrev main_call7_v2 : Ref sig .tc := ⟨.hbm, 116, rfl⟩
abbrev main_call7_v3 : Ref sig .tc := ⟨.hbm, 117, rfl⟩
abbrev main_call7_v4 : Ref sig .tc := ⟨.hbm, 118, rfl⟩
abbrev main_v63 : Ref sig .tc := ⟨.hbm, 119, rfl⟩
abbrev main_c_22 : Ref sig .tc := ⟨.hbm, 120, rfl⟩
abbrev main_v64 : Ref sig .tc := ⟨.hbm, 121, rfl⟩
abbrev main_v65 : Ref sig .tc := ⟨.hbm, 122, rfl⟩
abbrev main_c_23 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_call8_v0 : Ref sig .tc := ⟨.hbm, 129, rfl⟩
abbrev main_call8_v1 : Ref sig .tc := ⟨.hbm, 130, rfl⟩
abbrev main_v71 : Ref sig .tc := ⟨.hbm, 131, rfl⟩
abbrev main_v72 : Ref sig .tc := ⟨.hbm, 132, rfl⟩
abbrev main_cst_24 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_call9_cst : Ref sig .tc := ⟨.hbm, 144, rfl⟩
abbrev main_call9_v0 : Ref sig .tc := ⟨.hbm, 145, rfl⟩
abbrev main_v83 : Ref sig .tc := ⟨.hbm, 146, rfl⟩
abbrev main_cst_25 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_c_26 : Ref sig .tc := ⟨.hbm, 151, rfl⟩
abbrev main_v87 : Ref sig .tc := ⟨.hbm, 152, rfl⟩
abbrev main_v88 : Ref sig .tc := ⟨.hbm, 153, rfl⟩
abbrev main_c_27 : Ref sig .tc := ⟨.hbm, 154, rfl⟩
abbrev main_v89 : Ref sig .tc := ⟨.hbm, 155, rfl⟩
abbrev main_v90 : Ref sig .tc := ⟨.hbm, 156, rfl⟩
abbrev main_c_28 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_c_29 : Ref sig .tc := ⟨.hbm, 161, rfl⟩
abbrev main_c_30 : Ref sig .tc := ⟨.hbm, 162, rfl⟩
abbrev main_call10_v0 : Ref sig .tc := ⟨.hbm, 163, rfl⟩
abbrev main_call10_v1 : Ref sig .tc := ⟨.hbm, 164, rfl⟩
abbrev main_call10_v2 : Ref sig .tc := ⟨.hbm, 165, rfl⟩
abbrev main_call10_v3 : Ref sig .tc := ⟨.hbm, 166, rfl⟩
abbrev main_call10_v4 : Ref sig .tc := ⟨.hbm, 167, rfl⟩
abbrev main_v94 : Ref sig .tc := ⟨.hbm, 168, rfl⟩
abbrev main_c_31 : Ref sig .tc := ⟨.hbm, 169, rfl⟩
abbrev main_v95 : Ref sig .tc := ⟨.hbm, 170, rfl⟩
abbrev main_v96 : Ref sig .tc := ⟨.hbm, 171, rfl⟩
abbrev main_c_32 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_call11_v0 : Ref sig .tc := ⟨.hbm, 178, rfl⟩
abbrev main_call11_v1 : Ref sig .tc := ⟨.hbm, 179, rfl⟩
abbrev main_v102 : Ref sig .tc := ⟨.hbm, 180, rfl⟩
abbrev main_c_33 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_c_34 : Ref sig .tc := ⟨.hbm, 185, rfl⟩
abbrev main_c_35 : Ref sig .tc := ⟨.hbm, 186, rfl⟩
abbrev main_call12_v0 : Ref sig .tc := ⟨.hbm, 187, rfl⟩
abbrev main_call12_v1 : Ref sig .tc := ⟨.hbm, 188, rfl⟩
abbrev main_call12_v2 : Ref sig .tc := ⟨.hbm, 189, rfl⟩
abbrev main_call12_v3 : Ref sig .tc := ⟨.hbm, 190, rfl⟩
abbrev main_call12_v4 : Ref sig .tc := ⟨.hbm, 191, rfl⟩
abbrev main_v106 : Ref sig .tc := ⟨.hbm, 192, rfl⟩
abbrev main_c_36 : Ref sig .tc := ⟨.hbm, 193, rfl⟩
abbrev main_v107 : Ref sig .tc := ⟨.hbm, 194, rfl⟩
abbrev main_v108 : Ref sig .tc := ⟨.hbm, 195, rfl⟩
abbrev main_c_37 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_call13_v0 : Ref sig .tc := ⟨.hbm, 202, rfl⟩
abbrev main_call13_v1 : Ref sig .tc := ⟨.hbm, 203, rfl⟩
abbrev main_v114 : Ref sig .tc := ⟨.hbm, 204, rfl⟩
abbrev main_v115 : Ref sig .tc := ⟨.hbm, 205, rfl⟩
abbrev main_cst_38 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_call14_cst : Ref sig .tc := ⟨.hbm, 217, rfl⟩
abbrev main_call14_v0 : Ref sig .tc := ⟨.hbm, 218, rfl⟩
abbrev main_v126 : Ref sig .tc := ⟨.hbm, 219, rfl⟩
abbrev main_cst_39 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_c_40 : Ref sig .tc := ⟨.hbm, 224, rfl⟩
abbrev main_v130 : Ref sig .tc := ⟨.hbm, 225, rfl⟩
abbrev main_v131 : Ref sig .tc := ⟨.hbm, 226, rfl⟩
abbrev main_c_41 : Ref sig .tc := ⟨.hbm, 227, rfl⟩
abbrev main_v132 : Ref sig .tc := ⟨.hbm, 228, rfl⟩
abbrev main_v133 : Ref sig .tc := ⟨.hbm, 229, rfl⟩
abbrev main_c_42 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_c_43 : Ref sig .tc := ⟨.hbm, 234, rfl⟩
abbrev main_c_44 : Ref sig .tc := ⟨.hbm, 235, rfl⟩
abbrev main_call15_v0 : Ref sig .tc := ⟨.hbm, 236, rfl⟩
abbrev main_call15_v1 : Ref sig .tc := ⟨.hbm, 237, rfl⟩
abbrev main_call15_v2 : Ref sig .tc := ⟨.hbm, 238, rfl⟩
abbrev main_call15_v3 : Ref sig .tc := ⟨.hbm, 239, rfl⟩
abbrev main_call15_v4 : Ref sig .tc := ⟨.hbm, 240, rfl⟩
abbrev main_v137 : Ref sig .tc := ⟨.hbm, 241, rfl⟩
abbrev main_c_45 : Ref sig .tc := ⟨.hbm, 242, rfl⟩
abbrev main_v138 : Ref sig .tc := ⟨.hbm, 243, rfl⟩
abbrev main_v139 : Ref sig .tc := ⟨.hbm, 244, rfl⟩
abbrev main_c_46 : Ref sig .tc := ⟨.hbm, 245, rfl⟩
abbrev main_v140 : Ref sig .tc := ⟨.hbm, 246, rfl⟩
abbrev main_v141 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_call16_v0 : Ref sig .tc := ⟨.hbm, 251, rfl⟩
abbrev main_call16_v1 : Ref sig .tc := ⟨.hbm, 252, rfl⟩
abbrev main_v145 : Ref sig .tc := ⟨.hbm, 253, rfl⟩
abbrev main_c_47 : Ref sig .tc := ⟨.hbm, 254, rfl⟩
abbrev main_v146 : Ref sig .tc := ⟨.hbm, 255, rfl⟩
abbrev main_v147 : Ref sig .tc := ⟨.hbm, 256, rfl⟩
abbrev main_v148 : Ref sig .tc := ⟨.hbm, 257, rfl⟩
abbrev main_c_48 : Ref sig .tc := ⟨.hbm, 258, rfl⟩
abbrev main_c_49 : Ref sig .tc := ⟨.hbm, 259, rfl⟩
abbrev main_call17_v0 : Ref sig .tc := ⟨.hbm, 260, rfl⟩
abbrev main_call17_v1 : Ref sig .tc := ⟨.hbm, 261, rfl⟩
abbrev main_call17_v2 : Ref sig .tc := ⟨.hbm, 262, rfl⟩
abbrev main_call17_v3 : Ref sig .tc := ⟨.hbm, 263, rfl⟩
abbrev main_call17_v4 : Ref sig .tc := ⟨.hbm, 264, rfl⟩
abbrev main_v149 : Ref sig .tc := ⟨.hbm, 265, rfl⟩
abbrev main_c_50 : Ref sig .tc := ⟨.hbm, 266, rfl⟩
abbrev main_v150 : Ref sig .tc := ⟨.hbm, 267, rfl⟩
abbrev main_v151 : Ref sig .tc := ⟨.hbm, 268, rfl⟩
abbrev main_c_51 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_v155 : Ref sig .tc := ⟨.hbm, 273, rfl⟩
abbrev main_v156 : Ref sig .tc := ⟨.hbm, 274, rfl⟩
abbrev main_call18_v0 : Ref sig .tc := ⟨.hbm, 275, rfl⟩
abbrev main_call18_v1 : Ref sig .tc := ⟨.hbm, 276, rfl⟩
abbrev main_v157 : Ref sig .tc := ⟨.hbm, 277, rfl⟩
abbrev main_v158 : Ref sig .tc := ⟨.hbm, 278, rfl⟩
abbrev main_cst_52 : Ref sig .tc := ⟨.hbm, 279, rfl⟩
abbrev main_v159 : Ref sig .tc := ⟨.hbm, 280, rfl⟩
abbrev main_v160 : Ref sig .tc := ⟨.hbm, 281, rfl⟩
abbrev main_v161 : Ref sig .tc := ⟨.hbm, 282, rfl⟩
abbrev main_v162 : Ref sig .tc := ⟨.hbm, 283, rfl⟩
abbrev main_v163 : Ref sig .tc := ⟨.hbm, 284, rfl⟩
abbrev main_v164 : Ref sig .tc := ⟨.hbm, 285, rfl⟩
abbrev main_v165 : Ref sig .tc := ⟨.hbm, 286, rfl⟩
abbrev main_v166 : Ref sig .tc := ⟨.hbm, 287, rfl⟩
abbrev main_v167 : Ref sig .tc := ⟨.hbm, 288, rfl⟩
abbrev main_v168 : Ref sig .tc := ⟨.hbm, 289, rfl⟩
abbrev main_call19_cst : Ref sig .tc := ⟨.hbm, 290, rfl⟩
abbrev main_call19_v0 : Ref sig .tc := ⟨.hbm, 291, rfl⟩
abbrev main_v169 : Ref sig .tc := ⟨.hbm, 292, rfl⟩
abbrev main_cst_53 : Ref sig .tc := ⟨.hbm, 293, rfl⟩
abbrev main_v170 : Ref sig .tc := ⟨.hbm, 294, rfl⟩
abbrev main_v171 : Ref sig .tc := ⟨.hbm, 295, rfl⟩
abbrev main_v172 : Ref sig .tc := ⟨.hbm, 296, rfl⟩
abbrev main_v173 : Ref sig .tc := ⟨.hbm, 297, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  bcast_S1024_S8192x1024_1 : S1024.BroadcastsInDim S8192x1024 (![1] : Fin 1 → Fin S8192x1024.rank)
  concatenates_S8192x1024_S8192x1024_S8192x1024_S8192x3072_d1 : Shape.Concatenates [S8192x1024, S8192x1024, S8192x1024] S8192x3072 1
  bcast_S_S8192x1024 : S_.BroadcastsInDim S8192x1024 (![] : Fin 0 → Fin S8192x1024.rank)
  slices_S4x3072x1024_S1x3072x1024_0_0_0 : S4x3072x1024.Slices ![0, 0, 0] S1x3072x1024
  shapeCasts_S1x3072x1024_S3072x1024 : S1x3072x1024.ShapeCasts S3072x1024
  slices_S4x1024_S1x1024_0_0 : S4x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  slices_S4x3072x1024_S1x3072x1024_1_0_0 : S4x3072x1024.Slices ![1, 0, 0] S1x3072x1024
  slices_S4x1024_S1x1024_1_0 : S4x1024.Slices ![1, 0] S1x1024
  slices_S4x3072x1024_S1x3072x1024_2_0_0 : S4x3072x1024.Slices ![2, 0, 0] S1x3072x1024
  slices_S4x1024_S1x1024_2_0 : S4x1024.Slices ![2, 0] S1x1024
  slices_S4x3072x1024_S1x3072x1024_3_0_0 : S4x3072x1024.Slices ![3, 0, 0] S1x3072x1024
  slices_S4x1024_S1x1024_3_0 : S4x1024.Slices ![3, 0] S1x1024
  bcast_S8192x1024_S1x8192x1024_1_2 : S8192x1024.BroadcastsInDim S1x8192x1024 (![1, 2] : Fin 2 → Fin S1x8192x1024.rank)
  gather_S8192x1024_S8192x1_S8192x1024_1_0_n_n_0_1_11024_wf : GatherDims.WF S8192x1024 S8192x1 S8192x1024 [1] [0] [] [0] [] 1 ![1, 1024]
  dot_S8192x3072_S3072x1024_S8192x1024_1_0_0_1_n_n_wf : DotDims.WF S8192x3072 S3072x1024 S8192x1024 [1] [0] [0] [1] [] []

variable [Facts₀]

def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf
def dot_S8192x3072_S3072x1024_S8192x1024_1_0_0_1_n_n : DotDims S8192x3072 S3072x1024 S8192x1024 where
  lhsContracting := [1]
  rhsContracting := [0]
  lhsNonContracting := [0]
  rhsNonContracting := [1]
  lhsBatch := []
  rhsBatch := []
  wf := dot_S8192x3072_S3072x1024_S8192x1024_1_0_0_1_n_n_wf

class Facts : Prop extends Facts₀ where

variable [Facts]
-- ==== Proof.KB.Run0.lean ====
/-
  The body of the first layer's kernel run once, on whole staging memrefs: the tile, the two halo margins, the three
  weight blocks, the bias row and the out-of-bounds row are read and left as they were; the two halo tiles kept in
  scratch are rebuilt from them; the output tile ends holding the pieces the run finds (one store of the whole tile).
-/
import proofs.«137995_j86517821215731_2_alg».proof.Proof.Gen.Kernel.Launch
import proofs.«137995_j86517821215731_2_alg».proof.Proof.Gen.Kernel.Skeleton
import proofs.«137995_j86517821215731_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body leaves in the output tile (last first), with the proof that the body, started with the eight
    inputs at their contents, the output tile and the two scratch tiles at anything, runs to the continuation holding the
    inputs as they were, the output tile with those pieces written and the scratch tiles at some contents. -/
noncomputable def kernelRun0 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) :
    { L9 : List (View.Piece (Elt F) S512x1024 .f32) //
      ∀ (E : Set ℕ) (K : PUnit → sProp 𝕄),
        iprop(owns (c : Thread nD τ) arg1 fullShare x ∗ owns (c : Thread nD τ) arg2 fullShare lm ∗ owns (c : Thread nD τ) arg3 fullShare rm
            ∗ owns (c : Thread nD τ) arg4 fullShare w0 ∗ owns (c : Thread nD τ) arg5 fullShare w1 ∗ owns (c : Thread nD τ) arg6 fullShare w2
            ∗ owns (c : Thread nD τ) arg7 fullShare b ∗ owns (c : Thread nD τ) arg8 fullShare oob
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x ∗ owns (c : Thread nD τ) arg2 fullShare lm ∗ owns (c : Thread nD τ) arg3 fullShare rm
                ∗ owns (c : Thread nD τ) arg4 fullShare w0 ∗ owns (c : Thread nD τ) arg5 fullShare w1 ∗ owns (c : Thread nD τ) arg6 fullShare w2
                ∗ owns (c : Thread nD τ) arg7 fullShare b ∗ owns (c : Thread nD τ) arg8 fullShare oob
                ∗ (∃ f, arg9.view.loc (c : Thread nD τ) ↦[arg9.view.set]{fullShare} arg9.view.writes (Elt F) f L9)
                ∗ (∃ d, owns (c : Thread nD τ) arg10 fullShare d) ∗ (∃ d, owns (c : Thread nD τ) arg11 fullShare d)) -∗ K ⟨⟩))
          ⊢ wp frame (wpE (defs₀ (F := F)) Variants.none c none) E (cc0__layer_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__layer_kernel_eq_skeleton]; unfold cc0__layer_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexists _; isplitr
      swap; · iexact H10
      ipureintro; rfl
    iexists _; iexists _; isplitr
    swap; · iexact H11
    ipureintro; rfl

end Cert.Kernel.Hand

end
-- ==== Proof.KB.Out0.lean ====
/-
  What the first layer's kernel leaves in its output tile, as one vector: the pieces the run finds, read back.
  The run's one store covers the whole tile, so the contents the tile held before do not matter.
-/
import proofs.«137995_j86517821215731_2_alg».proof.Proof.KB.Run0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The view through which the output tile's contents are stated (any whole 512 × 1024 buffer would do). -/
abbrev VO0 : View sig .tc .vmem S512x1024 .f32 := (Memref.whole cc0_stg8_0 : Memref sig .tc .vmem S512x1024 .f32).view

/-- The output tile after the body: the run's pieces read back. -/
def outG0 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) : Vec F S512x1024 .f32 :=
  VO0.read (Elt F) (VO0.writes (Elt F) VO0.junk (kernelRun0 c i arg1 harg1 arg2 harg2 arg3 harg3 arg4 harg4 arg5 harg5 arg6 harg6 arg7 harg7 arg8 harg8 arg9 harg9 arg10 harg10 arg11 harg11 x lm rm w0 w1 w2 b oob).1)

/-- The run's pieces tile the output tile, so they cover it. -/
theorem coverG0 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) (y : S512x1024.Idx) :
    ∃ pc ∈ (kernelRun0 c i arg1 harg1 arg2 harg2 arg3 harg3 arg4 harg4 arg5 harg5 arg6 harg6 arg7 harg7 arg8 harg8 arg9 harg9 arg10 harg10 arg11 harg11 x lm rm w0 w1 w2 b oob).1, y ∈ pc.1.set :=
  View.cover_of_tiledL (kernelRun0 c i arg1 harg1 arg2 harg2 arg3 harg3 arg4 harg4 arg5 harg5 arg6 harg6 arg7 harg7 arg8 harg8 arg9 harg9 arg10 harg10 arg11 harg11 x lm rm w0 w1 w2 b oob).1 S512x1024.size (by sl_kernel_rfl) y

end Cert.Kernel.Hand

end
-- ==== Proof.KB.Body0.lean ====
/-
  The first layer's pipeline, at the contents `V` its region is entered with: each window's block at a grid point, the
  proof data (every input window's buffer holds its block at every point, the output's what the body leaves there; the
  three windows on the layer's input array hold it at three shares that make the whole), and the body obligation.
-/
import proofs.«137995_j86517821215731_2_alg».proof.Proof.KB.Out0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, as the pipeline passes it, and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
/-- The two scratch tiles: whole scoped buffers of the kernel's own. -/
abbrev scM0_0 : Memref sig .tc .vmem S512x1024 .f32 := Memref.whole cc0_scratch0
abbrev scM0_1 : Memref sig .tc .vmem S512x1024 .f32 := Memref.whole cc0_scratch1

/-- The output tile after the body at point `t`, from the input blocks there. -/
def out0 (c : Dev nD) (t : Fin cfg0.N) : Vec F S512x1024 .f32 :=
  outG0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t)

/-- The proof data of the first layer's pipeline on core `c`. The layer's input array is read through three windows
    (the tile and its two margins): each holds it at a share, the three shares making the whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0 V c t
  Φ _ := Pipeline.ΦA spec0 c
  q w := match w with
    | ⟨0, _⟩ => fullShare.left
    | ⟨1, _⟩ => fullShare.right.left
    | ⟨2, _⟩ => fullShare.right.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-- The region invariant with the two scratch tiles as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 4000000 in
/-- The body at any point: the input memrefs hold their blocks, so the run applies; the invariant lends the two scratch
    tiles and takes them back at some contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  unfold out0 outG0
  rw [show (dat0 V c).Φ t.castSucc = Pipeline.ΦA spec0 c from rfl, PhiA0_eq]
  iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0 c (grid0.coords t) _ _ _ _ _ _ _ _ _ _ _ _ _ _ _ _ _ _ scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, HS0, HS1⟩
  isplitl [HS0 HS1 HR Hg]
  · isplitl [HS0 HS1 HR]
    · isplitl [HS0 HS1]
      · isplitl [HS0]; · iexact HS0
        iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (coverG0 (F := F) c _ _ _ _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KB.Arr0.lean ====
/-
  The first layer's region holds seven distinct unscoped buffers behind its nine windows: the layer's input array (read
  by three windows — the tile and its two margins), the three weight blocks, the bias row, the out-of-bounds row and the
  output array. Held whole, the seven buffers are the pipeline's nine windowed arrays with the input array split into
  three shares; and back.
-/
import proofs.«137995_j86517821215731_2_alg».proof.Proof.KB.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.SL.BI (bigSep bigSep_congr bigSep_eq_bigSepL_of_eq)

section Region0

variable (V : (c : Dev nD) → (b : Ref sig .tc) → Buf (Elt F) ((c : Thread nD τ).loc b))

/-- The pipeline's arrays as whole buffers, each at its window's share. -/
theorem arrays_eq0 (c : Dev nD) (G : (w : Fin cfg0.W) → Buf (Elt F) ((cfg0.win w).arr.view.loc (c.tc : Thread nD τ))) :
    ((dat0 V c).arrays G : sProp 𝕄)
      = bigSep Finset.univ fun w : Fin cfg0.W => (((c.tc : Thread nD τ).loc (Pipeline.arrRef spec0 w)) ↦{(dat0 V c).share w} G w : sProp 𝕄) := by
  unfold Dat.arrays
  exact bigSep_congr fun w _ => by rw [(arr_whole0 w).set_eq_univ]

theorem share0_0 (c : Dev nD) : (dat0 V c).share 0 = fullShare.left := rfl
theorem share0_1 (c : Dev nD) : (dat0 V c).share 1 = fullShare.right.left := rfl
theorem share0_2 (c : Dev nD) : (dat0 V c).share 2 = fullShare.right.right := rfl
theorem share0_3 (c : Dev nD) : (dat0 V c).share 3 = fullShare := rfl
theorem share0_4 (c : Dev nD) : (dat0 V c).share 4 = fullShare := rfl
theorem share0_5 (c : Dev nD) : (dat0 V c).share 5 = fullShare := rfl
theorem share0_6 (c : Dev nD) : (dat0 V c).share 6 = fullShare := rfl
theorem share0_7 (c : Dev nD) : (dat0 V c).share 7 = fullShare := rfl
theorem share0_8 (c : Dev nD) : (dat0 V c).share 8 = fullShare := rfl

/-- The distinct buffers behind the nine windows, one by one. -/
theorem arrChain0 {M : Type} [URA M] (Φ : Ref sig .tc → sProp M) :
    bigSep (Finset.univ.image (Pipeline.arrRef spec0)) Φ
      = iprop(Φ main_arg0 ∗ Φ main_v3 ∗ Φ main_v4 ∗ Φ main_v5 ∗ Φ main_v8 ∗ Φ main_v9 ∗ Φ main_v10) :=
  bigSep_eq_bigSepL_of_eq [main_arg0, main_v3, main_v4, main_v5, main_v8, main_v9, main_v10] (by decide) (by decide) Φ

/-- ENTRY: the seven buffers whole at `W` are the nine arrays at contents read off `W`. -/
theorem arrays_of_arrBufs0 (c : Dev nD) (W : (b : Ref sig .tc) → Buf (Elt F) ((c : Thread nD τ).loc b))
    (G : (w : Fin cfg0.W) → Buf (Elt F) ((cfg0.win w).arr.view.loc (c.tc : Thread nD τ)))
    (hG : ∀ w, G w = W (Pipeline.arrRef spec0 w)) :
    (Pipeline.arrBufs (Ix := Unit) (Name := ℕ) (U := UR sig nD τ) (Lvl := ℕ) spec0 c W : sProp 𝕄) ⊢ (dat0 V c).arrays G := by
  obtain rfl : G = fun w => W (Pipeline.arrRef spec0 w) := funext hG
  rw [arrays_eq0, bigSep_W0]
  unfold Pipeline.arrBufs
  rw [arrChain0]
  iintro ⟨Ha, H3, H4, H5, H6, H7, H8⟩
  ihave Hs := (pointsTo_share (PosShare.mem_left_op_right fullShare)).1 $$ Ha
  icases Hs with ⟨HL, HR⟩
  ihave Hs2 := (pointsTo_share (PosShare.mem_left_op_right fullShare.right)).1 $$ HR
  icases Hs2 with ⟨HRL, HRR⟩
  isplitl [HL]; · iexact HL
  isplitl [HRL]; · iexact HRL
  isplitl [HRR]; · iexact HRR
  isplitl [H3]; · iexact H3
  isplitl [H4]; · iexact H4
  isplitl [H5]; · iexact H5
  isplitl [H6]; · iexact H6
  isplitl [H7]; · iexact H7
  iexact H8

/-- EXIT: the nine arrays at contents read off `W` are the seven buffers whole at `W`. -/
theorem arrBufs_of_arrays0 (c : Dev nD) (W : (b : Ref sig .tc) → Buf (Elt F) ((c : Thread nD τ).loc b))
    (G : (w : Fin cfg0.W) → Buf (Elt F) ((cfg0.win w).arr.view.loc (c.tc : Thread nD τ)))
    (hG : ∀ w, G w = W (Pipeline.arrRef spec0 w)) :
    (dat0 V c).arrays G ⊢ (Pipeline.arrBufs (Ix := Unit) (Name := ℕ) (U := UR sig nD τ) (Lvl := ℕ) spec0 c W : sProp 𝕄) := by
  obtain rfl : G = fun w => W (Pipeline.arrRef spec0 w) := funext hG
  rw [arrays_eq0, bigSep_W0]
  unfold Pipeline.arrBufs
  rw [arrChain0]
  iintro ⟨HL, HRL, HRR, H3, H4, H5, H6, H7, H8⟩
  ihave HR := (pointsTo_share (PosShare.mem_left_op_right fullShare.right)).2 $$ [HRL HRR]
  · isplitl [HRL]; · iexact HRL
    iexact HRR
  ihave Ha := (pointsTo_share (PosShare.mem_left_op_right fullShare)).2 $$ [HL HR]
  · isplitl [HL]; · iexact HL
    iexact HR
  isplitl [Ha]; · iexact Ha
  isplitl [H3]; · iexact H3
  isplitl [H4]; · iexact H4
  isplitl [H5]; · iexact H5
  isplitl [H6]; · iexact H6
  isplitl [H7]; · iexact H7
  iexact H8

end Region0

end Cert.Kernel.Hand

end
-- ==== Proof.KB.Run1.lean ====
/-
  The body of the second layer's kernel run once, on whole staging memrefs: the tile, the two halo margins, the three
  weight blocks, the bias row and the out-of-bounds row are read and left as they were; the two halo tiles kept in
  scratch are rebuilt from them; the output tile ends holding the pieces the run finds (one store of the whole tile).
-/
import proofs.«137995_j86517821215731_2_alg».proof.Proof.Gen.Kernel.Launch
import proofs.«137995_j86517821215731_2_alg».proof.Proof.Gen.Kernel.Skeleton
import proofs.«137995_j86517821215731_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body leaves in the output tile (last first), with the proof that the body, started with the eight
    inputs at their contents, the output tile and the two scratch tiles at anything, runs to the continuation holding the
    inputs as they were, the output tile with those pieces written and the scratch tiles at some contents. -/
noncomputable def kernelRun1 (c : Dev nD) (i : grid1.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) :
    { L9 : List (View.Piece (Elt F) S512x1024 .f32) //
      ∀ (E : Set ℕ) (K : PUnit → sProp 𝕄),
        iprop(owns (c : Thread nD τ) arg1 fullShare x ∗ owns (c : Thread nD τ) arg2 fullShare lm ∗ owns (c : Thread nD τ) arg3 fullShare rm
            ∗ owns (c : Thread nD τ) arg4 fullShare w0 ∗ owns (c : Thread nD τ) arg5 fullShare w1 ∗ owns (c : Thread nD τ) arg6 fullShare w2
            ∗ owns (c : Thread nD τ) arg7 fullShare b ∗ owns (c : Thread nD τ) arg8 fullShare oob
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x ∗ owns (c : Thread nD τ) arg2 fullShare lm ∗ owns (c : Thread nD τ) arg3 fullShare rm
                ∗ owns (c : Thread nD τ) arg4 fullShare w0 ∗ owns (c : Thread nD τ) arg5 fullShare w1 ∗ owns (c : Thread nD τ) arg6 fullShare w2
                ∗ owns (c : Thread nD τ) arg7 fullShare b ∗ owns (c : Thread nD τ) arg8 fullShare oob
                ∗ (∃ f, arg9.view.loc (c : Thread nD τ) ↦[arg9.view.set]{fullShare} arg9.view.writes (Elt F) f L9)
                ∗ (∃ d, owns (c : Thread nD τ) arg10 fullShare d) ∗ (∃ d, owns (c : Thread nD τ) arg11 fullShare d)) -∗ K ⟨⟩))
          ⊢ wp frame (wpE (defs₀ (F := F)) Variants.none c none) E (cc1__layer_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc1__layer_kernel_eq_skeleton]; unfold cc1__layer_kernel_skel
    simp only [k1_part1_eq_skeleton]; unfold k1_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexists _; isplitr
      swap; · iexact H10
      ipureintro; rfl
    iexists _; iexists _; isplitr
    swap; · iexact H11
    ipureintro; rfl

end Cert.Kernel.Hand

end
-- ==== Proof.KB.Out1.lean ====
/-
  What the second layer's kernel leaves in its output tile, as one vector: the pieces the run finds, read back.
  The run's one store covers the whole tile, so the contents the tile held before do not matter.
-/
import proofs.«137995_j86517821215731_2_alg».proof.Proof.KB.Run1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The view through which the output tile's contents are stated (any whole 512 × 1024 buffer would do). -/
abbrev VO1 : View sig .tc .vmem S512x1024 .f32 := (Memref.whole cc1_stg8_0 : Memref sig .tc .vmem S512x1024 .f32).view

/-- The output tile after the body: the run's pieces read back. -/
def outG1 (c : Dev nD) (i : grid1.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) : Vec F S512x1024 .f32 :=
  VO1.read (Elt F) (VO1.writes (Elt F) VO1.junk (kernelRun1 c i arg1 harg1 arg2 harg2 arg3 harg3 arg4 harg4 arg5 harg5 arg6 harg6 arg7 harg7 arg8 harg8 arg9 harg9 arg10 harg10 arg11 harg11 x lm rm w0 w1 w2 b oob).1)

/-- The run's pieces tile the output tile, so they cover it. -/
theorem coverG1 (c : Dev nD) (i : grid1.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) (y : S512x1024.Idx) :
    ∃ pc ∈ (kernelRun1 c i arg1 harg1 arg2 harg2 arg3 harg3 arg4 harg4 arg5 harg5 arg6 harg6 arg7 harg7 arg8 harg8 arg9 harg9 arg10 harg10 arg11 harg11 x lm rm w0 w1 w2 b oob).1, y ∈ pc.1.set :=
  View.cover_of_tiledL (kernelRun1 c i arg1 harg1 arg2 harg2 arg3 harg3 arg4 harg4 arg5 harg5 arg6 harg6 arg7 harg7 arg8 harg8 arg9 harg9 arg10 harg10 arg11 harg11 x lm rm w0 w1 w2 b oob).1 S512x1024.size (by sl_kernel_rfl) y

end Cert.Kernel.Hand

end
-- ==== Proof.KB.Body1.lean ====
/-
  The second layer's pipeline, at the contents `V` its region is entered with: each window's block at a grid point, the
  proof data (every input window's buffer holds its block at every point, the output's what the body leaves there; the
  three windows on the layer's input array hold it at three shares that make the whole), and the body obligation.
-/
import proofs.«137995_j86517821215731_2_alg».proof.Proof.KB.Out1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it, and its wholeness. -/
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x1024 .f32 := win1_8.stage (cfg1.slots t 8)
abbrev hs1_8 (t : Fin cfg1.N) : (ms1_8 t).IsWhole := hstage1_8 ((cfg1.slots t 8).cast nbuf1_8)
/-- The two scratch tiles: whole scoped buffers of the kernel's own. -/
abbrev scM1_0 : Memref sig .tc .vmem S512x1024 .f32 := Memref.whole cc1_scratch0
abbrev scM1_1 : Memref sig .tc .vmem S512x1024 .f32 := Memref.whole cc1_scratch1

/-- The output tile after the body at point `t`, from the input blocks there. -/
def out1 (c : Dev nD) (t : Fin cfg1.N) : Vec F S512x1024 .f32 :=
  outG1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t)

/-- The proof data of the second layer's pipeline on core `c`. The layer's input array is read through three windows
    (the tile and its two margins): each holds it at a share, the three shares making the whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1 V c t
  Φ _ := Pipeline.ΦA spec1 c
  q w := match w with
    | ⟨0, _⟩ => fullShare.left
    | ⟨1, _⟩ => fullShare.right.left
    | ⟨2, _⟩ => fullShare.right.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- The region invariant with the two scratch tiles as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 4000000 in
/-- The body at any point: the input memrefs hold their blocks, so the run applies; the invariant lends the two scratch
    tiles and takes them back at some contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  unfold out1 outG1
  rw [show (dat1 V c).Φ t.castSucc = Pipeline.ΦA spec1 c from rfl, PhiA1_eq]
  iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun1 c (grid1.coords t) _ _ _ _ _ _ _ _ _ _ _ _ _ _ _ _ _ _ scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, HS0, HS1⟩
  isplitl [HS0 HS1 HR Hg]
  · isplitl [HS0 HS1 HR]
    · isplitl [HS0 HS1]
      · isplitl [HS0]; · iexact HS0
        iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (coverG1 (F := F) c _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KB.Arr1.lean ====
/-
  The second layer's region holds seven distinct unscoped buffers behind its nine windows: the layer's input array (read
  by three windows — the tile and its two margins), the three weight blocks, the bias row, the out-of-bounds row and the
  output array. Held whole, the seven buffers are the pipeline's nine windowed arrays with the input array split into
  three shares; and back.
-/
import proofs.«137995_j86517821215731_2_alg».proof.Proof.KB.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.SL.BI (bigSep bigSep_congr bigSep_eq_bigSepL_of_eq)

section Region1

variable (V : (c : Dev nD) → (b : Ref sig .tc) → Buf (Elt F) ((c : Thread nD τ).loc b))

/-- The pipeline's arrays as whole buffers, each at its window's share. -/
theorem arrays_eq1 (c : Dev nD) (G : (w : Fin cfg1.W) → Buf (Elt F) ((cfg1.win w).arr.view.loc (c.tc : Thread nD τ))) :
    ((dat1 V c).arrays G : sProp 𝕄)
      = bigSep Finset.univ fun w : Fin cfg1.W => (((c.tc : Thread nD τ).loc (Pipeline.arrRef spec1 w)) ↦{(dat1 V c).share w} G w : sProp 𝕄) := by
  unfold Dat.arrays
  exact bigSep_congr fun w _ => by rw [(arr_whole1 w).set_eq_univ]

theorem share1_0 (c : Dev nD) : (dat1 V c).share 0 = fullShare.left := rfl
theorem share1_1 (c : Dev nD) : (dat1 V c).share 1 = fullShare.right.left := rfl
theorem share1_2 (c : Dev nD) : (dat1 V c).share 2 = fullShare.right.right := rfl
theorem share1_3 (c : Dev nD) : (dat1 V c).share 3 = fullShare := rfl
theorem share1_4 (c : Dev nD) : (dat1 V c).share 4 = fullShare := rfl
theorem share1_5 (c : Dev nD) : (dat1 V c).share 5 = fullShare := rfl
theorem share1_6 (c : Dev nD) : (dat1 V c).share 6 = fullShare := rfl
theorem share1_7 (c : Dev nD) : (dat1 V c).share 7 = fullShare := rfl
theorem share1_8 (c : Dev nD) : (dat1 V c).share 8 = fullShare := rfl

/-- The distinct buffers behind the nine windows, one by one. -/
theorem arrChain1 {M : Type} [URA M] (Φ : Ref sig .tc → sProp M) :
    bigSep (Finset.univ.image (Pipeline.arrRef spec1)) Φ
      = iprop(Φ main_v10 ∗ Φ main_v14 ∗ Φ main_v15 ∗ Φ main_v16 ∗ Φ main_v19 ∗ Φ main_v20 ∗ Φ main_v21) :=
  bigSep_eq_bigSepL_of_eq [main_v10, main_v14, main_v15, main_v16, main_v19, main_v20, main_v21] (by decide) (by decide) Φ

/-- ENTRY: the seven buffers whole at `W` are the nine arrays at contents read off `W`. -/
theorem arrays_of_arrBufs1 (c : Dev nD) (W : (b : Ref sig .tc) → Buf (Elt F) ((c : Thread nD τ).loc b))
    (G : (w : Fin cfg1.W) → Buf (Elt F) ((cfg1.win w).arr.view.loc (c.tc : Thread nD τ)))
    (hG : ∀ w, G w = W (Pipeline.arrRef spec1 w)) :
    (Pipeline.arrBufs (Ix := Unit) (Name := ℕ) (U := UR sig nD τ) (Lvl := ℕ) spec1 c W : sProp 𝕄) ⊢ (dat1 V c).arrays G := by
  obtain rfl : G = fun w => W (Pipeline.arrRef spec1 w) := funext hG
  rw [arrays_eq1, bigSep_W1]
  unfold Pipeline.arrBufs
  rw [arrChain1]
  iintro ⟨Ha, H3, H4, H5, H6, H7, H8⟩
  ihave Hs := (pointsTo_share (PosShare.mem_left_op_right fullShare)).1 $$ Ha
  icases Hs with ⟨HL, HR⟩
  ihave Hs2 := (pointsTo_share (PosShare.mem_left_op_right fullShare.right)).1 $$ HR
  icases Hs2 with ⟨HRL, HRR⟩
  isplitl [HL]; · iexact HL
  isplitl [HRL]; · iexact HRL
  isplitl [HRR]; · iexact HRR
  isplitl [H3]; · iexact H3
  isplitl [H4]; · iexact H4
  isplitl [H5]; · iexact H5
  isplitl [H6]; · iexact H6
  isplitl [H7]; · iexact H7
  iexact H8

/-- EXIT: the nine arrays at contents read off `W` are the seven buffers whole at `W`. -/
theorem arrBufs_of_arrays1 (c : Dev nD) (W : (b : Ref sig .tc) → Buf (Elt F) ((c : Thread nD τ).loc b))
    (G : (w : Fin cfg1.W) → Buf (Elt F) ((cfg1.win w).arr.view.loc (c.tc : Thread nD τ)))
    (hG : ∀ w, G w = W (Pipeline.arrRef spec1 w)) :
    (dat1 V c).arrays G ⊢ (Pipeline.arrBufs (Ix := Unit) (Name := ℕ) (U := UR sig nD τ) (Lvl := ℕ) spec1 c W : sProp 𝕄) := by
  obtain rfl : G = fun w => W (Pipeline.arrRef spec1 w) := funext hG
  rw [arrays_eq1, bigSep_W1]
  unfold Pipeline.arrBufs
  rw [arrChain1]
  iintro ⟨HL, HRL, HRR, H3, H4, H5, H6, H7, H8⟩
  ihave HR := (pointsTo_share (PosShare.mem_left_op_right fullShare.right)).2 $$ [HRL HRR]
  · isplitl [HRL]; · iexact HRL
    iexact HRR
  ihave Ha := (pointsTo_share (PosShare.mem_left_op_right fullShare)).2 $$ [HL HR]
  · isplitl [HL]; · iexact HL
    iexact HR
  isplitl [Ha]; · iexact Ha
  isplitl [H3]; · iexact H3
  isplitl [H4]; · iexact H4
  isplitl [H5]; · iexact H5
  isplitl [H6]; · iexact H6
  isplitl [H7]; · iexact H7
  iexact H8

end Region1

end Cert.Kernel.Hand

end
-- ==== Proof.KB.Run2.lean ====
/-
  The body of the third layer's kernel run once, on whole staging memrefs: the tile, the two halo margins, the three
  weight blocks, the bias row and the out-of-bounds row are read and left as they were; the two halo tiles kept in
  scratch are rebuilt from them; the output tile ends holding the pieces the run finds (one store of the whole tile).
-/
import proofs.«137995_j86517821215731_2_alg».proof.Proof.Gen.Kernel.Launch
import proofs.«137995_j86517821215731_2_alg».proof.Proof.Gen.Kernel.Skeleton
import proofs.«137995_j86517821215731_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body leaves in the output tile (last first), with the proof that the body, started with the eight
    inputs at their contents, the output tile and the two scratch tiles at anything, runs to the continuation holding the
    inputs as they were, the output tile with those pieces written and the scratch tiles at some contents. -/
noncomputable def kernelRun2 (c : Dev nD) (i : grid2.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) :
    { L9 : List (View.Piece (Elt F) S512x1024 .f32) //
      ∀ (E : Set ℕ) (K : PUnit → sProp 𝕄),
        iprop(owns (c : Thread nD τ) arg1 fullShare x ∗ owns (c : Thread nD τ) arg2 fullShare lm ∗ owns (c : Thread nD τ) arg3 fullShare rm
            ∗ owns (c : Thread nD τ) arg4 fullShare w0 ∗ owns (c : Thread nD τ) arg5 fullShare w1 ∗ owns (c : Thread nD τ) arg6 fullShare w2
            ∗ owns (c : Thread nD τ) arg7 fullShare b ∗ owns (c : Thread nD τ) arg8 fullShare oob
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x ∗ owns (c : Thread nD τ) arg2 fullShare lm ∗ owns (c : Thread nD τ) arg3 fullShare rm
                ∗ owns (c : Thread nD τ) arg4 fullShare w0 ∗ owns (c : Thread nD τ) arg5 fullShare w1 ∗ owns (c : Thread nD τ) arg6 fullShare w2
                ∗ owns (c : Thread nD τ) arg7 fullShare b ∗ owns (c : Thread nD τ) arg8 fullShare oob
                ∗ (∃ f, arg9.view.loc (c : Thread nD τ) ↦[arg9.view.set]{fullShare} arg9.view.writes (Elt F) f L9)
                ∗ (∃ d, owns (c : Thread nD τ) arg10 fullShare d) ∗ (∃ d, owns (c : Thread nD τ) arg11 fullShare d)) -∗ K ⟨⟩))
          ⊢ wp frame (wpE (defs₀ (F := F)) Variants.none c none) E (cc2__layer_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc2__layer_kernel_eq_skeleton]; unfold cc2__layer_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexists _; isplitr
      swap; · iexact H10
      ipureintro; rfl
    iexists _; iexists _; isplitr
    swap; · iexact H11
    ipureintro; rfl

end Cert.Kernel.Hand

end
-- ==== Proof.KB.Out2.lean ====
/-
  What the third layer's kernel leaves in its output tile, as one vector: the pieces the run finds, read back.
  The run's one store covers the whole tile, so the contents the tile held before do not matter.
-/
import proofs.«137995_j86517821215731_2_alg».proof.Proof.KB.Run2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The view through which the output tile's contents are stated (any whole 512 × 1024 buffer would do). -/
abbrev VO2 : View sig .tc .vmem S512x1024 .f32 := (Memref.whole cc2_stg8_0 : Memref sig .tc .vmem S512x1024 .f32).view

/-- The output tile after the body: the run's pieces read back. -/
def outG2 (c : Dev nD) (i : grid2.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) : Vec F S512x1024 .f32 :=
  VO2.read (Elt F) (VO2.writes (Elt F) VO2.junk (kernelRun2 c i arg1 harg1 arg2 harg2 arg3 harg3 arg4 harg4 arg5 harg5 arg6 harg6 arg7 harg7 arg8 harg8 arg9 harg9 arg10 harg10 arg11 harg11 x lm rm w0 w1 w2 b oob).1)

/-- The run's pieces tile the output tile, so they cover it. -/
theorem coverG2 (c : Dev nD) (i : grid2.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) (y : S512x1024.Idx) :
    ∃ pc ∈ (kernelRun2 c i arg1 harg1 arg2 harg2 arg3 harg3 arg4 harg4 arg5 harg5 arg6 harg6 arg7 harg7 arg8 harg8 arg9 harg9 arg10 harg10 arg11 harg11 x lm rm w0 w1 w2 b oob).1, y ∈ pc.1.set :=
  View.cover_of_tiledL (kernelRun2 c i arg1 harg1 arg2 harg2 arg3 harg3 arg4 harg4 arg5 harg5 arg6 harg6 arg7 harg7 arg8 harg8 arg9 harg9 arg10 harg10 arg11 harg11 x lm rm w0 w1 w2 b oob).1 S512x1024.size (by sl_kernel_rfl) y

end Cert.Kernel.Hand

end
-- ==== Proof.KB.Body2.lean ====
/-
  The third layer's pipeline, at the contents `V` its region is entered with: each window's block at a grid point, the
  proof data (every input window's buffer holds its block at every point, the output's what the body leaves there; the
  three windows on the layer's input array hold it at three shares that make the whole), and the body obligation.
-/
import proofs.«137995_j86517821215731_2_alg».proof.Proof.KB.Out2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging memref at point `t`, as the pipeline passes it, and its wholeness. -/
abbrev ms2_0 (t : Fin cfg2.N) : Memref sig .tc .vmem S512x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x1024 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1024 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x1024 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S512x1024 .f32 := win2_8.stage (cfg2.slots t 8)
abbrev hs2_8 (t : Fin cfg2.N) : (ms2_8 t).IsWhole := hstage2_8 ((cfg2.slots t 8).cast nbuf2_8)
/-- The two scratch tiles: whole scoped buffers of the kernel's own. -/
abbrev scM2_0 : Memref sig .tc .vmem S512x1024 .f32 := Memref.whole cc2_scratch0
abbrev scM2_1 : Memref sig .tc .vmem S512x1024 .f32 := Memref.whole cc2_scratch1

/-- The output tile after the body at point `t`, from the input blocks there. -/
def out2 (c : Dev nD) (t : Fin cfg2.N) : Vec F S512x1024 .f32 :=
  outG2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (iblk2 V c 0 t) (iblk2 V c 1 t) (iblk2 V c 2 t) (iblk2 V c 3 t) (iblk2 V c 4 t) (iblk2 V c 5 t) (iblk2 V c 6 t) (iblk2 V c 7 t)

/-- The proof data of the third layer's pipeline on core `c`. The layer's input array is read through three windows
    (the tile and its two margins): each holds it at a share, the three shares making the whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2 V c t
  Φ _ := Pipeline.ΦA spec2 c
  q w := match w with
    | ⟨0, _⟩ => fullShare.left
    | ⟨1, _⟩ => fullShare.right.left
    | ⟨2, _⟩ => fullShare.right.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- The region invariant with the two scratch tiles as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 4000000 in
/-- The body at any point: the input memrefs hold their blocks, so the run applies; the invariant lends the two scratch
    tiles and takes them back at some contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  unfold out2 outG2
  rw [show (dat2 V c).Φ t.castSucc = Pipeline.ΦA spec2 c from rfl, PhiA2_eq]
  iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun2 c (grid2.coords t) _ _ _ _ _ _ _ _ _ _ _ _ _ _ _ _ _ _ scM2_0 (Memref.isWhole_whole _) scM2_1 (Memref.isWhole_whole _) (iblk2 V c 0 t) (iblk2 V c 1 t) (iblk2 V c 2 t) (iblk2 V c 3 t) (iblk2 V c 4 t) (iblk2 V c 5 t) (iblk2 V c 6 t) (iblk2 V c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, HS0, HS1⟩
  isplitl [HS0 HS1 HR Hg]
  · isplitl [HS0 HS1 HR]
    · isplitl [HS0 HS1]
      · isplitl [HS0]; · iexact HS0
        iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (coverG2 (F := F) c _ _ _ _ _ _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.KB.Arr2.lean ====
/-
  The third layer's region holds seven distinct unscoped buffers behind its nine windows: the layer's input array (read
  by three windows — the tile and its two margins), the three weight blocks, the bias row, the out-of-bounds row and the
  output array. Held whole, the seven buffers are the pipeline's nine windowed arrays with the input array split into
  three shares; and back.
-/
import proofs.«137995_j86517821215731_2_alg».proof.Proof.KB.Body2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.SL.BI (bigSep bigSep_congr bigSep_eq_bigSepL_of_eq)

section Region2

variable (V : (c : Dev nD) → (b : Ref sig .tc) → Buf (Elt F) ((c : Thread nD τ).loc b))

/-- The pipeline's arrays as whole buffers, each at its window's share. -/
theorem arrays_eq2 (c : Dev nD) (G : (w : Fin cfg2.W) → Buf (Elt F) ((cfg2.win w).arr.view.loc (c.tc : Thread nD τ))) :
    ((dat2 V c).arrays G : sProp 𝕄)
      = bigSep Finset.univ fun w : Fin cfg2.W => (((c.tc : Thread nD τ).loc (Pipeline.arrRef spec2 w)) ↦{(dat2 V c).share w} G w : sProp 𝕄) := by
  unfold Dat.arrays
  exact bigSep_congr fun w _ => by rw [(arr_whole2 w).set_eq_univ]

theorem share2_0 (c : Dev nD) : (dat2 V c).share 0 = fullShare.left := rfl
theorem share2_1 (c : Dev nD) : (dat2 V c).share 1 = fullShare.right.left := rfl
theorem share2_2 (c : Dev nD) : (dat2 V c).share 2 = fullShare.right.right := rfl
theorem share2_3 (c : Dev nD) : (dat2 V c).share 3 = fullShare := rfl
theorem share2_4 (c : Dev nD) : (dat2 V c).share 4 = fullShare := rfl
theorem share2_5 (c : Dev nD) : (dat2 V c).share 5 = fullShare := rfl
theorem share2_6 (c : Dev nD) : (dat2 V c).share 6 = fullShare := rfl
theorem share2_7 (c : Dev nD) : (dat2 V c).share 7 = fullShare := rfl
theorem share2_8 (c : Dev nD) : (dat2 V c).share 8 = fullShare := rfl

/-- The distinct buffers behind the nine windows, one by one. -/
theorem arrChain2 {M : Type} [URA M] (Φ : Ref sig .tc → sProp M) :
    bigSep (Finset.univ.image (Pipeline.arrRef spec2)) Φ
      = iprop(Φ main_v21 ∗ Φ main_v25 ∗ Φ main_v26 ∗ Φ main_v27 ∗ Φ main_v30 ∗ Φ main_v31 ∗ Φ main_v32) :=
  bigSep_eq_bigSepL_of_eq [main_v21, main_v25, main_v26, main_v27, main_v30, main_v31, main_v32] (by decide) (by decide) Φ

/-- ENTRY: the seven buffers whole at `W` are the nine arrays at contents read off `W`. -/
theorem arrays_of_arrBufs2 (c : Dev nD) (W : (b : Ref sig .tc) → Buf (Elt F) ((c : Thread nD τ).loc b))
    (G : (w : Fin cfg2.W) → Buf (Elt F) ((cfg2.win w).arr.view.loc (c.tc : Thread nD τ)))
    (hG : ∀ w, G w = W (Pipeline.arrRef spec2 w)) :
    (Pipeline.arrBufs (Ix := Unit) (Name := ℕ) (U := UR sig nD τ) (Lvl := ℕ) spec2 c W : sProp 𝕄) ⊢ (dat2 V c).arrays G := by
  obtain rfl : G = fun w => W (Pipeline.arrRef spec2 w) := funext hG
  rw [arrays_eq2, bigSep_W2]
  unfold Pipeline.arrBufs
  rw [arrChain2]
  iintro ⟨Ha, H3, H4, H5, H6, H7, H8⟩
  ihave Hs := (pointsTo_share (PosShare.mem_left_op_right fullShare)).1 $$ Ha
  icases Hs with ⟨HL, HR⟩
  ihave Hs2 := (pointsTo_share (PosShare.mem_left_op_right fullShare.right)).1 $$ HR
  icases Hs2 with ⟨HRL, HRR⟩
  isplitl [HL]; · iexact HL
  isplitl [HRL]; · iexact HRL
  isplitl [HRR]; · iexact HRR
  isplitl [H3]; · iexact H3
  isplitl [H4]; · iexact H4
  isplitl [H5]; · iexact H5
  isplitl [H6]; · iexact H6
  isplitl [H7]; · iexact H7
  iexact H8

/-- EXIT: the nine arrays at contents read off `W` are the seven buffers whole at `W`. -/
theorem arrBufs_of_arrays2 (c : Dev nD) (W : (b : Ref sig .tc) → Buf (Elt F) ((c : Thread nD τ).loc b))
    (G : (w : Fin cfg2.W) → Buf (Elt F) ((cfg2.win w).arr.view.loc (c.tc : Thread nD τ)))
    (hG : ∀ w, G w = W (Pipeline.arrRef spec2 w)) :
    (dat2 V c).arrays G ⊢ (Pipeline.arrBufs (Ix := Unit) (Name := ℕ) (U := UR sig nD τ) (Lvl := ℕ) spec2 c W : sProp 𝕄) := by
  obtain rfl : G = fun w => W (Pipeline.arrRef spec2 w) := funext hG
  rw [arrays_eq2, bigSep_W2]
  unfold Pipeline.arrBufs
  rw [arrChain2]
  iintro ⟨HL, HRL, HRR, H3, H4, H5, H6, H7, H8⟩
  ihave HR := (pointsTo_share (PosShare.mem_left_op_right fullShare.right)).2 $$ [HRL HRR]
  · isplitl [HRL]; · iexact HRL
    iexact HRR
  ihave Ha := (pointsTo_share (PosShare.mem_left_op_right fullShare)).2 $$ [HL HR]
  · isplitl [HL]; · iexact HL
    iexact HR
  isplitl [Ha]; · iexact Ha
  isplitl [H3]; · iexact H3
  isplitl [H4]; · iexact H4
  isplitl [H5]; · iexact H5
  isplitl [H6]; · iexact H6
  isplitl [H7]; · iexact H7
  iexact H8

end Region2

end Cert.Kernel.Hand

end
-- ==== Proof.KB.Run3.lean ====
/-
  The body of the fourth layer's kernel run once, on whole staging memrefs: the tile, the two halo margins, the three
  weight blocks, the bias row and the out-of-bounds row are read and left as they were; the two halo tiles kept in
  scratch are rebuilt from them; the output tile ends holding the pieces the run finds (one store of the whole tile).
-/
import proofs.«137995_j86517821215731_2_alg».proof.Proof.Gen.Kernel.Launch
import proofs.«137995_j86517821215731_2_alg».proof.Proof.Gen.Kernel.Skeleton
import proofs.«137995_j86517821215731_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body leaves in the output tile (last first), with the proof that the body, started with the eight
    inputs at their contents, the output tile and the two scratch tiles at anything, runs to the continuation holding the
    inputs as they were, the output tile with those pieces written and the scratch tiles at some contents. -/
noncomputable def kernelRun3 (c : Dev nD) (i : grid3.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) :
    { L9 : List (View.Piece (Elt F) S512x1024 .f32) //
      ∀ (E : Set ℕ) (K : PUnit → sProp 𝕄),
        iprop(owns (c : Thread nD τ) arg1 fullShare x ∗ owns (c : Thread nD τ) arg2 fullShare lm ∗ owns (c : Thread nD τ) arg3 fullShare rm
            ∗ owns (c : Thread nD τ) arg4 fullShare w0 ∗ owns (c : Thread nD τ) arg5 fullShare w1 ∗ owns (c : Thread nD τ) arg6 fullShare w2
            ∗ owns (c : Thread nD τ) arg7 fullShare b ∗ owns (c : Thread nD τ) arg8 fullShare oob
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x ∗ owns (c : Thread nD τ) arg2 fullShare lm ∗ owns (c : Thread nD τ) arg3 fullShare rm
                ∗ owns (c : Thread nD τ) arg4 fullShare w0 ∗ owns (c : Thread nD τ) arg5 fullShare w1 ∗ owns (c : Thread nD τ) arg6 fullShare w2
                ∗ owns (c : Thread nD τ) arg7 fullShare b ∗ owns (c : Thread nD τ) arg8 fullShare oob
                ∗ (∃ f, arg9.view.loc (c : Thread nD τ) ↦[arg9.view.set]{fullShare} arg9.view.writes (Elt F) f L9)
                ∗ (∃ d, owns (c : Thread nD τ) arg10 fullShare d) ∗ (∃ d, owns (c : Thread nD τ) arg11 fullShare d)) -∗ K ⟨⟩))
          ⊢ wp frame (wpE (defs₀ (F := F)) Variants.none c none) E (cc3__layer_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc3__layer_kernel_eq_skeleton]; unfold cc3__layer_kernel_skel
    simp only [k3_part1_eq_skeleton]; unfold k3_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexists _; isplitr
      swap; · iexact H10
      ipureintro; rfl
    iexists _; iexists _; isplitr
    swap; · iexact H11
    ipureintro; rfl

end Cert.Kernel.Hand

end
-- ==== Proof.KB.Out3.lean ====
/-
  What the fourth layer's kernel leaves in its output tile, as one vector: the pieces the run finds, read back.
  The run's one store covers the whole tile, so the contents the tile held before do not matter.
-/
import proofs.«137995_j86517821215731_2_alg».proof.Proof.KB.Run3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The view through which the output tile's contents are stated (any whole 512 × 1024 buffer would do). -/
abbrev VO3 : View sig .tc .vmem S512x1024 .f32 := (Memref.whole cc3_stg8_0 : Memref sig .tc .vmem S512x1024 .f32).view

/-- The output tile after the body: the run's pieces read back. -/
def outG3 (c : Dev nD) (i : grid3.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) : Vec F S512x1024 .f32 :=
  VO3.read (Elt F) (VO3.writes (Elt F) VO3.junk (kernelRun3 c i arg1 harg1 arg2 harg2 arg3 harg3 arg4 harg4 arg5 harg5 arg6 harg6 arg7 harg7 arg8 harg8 arg9 harg9 arg10 harg10 arg11 harg11 x lm rm w0 w1 w2 b oob).1)

/-- The run's pieces tile the output tile, so they cover it. -/
theorem coverG3 (c : Dev nD) (i : grid3.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) (y : S512x1024.Idx) :
    ∃ pc ∈ (kernelRun3 c i arg1 harg1 arg2 harg2 arg3 harg3 arg4 harg4 arg5 harg5 arg6 harg6 arg7 harg7 arg8 harg8 arg9 harg9 arg10 harg10 arg11 harg11 x lm rm w0 w1 w2 b oob).1, y ∈ pc.1.set :=
  View.cover_of_tiledL (kernelRun3 c i arg1 harg1 arg2 harg2 arg3 harg3 arg4 harg4 arg5 harg5 arg6 harg6 arg7 harg7 arg8 harg8 arg9 harg9 arg10 harg10 arg11 harg11 x lm rm w0 w1 w2 b oob).1 S512x1024.size (by sl_kernel_rfl) y

end Cert.Kernel.Hand

end
-- ==== Proof.KB.Body3.lean ====
/-
  The fourth layer's pipeline, at the contents `V` its region is entered with: each window's block at a grid point, the
  proof data (every input window's buffer holds its block at every point, the output's what the body leaves there; the
  three windows on the layer's input array hold it at three shares that make the whole), and the body obligation.
-/
import proofs.«137995_j86517821215731_2_alg».proof.Proof.KB.Out3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Each window's current staging memref at point `t`, as the pipeline passes it, and its wholeness. -/
abbrev ms3_0 (t : Fin cfg3.N) : Memref sig .tc .vmem S512x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S8x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1024 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x1024 .bf16 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x1024 .bf16 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x1024 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x1024 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S512x1024 .f32 := win3_8.stage (cfg3.slots t 8)
abbrev hs3_8 (t : Fin cfg3.N) : (ms3_8 t).IsWhole := hstage3_8 ((cfg3.slots t 8).cast nbuf3_8)
/-- The two scratch tiles: whole scoped buffers of the kernel's own. -/
abbrev scM3_0 : Memref sig .tc .vmem S512x1024 .f32 := Memref.whole cc3_scratch0
abbrev scM3_1 : Memref sig .tc .vmem S512x1024 .f32 := Memref.whole cc3_scratch1

/-- The output tile after the body at point `t`, from the input blocks there. -/
def out3 (c : Dev nD) (t : Fin cfg3.N) : Vec F S512x1024 .f32 :=
  outG3 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (iblk3 V c 0 t) (iblk3 V c 1 t) (iblk3 V c 2 t) (iblk3 V c 3 t) (iblk3 V c 4 t) (iblk3 V c 5 t) (iblk3 V c 6 t) (iblk3 V c 7 t)

/-- The proof data of the fourth layer's pipeline on core `c`. The layer's input array is read through three windows
    (the tile and its two margins): each holds it at a share, the three shares making the whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3 V c t
  Φ _ := Pipeline.ΦA spec3 c
  q w := match w with
    | ⟨0, _⟩ => fullShare.left
    | ⟨1, _⟩ => fullShare.right.left
    | ⟨2, _⟩ => fullShare.right.right
    | _ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-- The region invariant with the two scratch tiles as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

set_option maxHeartbeats 4000000 in
/-- The body at any point: the input memrefs hold their blocks, so the run applies; the invariant lends the two scratch
    tiles and takes them back at some contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  unfold out3 outG3
  rw [show (dat3 V c).Φ t.castSucc = Pipeline.ΦA spec3 c from rfl, PhiA3_eq]
  iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun3 c (grid3.coords t) _ _ _ _ _ _ _ _ _ _ _ _ _ _ _ _ _ _ scM3_0 (Memref.isWhole_whole _) scM3_1 (Memref.isWhole_whole _) (iblk3 V c 0 t) (iblk3 V c 1 t) (iblk3 V c 2 t) (iblk3 V c 3 t) (iblk3 V c 4 t) (iblk3 V c 5 t) (iblk3 V c 6 t) (iblk3 V c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, HS0, HS1⟩
  isplitl [HS0 HS1 HR Hg]
  · isplitl [HS0 HS1 HR]
    · isplitl [HS0 HS1]
      · isplitl [HS0]; · iexact HS0
        iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (coverG3 (F := F) c _ _ _ _ _ _ _ _ _ _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.KB.Arr3.lean ====
/-
  The fourth layer's region holds seven distinct unscoped buffers behind its nine windows: the layer's input array (read
  by three windows — the tile and its two margins), the three weight blocks, the bias row, the out-of-bounds row and the
  output array. Held whole, the seven buffers are the pipeline's nine windowed arrays with the input array split into
  three shares; and back.
-/
import proofs.«137995_j86517821215731_2_alg».proof.Proof.KB.Body3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.SL.BI (bigSep bigSep_congr bigSep_eq_bigSepL_of_eq)

section Region3

variable (V : (c : Dev nD) → (b : Ref sig .tc) → Buf (Elt F) ((c : Thread nD τ).loc b))

/-- The pipeline's arrays as whole buffers, each at its window's share. -/
theorem arrays_eq3 (c : Dev nD) (G : (w : Fin cfg3.W) → Buf (Elt F) ((cfg3.win w).arr.view.loc (c.tc : Thread nD τ))) :
    ((dat3 V c).arrays G : sProp 𝕄)
      = bigSep Finset.univ fun w : Fin cfg3.W => (((c.tc : Thread nD τ).loc (Pipeline.arrRef spec3 w)) ↦{(dat3 V c).share w} G w : sProp 𝕄) := by
  unfold Dat.arrays
  exact bigSep_congr fun w _ => by rw [(arr_whole3 w).set_eq_univ]

theorem share3_0 (c : Dev nD) : (dat3 V c).share 0 = fullShare.left := rfl
theorem share3_1 (c : Dev nD) : (dat3 V c).share 1 = fullShare.right.left := rfl
theorem share3_2 (c : Dev nD) : (dat3 V c).share 2 = fullShare.right.right := rfl
theorem share3_3 (c : Dev nD) : (dat3 V c).share 3 = fullShare := rfl
theorem share3_4 (c : Dev nD) : (dat3 V c).share 4 = fullShare := rfl
theorem share3_5 (c : Dev nD) : (dat3 V c).share 5 = fullShare := rfl
theorem share3_6 (c : Dev nD) : (dat3 V c).share 6 = fullShare := rfl
theorem share3_7 (c : Dev nD) : (dat3 V c).share 7 = fullShare := rfl
theorem share3_8 (c : Dev nD) : (dat3 V c).share 8 = fullShare := rfl

/-- The distinct buffers behind the nine windows, one by one. -/
theorem arrChain3 {M : Type} [URA M] (Φ : Ref sig .tc → sProp M) :
    bigSep (Finset.univ.image (Pipeline.arrRef spec3)) Φ
      = iprop(Φ main_v32 ∗ Φ main_v36 ∗ Φ main_v37 ∗ Φ main_v38 ∗ Φ main_v41 ∗ Φ main_v42 ∗ Φ main_v43) :=
  bigSep_eq_bigSepL_of_eq [main_v32, main_v36, main_v37, main_v38, main_v41, main_v42, main_v43] (by decide) (by decide) Φ

/-- ENTRY: the seven buffers whole at `W` are the nine arrays at contents read off `W`. -/
theorem arrays_of_arrBufs3 (c : Dev nD) (W : (b : Ref sig .tc) → Buf (Elt F) ((c : Thread nD τ).loc b))
    (G : (w : Fin cfg3.W) → Buf (Elt F) ((cfg3.win w).arr.view.loc (c.tc : Thread nD τ)))
    (hG : ∀ w, G w = W (Pipeline.arrRef spec3 w)) :
    (Pipeline.arrBufs (Ix := Unit) (Name := ℕ) (U := UR sig nD τ) (Lvl := ℕ) spec3 c W : sProp 𝕄) ⊢ (dat3 V c).arrays G := by
  obtain rfl : G = fun w => W (Pipeline.arrRef spec3 w) := funext hG
  rw [arrays_eq3, bigSep_W3]
  unfold Pipeline.arrBufs
  rw [arrChain3]
  iintro ⟨Ha, H3, H4, H5, H6, H7, H8⟩
  ihave Hs := (pointsTo_share (PosShare.mem_left_op_right fullShare)).1 $$ Ha
  icases Hs with ⟨HL, HR⟩
  ihave Hs2 := (pointsTo_share (PosShare.mem_left_op_right fullShare.right)).1 $$ HR
  icases Hs2 with ⟨HRL, HRR⟩
  isplitl [HL]; · iexact HL
  isplitl [HRL]; · iexact HRL
  isplitl [HRR]; · iexact HRR
  isplitl [H3]; · iexact H3
  isplitl [H4]; · iexact H4
  isplitl [H5]; · iexact H5
  isplitl [H6]; · iexact H6
  isplitl [H7]; · iexact H7
  iexact H8

/-- EXIT: the nine arrays at contents read off `W` are the seven buffers whole at `W`. -/
theorem arrBufs_of_arrays3 (c : Dev nD) (W : (b : Ref sig .tc) → Buf (Elt F) ((c : Thread nD τ).loc b))
    (G : (w : Fin cfg3.W) → Buf (Elt F) ((cfg3.win w).arr.view.loc (c.tc : Thread nD τ)))
    (hG : ∀ w, G w = W (Pipeline.arrRef spec3 w)) :
    (dat3 V c).arrays G ⊢ (Pipeline.arrBufs (Ix := Unit) (Name := ℕ) (U := UR sig nD τ) (Lvl := ℕ) spec3 c W : sProp 𝕄) := by
  obtain rfl : G = fun w => W (Pipeline.arrRef spec3 w) := funext hG
  rw [arrays_eq3, bigSep_W3]
  unfold Pipeline.arrBufs
  rw [arrChain3]
  iintro ⟨HL, HRL, HRR, H3, H4, H5, H6, H7, H8⟩
  ihave HR := (pointsTo_share (PosShare.mem_left_op_right fullShare.right)).2 $$ [HRL HRR]
  · isplitl [HRL]; · iexact HRL
    iexact HRR
  ihave Ha := (pointsTo_share (PosShare.mem_left_op_right fullShare)).2 $$ [HL HR]
  · isplitl [HL]; · iexact HL
    iexact HR
  isplitl [Ha]; · iexact Ha
  isplitl [H3]; · iexact H3
  isplitl [H4]; · iexact H4
  isplitl [H5]; · iexact H5
  isplitl [H6]; · iexact H6
  isplitl [H7]; · iexact H7
  iexact H8

end Region3

end Cert.Kernel.Hand

end
-- ==== Proof.KB.Main.lean ====
/-
  The whole program as nine segments — five stretches of host operations and the four layers' regions — with the
  contents of every unscoped buffer named at each boundary: the launch memory, then each stretch's operations applied,
  then each region's output array at what its tiles' write-backs leave. Every weakly fair execution terminates; the
  result buffer ends at the last boundary's contents and the four argument arrays as launched.
-/
import proofs.«137995_j86517821215731_2_alg».proof.Proof.KB.Arr0
import proofs.«137995_j86517821215731_2_alg».proof.Proof.KB.Arr1
import proofs.«137995_j86517821215731_2_alg».proof.Proof.KB.Arr2
import proofs.«137995_j86517821215731_2_alg».proof.Proof.KB.Arr3
import proofs.«137995_j86517821215731_2_alg».proof.Proof.Gen.Kernel.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.SL.BI (bigSep bigSep_congr)

variable (m : (ℓ : Loc nD τ sig) → Buf (Elt F) ℓ) (ρ : Dev nD → PrngReg)

/-- Core `c`'s unscoped buffers at launch. -/
abbrev W0 (c : Dev nD) : Valuation τ sig (Elt F) := fun b => m (c, b)
/-- After the first stretch of host operations. -/
abbrev W1 (c : Dev nD) : Valuation τ sig (Elt F) := StableHlo.after hostOps0 (W0 m c)

/-! ## Region 0 -/

/-- What region 0 is entered with, read at the TensorCore's references. -/
abbrev Vt1 : (c : Dev nD) → (b : Ref sig .tc) → Buf (Elt F) ((c : Thread nD τ).loc b) := fun c b => W1 m c (Proc.devRef .tc b)
/-- What region 0 leaves in its output array: the write-backs of all its tiles. -/
def res0 (c : Dev nD) : Buf (Elt F) ((c : Thread nD τ).loc main_v10) := (dat0 (Vt1 m) c).arrAt 8 cfg0.N
/-- The buffers at region 0's exit: its output array at what it leaves, every other buffer as entered. -/
abbrev W2 (c : Dev nD) : Valuation τ sig (Elt F) := Function.update (W1 m c) (Proc.devRef .tc main_v10) (res0 m c)
abbrev Vt2 : (c : Dev nD) → (b : Ref sig .tc) → Buf (Elt F) ((c : Thread nD τ).loc b) := fun c b => W2 m c (Proc.devRef .tc b)
/-- After the host operations that follow it. -/
abbrev W3 (c : Dev nD) : Valuation τ sig (Elt F) := StableHlo.after hostOps1 (W2 m c)

theorem W2_of_ne (c : Dev nD) (b : Ref sig .tc) (hb : b ≠ main_v10) : W2 m c (Proc.devRef .tc b) = W1 m c (Proc.devRef .tc b) :=
  Function.update_of_ne (StableHlo.devRef_ne_of_ne hb) ..
theorem W2_out (c : Dev nD) : W2 m c (Proc.devRef .tc main_v10) = res0 m c := Function.update_self ..

set_option maxHeartbeats 2000000 in
/-- At the exit each array of the region holds what the pipeline leaves: an input what it held, the output its write-backs. -/
theorem hF0 (c : Dev nD) : ∀ w : Fin cfg0.W, (dat0 (Vt1 m) c).arrAt w cfg0.N = Vt2 m c (Pipeline.arrRef spec0 w)
  | ⟨0, _⟩ => (((dat0 (Vt1 m) c).arrAt_in 0 rfl _).trans (A_eq0 (Vt1 m) c 0)).trans (W2_of_ne m c main_arg0 (by decide)).symm
  | ⟨1, _⟩ => (((dat0 (Vt1 m) c).arrAt_in 1 rfl _).trans (A_eq0 (Vt1 m) c 1)).trans (W2_of_ne m c main_arg0 (by decide)).symm
  | ⟨2, _⟩ => (((dat0 (Vt1 m) c).arrAt_in 2 rfl _).trans (A_eq0 (Vt1 m) c 2)).trans (W2_of_ne m c main_arg0 (by decide)).symm
  | ⟨3, _⟩ => (((dat0 (Vt1 m) c).arrAt_in 3 rfl _).trans (A_eq0 (Vt1 m) c 3)).trans (W2_of_ne m c main_v3 (by decide)).symm
  | ⟨4, _⟩ => (((dat0 (Vt1 m) c).arrAt_in 4 rfl _).trans (A_eq0 (Vt1 m) c 4)).trans (W2_of_ne m c main_v4 (by decide)).symm
  | ⟨5, _⟩ => (((dat0 (Vt1 m) c).arrAt_in 5 rfl _).trans (A_eq0 (Vt1 m) c 5)).trans (W2_of_ne m c main_v5 (by decide)).symm
  | ⟨6, _⟩ => (((dat0 (Vt1 m) c).arrAt_in 6 rfl _).trans (A_eq0 (Vt1 m) c 6)).trans (W2_of_ne m c main_v8 (by decide)).symm
  | ⟨7, _⟩ => (((dat0 (Vt1 m) c).arrAt_in 7 rfl _).trans (A_eq0 (Vt1 m) c 7)).trans (W2_of_ne m c main_v9 (by decide)).symm
  | ⟨8, _⟩ => (W2_out m c).symm
/-- and every other buffer what it held at entry. -/
theorem hrest0 (c : Dev nD) :
    (Pipeline.unscopedRest (Ix := Unit) (Name := ℕ) (U := UR sig nD τ) (Lvl := ℕ) spec0 c (Vt1 m c) : sProp 𝕄)
      = Pipeline.unscopedRest (Ix := Unit) (Name := ℕ) (U := UR sig nD τ) (Lvl := ℕ) spec0 c (Vt2 m c) := by
  unfold Pipeline.unscopedRest
  refine bigSep_congr fun b hb => ?_
  rw [show Vt2 m c b = Vt1 m c b from W2_of_ne m c b fun e => (Finset.mem_sdiff.mp hb).2 (e ▸ Finset.mem_image.mpr ⟨8, Finset.mem_univ _, rfl⟩)]

/-! ## Region 1 -/

/-- What region 1 is entered with, read at the TensorCore's references. -/
abbrev Vt3 : (c : Dev nD) → (b : Ref sig .tc) → Buf (Elt F) ((c : Thread nD τ).loc b) := fun c b => W3 m c (Proc.devRef .tc b)
/-- What region 1 leaves in its output array: the write-backs of all its tiles. -/
def res1 (c : Dev nD) : Buf (Elt F) ((c : Thread nD τ).loc main_v21) := (dat1 (Vt3 m) c).arrAt 8 cfg1.N
/-- The buffers at region 1's exit: its output array at what it leaves, every other buffer as entered. -/
abbrev W4 (c : Dev nD) : Valuation τ sig (Elt F) := Function.update (W3 m c) (Proc.devRef .tc main_v21) (res1 m c)
abbrev Vt4 : (c : Dev nD) → (b : Ref sig .tc) → Buf (Elt F) ((c : Thread nD τ).loc b) := fun c b => W4 m c (Proc.devRef .tc b)
/-- After the host operations that follow it. -/
abbrev W5 (c : Dev nD) : Valuation τ sig (Elt F) := StableHlo.after hostOps2 (W4 m c)

theorem W4_of_ne (c : Dev nD) (b : Ref sig .tc) (hb : b ≠ main_v21) : W4 m c (Proc.devRef .tc b) = W3 m c (Proc.devRef .tc b) :=
  Function.update_of_ne (StableHlo.devRef_ne_of_ne hb) ..
theorem W4_out (c : Dev nD) : W4 m c (Proc.devRef .tc main_v21) = res1 m c := Function.update_self ..

set_option maxHeartbeats 2000000 in
/-- At the exit each array of the region holds what the pipeline leaves: an input what it held, the output its write-backs. -/
theorem hF1 (c : Dev nD) : ∀ w : Fin cfg1.W, (dat1 (Vt3 m) c).arrAt w cfg1.N = Vt4 m c (Pipeline.arrRef spec1 w)
  | ⟨0, _⟩ => (((dat1 (Vt3 m) c).arrAt_in 0 rfl _).trans (A_eq1 (Vt3 m) c 0)).trans (W4_of_ne m c main_v10 (by decide)).symm
  | ⟨1, _⟩ => (((dat1 (Vt3 m) c).arrAt_in 1 rfl _).trans (A_eq1 (Vt3 m) c 1)).trans (W4_of_ne m c main_v10 (by decide)).symm
  | ⟨2, _⟩ => (((dat1 (Vt3 m) c).arrAt_in 2 rfl _).trans (A_eq1 (Vt3 m) c 2)).trans (W4_of_ne m c main_v10 (by decide)).symm
  | ⟨3, _⟩ => (((dat1 (Vt3 m) c).arrAt_in 3 rfl _).trans (A_eq1 (Vt3 m) c 3)).trans (W4_of_ne m c main_v14 (by decide)).symm
  | ⟨4, _⟩ => (((dat1 (Vt3 m) c).arrAt_in 4 rfl _).trans (A_eq1 (Vt3 m) c 4)).trans (W4_of_ne m c main_v15 (by decide)).symm
  | ⟨5, _⟩ => (((dat1 (Vt3 m) c).arrAt_in 5 rfl _).trans (A_eq1 (Vt3 m) c 5)).trans (W4_of_ne m c main_v16 (by decide)).symm
  | ⟨6, _⟩ => (((dat1 (Vt3 m) c).arrAt_in 6 rfl _).trans (A_eq1 (Vt3 m) c 6)).trans (W4_of_ne m c main_v19 (by decide)).symm
  | ⟨7, _⟩ => (((dat1 (Vt3 m) c).arrAt_in 7 rfl _).trans (A_eq1 (Vt3 m) c 7)).trans (W4_of_ne m c main_v20 (by decide)).symm
  | ⟨8, _⟩ => (W4_out m c).symm
/-- and every other buffer what it held at entry. -/
theorem hrest1 (c : Dev nD) :
    (Pipeline.unscopedRest (Ix := Unit) (Name := ℕ) (U := UR sig nD τ) (Lvl := ℕ) spec1 c (Vt3 m c) : sProp 𝕄)
      = Pipeline.unscopedRest (Ix := Unit) (Name := ℕ) (U := UR sig nD τ) (Lvl := ℕ) spec1 c (Vt4 m c) := by
  unfold Pipeline.unscopedRest
  refine bigSep_congr fun b hb => ?_
  rw [show Vt4 m c b = Vt3 m c b from W4_of_ne m c b fun e => (Finset.mem_sdiff.mp hb).2 (e ▸ Finset.mem_image.mpr ⟨8, Finset.mem_univ _, rfl⟩)]

/-! ## Region 2 -/

/-- What region 2 is entered with, read at the TensorCore's references. -/
abbrev Vt5 : (c : Dev nD) → (b : Ref sig .tc) → Buf (Elt F) ((c : Thread nD τ).loc b) := fun c b => W5 m c (Proc.devRef .tc b)
/-- What region 2 leaves in its output array: the write-backs of all its tiles. -/
def res2 (c : Dev nD) : Buf (Elt F) ((c : Thread nD τ).loc main_v32) := (dat2 (Vt5 m) c).arrAt 8 cfg2.N
/-- The buffers at region 2's exit: its output array at what it leaves, every other buffer as entered. -/
abbrev W6 (c : Dev nD) : Valuation τ sig (Elt F) := Function.update (W5 m c) (Proc.devRef .tc main_v32) (res2 m c)
abbrev Vt6 : (c : Dev nD) → (b : Ref sig .tc) → Buf (Elt F) ((c : Thread nD τ).loc b) := fun c b => W6 m c (Proc.devRef .tc b)
/-- After the host operations that follow it. -/
abbrev W7 (c : Dev nD) : Valuation τ sig (Elt F) := StableHlo.after hostOps3 (W6 m c)

theorem W6_of_ne (c : Dev nD) (b : Ref sig .tc) (hb : b ≠ main_v32) : W6 m c (Proc.devRef .tc b) = W5 m c (Proc.devRef .tc b) :=
  Function.update_of_ne (StableHlo.devRef_ne_of_ne hb) ..
theorem W6_out (c : Dev nD) : W6 m c (Proc.devRef .tc main_v32) = res2 m c := Function.update_self ..

set_option maxHeartbeats 2000000 in
/-- At the exit each array of the region holds what the pipeline leaves: an input what it held, the output its write-backs. -/
theorem hF2 (c : Dev nD) : ∀ w : Fin cfg2.W, (dat2 (Vt5 m) c).arrAt w cfg2.N = Vt6 m c (Pipeline.arrRef spec2 w)
  | ⟨0, _⟩ => (((dat2 (Vt5 m) c).arrAt_in 0 rfl _).trans (A_eq2 (Vt5 m) c 0)).trans (W6_of_ne m c main_v21 (by decide)).symm
  | ⟨1, _⟩ => (((dat2 (Vt5 m) c).arrAt_in 1 rfl _).trans (A_eq2 (Vt5 m) c 1)).trans (W6_of_ne m c main_v21 (by decide)).symm
  | ⟨2, _⟩ => (((dat2 (Vt5 m) c).arrAt_in 2 rfl _).trans (A_eq2 (Vt5 m) c 2)).trans (W6_of_ne m c main_v21 (by decide)).symm
  | ⟨3, _⟩ => (((dat2 (Vt5 m) c).arrAt_in 3 rfl _).trans (A_eq2 (Vt5 m) c 3)).trans (W6_of_ne m c main_v25 (by decide)).symm
  | ⟨4, _⟩ => (((dat2 (Vt5 m) c).arrAt_in 4 rfl _).trans (A_eq2 (Vt5 m) c 4)).trans (W6_of_ne m c main_v26 (by decide)).symm
  | ⟨5, _⟩ => (((dat2 (Vt5 m) c).arrAt_in 5 rfl _).trans (A_eq2 (Vt5 m) c 5)).trans (W6_of_ne m c main_v27 (by decide)).symm
  | ⟨6, _⟩ => (((dat2 (Vt5 m) c).arrAt_in 6 rfl _).trans (A_eq2 (Vt5 m) c 6)).trans (W6_of_ne m c main_v30 (by decide)).symm
  | ⟨7, _⟩ => (((dat2 (Vt5 m) c).arrAt_in 7 rfl _).trans (A_eq2 (Vt5 m) c 7)).trans (W6_of_ne m c main_v31 (by decide)).symm
  | ⟨8, _⟩ => (W6_out m c).symm
/-- and every other buffer what it held at entry. -/
theorem hrest2 (c : Dev nD) :
    (Pipeline.unscopedRest (Ix := Unit) (Name := ℕ) (U := UR sig nD τ) (Lvl := ℕ) spec2 c (Vt5 m c) : sProp 𝕄)
      = Pipeline.unscopedRest (Ix := Unit) (Name := ℕ) (U := UR sig nD τ) (Lvl := ℕ) spec2 c (Vt6 m c) := by
  unfold Pipeline.unscopedRest
  refine bigSep_congr fun b hb => ?_
  rw [show Vt6 m c b = Vt5 m c b from W6_of_ne m c b fun e => (Finset.mem_sdiff.mp hb).2 (e ▸ Finset.mem_image.mpr ⟨8, Finset.mem_univ _, rfl⟩)]

/-! ## Region 3 -/

/-- What region 3 is entered with, read at the TensorCore's references. -/
abbrev Vt7 : (c : Dev nD) → (b : Ref sig .tc) → Buf (Elt F) ((c : Thread nD τ).loc b) := fun c b => W7 m c (Proc.devRef .tc b)
/-- What region 3 leaves in its output array: the write-backs of all its tiles. -/
def res3 (c : Dev nD) : Buf (Elt F) ((c : Thread nD τ).loc main_v43) := (dat3 (Vt7 m) c).arrAt 8 cfg3.N
/-- The buffers at region 3's exit: its output array at what it leaves, every other buffer as entered. -/
abbrev W8 (c : Dev nD) : Valuation τ sig (Elt F) := Function.update (W7 m c) (Proc.devRef .tc main_v43) (res3 m c)
abbrev Vt8 : (c : Dev nD) → (b : Ref sig .tc) → Buf (Elt F) ((c : Thread nD τ).loc b) := fun c b => W8 m c (Proc.devRef .tc b)
/-- After the host operations that follow it. -/
abbrev W9 (c : Dev nD) : Valuation τ sig (Elt F) := StableHlo.after hostOps4 (W8 m c)

theorem W8_of_ne (c : Dev nD) (b : Ref sig .tc) (hb : b ≠ main_v43) : W8 m c (Proc.devRef .tc b) = W7 m c (Proc.devRef .tc b) :=
  Function.update_of_ne (StableHlo.devRef_ne_of_ne hb) ..
theorem W8_out (c : Dev nD) : W8 m c (Proc.devRef .tc main_v43) = res3 m c := Function.update_self ..

set_option maxHeartbeats 2000000 in
/-- At the exit each array of the region holds what the pipeline leaves: an input what it held, the output its write-backs. -/
theorem hF3 (c : Dev nD) : ∀ w : Fin cfg3.W, (dat3 (Vt7 m) c).arrAt w cfg3.N = Vt8 m c (Pipeline.arrRef spec3 w)
  | ⟨0, _⟩ => (((dat3 (Vt7 m) c).arrAt_in 0 rfl _).trans (A_eq3 (Vt7 m) c 0)).trans (W8_of_ne m c main_v32 (by decide)).symm
  | ⟨1, _⟩ => (((dat3 (Vt7 m) c).arrAt_in 1 rfl _).trans (A_eq3 (Vt7 m) c 1)).trans (W8_of_ne m c main_v32 (by decide)).symm
  | ⟨2, _⟩ => (((dat3 (Vt7 m) c).arrAt_in 2 rfl _).trans (A_eq3 (Vt7 m) c 2)).trans (W8_of_ne m c main_v32 (by decide)).symm
  | ⟨3, _⟩ => (((dat3 (Vt7 m) c).arrAt_in 3 rfl _).trans (A_eq3 (Vt7 m) c 3)).trans (W8_of_ne m c main_v36 (by decide)).symm
  | ⟨4, _⟩ => (((dat3 (Vt7 m) c).arrAt_in 4 rfl _).trans (A_eq3 (Vt7 m) c 4)).trans (W8_of_ne m c main_v37 (by decide)).symm
  | ⟨5, _⟩ => (((dat3 (Vt7 m) c).arrAt_in 5 rfl _).trans (A_eq3 (Vt7 m) c 5)).trans (W8_of_ne m c main_v38 (by decide)).symm
  | ⟨6, _⟩ => (((dat3 (Vt7 m) c).arrAt_in 6 rfl _).trans (A_eq3 (Vt7 m) c 6)).trans (W8_of_ne m c main_v41 (by decide)).symm
  | ⟨7, _⟩ => (((dat3 (Vt7 m) c).arrAt_in 7 rfl _).trans (A_eq3 (Vt7 m) c 7)).trans (W8_of_ne m c main_v42 (by decide)).symm
  | ⟨8, _⟩ => (W8_out m c).symm
/-- and every other buffer what it held at entry. -/
theorem hrest3 (c : Dev nD) :
    (Pipeline.unscopedRest (Ix := Unit) (Name := ℕ) (U := UR sig nD τ) (Lvl := ℕ) spec3 c (Vt7 m c) : sProp 𝕄)
      = Pipeline.unscopedRest (Ix := Unit) (Name := ℕ) (U := UR sig nD τ) (Lvl := ℕ) spec3 c (Vt8 m c) := by
  unfold Pipeline.unscopedRest
  refine bigSep_congr fun b hb => ?_
  rw [show Vt8 m c b = Vt7 m c b from W8_of_ne m c b fun e => (Finset.mem_sdiff.mp hb).2 (e ▸ Finset.mem_image.mpr ⟨8, Finset.mem_univ _, rfl⟩)]

/-! ## The arguments end as launched -/

/-- `main_arg0` reaches the end as launched: no host stretch writes it, no region may change it. -/
theorem W9_main_arg0 (c : Dev nD) : W9 m c (Proc.devRef .tc main_arg0) = m ((c : Thread nD τ).loc main_arg0) :=
  (StableHlo.after_of_writes_sub hostOps4 _ hostOps4_writes (by decide : main_arg0 ∉ hostOps4_W)).trans <|
  (W8_of_ne m c main_arg0 (by decide)).trans <|
  (StableHlo.after_of_writes_sub hostOps3 _ hostOps3_writes (by decide : main_arg0 ∉ hostOps3_W)).trans <|
  (W6_of_ne m c main_arg0 (by decide)).trans <|
  (StableHlo.after_of_writes_sub hostOps2 _ hostOps2_writes (by decide : main_arg0 ∉ hostOps2_W)).trans <|
  (W4_of_ne m c main_arg0 (by decide)).trans <|
  (StableHlo.after_of_writes_sub hostOps1 _ hostOps1_writes (by decide : main_arg0 ∉ hostOps1_W)).trans <|
  (W2_of_ne m c main_arg0 (by decide)).trans <|
  (StableHlo.after_of_writes_sub hostOps0 _ hostOps0_writes (by decide : main_arg0 ∉ hostOps0_W)).trans rfl

/-- `main_arg1` reaches the end as launched: no host stretch writes it, no region may change it. -/
theorem W9_main_arg1 (c : Dev nD) : W9 m c (Proc.devRef .tc main_arg1) = m ((c : Thread nD τ).loc main_arg1) :=
  (StableHlo.after_of_writes_sub hostOps4 _ hostOps4_writes (by decide : main_arg1 ∉ hostOps4_W)).trans <|
  (W8_of_ne m c main_arg1 (by decide)).trans <|
  (StableHlo.after_of_writes_sub hostOps3 _ hostOps3_writes (by decide : main_arg1 ∉ hostOps3_W)).trans <|
  (W6_of_ne m c main_arg1 (by decide)).trans <|
  (StableHlo.after_of_writes_sub hostOps2 _ hostOps2_writes (by decide : main_arg1 ∉ hostOps2_W)).trans <|
  (W4_of_ne m c main_arg1 (by decide)).trans <|
  (StableHlo.after_of_writes_sub hostOps1 _ hostOps1_writes (by decide : main_arg1 ∉ hostOps1_W)).trans <|
  (W2_of_ne m c main_arg1 (by decide)).trans <|
  (StableHlo.after_of_writes_sub hostOps0 _ hostOps0_writes (by decide : main_arg1 ∉ hostOps0_W)).trans rfl

/-- `main_arg2` reaches the end as launched: no host stretch writes it, no region may change it. -/
theorem W9_main_arg2 (c : Dev nD) : W9 m c (Proc.devRef .tc main_arg2) = m ((c : Thread nD τ).loc main_arg2) :=
  (StableHlo.after_of_writes_sub hostOps4 _ hostOps4_writes (by decide : main_arg2 ∉ hostOps4_W)).trans <|
  (W8_of_ne m c main_arg2 (by decide)).trans <|
  (StableHlo.after_of_writes_sub hostOps3 _ hostOps3_writes (by decide : main_arg2 ∉ hostOps3_W)).trans <|
  (W6_of_ne m c main_arg2 (by decide)).trans <|
  (StableHlo.after_of_writes_sub hostOps2 _ hostOps2_writes (by decide : main_arg2 ∉ hostOps2_W)).trans <|
  (W4_of_ne m c main_arg2 (by decide)).trans <|
  (StableHlo.after_of_writes_sub hostOps1 _ hostOps1_writes (by decide : main_arg2 ∉ hostOps1_W)).trans <|
  (W2_of_ne m c main_arg2 (by decide)).trans <|
  (StableHlo.after_of_writes_sub hostOps0 _ hostOps0_writes (by decide : main_arg2 ∉ hostOps0_W)).trans rfl

/-- `main_arg3` reaches the end as launched: no host stretch writes it, no region may change it. -/
theorem W9_main_arg3 (c : Dev nD) : W9 m c (Proc.devRef .tc main_arg3) = m ((c : Thread nD τ).loc main_arg3) :=
  (StableHlo.after_of_writes_sub hostOps4 _ hostOps4_writes (by decide : main_arg3 ∉ hostOps4_W)).trans <|
  (W8_of_ne m c main_arg3 (by decide)).trans <|
  (StableHlo.after_of_writes_sub hostOps3 _ hostOps3_writes (by decide : main_arg3 ∉ hostOps3_W)).trans <|
  (W6_of_ne m c main_arg3 (by decide)).trans <|
  (StableHlo.after_of_writes_sub hostOps2 _ hostOps2_writes (by decide : main_arg3 ∉ hostOps2_W)).trans <|
  (W4_of_ne m c main_arg3 (by decide)).trans <|
  (StableHlo.after_of_writes_sub hostOps1 _ hostOps1_writes (by decide : main_arg3 ∉ hostOps1_W)).trans <|
  (W2_of_ne m c main_arg3 (by decide)).trans <|
  (StableHlo.after_of_writes_sub hostOps0 _ hostOps0_writes (by decide : main_arg3 ∉ hostOps0_W)).trans rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (Vt1 m) c
  | ⟨1, _⟩ => fun c => dat1 (Vt3 m) c
  | ⟨2, _⟩ => fun c => dat2 (Vt5 m) c
  | ⟨3, _⟩ => fun c => dat3 (Vt7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W9 m c) ∗ ∃ r, prngReg c r)

/-! ## The regions as segments -/

-- a library lemma stated over the pinned configuration unifies with the printed one only when unification may unfold
-- plain definitions in a metavariable's type
set_option backward.isDefEq.respectTransparency.types false in
/-- REGION 0 over the thread state: entered from every unscoped buffer at `W1`, left at `W2`. Its arrays are
    split out of the buffers behind them (the layer's input array into three shares) and put back at the exit contents;
    the generator register goes into the invariant and comes back; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vt1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vt1 m c)
  hentry c := by
    rw [Pipeline.ownSems0_none]
    have hsplit := Pipeline.unscopedBufs_split₀ (Ix := Unit) (Name := ℕ) (U := UR sig nD τ) (Lvl := ℕ) cfgs 0 winFacts₀0.arr_unscoped c (Vt1 m c)
    rw [Pipeline.unscopedBufs_held] at hsplit
    have harr := arrays_of_arrBufs0 (Vt1 m) c (Vt1 m c) ((pdats m 0 c).arrAt · 0) (fun w => A_eq0 (Vt1 m) c w)
    have hs : StableHlo.held (c : Thread nD τ) (Pipeline.ucRefs τ sig) (W1 m c)
        ⊢ (iprop(Pipeline.arrBufs (Ix := Unit) (Name := ℕ) (U := UR sig nD τ) (Lvl := ℕ) spec0 c (Vt1 m c) ∗ Pipeline.unscopedRest (Ix := Unit) (Name := ℕ) (U := UR sig nD τ) (Lvl := ℕ) spec0 c (Vt1 m c)) : sProp 𝕄) :=
      Entails.of_eq hsplit
    iintro ⟨⟨Hub, Hp, HO⟩, -, -⟩
    ihave Hub' := hs $$ Hub
    icases Hub' with ⟨Hab, Hrest⟩
    ihave Ha := harr $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hsplit := Pipeline.unscopedBufs_split₀ (Ix := Unit) (Name := ℕ) (U := UR sig nD τ) (Lvl := ℕ) cfgs 0 winFacts₀0.arr_unscoped c (Vt2 m c)
    rw [Pipeline.unscopedBufs_held] at hsplit
    have harr := arrBufs_of_arrays0 (Vt1 m) c (Vt2 m c) ((pdats m 0 c).arrAt · cfg0.N) (hF0 m c)
    have hs : (iprop(Pipeline.arrBufs (Ix := Unit) (Name := ℕ) (U := UR sig nD τ) (Lvl := ℕ) spec0 c (Vt2 m c) ∗ Pipeline.unscopedRest (Ix := Unit) (Name := ℕ) (U := UR sig nD τ) (Lvl := ℕ) spec0 c (Vt2 m c)) : sProp 𝕄)
        ⊢ StableHlo.held (c : Thread nD τ) (Pipeline.ucRefs τ sig) (W2 m c) :=
      Entails.of_eq hsplit.symm
    have hr : (Pipeline.unscopedRest (Ix := Unit) (Name := ℕ) (U := UR sig nD τ) (Lvl := ℕ) spec0 c (Vt1 m c) : sProp 𝕄)
        ⊢ Pipeline.unscopedRest (Ix := Unit) (Name := ℕ) (U := UR sig nD τ) (Lvl := ℕ) spec0 c (Vt2 m c) :=
      Entails.of_eq (hrest0 m c)
    iintro ⟨Ha, HO, HY, Hrest⟩
    imodintro
    isplitl [Ha Hrest]
    · iapply hs
      isplitl [Ha]; · iapply harr; iexact Ha
      iapply hr; iexact Hrest
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at `W3`, left at `W4`. Its arrays are
    split out of the buffers behind them (the layer's input array into three shares) and put back at the exit contents;
    the generator register goes into the invariant and comes back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vt3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (Vt3 m c)
  hentry c := by
    rw [Pipeline.ownSems0_none]
    have hsplit := Pipeline.unscopedBufs_split₀ (Ix := Unit) (Name := ℕ) (U := UR sig nD τ) (Lvl := ℕ) cfgs 1 winFacts₀1.arr_unscoped c (Vt3 m c)
    rw [Pipeline.unscopedBufs_held] at hsplit
    have harr := arrays_of_arrBufs1 (Vt3 m) c (Vt3 m c) ((pdats m 1 c).arrAt · 0) (fun w => A_eq1 (Vt3 m) c w)
    have hs : StableHlo.held (c : Thread nD τ) (Pipeline.ucRefs τ sig) (W3 m c)
        ⊢ (iprop(Pipeline.arrBufs (Ix := Unit) (Name := ℕ) (U := UR sig nD τ) (Lvl := ℕ) spec1 c (Vt3 m c) ∗ Pipeline.unscopedRest (Ix := Unit) (Name := ℕ) (U := UR sig nD τ) (Lvl := ℕ) spec1 c (Vt3 m c)) : sProp 𝕄) :=
      Entails.of_eq hsplit
    iintro ⟨⟨Hub, Hp, HO⟩, -, -⟩
    ihave Hub' := hs $$ Hub
    icases Hub' with ⟨Hab, Hrest⟩
    ihave Ha := harr $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsplit := Pipeline.unscopedBufs_split₀ (Ix := Unit) (Name := ℕ) (U := UR sig nD τ) (Lvl := ℕ) cfgs 1 winFacts₀1.arr_unscoped c (Vt4 m c)
    rw [Pipeline.unscopedBufs_held] at hsplit
    have harr := arrBufs_of_arrays1 (Vt3 m) c (Vt4 m c) ((pdats m 1 c).arrAt · cfg1.N) (hF1 m c)
    have hs : (iprop(Pipeline.arrBufs (Ix := Unit) (Name := ℕ) (U := UR sig nD τ) (Lvl := ℕ) spec1 c (Vt4 m c) ∗ Pipeline.unscopedRest (Ix := Unit) (Name := ℕ) (U := UR sig nD τ) (Lvl := ℕ) spec1 c (Vt4 m c)) : sProp 𝕄)
        ⊢ StableHlo.held (c : Thread nD τ) (Pipeline.ucRefs τ sig) (W4 m c) :=
      Entails.of_eq hsplit.symm
    have hr : (Pipeline.unscopedRest (Ix := Unit) (Name := ℕ) (U := UR sig nD τ) (Lvl := ℕ) spec1 c (Vt3 m c) : sProp 𝕄)
        ⊢ Pipeline.unscopedRest (Ix := Unit) (Name := ℕ) (U := UR sig nD τ) (Lvl := ℕ) spec1 c (Vt4 m c) :=
      Entails.of_eq (hrest1 m c)
    iintro ⟨Ha, HO, HY, Hrest⟩
    imodintro
    isplitl [Ha Hrest]
    · iapply hs
      isplitl [Ha]; · iapply harr; iexact Ha
      iapply hr; iexact Hrest
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at `W5`, left at `W6`. Its arrays are
    split out of the buffers behind them (the layer's input array into three shares) and put back at the exit contents;
    the generator register goes into the invariant and comes back; nothing is owed; the kernel has no semaphore of its own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (Vt5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (Vt5 m c)
  hentry c := by
    rw [Pipeline.ownSems0_none]
    have hsplit := Pipeline.unscopedBufs_split₀ (Ix := Unit) (Name := ℕ) (U := UR sig nD τ) (Lvl := ℕ) cfgs 2 winFacts₀2.arr_unscoped c (Vt5 m c)
    rw [Pipeline.unscopedBufs_held] at hsplit
    have harr := arrays_of_arrBufs2 (Vt5 m) c (Vt5 m c) ((pdats m 2 c).arrAt · 0) (fun w => A_eq2 (Vt5 m) c w)
    have hs : StableHlo.held (c : Thread nD τ) (Pipeline.ucRefs τ sig) (W5 m c)
        ⊢ (iprop(Pipeline.arrBufs (Ix := Unit) (Name := ℕ) (U := UR sig nD τ) (Lvl := ℕ) spec2 c (Vt5 m c) ∗ Pipeline.unscopedRest (Ix := Unit) (Name := ℕ) (U := UR sig nD τ) (Lvl := ℕ) spec2 c (Vt5 m c)) : sProp 𝕄) :=
      Entails.of_eq hsplit
    iintro ⟨⟨Hub, Hp, HO⟩, -, -⟩
    ihave Hub' := hs $$ Hub
    icases Hub' with ⟨Hab, Hrest⟩
    ihave Ha := harr $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hsplit := Pipeline.unscopedBufs_split₀ (Ix := Unit) (Name := ℕ) (U := UR sig nD τ) (Lvl := ℕ) cfgs 2 winFacts₀2.arr_unscoped c (Vt6 m c)
    rw [Pipeline.unscopedBufs_held] at hsplit
    have harr := arrBufs_of_arrays2 (Vt5 m) c (Vt6 m c) ((pdats m 2 c).arrAt · cfg2.N) (hF2 m c)
    have hs : (iprop(Pipeline.arrBufs (Ix := Unit) (Name := ℕ) (U := UR sig nD τ) (Lvl := ℕ) spec2 c (Vt6 m c) ∗ Pipeline.unscopedRest (Ix := Unit) (Name := ℕ) (U := UR sig nD τ) (Lvl := ℕ) spec2 c (Vt6 m c)) : sProp 𝕄)
        ⊢ StableHlo.held (c : Thread nD τ) (Pipeline.ucRefs τ sig) (W6 m c) :=
      Entails.of_eq hsplit.symm
    have hr : (Pipeline.unscopedRest (Ix := Unit) (Name := ℕ) (U := UR sig nD τ) (Lvl := ℕ) spec2 c (Vt5 m c) : sProp 𝕄)
        ⊢ Pipeline.unscopedRest (Ix := Unit) (Name := ℕ) (U := UR sig nD τ) (Lvl := ℕ) spec2 c (Vt6 m c) :=
      Entails.of_eq (hrest2 m c)
    iintro ⟨Ha, HO, HY, Hrest⟩
    imodintro
    isplitl [Ha Hrest]
    · iapply hs
      isplitl [Ha]; · iapply harr; iexact Ha
      iapply hr; iexact Hrest
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 3 over the thread state: entered from every unscoped buffer at `W7`, left at `W8`. Its arrays are
    split out of the buffers behind them (the layer's input array into three shares) and put back at the exit contents;
    the generator register goes into the invariant and comes back; nothing is owed; the kernel has no semaphore of its own. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (Vt7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (Vt7 m c)
  hentry c := by
    rw [Pipeline.ownSems0_none]
    have hsplit := Pipeline.unscopedBufs_split₀ (Ix := Unit) (Name := ℕ) (U := UR sig nD τ) (Lvl := ℕ) cfgs 3 winFacts₀3.arr_unscoped c (Vt7 m c)
    rw [Pipeline.unscopedBufs_held] at hsplit
    have harr := arrays_of_arrBufs3 (Vt7 m) c (Vt7 m c) ((pdats m 3 c).arrAt · 0) (fun w => A_eq3 (Vt7 m) c w)
    have hs : StableHlo.held (c : Thread nD τ) (Pipeline.ucRefs τ sig) (W7 m c)
        ⊢ (iprop(Pipeline.arrBufs (Ix := Unit) (Name := ℕ) (U := UR sig nD τ) (Lvl := ℕ) spec3 c (Vt7 m c) ∗ Pipeline.unscopedRest (Ix := Unit) (Name := ℕ) (U := UR sig nD τ) (Lvl := ℕ) spec3 c (Vt7 m c)) : sProp 𝕄) :=
      Entails.of_eq hsplit
    iintro ⟨⟨Hub, Hp, HO⟩, -, -⟩
    ihave Hub' := hs $$ Hub
    icases Hub' with ⟨Hab, Hrest⟩
    ihave Ha := harr $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hsplit := Pipeline.unscopedBufs_split₀ (Ix := Unit) (Name := ℕ) (U := UR sig nD τ) (Lvl := ℕ) cfgs 3 winFacts₀3.arr_unscoped c (Vt8 m c)
    rw [Pipeline.unscopedBufs_held] at hsplit
    have harr := arrBufs_of_arrays3 (Vt7 m) c (Vt8 m c) ((pdats m 3 c).arrAt · cfg3.N) (hF3 m c)
    have hs : (iprop(Pipeline.arrBufs (Ix := Unit) (Name := ℕ) (U := UR sig nD τ) (Lvl := ℕ) spec3 c (Vt8 m c) ∗ Pipeline.unscopedRest (Ix := Unit) (Name := ℕ) (U := UR sig nD τ) (Lvl := ℕ) spec3 c (Vt8 m c)) : sProp 𝕄)
        ⊢ StableHlo.held (c : Thread nD τ) (Pipeline.ucRefs τ sig) (W8 m c) :=
      Entails.of_eq hsplit.symm
    have hr : (Pipeline.unscopedRest (Ix := Unit) (Name := ℕ) (U := UR sig nD τ) (Lvl := ℕ) spec3 c (Vt7 m c) : sProp 𝕄)
        ⊢ Pipeline.unscopedRest (Ix := Unit) (Name := ℕ) (U := UR sig nD τ) (Lvl := ℕ) spec3 c (Vt8 m c) :=
      Entails.of_eq (hrest3 m c)
    iintro ⟨Ha, HO, HY, Hrest⟩
    imodintro
    isplitl [Ha Hrest]
    · iapply hs
      isplitl [Ha]; · iapply harr; iexact Ha
      iapply hr; iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)) ]

theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting; the result buffer ends at the last boundary's contents and the argument arrays as launched. -/
theorem run_main : θ_run defs (onTc (τ := τ) (main (F := F))) ⟨m, fun _ => 0, ρ⟩ (fun r => ∀ c : Dev nD,
      r.2.mem ((c.tc : Thread nD τ).loc main_v44) = W9 m c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c =>
      ⟨h c _ (mem_uc main_v44 (by decide)),
       (h c _ (mem_uc main_arg0 (by decide))).trans (W9_main_arg0 m c),
       (h c _ (mem_uc main_arg1 (by decide))).trans (W9_main_arg1 m c),
       (h c _ (mem_uc main_arg2 (by decide))).trans (W9_main_arg2 m c),
       (h c _ (mem_uc main_arg3 (by decide))).trans (W9_main_arg3 m c)⟩)

end Cert.Kernel.Hand

end
-- ==== Proof.KI.Run0.lean ====
/-
  The body of the first layer's kernel run once, on whole staging memrefs: the tile, the two halo margins, the three
  weight blocks, the bias row and the out-of-bounds row are read and left as they were; the two halo tiles kept in
  scratch are rebuilt from them; the output tile ends holding the pieces the run finds (one store of the whole tile).
-/
import proofs.«137995_j86517821215731_2_alg».proof.Proof.Gen.KernelIdeal.Launch
import proofs.«137995_j86517821215731_2_alg».proof.Proof.Gen.KernelIdeal.Skeleton
import proofs.«137995_j86517821215731_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body leaves in the output tile (last first), with the proof that the body, started with the eight
    inputs at their contents, the output tile and the two scratch tiles at anything, runs to the continuation holding the
    inputs as they were, the output tile with those pieces written and the scratch tiles at some contents. -/
noncomputable def kernelRun0 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) :
    { L9 : List (View.Piece (Elt F) S512x1024 .f32) //
      ∀ (E : Set ℕ) (K : PUnit → sProp 𝕄),
        iprop(owns (c : Thread nD τ) arg1 fullShare x ∗ owns (c : Thread nD τ) arg2 fullShare lm ∗ owns (c : Thread nD τ) arg3 fullShare rm
            ∗ owns (c : Thread nD τ) arg4 fullShare w0 ∗ owns (c : Thread nD τ) arg5 fullShare w1 ∗ owns (c : Thread nD τ) arg6 fullShare w2
            ∗ owns (c : Thread nD τ) arg7 fullShare b ∗ owns (c : Thread nD τ) arg8 fullShare oob
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x ∗ owns (c : Thread nD τ) arg2 fullShare lm ∗ owns (c : Thread nD τ) arg3 fullShare rm
                ∗ owns (c : Thread nD τ) arg4 fullShare w0 ∗ owns (c : Thread nD τ) arg5 fullShare w1 ∗ owns (c : Thread nD τ) arg6 fullShare w2
                ∗ owns (c : Thread nD τ) arg7 fullShare b ∗ owns (c : Thread nD τ) arg8 fullShare oob
                ∗ (∃ f, arg9.view.loc (c : Thread nD τ) ↦[arg9.view.set]{fullShare} arg9.view.writes (Elt F) f L9)
                ∗ (∃ d, owns (c : Thread nD τ) arg10 fullShare d) ∗ (∃ d, owns (c : Thread nD τ) arg11 fullShare d)) -∗ K ⟨⟩))
          ⊢ wp frame (wpE (defs₀ (F := F)) Variants.none c none) E (cc0__layer_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__layer_kernel_eq_skeleton]; unfold cc0__layer_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexists _; isplitr
      swap; · iexact H10
      ipureintro; rfl
    iexists _; iexists _; isplitr
    swap; · iexact H11
    ipureintro; rfl

end Cert.KernelIdeal.Hand

end
-- ==== Proof.KI.Out0.lean ====
/-
  What the first layer's kernel leaves in its output tile, as one vector: the pieces the run finds, read back.
  The run's one store covers the whole tile, so the contents the tile held before do not matter.
-/
import proofs.«137995_j86517821215731_2_alg».proof.Proof.KI.Run0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The view through which the output tile's contents are stated (any whole 512 × 1024 buffer would do). -/
abbrev VO0 : View sig .tc .vmem S512x1024 .f32 := (Memref.whole cc0_stg8_0 : Memref sig .tc .vmem S512x1024 .f32).view

/-- The output tile after the body: the run's pieces read back. -/
def outG0 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) : Vec F S512x1024 .f32 :=
  VO0.read (Elt F) (VO0.writes (Elt F) VO0.junk (kernelRun0 c i arg1 harg1 arg2 harg2 arg3 harg3 arg4 harg4 arg5 harg5 arg6 harg6 arg7 harg7 arg8 harg8 arg9 harg9 arg10 harg10 arg11 harg11 x lm rm w0 w1 w2 b oob).1)

/-- The run's pieces tile the output tile, so they cover it. -/
theorem coverG0 (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) (y : S512x1024.Idx) :
    ∃ pc ∈ (kernelRun0 c i arg1 harg1 arg2 harg2 arg3 harg3 arg4 harg4 arg5 harg5 arg6 harg6 arg7 harg7 arg8 harg8 arg9 harg9 arg10 harg10 arg11 harg11 x lm rm w0 w1 w2 b oob).1, y ∈ pc.1.set :=
  View.cover_of_tiledL (kernelRun0 c i arg1 harg1 arg2 harg2 arg3 harg3 arg4 harg4 arg5 harg5 arg6 harg6 arg7 harg7 arg8 harg8 arg9 harg9 arg10 harg10 arg11 harg11 x lm rm w0 w1 w2 b oob).1 S512x1024.size (by sl_kernel_rfl) y

end Cert.KernelIdeal.Hand

end
-- ==== Proof.KI.Body0.lean ====
/-
  The first layer's pipeline, at the contents `V` its region is entered with: each window's block at a grid point, the
  proof data (every input window's buffer holds its block at every point, the output's what the body leaves there; the
  three windows on the layer's input array hold it at three shares that make the whole), and the body obligation.
-/
import proofs.«137995_j86517821215731_2_alg».proof.Proof.KI.Out0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, as the pipeline passes it, and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
/-- The two scratch tiles: whole scoped buffers of the kernel's own. -/
abbrev scM0_0 : Memref sig .tc .vmem S512x1024 .f32 := Memref.whole cc0_scratch0
abbrev scM0_1 : Memref sig .tc .vmem S512x1024 .f32 := Memref.whole cc0_scratch1

/-- The output tile after the body at point `t`, from the input blocks there. -/
def out0 (c : Dev nD) (t : Fin cfg0.N) : Vec F S512x1024 .f32 :=
  outG0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t)

/-- The proof data of the first layer's pipeline on core `c`. The layer's input array is read through three windows
    (the tile and its two margins): each holds it at a share, the three shares making the whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0 V c t
  Φ _ := Pipeline.ΦA spec0 c
  q w := match w with
    | ⟨0, _⟩ => fullShare.left
    | ⟨1, _⟩ => fullShare.right.left
    | ⟨2, _⟩ => fullShare.right.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-- The region invariant with the two scratch tiles as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 4000000 in
/-- The body at any point: the input memrefs hold their blocks, so the run applies; the invariant lends the two scratch
    tiles and takes them back at some contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  unfold out0 outG0
  rw [show (dat0 V c).Φ t.castSucc = Pipeline.ΦA spec0 c from rfl, PhiA0_eq]
  iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0 c (grid0.coords t) _ _ _ _ _ _ _ _ _ _ _ _ _ _ _ _ _ _ scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, HS0, HS1⟩
  isplitl [HS0 HS1 HR Hg]
  · isplitl [HS0 HS1 HR]
    · isplitl [HS0 HS1]
      · isplitl [HS0]; · iexact HS0
        iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (coverG0 (F := F) c _ _ _ _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Arr0.lean ====
/-
  The first layer's region holds seven distinct unscoped buffers behind its nine windows: the layer's input array (read
  by three windows — the tile and its two margins), the three weight blocks, the bias row, the out-of-bounds row and the
  output array. Held whole, the seven buffers are the pipeline's nine windowed arrays with the input array split into
  three shares; and back.
-/
import proofs.«137995_j86517821215731_2_alg».proof.Proof.KI.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.SL.BI (bigSep bigSep_congr bigSep_eq_bigSepL_of_eq)

section Region0

variable (V : (c : Dev nD) → (b : Ref sig .tc) → Buf (Elt F) ((c : Thread nD τ).loc b))

/-- The pipeline's arrays as whole buffers, each at its window's share. -/
theorem arrays_eq0 (c : Dev nD) (G : (w : Fin cfg0.W) → Buf (Elt F) ((cfg0.win w).arr.view.loc (c.tc : Thread nD τ))) :
    ((dat0 V c).arrays G : sProp 𝕄)
      = bigSep Finset.univ fun w : Fin cfg0.W => (((c.tc : Thread nD τ).loc (Pipeline.arrRef spec0 w)) ↦{(dat0 V c).share w} G w : sProp 𝕄) := by
  unfold Dat.arrays
  exact bigSep_congr fun w _ => by rw [(arr_whole0 w).set_eq_univ]

theorem share0_0 (c : Dev nD) : (dat0 V c).share 0 = fullShare.left := rfl
theorem share0_1 (c : Dev nD) : (dat0 V c).share 1 = fullShare.right.left := rfl
theorem share0_2 (c : Dev nD) : (dat0 V c).share 2 = fullShare.right.right := rfl
theorem share0_3 (c : Dev nD) : (dat0 V c).share 3 = fullShare := rfl
theorem share0_4 (c : Dev nD) : (dat0 V c).share 4 = fullShare := rfl
theorem share0_5 (c : Dev nD) : (dat0 V c).share 5 = fullShare := rfl
theorem share0_6 (c : Dev nD) : (dat0 V c).share 6 = fullShare := rfl
theorem share0_7 (c : Dev nD) : (dat0 V c).share 7 = fullShare := rfl
theorem share0_8 (c : Dev nD) : (dat0 V c).share 8 = fullShare := rfl

/-- The distinct buffers behind the nine windows, one by one. -/
theorem arrChain0 {M : Type} [URA M] (Φ : Ref sig .tc → sProp M) :
    bigSep (Finset.univ.image (Pipeline.arrRef spec0)) Φ
      = iprop(Φ main_arg0 ∗ Φ main_v3 ∗ Φ main_v4 ∗ Φ main_v5 ∗ Φ main_v8 ∗ Φ main_v9 ∗ Φ main_v10) :=
  bigSep_eq_bigSepL_of_eq [main_arg0, main_v3, main_v4, main_v5, main_v8, main_v9, main_v10] (by decide) (by decide) Φ

/-- ENTRY: the seven buffers whole at `W` are the nine arrays at contents read off `W`. -/
theorem arrays_of_arrBufs0 (c : Dev nD) (W : (b : Ref sig .tc) → Buf (Elt F) ((c : Thread nD τ).loc b))
    (G : (w : Fin cfg0.W) → Buf (Elt F) ((cfg0.win w).arr.view.loc (c.tc : Thread nD τ)))
    (hG : ∀ w, G w = W (Pipeline.arrRef spec0 w)) :
    (Pipeline.arrBufs (Ix := Unit) (Name := ℕ) (U := UR sig nD τ) (Lvl := ℕ) spec0 c W : sProp 𝕄) ⊢ (dat0 V c).arrays G := by
  obtain rfl : G = fun w => W (Pipeline.arrRef spec0 w) := funext hG
  rw [arrays_eq0, bigSep_W0]
  unfold Pipeline.arrBufs
  rw [arrChain0]
  iintro ⟨Ha, H3, H4, H5, H6, H7, H8⟩
  ihave Hs := (pointsTo_share (PosShare.mem_left_op_right fullShare)).1 $$ Ha
  icases Hs with ⟨HL, HR⟩
  ihave Hs2 := (pointsTo_share (PosShare.mem_left_op_right fullShare.right)).1 $$ HR
  icases Hs2 with ⟨HRL, HRR⟩
  isplitl [HL]; · iexact HL
  isplitl [HRL]; · iexact HRL
  isplitl [HRR]; · iexact HRR
  isplitl [H3]; · iexact H3
  isplitl [H4]; · iexact H4
  isplitl [H5]; · iexact H5
  isplitl [H6]; · iexact H6
  isplitl [H7]; · iexact H7
  iexact H8

/-- EXIT: the nine arrays at contents read off `W` are the seven buffers whole at `W`. -/
theorem arrBufs_of_arrays0 (c : Dev nD) (W : (b : Ref sig .tc) → Buf (Elt F) ((c : Thread nD τ).loc b))
    (G : (w : Fin cfg0.W) → Buf (Elt F) ((cfg0.win w).arr.view.loc (c.tc : Thread nD τ)))
    (hG : ∀ w, G w = W (Pipeline.arrRef spec0 w)) :
    (dat0 V c).arrays G ⊢ (Pipeline.arrBufs (Ix := Unit) (Name := ℕ) (U := UR sig nD τ) (Lvl := ℕ) spec0 c W : sProp 𝕄) := by
  obtain rfl : G = fun w => W (Pipeline.arrRef spec0 w) := funext hG
  rw [arrays_eq0, bigSep_W0]
  unfold Pipeline.arrBufs
  rw [arrChain0]
  iintro ⟨HL, HRL, HRR, H3, H4, H5, H6, H7, H8⟩
  ihave HR := (pointsTo_share (PosShare.mem_left_op_right fullShare.right)).2 $$ [HRL HRR]
  · isplitl [HRL]; · iexact HRL
    iexact HRR
  ihave Ha := (pointsTo_share (PosShare.mem_left_op_right fullShare)).2 $$ [HL HR]
  · isplitl [HL]; · iexact HL
    iexact HR
  isplitl [Ha]; · iexact Ha
  isplitl [H3]; · iexact H3
  isplitl [H4]; · iexact H4
  isplitl [H5]; · iexact H5
  isplitl [H6]; · iexact H6
  isplitl [H7]; · iexact H7
  iexact H8

end Region0

end Cert.KernelIdeal.Hand

end
-- ==== Proof.KI.Run1.lean ====
/-
  The body of the second layer's kernel run once, on whole staging memrefs: the tile, the two halo margins, the three
  weight blocks, the bias row and the out-of-bounds row are read and left as they were; the two halo tiles kept in
  scratch are rebuilt from them; the output tile ends holding the pieces the run finds (one store of the whole tile).
-/
import proofs.«137995_j86517821215731_2_alg».proof.Proof.Gen.KernelIdeal.Launch
import proofs.«137995_j86517821215731_2_alg».proof.Proof.Gen.KernelIdeal.Skeleton
import proofs.«137995_j86517821215731_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body leaves in the output tile (last first), with the proof that the body, started with the eight
    inputs at their contents, the output tile and the two scratch tiles at anything, runs to the continuation holding the
    inputs as they were, the output tile with those pieces written and the scratch tiles at some contents. -/
noncomputable def kernelRun1 (c : Dev nD) (i : grid1.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) :
    { L9 : List (View.Piece (Elt F) S512x1024 .f32) //
      ∀ (E : Set ℕ) (K : PUnit → sProp 𝕄),
        iprop(owns (c : Thread nD τ) arg1 fullShare x ∗ owns (c : Thread nD τ) arg2 fullShare lm ∗ owns (c : Thread nD τ) arg3 fullShare rm
            ∗ owns (c : Thread nD τ) arg4 fullShare w0 ∗ owns (c : Thread nD τ) arg5 fullShare w1 ∗ owns (c : Thread nD τ) arg6 fullShare w2
            ∗ owns (c : Thread nD τ) arg7 fullShare b ∗ owns (c : Thread nD τ) arg8 fullShare oob
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x ∗ owns (c : Thread nD τ) arg2 fullShare lm ∗ owns (c : Thread nD τ) arg3 fullShare rm
                ∗ owns (c : Thread nD τ) arg4 fullShare w0 ∗ owns (c : Thread nD τ) arg5 fullShare w1 ∗ owns (c : Thread nD τ) arg6 fullShare w2
                ∗ owns (c : Thread nD τ) arg7 fullShare b ∗ owns (c : Thread nD τ) arg8 fullShare oob
                ∗ (∃ f, arg9.view.loc (c : Thread nD τ) ↦[arg9.view.set]{fullShare} arg9.view.writes (Elt F) f L9)
                ∗ (∃ d, owns (c : Thread nD τ) arg10 fullShare d) ∗ (∃ d, owns (c : Thread nD τ) arg11 fullShare d)) -∗ K ⟨⟩))
          ⊢ wp frame (wpE (defs₀ (F := F)) Variants.none c none) E (cc1__layer_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc1__layer_kernel_eq_skeleton]; unfold cc1__layer_kernel_skel
    simp only [k1_part1_eq_skeleton]; unfold k1_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexists _; isplitr
      swap; · iexact H10
      ipureintro; rfl
    iexists _; iexists _; isplitr
    swap; · iexact H11
    ipureintro; rfl

end Cert.KernelIdeal.Hand

end
-- ==== Proof.KI.Out1.lean ====
/-
  What the second layer's kernel leaves in its output tile, as one vector: the pieces the run finds, read back.
  The run's one store covers the whole tile, so the contents the tile held before do not matter.
-/
import proofs.«137995_j86517821215731_2_alg».proof.Proof.KI.Run1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The view through which the output tile's contents are stated (any whole 512 × 1024 buffer would do). -/
abbrev VO1 : View sig .tc .vmem S512x1024 .f32 := (Memref.whole cc1_stg8_0 : Memref sig .tc .vmem S512x1024 .f32).view

/-- The output tile after the body: the run's pieces read back. -/
def outG1 (c : Dev nD) (i : grid1.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) : Vec F S512x1024 .f32 :=
  VO1.read (Elt F) (VO1.writes (Elt F) VO1.junk (kernelRun1 c i arg1 harg1 arg2 harg2 arg3 harg3 arg4 harg4 arg5 harg5 arg6 harg6 arg7 harg7 arg8 harg8 arg9 harg9 arg10 harg10 arg11 harg11 x lm rm w0 w1 w2 b oob).1)

/-- The run's pieces tile the output tile, so they cover it. -/
theorem coverG1 (c : Dev nD) (i : grid1.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) (y : S512x1024.Idx) :
    ∃ pc ∈ (kernelRun1 c i arg1 harg1 arg2 harg2 arg3 harg3 arg4 harg4 arg5 harg5 arg6 harg6 arg7 harg7 arg8 harg8 arg9 harg9 arg10 harg10 arg11 harg11 x lm rm w0 w1 w2 b oob).1, y ∈ pc.1.set :=
  View.cover_of_tiledL (kernelRun1 c i arg1 harg1 arg2 harg2 arg3 harg3 arg4 harg4 arg5 harg5 arg6 harg6 arg7 harg7 arg8 harg8 arg9 harg9 arg10 harg10 arg11 harg11 x lm rm w0 w1 w2 b oob).1 S512x1024.size (by sl_kernel_rfl) y

end Cert.KernelIdeal.Hand

end
-- ==== Proof.KI.Body1.lean ====
/-
  The second layer's pipeline, at the contents `V` its region is entered with: each window's block at a grid point, the
  proof data (every input window's buffer holds its block at every point, the output's what the body leaves there; the
  three windows on the layer's input array hold it at three shares that make the whole), and the body obligation.
-/
import proofs.«137995_j86517821215731_2_alg».proof.Proof.KI.Out1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it, and its wholeness. -/
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x1024 .f32 := win1_8.stage (cfg1.slots t 8)
abbrev hs1_8 (t : Fin cfg1.N) : (ms1_8 t).IsWhole := hstage1_8 ((cfg1.slots t 8).cast nbuf1_8)
/-- The two scratch tiles: whole scoped buffers of the kernel's own. -/
abbrev scM1_0 : Memref sig .tc .vmem S512x1024 .f32 := Memref.whole cc1_scratch0
abbrev scM1_1 : Memref sig .tc .vmem S512x1024 .f32 := Memref.whole cc1_scratch1

/-- The output tile after the body at point `t`, from the input blocks there. -/
def out1 (c : Dev nD) (t : Fin cfg1.N) : Vec F S512x1024 .f32 :=
  outG1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t)

/-- The proof data of the second layer's pipeline on core `c`. The layer's input array is read through three windows
    (the tile and its two margins): each holds it at a share, the three shares making the whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1 V c t
  Φ _ := Pipeline.ΦA spec1 c
  q w := match w with
    | ⟨0, _⟩ => fullShare.left
    | ⟨1, _⟩ => fullShare.right.left
    | ⟨2, _⟩ => fullShare.right.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- The region invariant with the two scratch tiles as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 4000000 in
/-- The body at any point: the input memrefs hold their blocks, so the run applies; the invariant lends the two scratch
    tiles and takes them back at some contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  unfold out1 outG1
  rw [show (dat1 V c).Φ t.castSucc = Pipeline.ΦA spec1 c from rfl, PhiA1_eq]
  iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun1 c (grid1.coords t) _ _ _ _ _ _ _ _ _ _ _ _ _ _ _ _ _ _ scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, HS0, HS1⟩
  isplitl [HS0 HS1 HR Hg]
  · isplitl [HS0 HS1 HR]
    · isplitl [HS0 HS1]
      · isplitl [HS0]; · iexact HS0
        iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (coverG1 (F := F) c _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Arr1.lean ====
/-
  The second layer's region holds seven distinct unscoped buffers behind its nine windows: the layer's input array (read
  by three windows — the tile and its two margins), the three weight blocks, the bias row, the out-of-bounds row and the
  output array. Held whole, the seven buffers are the pipeline's nine windowed arrays with the input array split into
  three shares; and back.
-/
import proofs.«137995_j86517821215731_2_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.SL.BI (bigSep bigSep_congr bigSep_eq_bigSepL_of_eq)

section Region1

variable (V : (c : Dev nD) → (b : Ref sig .tc) → Buf (Elt F) ((c : Thread nD τ).loc b))

/-- The pipeline's arrays as whole buffers, each at its window's share. -/
theorem arrays_eq1 (c : Dev nD) (G : (w : Fin cfg1.W) → Buf (Elt F) ((cfg1.win w).arr.view.loc (c.tc : Thread nD τ))) :
    ((dat1 V c).arrays G : sProp 𝕄)
      = bigSep Finset.univ fun w : Fin cfg1.W => (((c.tc : Thread nD τ).loc (Pipeline.arrRef spec1 w)) ↦{(dat1 V c).share w} G w : sProp 𝕄) := by
  unfold Dat.arrays
  exact bigSep_congr fun w _ => by rw [(arr_whole1 w).set_eq_univ]

theorem share1_0 (c : Dev nD) : (dat1 V c).share 0 = fullShare.left := rfl
theorem share1_1 (c : Dev nD) : (dat1 V c).share 1 = fullShare.right.left := rfl
theorem share1_2 (c : Dev nD) : (dat1 V c).share 2 = fullShare.right.right := rfl
theorem share1_3 (c : Dev nD) : (dat1 V c).share 3 = fullShare := rfl
theorem share1_4 (c : Dev nD) : (dat1 V c).share 4 = fullShare := rfl
theorem share1_5 (c : Dev nD) : (dat1 V c).share 5 = fullShare := rfl
theorem share1_6 (c : Dev nD) : (dat1 V c).share 6 = fullShare := rfl
theorem share1_7 (c : Dev nD) : (dat1 V c).share 7 = fullShare := rfl
theorem share1_8 (c : Dev nD) : (dat1 V c).share 8 = fullShare := rfl

/-- The distinct buffers behind the nine windows, one by one. -/
theorem arrChain1 {M : Type} [URA M] (Φ : Ref sig .tc → sProp M) :
    bigSep (Finset.univ.image (Pipeline.arrRef spec1)) Φ
      = iprop(Φ main_v10 ∗ Φ main_v14 ∗ Φ main_v15 ∗ Φ main_v16 ∗ Φ main_v19 ∗ Φ main_v20 ∗ Φ main_v21) :=
  bigSep_eq_bigSepL_of_eq [main_v10, main_v14, main_v15, main_v16, main_v19, main_v20, main_v21] (by decide) (by decide) Φ

/-- ENTRY: the seven buffers whole at `W` are the nine arrays at contents read off `W`. -/
theorem arrays_of_arrBufs1 (c : Dev nD) (W : (b : Ref sig .tc) → Buf (Elt F) ((c : Thread nD τ).loc b))
    (G : (w : Fin cfg1.W) → Buf (Elt F) ((cfg1.win w).arr.view.loc (c.tc : Thread nD τ)))
    (hG : ∀ w, G w = W (Pipeline.arrRef spec1 w)) :
    (Pipeline.arrBufs (Ix := Unit) (Name := ℕ) (U := UR sig nD τ) (Lvl := ℕ) spec1 c W : sProp 𝕄) ⊢ (dat1 V c).arrays G := by
  obtain rfl : G = fun w => W (Pipeline.arrRef spec1 w) := funext hG
  rw [arrays_eq1, bigSep_W1]
  unfold Pipeline.arrBufs
  rw [arrChain1]
  iintro ⟨Ha, H3, H4, H5, H6, H7, H8⟩
  ihave Hs := (pointsTo_share (PosShare.mem_left_op_right fullShare)).1 $$ Ha
  icases Hs with ⟨HL, HR⟩
  ihave Hs2 := (pointsTo_share (PosShare.mem_left_op_right fullShare.right)).1 $$ HR
  icases Hs2 with ⟨HRL, HRR⟩
  isplitl [HL]; · iexact HL
  isplitl [HRL]; · iexact HRL
  isplitl [HRR]; · iexact HRR
  isplitl [H3]; · iexact H3
  isplitl [H4]; · iexact H4
  isplitl [H5]; · iexact H5
  isplitl [H6]; · iexact H6
  isplitl [H7]; · iexact H7
  iexact H8

/-- EXIT: the nine arrays at contents read off `W` are the seven buffers whole at `W`. -/
theorem arrBufs_of_arrays1 (c : Dev nD) (W : (b : Ref sig .tc) → Buf (Elt F) ((c : Thread nD τ).loc b))
    (G : (w : Fin cfg1.W) → Buf (Elt F) ((cfg1.win w).arr.view.loc (c.tc : Thread nD τ)))
    (hG : ∀ w, G w = W (Pipeline.arrRef spec1 w)) :
    (dat1 V c).arrays G ⊢ (Pipeline.arrBufs (Ix := Unit) (Name := ℕ) (U := UR sig nD τ) (Lvl := ℕ) spec1 c W : sProp 𝕄) := by
  obtain rfl : G = fun w => W (Pipeline.arrRef spec1 w) := funext hG
  rw [arrays_eq1, bigSep_W1]
  unfold Pipeline.arrBufs
  rw [arrChain1]
  iintro ⟨HL, HRL, HRR, H3, H4, H5, H6, H7, H8⟩
  ihave HR := (pointsTo_share (PosShare.mem_left_op_right fullShare.right)).2 $$ [HRL HRR]
  · isplitl [HRL]; · iexact HRL
    iexact HRR
  ihave Ha := (pointsTo_share (PosShare.mem_left_op_right fullShare)).2 $$ [HL HR]
  · isplitl [HL]; · iexact HL
    iexact HR
  isplitl [Ha]; · iexact Ha
  isplitl [H3]; · iexact H3
  isplitl [H4]; · iexact H4
  isplitl [H5]; · iexact H5
  isplitl [H6]; · iexact H6
  isplitl [H7]; · iexact H7
  iexact H8

end Region1

end Cert.KernelIdeal.Hand

end
-- ==== Proof.KI.Run2.lean ====
/-
  The body of the third layer's kernel run once, on whole staging memrefs: the tile, the two halo margins, the three
  weight blocks, the bias row and the out-of-bounds row are read and left as they were; the two halo tiles kept in
  scratch are rebuilt from them; the output tile ends holding the pieces the run finds (one store of the whole tile).
-/
import proofs.«137995_j86517821215731_2_alg».proof.Proof.Gen.KernelIdeal.Launch
import proofs.«137995_j86517821215731_2_alg».proof.Proof.Gen.KernelIdeal.Skeleton
import proofs.«137995_j86517821215731_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body leaves in the output tile (last first), with the proof that the body, started with the eight
    inputs at their contents, the output tile and the two scratch tiles at anything, runs to the continuation holding the
    inputs as they were, the output tile with those pieces written and the scratch tiles at some contents. -/
noncomputable def kernelRun2 (c : Dev nD) (i : grid2.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) :
    { L9 : List (View.Piece (Elt F) S512x1024 .f32) //
      ∀ (E : Set ℕ) (K : PUnit → sProp 𝕄),
        iprop(owns (c : Thread nD τ) arg1 fullShare x ∗ owns (c : Thread nD τ) arg2 fullShare lm ∗ owns (c : Thread nD τ) arg3 fullShare rm
            ∗ owns (c : Thread nD τ) arg4 fullShare w0 ∗ owns (c : Thread nD τ) arg5 fullShare w1 ∗ owns (c : Thread nD τ) arg6 fullShare w2
            ∗ owns (c : Thread nD τ) arg7 fullShare b ∗ owns (c : Thread nD τ) arg8 fullShare oob
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x ∗ owns (c : Thread nD τ) arg2 fullShare lm ∗ owns (c : Thread nD τ) arg3 fullShare rm
                ∗ owns (c : Thread nD τ) arg4 fullShare w0 ∗ owns (c : Thread nD τ) arg5 fullShare w1 ∗ owns (c : Thread nD τ) arg6 fullShare w2
                ∗ owns (c : Thread nD τ) arg7 fullShare b ∗ owns (c : Thread nD τ) arg8 fullShare oob
                ∗ (∃ f, arg9.view.loc (c : Thread nD τ) ↦[arg9.view.set]{fullShare} arg9.view.writes (Elt F) f L9)
                ∗ (∃ d, owns (c : Thread nD τ) arg10 fullShare d) ∗ (∃ d, owns (c : Thread nD τ) arg11 fullShare d)) -∗ K ⟨⟩))
          ⊢ wp frame (wpE (defs₀ (F := F)) Variants.none c none) E (cc2__layer_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc2__layer_kernel_eq_skeleton]; unfold cc2__layer_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexists _; isplitr
      swap; · iexact H10
      ipureintro; rfl
    iexists _; iexists _; isplitr
    swap; · iexact H11
    ipureintro; rfl

end Cert.KernelIdeal.Hand

end
-- ==== Proof.KI.Out2.lean ====
/-
  What the third layer's kernel leaves in its output tile, as one vector: the pieces the run finds, read back.
  The run's one store covers the whole tile, so the contents the tile held before do not matter.
-/
import proofs.«137995_j86517821215731_2_alg».proof.Proof.KI.Run2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The view through which the output tile's contents are stated (any whole 512 × 1024 buffer would do). -/
abbrev VO2 : View sig .tc .vmem S512x1024 .f32 := (Memref.whole cc2_stg8_0 : Memref sig .tc .vmem S512x1024 .f32).view

/-- The output tile after the body: the run's pieces read back. -/
def outG2 (c : Dev nD) (i : grid2.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) : Vec F S512x1024 .f32 :=
  VO2.read (Elt F) (VO2.writes (Elt F) VO2.junk (kernelRun2 c i arg1 harg1 arg2 harg2 arg3 harg3 arg4 harg4 arg5 harg5 arg6 harg6 arg7 harg7 arg8 harg8 arg9 harg9 arg10 harg10 arg11 harg11 x lm rm w0 w1 w2 b oob).1)

/-- The run's pieces tile the output tile, so they cover it. -/
theorem coverG2 (c : Dev nD) (i : grid2.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) (y : S512x1024.Idx) :
    ∃ pc ∈ (kernelRun2 c i arg1 harg1 arg2 harg2 arg3 harg3 arg4 harg4 arg5 harg5 arg6 harg6 arg7 harg7 arg8 harg8 arg9 harg9 arg10 harg10 arg11 harg11 x lm rm w0 w1 w2 b oob).1, y ∈ pc.1.set :=
  View.cover_of_tiledL (kernelRun2 c i arg1 harg1 arg2 harg2 arg3 harg3 arg4 harg4 arg5 harg5 arg6 harg6 arg7 harg7 arg8 harg8 arg9 harg9 arg10 harg10 arg11 harg11 x lm rm w0 w1 w2 b oob).1 S512x1024.size (by sl_kernel_rfl) y

end Cert.KernelIdeal.Hand

end
-- ==== Proof.KI.Body2.lean ====
/-
  The third layer's pipeline, at the contents `V` its region is entered with: each window's block at a grid point, the
  proof data (every input window's buffer holds its block at every point, the output's what the body leaves there; the
  three windows on the layer's input array hold it at three shares that make the whole), and the body obligation.
-/
import proofs.«137995_j86517821215731_2_alg».proof.Proof.KI.Out2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging memref at point `t`, as the pipeline passes it, and its wholeness. -/
abbrev ms2_0 (t : Fin cfg2.N) : Memref sig .tc .vmem S512x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x1024 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1024 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x1024 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S512x1024 .f32 := win2_8.stage (cfg2.slots t 8)
abbrev hs2_8 (t : Fin cfg2.N) : (ms2_8 t).IsWhole := hstage2_8 ((cfg2.slots t 8).cast nbuf2_8)
/-- The two scratch tiles: whole scoped buffers of the kernel's own. -/
abbrev scM2_0 : Memref sig .tc .vmem S512x1024 .f32 := Memref.whole cc2_scratch0
abbrev scM2_1 : Memref sig .tc .vmem S512x1024 .f32 := Memref.whole cc2_scratch1

/-- The output tile after the body at point `t`, from the input blocks there. -/
def out2 (c : Dev nD) (t : Fin cfg2.N) : Vec F S512x1024 .f32 :=
  outG2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (iblk2 V c 0 t) (iblk2 V c 1 t) (iblk2 V c 2 t) (iblk2 V c 3 t) (iblk2 V c 4 t) (iblk2 V c 5 t) (iblk2 V c 6 t) (iblk2 V c 7 t)

/-- The proof data of the third layer's pipeline on core `c`. The layer's input array is read through three windows
    (the tile and its two margins): each holds it at a share, the three shares making the whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2 V c t
  Φ _ := Pipeline.ΦA spec2 c
  q w := match w with
    | ⟨0, _⟩ => fullShare.left
    | ⟨1, _⟩ => fullShare.right.left
    | ⟨2, _⟩ => fullShare.right.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- The region invariant with the two scratch tiles as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 4000000 in
/-- The body at any point: the input memrefs hold their blocks, so the run applies; the invariant lends the two scratch
    tiles and takes them back at some contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  unfold out2 outG2
  rw [show (dat2 V c).Φ t.castSucc = Pipeline.ΦA spec2 c from rfl, PhiA2_eq]
  iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun2 c (grid2.coords t) _ _ _ _ _ _ _ _ _ _ _ _ _ _ _ _ _ _ scM2_0 (Memref.isWhole_whole _) scM2_1 (Memref.isWhole_whole _) (iblk2 V c 0 t) (iblk2 V c 1 t) (iblk2 V c 2 t) (iblk2 V c 3 t) (iblk2 V c 4 t) (iblk2 V c 5 t) (iblk2 V c 6 t) (iblk2 V c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, HS0, HS1⟩
  isplitl [HS0 HS1 HR Hg]
  · isplitl [HS0 HS1 HR]
    · isplitl [HS0 HS1]
      · isplitl [HS0]; · iexact HS0
        iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (coverG2 (F := F) c _ _ _ _ _ _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Arr2.lean ====
/-
  The third layer's region holds seven distinct unscoped buffers behind its nine windows: the layer's input array (read
  by three windows — the tile and its two margins), the three weight blocks, the bias row, the out-of-bounds row and the
  output array. Held whole, the seven buffers are the pipeline's nine windowed arrays with the input array split into
  three shares; and back.
-/
import proofs.«137995_j86517821215731_2_alg».proof.Proof.KI.Body2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.SL.BI (bigSep bigSep_congr bigSep_eq_bigSepL_of_eq)

section Region2

variable (V : (c : Dev nD) → (b : Ref sig .tc) → Buf (Elt F) ((c : Thread nD τ).loc b))

/-- The pipeline's arrays as whole buffers, each at its window's share. -/
theorem arrays_eq2 (c : Dev nD) (G : (w : Fin cfg2.W) → Buf (Elt F) ((cfg2.win w).arr.view.loc (c.tc : Thread nD τ))) :
    ((dat2 V c).arrays G : sProp 𝕄)
      = bigSep Finset.univ fun w : Fin cfg2.W => (((c.tc : Thread nD τ).loc (Pipeline.arrRef spec2 w)) ↦{(dat2 V c).share w} G w : sProp 𝕄) := by
  unfold Dat.arrays
  exact bigSep_congr fun w _ => by rw [(arr_whole2 w).set_eq_univ]

theorem share2_0 (c : Dev nD) : (dat2 V c).share 0 = fullShare.left := rfl
theorem share2_1 (c : Dev nD) : (dat2 V c).share 1 = fullShare.right.left := rfl
theorem share2_2 (c : Dev nD) : (dat2 V c).share 2 = fullShare.right.right := rfl
theorem share2_3 (c : Dev nD) : (dat2 V c).share 3 = fullShare := rfl
theorem share2_4 (c : Dev nD) : (dat2 V c).share 4 = fullShare := rfl
theorem share2_5 (c : Dev nD) : (dat2 V c).share 5 = fullShare := rfl
theorem share2_6 (c : Dev nD) : (dat2 V c).share 6 = fullShare := rfl
theorem share2_7 (c : Dev nD) : (dat2 V c).share 7 = fullShare := rfl
theorem share2_8 (c : Dev nD) : (dat2 V c).share 8 = fullShare := rfl

/-- The distinct buffers behind the nine windows, one by one. -/
theorem arrChain2 {M : Type} [URA M] (Φ : Ref sig .tc → sProp M) :
    bigSep (Finset.univ.image (Pipeline.arrRef spec2)) Φ
      = iprop(Φ main_v21 ∗ Φ main_v25 ∗ Φ main_v26 ∗ Φ main_v27 ∗ Φ main_v30 ∗ Φ main_v31 ∗ Φ main_v32) :=
  bigSep_eq_bigSepL_of_eq [main_v21, main_v25, main_v26, main_v27, main_v30, main_v31, main_v32] (by decide) (by decide) Φ

/-- ENTRY: the seven buffers whole at `W` are the nine arrays at contents read off `W`. -/
theorem arrays_of_arrBufs2 (c : Dev nD) (W : (b : Ref sig .tc) → Buf (Elt F) ((c : Thread nD τ).loc b))
    (G : (w : Fin cfg2.W) → Buf (Elt F) ((cfg2.win w).arr.view.loc (c.tc : Thread nD τ)))
    (hG : ∀ w, G w = W (Pipeline.arrRef spec2 w)) :
    (Pipeline.arrBufs (Ix := Unit) (Name := ℕ) (U := UR sig nD τ) (Lvl := ℕ) spec2 c W : sProp 𝕄) ⊢ (dat2 V c).arrays G := by
  obtain rfl : G = fun w => W (Pipeline.arrRef spec2 w) := funext hG
  rw [arrays_eq2, bigSep_W2]
  unfold Pipeline.arrBufs
  rw [arrChain2]
  iintro ⟨Ha, H3, H4, H5, H6, H7, H8⟩
  ihave Hs := (pointsTo_share (PosShare.mem_left_op_right fullShare)).1 $$ Ha
  icases Hs with ⟨HL, HR⟩
  ihave Hs2 := (pointsTo_share (PosShare.mem_left_op_right fullShare.right)).1 $$ HR
  icases Hs2 with ⟨HRL, HRR⟩
  isplitl [HL]; · iexact HL
  isplitl [HRL]; · iexact HRL
  isplitl [HRR]; · iexact HRR
  isplitl [H3]; · iexact H3
  isplitl [H4]; · iexact H4
  isplitl [H5]; · iexact H5
  isplitl [H6]; · iexact H6
  isplitl [H7]; · iexact H7
  iexact H8

/-- EXIT: the nine arrays at contents read off `W` are the seven buffers whole at `W`. -/
theorem arrBufs_of_arrays2 (c : Dev nD) (W : (b : Ref sig .tc) → Buf (Elt F) ((c : Thread nD τ).loc b))
    (G : (w : Fin cfg2.W) → Buf (Elt F) ((cfg2.win w).arr.view.loc (c.tc : Thread nD τ)))
    (hG : ∀ w, G w = W (Pipeline.arrRef spec2 w)) :
    (dat2 V c).arrays G ⊢ (Pipeline.arrBufs (Ix := Unit) (Name := ℕ) (U := UR sig nD τ) (Lvl := ℕ) spec2 c W : sProp 𝕄) := by
  obtain rfl : G = fun w => W (Pipeline.arrRef spec2 w) := funext hG
  rw [arrays_eq2, bigSep_W2]
  unfold Pipeline.arrBufs
  rw [arrChain2]
  iintro ⟨HL, HRL, HRR, H3, H4, H5, H6, H7, H8⟩
  ihave HR := (pointsTo_share (PosShare.mem_left_op_right fullShare.right)).2 $$ [HRL HRR]
  · isplitl [HRL]; · iexact HRL
    iexact HRR
  ihave Ha := (pointsTo_share (PosShare.mem_left_op_right fullShare)).2 $$ [HL HR]
  · isplitl [HL]; · iexact HL
    iexact HR
  isplitl [Ha]; · iexact Ha
  isplitl [H3]; · iexact H3
  isplitl [H4]; · iexact H4
  isplitl [H5]; · iexact H5
  isplitl [H6]; · iexact H6
  isplitl [H7]; · iexact H7
  iexact H8

end Region2

end Cert.KernelIdeal.Hand

end
-- ==== Proof.KI.Run3.lean ====
/-
  The body of the fourth layer's kernel run once, on whole staging memrefs: the tile, the two halo margins, the three
  weight blocks, the bias row and the out-of-bounds row are read and left as they were; the two halo tiles kept in
  scratch are rebuilt from them; the output tile ends holding the pieces the run finds (one store of the whole tile).
-/
import proofs.«137995_j86517821215731_2_alg».proof.Proof.Gen.KernelIdeal.Launch
import proofs.«137995_j86517821215731_2_alg».proof.Proof.Gen.KernelIdeal.Skeleton
import proofs.«137995_j86517821215731_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body leaves in the output tile (last first), with the proof that the body, started with the eight
    inputs at their contents, the output tile and the two scratch tiles at anything, runs to the continuation holding the
    inputs as they were, the output tile with those pieces written and the scratch tiles at some contents. -/
noncomputable def kernelRun3 (c : Dev nD) (i : grid3.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) :
    { L9 : List (View.Piece (Elt F) S512x1024 .f32) //
      ∀ (E : Set ℕ) (K : PUnit → sProp 𝕄),
        iprop(owns (c : Thread nD τ) arg1 fullShare x ∗ owns (c : Thread nD τ) arg2 fullShare lm ∗ owns (c : Thread nD τ) arg3 fullShare rm
            ∗ owns (c : Thread nD τ) arg4 fullShare w0 ∗ owns (c : Thread nD τ) arg5 fullShare w1 ∗ owns (c : Thread nD τ) arg6 fullShare w2
            ∗ owns (c : Thread nD τ) arg7 fullShare b ∗ owns (c : Thread nD τ) arg8 fullShare oob
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x ∗ owns (c : Thread nD τ) arg2 fullShare lm ∗ owns (c : Thread nD τ) arg3 fullShare rm
                ∗ owns (c : Thread nD τ) arg4 fullShare w0 ∗ owns (c : Thread nD τ) arg5 fullShare w1 ∗ owns (c : Thread nD τ) arg6 fullShare w2
                ∗ owns (c : Thread nD τ) arg7 fullShare b ∗ owns (c : Thread nD τ) arg8 fullShare oob
                ∗ (∃ f, arg9.view.loc (c : Thread nD τ) ↦[arg9.view.set]{fullShare} arg9.view.writes (Elt F) f L9)
                ∗ (∃ d, owns (c : Thread nD τ) arg10 fullShare d) ∗ (∃ d, owns (c : Thread nD τ) arg11 fullShare d)) -∗ K ⟨⟩))
          ⊢ wp frame (wpE (defs₀ (F := F)) Variants.none c none) E (cc3__layer_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc3__layer_kernel_eq_skeleton]; unfold cc3__layer_kernel_skel
    simp only [k3_part1_eq_skeleton]; unfold k3_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexists _; isplitr
      swap; · iexact H10
      ipureintro; rfl
    iexists _; iexists _; isplitr
    swap; · iexact H11
    ipureintro; rfl

end Cert.KernelIdeal.Hand

end
-- ==== Proof.KI.Out3.lean ====
/-
  What the fourth layer's kernel leaves in its output tile, as one vector: the pieces the run finds, read back.
  The run's one store covers the whole tile, so the contents the tile held before do not matter.
-/
import proofs.«137995_j86517821215731_2_alg».proof.Proof.KI.Run3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The view through which the output tile's contents are stated (any whole 512 × 1024 buffer would do). -/
abbrev VO3 : View sig .tc .vmem S512x1024 .f32 := (Memref.whole cc3_stg8_0 : Memref sig .tc .vmem S512x1024 .f32).view

/-- The output tile after the body: the run's pieces read back. -/
def outG3 (c : Dev nD) (i : grid3.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) : Vec F S512x1024 .f32 :=
  VO3.read (Elt F) (VO3.writes (Elt F) VO3.junk (kernelRun3 c i arg1 harg1 arg2 harg2 arg3 harg3 arg4 harg4 arg5 harg5 arg6 harg6 arg7 harg7 arg8 harg8 arg9 harg9 arg10 harg10 arg11 harg11 x lm rm w0 w1 w2 b oob).1)

/-- The run's pieces tile the output tile, so they cover it. -/
theorem coverG3 (c : Dev nD) (i : grid3.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) (y : S512x1024.Idx) :
    ∃ pc ∈ (kernelRun3 c i arg1 harg1 arg2 harg2 arg3 harg3 arg4 harg4 arg5 harg5 arg6 harg6 arg7 harg7 arg8 harg8 arg9 harg9 arg10 harg10 arg11 harg11 x lm rm w0 w1 w2 b oob).1, y ∈ pc.1.set :=
  View.cover_of_tiledL (kernelRun3 c i arg1 harg1 arg2 harg2 arg3 harg3 arg4 harg4 arg5 harg5 arg6 harg6 arg7 harg7 arg8 harg8 arg9 harg9 arg10 harg10 arg11 harg11 x lm rm w0 w1 w2 b oob).1 S512x1024.size (by sl_kernel_rfl) y

end Cert.KernelIdeal.Hand

end
-- ==== Proof.KI.Body3.lean ====
/-
  The fourth layer's pipeline, at the contents `V` its region is entered with: each window's block at a grid point, the
  proof data (every input window's buffer holds its block at every point, the output's what the body leaves there; the
  three windows on the layer's input array hold it at three shares that make the whole), and the body obligation.
-/
import proofs.«137995_j86517821215731_2_alg».proof.Proof.KI.Out3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Each window's current staging memref at point `t`, as the pipeline passes it, and its wholeness. -/
abbrev ms3_0 (t : Fin cfg3.N) : Memref sig .tc .vmem S512x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S8x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1024 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x1024 .bf16 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x1024 .bf16 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x1024 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x1024 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S512x1024 .f32 := win3_8.stage (cfg3.slots t 8)
abbrev hs3_8 (t : Fin cfg3.N) : (ms3_8 t).IsWhole := hstage3_8 ((cfg3.slots t 8).cast nbuf3_8)
/-- The two scratch tiles: whole scoped buffers of the kernel's own. -/
abbrev scM3_0 : Memref sig .tc .vmem S512x1024 .f32 := Memref.whole cc3_scratch0
abbrev scM3_1 : Memref sig .tc .vmem S512x1024 .f32 := Memref.whole cc3_scratch1

/-- The output tile after the body at point `t`, from the input blocks there. -/
def out3 (c : Dev nD) (t : Fin cfg3.N) : Vec F S512x1024 .f32 :=
  outG3 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (iblk3 V c 0 t) (iblk3 V c 1 t) (iblk3 V c 2 t) (iblk3 V c 3 t) (iblk3 V c 4 t) (iblk3 V c 5 t) (iblk3 V c 6 t) (iblk3 V c 7 t)

/-- The proof data of the fourth layer's pipeline on core `c`. The layer's input array is read through three windows
    (the tile and its two margins): each holds it at a share, the three shares making the whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3 V c t
  Φ _ := Pipeline.ΦA spec3 c
  q w := match w with
    | ⟨0, _⟩ => fullShare.left
    | ⟨1, _⟩ => fullShare.right.left
    | ⟨2, _⟩ => fullShare.right.right
    | _ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-- The region invariant with the two scratch tiles as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

set_option maxHeartbeats 4000000 in
/-- The body at any point: the input memrefs hold their blocks, so the run applies; the invariant lends the two scratch
    tiles and takes them back at some contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  unfold out3 outG3
  rw [show (dat3 V c).Φ t.castSucc = Pipeline.ΦA spec3 c from rfl, PhiA3_eq]
  iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun3 c (grid3.coords t) _ _ _ _ _ _ _ _ _ _ _ _ _ _ _ _ _ _ scM3_0 (Memref.isWhole_whole _) scM3_1 (Memref.isWhole_whole _) (iblk3 V c 0 t) (iblk3 V c 1 t) (iblk3 V c 2 t) (iblk3 V c 3 t) (iblk3 V c 4 t) (iblk3 V c 5 t) (iblk3 V c 6 t) (iblk3 V c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, HS0, HS1⟩
  isplitl [HS0 HS1 HR Hg]
  · isplitl [HS0 HS1 HR]
    · isplitl [HS0 HS1]
      · isplitl [HS0]; · iexact HS0
        iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (coverG3 (F := F) c _ _ _ _ _ _ _ _ _ _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KI.Arr3.lean ====
/-
  The fourth layer's region holds seven distinct unscoped buffers behind its nine windows: the layer's input array (read
  by three windows — the tile and its two margins), the three weight blocks, the bias row, the out-of-bounds row and the
  output array. Held whole, the seven buffers are the pipeline's nine windowed arrays with the input array split into
  three shares; and back.
-/
import proofs.«137995_j86517821215731_2_alg».proof.Proof.KI.Body3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.SL.BI (bigSep bigSep_congr bigSep_eq_bigSepL_of_eq)

section Region3

variable (V : (c : Dev nD) → (b : Ref sig .tc) → Buf (Elt F) ((c : Thread nD τ).loc b))

/-- The pipeline's arrays as whole buffers, each at its window's share. -/
theorem arrays_eq3 (c : Dev nD) (G : (w : Fin cfg3.W) → Buf (Elt F) ((cfg3.win w).arr.view.loc (c.tc : Thread nD τ))) :
    ((dat3 V c).arrays G : sProp 𝕄)
      = bigSep Finset.univ fun w : Fin cfg3.W => (((c.tc : Thread nD τ).loc (Pipeline.arrRef spec3 w)) ↦{(dat3 V c).share w} G w : sProp 𝕄) := by
  unfold Dat.arrays
  exact bigSep_congr fun w _ => by rw [(arr_whole3 w).set_eq_univ]

theorem share3_0 (c : Dev nD) : (dat3 V c).share 0 = fullShare.left := rfl
theorem share3_1 (c : Dev nD) : (dat3 V c).share 1 = fullShare.right.left := rfl
theorem share3_2 (c : Dev nD) : (dat3 V c).share 2 = fullShare.right.right := rfl
theorem share3_3 (c : Dev nD) : (dat3 V c).share 3 = fullShare := rfl
theorem share3_4 (c : Dev nD) : (dat3 V c).share 4 = fullShare := rfl
theorem share3_5 (c : Dev nD) : (dat3 V c).share 5 = fullShare := rfl
theorem share3_6 (c : Dev nD) : (dat3 V c).share 6 = fullShare := rfl
theorem share3_7 (c : Dev nD) : (dat3 V c).share 7 = fullShare := rfl
theorem share3_8 (c : Dev nD) : (dat3 V c).share 8 = fullShare := rfl

/-- The distinct buffers behind the nine windows, one by one. -/
theorem arrChain3 {M : Type} [URA M] (Φ : Ref sig .tc → sProp M) :
    bigSep (Finset.univ.image (Pipeline.arrRef spec3)) Φ
      = iprop(Φ main_v32 ∗ Φ main_v36 ∗ Φ main_v37 ∗ Φ main_v38 ∗ Φ main_v41 ∗ Φ main_v42 ∗ Φ main_v43) :=
  bigSep_eq_bigSepL_of_eq [main_v32, main_v36, main_v37, main_v38, main_v41, main_v42, main_v43] (by decide) (by decide) Φ

/-- ENTRY: the seven buffers whole at `W` are the nine arrays at contents read off `W`. -/
theorem arrays_of_arrBufs3 (c : Dev nD) (W : (b : Ref sig .tc) → Buf (Elt F) ((c : Thread nD τ).loc b))
    (G : (w : Fin cfg3.W) → Buf (Elt F) ((cfg3.win w).arr.view.loc (c.tc : Thread nD τ)))
    (hG : ∀ w, G w = W (Pipeline.arrRef spec3 w)) :
    (Pipeline.arrBufs (Ix := Unit) (Name := ℕ) (U := UR sig nD τ) (Lvl := ℕ) spec3 c W : sProp 𝕄) ⊢ (dat3 V c).arrays G := by
  obtain rfl : G = fun w => W (Pipeline.arrRef spec3 w) := funext hG
  rw [arrays_eq3, bigSep_W3]
  unfold Pipeline.arrBufs
  rw [arrChain3]
  iintro ⟨Ha, H3, H4, H5, H6, H7, H8⟩
  ihave Hs := (pointsTo_share (PosShare.mem_left_op_right fullShare)).1 $$ Ha
  icases Hs with ⟨HL, HR⟩
  ihave Hs2 := (pointsTo_share (PosShare.mem_left_op_right fullShare.right)).1 $$ HR
  icases Hs2 with ⟨HRL, HRR⟩
  isplitl [HL]; · iexact HL
  isplitl [HRL]; · iexact HRL
  isplitl [HRR]; · iexact HRR
  isplitl [H3]; · iexact H3
  isplitl [H4]; · iexact H4
  isplitl [H5]; · iexact H5
  isplitl [H6]; · iexact H6
  isplitl [H7]; · iexact H7
  iexact H8

/-- EXIT: the nine arrays at contents read off `W` are the seven buffers whole at `W`. -/
theorem arrBufs_of_arrays3 (c : Dev nD) (W : (b : Ref sig .tc) → Buf (Elt F) ((c : Thread nD τ).loc b))
    (G : (w : Fin cfg3.W) → Buf (Elt F) ((cfg3.win w).arr.view.loc (c.tc : Thread nD τ)))
    (hG : ∀ w, G w = W (Pipeline.arrRef spec3 w)) :
    (dat3 V c).arrays G ⊢ (Pipeline.arrBufs (Ix := Unit) (Name := ℕ) (U := UR sig nD τ) (Lvl := ℕ) spec3 c W : sProp 𝕄) := by
  obtain rfl : G = fun w => W (Pipeline.arrRef spec3 w) := funext hG
  rw [arrays_eq3, bigSep_W3]
  unfold Pipeline.arrBufs
  rw [arrChain3]
  iintro ⟨HL, HRL, HRR, H3, H4, H5, H6, H7, H8⟩
  ihave HR := (pointsTo_share (PosShare.mem_left_op_right fullShare.right)).2 $$ [HRL HRR]
  · isplitl [HRL]; · iexact HRL
    iexact HRR
  ihave Ha := (pointsTo_share (PosShare.mem_left_op_right fullShare)).2 $$ [HL HR]
  · isplitl [HL]; · iexact HL
    iexact HR
  isplitl [Ha]; · iexact Ha
  isplitl [H3]; · iexact H3
  isplitl [H4]; · iexact H4
  isplitl [H5]; · iexact H5
  isplitl [H6]; · iexact H6
  isplitl [H7]; · iexact H7
  iexact H8

end Region3

end Cert.KernelIdeal.Hand

end
-- ==== Proof.KI.Main.lean ====
/-
  The whole program as nine segments — five stretches of host operations and the four layers' regions — with the
  contents of every unscoped buffer named at each boundary: the launch memory, then each stretch's operations applied,
  then each region's output array at what its tiles' write-backs leave. Every weakly fair execution terminates; the
  result buffer ends at the last boundary's contents and the four argument arrays as launched.
-/
import proofs.«137995_j86517821215731_2_alg».proof.Proof.KI.Arr0
import proofs.«137995_j86517821215731_2_alg».proof.Proof.KI.Arr1
import proofs.«137995_j86517821215731_2_alg».proof.Proof.KI.Arr2
import proofs.«137995_j86517821215731_2_alg».proof.Proof.KI.Arr3
import proofs.«137995_j86517821215731_2_alg».proof.Proof.Gen.KernelIdeal.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.SL.BI (bigSep bigSep_congr)

variable (m : (ℓ : Loc nD τ sig) → Buf (Elt F) ℓ) (ρ : Dev nD → PrngReg)

/-- Core `c`'s unscoped buffers at launch. -/
abbrev W0 (c : Dev nD) : Valuation τ sig (Elt F) := fun b => m (c, b)
/-- After the first stretch of host operations. -/
abbrev W1 (c : Dev nD) : Valuation τ sig (Elt F) := StableHlo.after hostOps0 (W0 m c)

/-! ## Region 0 -/

/-- What region 0 is entered with, read at the TensorCore's references. -/
abbrev Vt1 : (c : Dev nD) → (b : Ref sig .tc) → Buf (Elt F) ((c : Thread nD τ).loc b) := fun c b => W1 m c (Proc.devRef .tc b)
/-- What region 0 leaves in its output array: the write-backs of all its tiles. -/
def res0 (c : Dev nD) : Buf (Elt F) ((c : Thread nD τ).loc main_v10) := (dat0 (Vt1 m) c).arrAt 8 cfg0.N
/-- The buffers at region 0's exit: its output array at what it leaves, every other buffer as entered. -/
abbrev W2 (c : Dev nD) : Valuation τ sig (Elt F) := Function.update (W1 m c) (Proc.devRef .tc main_v10) (res0 m c)
abbrev Vt2 : (c : Dev nD) → (b : Ref sig .tc) → Buf (Elt F) ((c : Thread nD τ).loc b) := fun c b => W2 m c (Proc.devRef .tc b)
/-- After the host operations that follow it. -/
abbrev W3 (c : Dev nD) : Valuation τ sig (Elt F) := StableHlo.after hostOps1 (W2 m c)

theorem W2_of_ne (c : Dev nD) (b : Ref sig .tc) (hb : b ≠ main_v10) : W2 m c (Proc.devRef .tc b) = W1 m c (Proc.devRef .tc b) :=
  Function.update_of_ne (StableHlo.devRef_ne_of_ne hb) ..
theorem W2_out (c : Dev nD) : W2 m c (Proc.devRef .tc main_v10) = res0 m c := Function.update_self ..

set_option maxHeartbeats 2000000 in
/-- At the exit each array of the region holds what the pipeline leaves: an input what it held, the output its write-backs. -/
theorem hF0 (c : Dev nD) : ∀ w : Fin cfg0.W, (dat0 (Vt1 m) c).arrAt w cfg0.N = Vt2 m c (Pipeline.arrRef spec0 w)
  | ⟨0, _⟩ => (((dat0 (Vt1 m) c).arrAt_in 0 rfl _).trans (A_eq0 (Vt1 m) c 0)).trans (W2_of_ne m c main_arg0 (by decide)).symm
  | ⟨1, _⟩ => (((dat0 (Vt1 m) c).arrAt_in 1 rfl _).trans (A_eq0 (Vt1 m) c 1)).trans (W2_of_ne m c main_arg0 (by decide)).symm
  | ⟨2, _⟩ => (((dat0 (Vt1 m) c).arrAt_in 2 rfl _).trans (A_eq0 (Vt1 m) c 2)).trans (W2_of_ne m c main_arg0 (by decide)).symm
  | ⟨3, _⟩ => (((dat0 (Vt1 m) c).arrAt_in 3 rfl _).trans (A_eq0 (Vt1 m) c 3)).trans (W2_of_ne m c main_v3 (by decide)).symm
  | ⟨4, _⟩ => (((dat0 (Vt1 m) c).arrAt_in 4 rfl _).trans (A_eq0 (Vt1 m) c 4)).trans (W2_of_ne m c main_v4 (by decide)).symm
  | ⟨5, _⟩ => (((dat0 (Vt1 m) c).arrAt_in 5 rfl _).trans (A_eq0 (Vt1 m) c 5)).trans (W2_of_ne m c main_v5 (by decide)).symm
  | ⟨6, _⟩ => (((dat0 (Vt1 m) c).arrAt_in 6 rfl _).trans (A_eq0 (Vt1 m) c 6)).trans (W2_of_ne m c main_v8 (by decide)).symm
  | ⟨7, _⟩ => (((dat0 (Vt1 m) c).arrAt_in 7 rfl _).trans (A_eq0 (Vt1 m) c 7)).trans (W2_of_ne m c main_v9 (by decide)).symm
  | ⟨8, _⟩ => (W2_out m c).symm
/-- and every other buffer what it held at entry. -/
theorem hrest0 (c : Dev nD) :
    (Pipeline.unscopedRest (Ix := Unit) (Name := ℕ) (U := UR sig nD τ) (Lvl := ℕ) spec0 c (Vt1 m c) : sProp 𝕄)
      = Pipeline.unscopedRest (Ix := Unit) (Name := ℕ) (U := UR sig nD τ) (Lvl := ℕ) spec0 c (Vt2 m c) := by
  unfold Pipeline.unscopedRest
  refine bigSep_congr fun b hb => ?_
  rw [show Vt2 m c b = Vt1 m c b from W2_of_ne m c b fun e => (Finset.mem_sdiff.mp hb).2 (e ▸ Finset.mem_image.mpr ⟨8, Finset.mem_univ _, rfl⟩)]

/-! ## Region 1 -/

/-- What region 1 is entered with, read at the TensorCore's references. -/
abbrev Vt3 : (c : Dev nD) → (b : Ref sig .tc) → Buf (Elt F) ((c : Thread nD τ).loc b) := fun c b => W3 m c (Proc.devRef .tc b)
/-- What region 1 leaves in its output array: the write-backs of all its tiles. -/
def res1 (c : Dev nD) : Buf (Elt F) ((c : Thread nD τ).loc main_v21) := (dat1 (Vt3 m) c).arrAt 8 cfg1.N
/-- The buffers at region 1's exit: its output array at what it leaves, every other buffer as entered. -/
abbrev W4 (c : Dev nD) : Valuation τ sig (Elt F) := Function.update (W3 m c) (Proc.devRef .tc main_v21) (res1 m c)
abbrev Vt4 : (c : Dev nD) → (b : Ref sig .tc) → Buf (Elt F) ((c : Thread nD τ).loc b) := fun c b => W4 m c (Proc.devRef .tc b)
/-- After the host operations that follow it. -/
abbrev W5 (c : Dev nD) : Valuation τ sig (Elt F) := StableHlo.after hostOps2 (W4 m c)

theorem W4_of_ne (c : Dev nD) (b : Ref sig .tc) (hb : b ≠ main_v21) : W4 m c (Proc.devRef .tc b) = W3 m c (Proc.devRef .tc b) :=
  Function.update_of_ne (StableHlo.devRef_ne_of_ne hb) ..
theorem W4_out (c : Dev nD) : W4 m c (Proc.devRef .tc main_v21) = res1 m c := Function.update_self ..

set_option maxHeartbeats 2000000 in
/-- At the exit each array of the region holds what the pipeline leaves: an input what it held, the output its write-backs. -/
theorem hF1 (c : Dev nD) : ∀ w : Fin cfg1.W, (dat1 (Vt3 m) c).arrAt w cfg1.N = Vt4 m c (Pipeline.arrRef spec1 w)
  | ⟨0, _⟩ => (((dat1 (Vt3 m) c).arrAt_in 0 rfl _).trans (A_eq1 (Vt3 m) c 0)).trans (W4_of_ne m c main_v10 (by decide)).symm
  | ⟨1, _⟩ => (((dat1 (Vt3 m) c).arrAt_in 1 rfl _).trans (A_eq1 (Vt3 m) c 1)).trans (W4_of_ne m c main_v10 (by decide)).symm
  | ⟨2, _⟩ => (((dat1 (Vt3 m) c).arrAt_in 2 rfl _).trans (A_eq1 (Vt3 m) c 2)).trans (W4_of_ne m c main_v10 (by decide)).symm
  | ⟨3, _⟩ => (((dat1 (Vt3 m) c).arrAt_in 3 rfl _).trans (A_eq1 (Vt3 m) c 3)).trans (W4_of_ne m c main_v14 (by decide)).symm
  | ⟨4, _⟩ => (((dat1 (Vt3 m) c).arrAt_in 4 rfl _).trans (A_eq1 (Vt3 m) c 4)).trans (W4_of_ne m c main_v15 (by decide)).symm
  | ⟨5, _⟩ => (((dat1 (Vt3 m) c).arrAt_in 5 rfl _).trans (A_eq1 (Vt3 m) c 5)).trans (W4_of_ne m c main_v16 (by decide)).symm
  | ⟨6, _⟩ => (((dat1 (Vt3 m) c).arrAt_in 6 rfl _).trans (A_eq1 (Vt3 m) c 6)).trans (W4_of_ne m c main_v19 (by decide)).symm
  | ⟨7, _⟩ => (((dat1 (Vt3 m) c).arrAt_in 7 rfl _).trans (A_eq1 (Vt3 m) c 7)).trans (W4_of_ne m c main_v20 (by decide)).symm
  | ⟨8, _⟩ => (W4_out m c).symm
/-- and every other buffer what it held at entry. -/
theorem hrest1 (c : Dev nD) :
    (Pipeline.unscopedRest (Ix := Unit) (Name := ℕ) (U := UR sig nD τ) (Lvl := ℕ) spec1 c (Vt3 m c) : sProp 𝕄)
      = Pipeline.unscopedRest (Ix := Unit) (Name := ℕ) (U := UR sig nD τ) (Lvl := ℕ) spec1 c (Vt4 m c) := by
  unfold Pipeline.unscopedRest
  refine bigSep_congr fun b hb => ?_
  rw [show Vt4 m c b = Vt3 m c b from W4_of_ne m c b fun e => (Finset.mem_sdiff.mp hb).2 (e ▸ Finset.mem_image.mpr ⟨8, Finset.mem_univ _, rfl⟩)]

/-! ## Region 2 -/

/-- What region 2 is entered with, read at the TensorCore's references. -/
abbrev Vt5 : (c : Dev nD) → (b : Ref sig .tc) → Buf (Elt F) ((c : Thread nD τ).loc b) := fun c b => W5 m c (Proc.devRef .tc b)
/-- What region 2 leaves in its output array: the write-backs of all its tiles. -/
def res2 (c : Dev nD) : Buf (Elt F) ((c : Thread nD τ).loc main_v32) := (dat2 (Vt5 m) c).arrAt 8 cfg2.N
/-- The buffers at region 2's exit: its output array at what it leaves, every other buffer as entered. -/
abbrev W6 (c : Dev nD) : Valuation τ sig (Elt F) := Function.update (W5 m c) (Proc.devRef .tc main_v32) (res2 m c)
abbrev Vt6 : (c : Dev nD) → (b : Ref sig .tc) → Buf (Elt F) ((c : Thread nD τ).loc b) := fun c b => W6 m c (Proc.devRef .tc b)
/-- After the host operations that follow it. -/
abbrev W7 (c : Dev nD) : Valuation τ sig (Elt F) := StableHlo.after hostOps3 (W6 m c)

theorem W6_of_ne (c : Dev nD) (b : Ref sig .tc) (hb : b ≠ main_v32) : W6 m c (Proc.devRef .tc b) = W5 m c (Proc.devRef .tc b) :=
  Function.update_of_ne (StableHlo.devRef_ne_of_ne hb) ..
theorem W6_out (c : Dev nD) : W6 m c (Proc.devRef .tc main_v32) = res2 m c := Function.update_self ..

set_option maxHeartbeats 2000000 in
/-- At the exit each array of the region holds what the pipeline leaves: an input what it held, the output its write-backs. -/
theorem hF2 (c : Dev nD) : ∀ w : Fin cfg2.W, (dat2 (Vt5 m) c).arrAt w cfg2.N = Vt6 m c (Pipeline.arrRef spec2 w)
  | ⟨0, _⟩ => (((dat2 (Vt5 m) c).arrAt_in 0 rfl _).trans (A_eq2 (Vt5 m) c 0)).trans (W6_of_ne m c main_v21 (by decide)).symm
  | ⟨1, _⟩ => (((dat2 (Vt5 m) c).arrAt_in 1 rfl _).trans (A_eq2 (Vt5 m) c 1)).trans (W6_of_ne m c main_v21 (by decide)).symm
  | ⟨2, _⟩ => (((dat2 (Vt5 m) c).arrAt_in 2 rfl _).trans (A_eq2 (Vt5 m) c 2)).trans (W6_of_ne m c main_v21 (by decide)).symm
  | ⟨3, _⟩ => (((dat2 (Vt5 m) c).arrAt_in 3 rfl _).trans (A_eq2 (Vt5 m) c 3)).trans (W6_of_ne m c main_v25 (by decide)).symm
  | ⟨4, _⟩ => (((dat2 (Vt5 m) c).arrAt_in 4 rfl _).trans (A_eq2 (Vt5 m) c 4)).trans (W6_of_ne m c main_v26 (by decide)).symm
  | ⟨5, _⟩ => (((dat2 (Vt5 m) c).arrAt_in 5 rfl _).trans (A_eq2 (Vt5 m) c 5)).trans (W6_of_ne m c main_v27 (by decide)).symm
  | ⟨6, _⟩ => (((dat2 (Vt5 m) c).arrAt_in 6 rfl _).trans (A_eq2 (Vt5 m) c 6)).trans (W6_of_ne m c main_v30 (by decide)).symm
  | ⟨7, _⟩ => (((dat2 (Vt5 m) c).arrAt_in 7 rfl _).trans (A_eq2 (Vt5 m) c 7)).trans (W6_of_ne m c main_v31 (by decide)).symm
  | ⟨8, _⟩ => (W6_out m c).symm
/-- and every other buffer what it held at entry. -/
theorem hrest2 (c : Dev nD) :
    (Pipeline.unscopedRest (Ix := Unit) (Name := ℕ) (U := UR sig nD τ) (Lvl := ℕ) spec2 c (Vt5 m c) : sProp 𝕄)
      = Pipeline.unscopedRest (Ix := Unit) (Name := ℕ) (U := UR sig nD τ) (Lvl := ℕ) spec2 c (Vt6 m c) := by
  unfold Pipeline.unscopedRest
  refine bigSep_congr fun b hb => ?_
  rw [show Vt6 m c b = Vt5 m c b from W6_of_ne m c b fun e => (Finset.mem_sdiff.mp hb).2 (e ▸ Finset.mem_image.mpr ⟨8, Finset.mem_univ _, rfl⟩)]

/-! ## Region 3 -/

/-- What region 3 is entered with, read at the TensorCore's references. -/
abbrev Vt7 : (c : Dev nD) → (b : Ref sig .tc) → Buf (Elt F) ((c : Thread nD τ).loc b) := fun c b => W7 m c (Proc.devRef .tc b)
/-- What region 3 leaves in its output array: the write-backs of all its tiles. -/
def res3 (c : Dev nD) : Buf (Elt F) ((c : Thread nD τ).loc main_v43) := (dat3 (Vt7 m) c).arrAt 8 cfg3.N
/-- The buffers at region 3's exit: its output array at what it leaves, every other buffer as entered. -/
abbrev W8 (c : Dev nD) : Valuation τ sig (Elt F) := Function.update (W7 m c) (Proc.devRef .tc main_v43) (res3 m c)
abbrev Vt8 : (c : Dev nD) → (b : Ref sig .tc) → Buf (Elt F) ((c : Thread nD τ).loc b) := fun c b => W8 m c (Proc.devRef .tc b)
/-- After the host operations that follow it. -/
abbrev W9 (c : Dev nD) : Valuation τ sig (Elt F) := StableHlo.after hostOps4 (W8 m c)

theorem W8_of_ne (c : Dev nD) (b : Ref sig .tc) (hb : b ≠ main_v43) : W8 m c (Proc.devRef .tc b) = W7 m c (Proc.devRef .tc b) :=
  Function.update_of_ne (StableHlo.devRef_ne_of_ne hb) ..
theorem W8_out (c : Dev nD) : W8 m c (Proc.devRef .tc main_v43) = res3 m c := Function.update_self ..

set_option maxHeartbeats 2000000 in
/-- At the exit each array of the region holds what the pipeline leaves: an input what it held, the output its write-backs. -/
theorem hF3 (c : Dev nD) : ∀ w : Fin cfg3.W, (dat3 (Vt7 m) c).arrAt w cfg3.N = Vt8 m c (Pipeline.arrRef spec3 w)
  | ⟨0, _⟩ => (((dat3 (Vt7 m) c).arrAt_in 0 rfl _).trans (A_eq3 (Vt7 m) c 0)).trans (W8_of_ne m c main_v32 (by decide)).symm
  | ⟨1, _⟩ => (((dat3 (Vt7 m) c).arrAt_in 1 rfl _).trans (A_eq3 (Vt7 m) c 1)).trans (W8_of_ne m c main_v32 (by decide)).symm
  | ⟨2, _⟩ => (((dat3 (Vt7 m) c).arrAt_in 2 rfl _).trans (A_eq3 (Vt7 m) c 2)).trans (W8_of_ne m c main_v32 (by decide)).symm
  | ⟨3, _⟩ => (((dat3 (Vt7 m) c).arrAt_in 3 rfl _).trans (A_eq3 (Vt7 m) c 3)).trans (W8_of_ne m c main_v36 (by decide)).symm
  | ⟨4, _⟩ => (((dat3 (Vt7 m) c).arrAt_in 4 rfl _).trans (A_eq3 (Vt7 m) c 4)).trans (W8_of_ne m c main_v37 (by decide)).symm
  | ⟨5, _⟩ => (((dat3 (Vt7 m) c).arrAt_in 5 rfl _).trans (A_eq3 (Vt7 m) c 5)).trans (W8_of_ne m c main_v38 (by decide)).symm
  | ⟨6, _⟩ => (((dat3 (Vt7 m) c).arrAt_in 6 rfl _).trans (A_eq3 (Vt7 m) c 6)).trans (W8_of_ne m c main_v41 (by decide)).symm
  | ⟨7, _⟩ => (((dat3 (Vt7 m) c).arrAt_in 7 rfl _).trans (A_eq3 (Vt7 m) c 7)).trans (W8_of_ne m c main_v42 (by decide)).symm
  | ⟨8, _⟩ => (W8_out m c).symm
/-- and every other buffer what it held at entry. -/
theorem hrest3 (c : Dev nD) :
    (Pipeline.unscopedRest (Ix := Unit) (Name := ℕ) (U := UR sig nD τ) (Lvl := ℕ) spec3 c (Vt7 m c) : sProp 𝕄)
      = Pipeline.unscopedRest (Ix := Unit) (Name := ℕ) (U := UR sig nD τ) (Lvl := ℕ) spec3 c (Vt8 m c) := by
  unfold Pipeline.unscopedRest
  refine bigSep_congr fun b hb => ?_
  rw [show Vt8 m c b = Vt7 m c b from W8_of_ne m c b fun e => (Finset.mem_sdiff.mp hb).2 (e ▸ Finset.mem_image.mpr ⟨8, Finset.mem_univ _, rfl⟩)]

/-! ## The arguments end as launched -/

/-- `main_arg0` reaches the end as launched: no host stretch writes it, no region may change it. -/
theorem W9_main_arg0 (c : Dev nD) : W9 m c (Proc.devRef .tc main_arg0) = m ((c : Thread nD τ).loc main_arg0) :=
  (StableHlo.after_of_writes_sub hostOps4 _ hostOps4_writes (by decide : main_arg0 ∉ hostOps4_W)).trans <|
  (W8_of_ne m c main_arg0 (by decide)).trans <|
  (StableHlo.after_of_writes_sub hostOps3 _ hostOps3_writes (by decide : main_arg0 ∉ hostOps3_W)).trans <|
  (W6_of_ne m c main_arg0 (by decide)).trans <|
  (StableHlo.after_of_writes_sub hostOps2 _ hostOps2_writes (by decide : main_arg0 ∉ hostOps2_W)).trans <|
  (W4_of_ne m c main_arg0 (by decide)).trans <|
  (StableHlo.after_of_writes_sub hostOps1 _ hostOps1_writes (by decide : main_arg0 ∉ hostOps1_W)).trans <|
  (W2_of_ne m c main_arg0 (by decide)).trans <|
  (StableHlo.after_of_writes_sub hostOps0 _ hostOps0_writes (by decide : main_arg0 ∉ hostOps0_W)).trans rfl

/-- `main_arg1` reaches the end as launched: no host stretch writes it, no region may change it. -/
theorem W9_main_arg1 (c : Dev nD) : W9 m c (Proc.devRef .tc main_arg1) = m ((c : Thread nD τ).loc main_arg1) :=
  (StableHlo.after_of_writes_sub hostOps4 _ hostOps4_writes (by decide : main_arg1 ∉ hostOps4_W)).trans <|
  (W8_of_ne m c main_arg1 (by decide)).trans <|
  (StableHlo.after_of_writes_sub hostOps3 _ hostOps3_writes (by decide : main_arg1 ∉ hostOps3_W)).trans <|
  (W6_of_ne m c main_arg1 (by decide)).trans <|
  (StableHlo.after_of_writes_sub hostOps2 _ hostOps2_writes (by decide : main_arg1 ∉ hostOps2_W)).trans <|
  (W4_of_ne m c main_arg1 (by decide)).trans <|
  (StableHlo.after_of_writes_sub hostOps1 _ hostOps1_writes (by decide : main_arg1 ∉ hostOps1_W)).trans <|
  (W2_of_ne m c main_arg1 (by decide)).trans <|
  (StableHlo.after_of_writes_sub hostOps0 _ hostOps0_writes (by decide : main_arg1 ∉ hostOps0_W)).trans rfl

/-- `main_arg2` reaches the end as launched: no host stretch writes it, no region may change it. -/
theorem W9_main_arg2 (c : Dev nD) : W9 m c (Proc.devRef .tc main_arg2) = m ((c : Thread nD τ).loc main_arg2) :=
  (StableHlo.after_of_writes_sub hostOps4 _ hostOps4_writes (by decide : main_arg2 ∉ hostOps4_W)).trans <|
  (W8_of_ne m c main_arg2 (by decide)).trans <|
  (StableHlo.after_of_writes_sub hostOps3 _ hostOps3_writes (by decide : main_arg2 ∉ hostOps3_W)).trans <|
  (W6_of_ne m c main_arg2 (by decide)).trans <|
  (StableHlo.after_of_writes_sub hostOps2 _ hostOps2_writes (by decide : main_arg2 ∉ hostOps2_W)).trans <|
  (W4_of_ne m c main_arg2 (by decide)).trans <|
  (StableHlo.after_of_writes_sub hostOps1 _ hostOps1_writes (by decide : main_arg2 ∉ hostOps1_W)).trans <|
  (W2_of_ne m c main_arg2 (by decide)).trans <|
  (StableHlo.after_of_writes_sub hostOps0 _ hostOps0_writes (by decide : main_arg2 ∉ hostOps0_W)).trans rfl

/-- `main_arg3` reaches the end as launched: no host stretch writes it, no region may change it. -/
theorem W9_main_arg3 (c : Dev nD) : W9 m c (Proc.devRef .tc main_arg3) = m ((c : Thread nD τ).loc main_arg3) :=
  (StableHlo.after_of_writes_sub hostOps4 _ hostOps4_writes (by decide : main_arg3 ∉ hostOps4_W)).trans <|
  (W8_of_ne m c main_arg3 (by decide)).trans <|
  (StableHlo.after_of_writes_sub hostOps3 _ hostOps3_writes (by decide : main_arg3 ∉ hostOps3_W)).trans <|
  (W6_of_ne m c main_arg3 (by decide)).trans <|
  (StableHlo.after_of_writes_sub hostOps2 _ hostOps2_writes (by decide : main_arg3 ∉ hostOps2_W)).trans <|
  (W4_of_ne m c main_arg3 (by decide)).trans <|
  (StableHlo.after_of_writes_sub hostOps1 _ hostOps1_writes (by decide : main_arg3 ∉ hostOps1_W)).trans <|
  (W2_of_ne m c main_arg3 (by decide)).trans <|
  (StableHlo.after_of_writes_sub hostOps0 _ hostOps0_writes (by decide : main_arg3 ∉ hostOps0_W)).trans rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (Vt1 m) c
  | ⟨1, _⟩ => fun c => dat1 (Vt3 m) c
  | ⟨2, _⟩ => fun c => dat2 (Vt5 m) c
  | ⟨3, _⟩ => fun c => dat3 (Vt7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W9 m c) ∗ ∃ r, prngReg c r)

/-! ## The regions as segments -/

-- a library lemma stated over the pinned configuration unifies with the printed one only when unification may unfold
-- plain definitions in a metavariable's type
set_option backward.isDefEq.respectTransparency.types false in
/-- REGION 0 over the thread state: entered from every unscoped buffer at `W1`, left at `W2`. Its arrays are
    split out of the buffers behind them (the layer's input array into three shares) and put back at the exit contents;
    the generator register goes into the invariant and comes back; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vt1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vt1 m c)
  hentry c := by
    rw [Pipeline.ownSems0_none]
    have hsplit := Pipeline.unscopedBufs_split₀ (Ix := Unit) (Name := ℕ) (U := UR sig nD τ) (Lvl := ℕ) cfgs 0 winFacts₀0.arr_unscoped c (Vt1 m c)
    rw [Pipeline.unscopedBufs_held] at hsplit
    have harr := arrays_of_arrBufs0 (Vt1 m) c (Vt1 m c) ((pdats m 0 c).arrAt · 0) (fun w => A_eq0 (Vt1 m) c w)
    have hs : StableHlo.held (c : Thread nD τ) (Pipeline.ucRefs τ sig) (W1 m c)
        ⊢ (iprop(Pipeline.arrBufs (Ix := Unit) (Name := ℕ) (U := UR sig nD τ) (Lvl := ℕ) spec0 c (Vt1 m c) ∗ Pipeline.unscopedRest (Ix := Unit) (Name := ℕ) (U := UR sig nD τ) (Lvl := ℕ) spec0 c (Vt1 m c)) : sProp 𝕄) :=
      Entails.of_eq hsplit
    iintro ⟨⟨Hub, Hp, HO⟩, -, -⟩
    ihave Hub' := hs $$ Hub
    icases Hub' with ⟨Hab, Hrest⟩
    ihave Ha := harr $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hsplit := Pipeline.unscopedBufs_split₀ (Ix := Unit) (Name := ℕ) (U := UR sig nD τ) (Lvl := ℕ) cfgs 0 winFacts₀0.arr_unscoped c (Vt2 m c)
    rw [Pipeline.unscopedBufs_held] at hsplit
    have harr := arrBufs_of_arrays0 (Vt1 m) c (Vt2 m c) ((pdats m 0 c).arrAt · cfg0.N) (hF0 m c)
    have hs : (iprop(Pipeline.arrBufs (Ix := Unit) (Name := ℕ) (U := UR sig nD τ) (Lvl := ℕ) spec0 c (Vt2 m c) ∗ Pipeline.unscopedRest (Ix := Unit) (Name := ℕ) (U := UR sig nD τ) (Lvl := ℕ) spec0 c (Vt2 m c)) : sProp 𝕄)
        ⊢ StableHlo.held (c : Thread nD τ) (Pipeline.ucRefs τ sig) (W2 m c) :=
      Entails.of_eq hsplit.symm
    have hr : (Pipeline.unscopedRest (Ix := Unit) (Name := ℕ) (U := UR sig nD τ) (Lvl := ℕ) spec0 c (Vt1 m c) : sProp 𝕄)
        ⊢ Pipeline.unscopedRest (Ix := Unit) (Name := ℕ) (U := UR sig nD τ) (Lvl := ℕ) spec0 c (Vt2 m c) :=
      Entails.of_eq (hrest0 m c)
    iintro ⟨Ha, HO, HY, Hrest⟩
    imodintro
    isplitl [Ha Hrest]
    · iapply hs
      isplitl [Ha]; · iapply harr; iexact Ha
      iapply hr; iexact Hrest
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at `W3`, left at `W4`. Its arrays are
    split out of the buffers behind them (the layer's input array into three shares) and put back at the exit contents;
    the generator register goes into the invariant and comes back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vt3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (Vt3 m c)
  hentry c := by
    rw [Pipeline.ownSems0_none]
    have hsplit := Pipeline.unscopedBufs_split₀ (Ix := Unit) (Name := ℕ) (U := UR sig nD τ) (Lvl := ℕ) cfgs 1 winFacts₀1.arr_unscoped c (Vt3 m c)
    rw [Pipeline.unscopedBufs_held] at hsplit
    have harr := arrays_of_arrBufs1 (Vt3 m) c (Vt3 m c) ((pdats m 1 c).arrAt · 0) (fun w => A_eq1 (Vt3 m) c w)
    have hs : StableHlo.held (c : Thread nD τ) (Pipeline.ucRefs τ sig) (W3 m c)
        ⊢ (iprop(Pipeline.arrBufs (Ix := Unit) (Name := ℕ) (U := UR sig nD τ) (Lvl := ℕ) spec1 c (Vt3 m c) ∗ Pipeline.unscopedRest (Ix := Unit) (Name := ℕ) (U := UR sig nD τ) (Lvl := ℕ) spec1 c (Vt3 m c)) : sProp 𝕄) :=
      Entails.of_eq hsplit
    iintro ⟨⟨Hub, Hp, HO⟩, -, -⟩
    ihave Hub' := hs $$ Hub
    icases Hub' with ⟨Hab, Hrest⟩
    ihave Ha := harr $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsplit := Pipeline.unscopedBufs_split₀ (Ix := Unit) (Name := ℕ) (U := UR sig nD τ) (Lvl := ℕ) cfgs 1 winFacts₀1.arr_unscoped c (Vt4 m c)
    rw [Pipeline.unscopedBufs_held] at hsplit
    have harr := arrBufs_of_arrays1 (Vt3 m) c (Vt4 m c) ((pdats m 1 c).arrAt · cfg1.N) (hF1 m c)
    have hs : (iprop(Pipeline.arrBufs (Ix := Unit) (Name := ℕ) (U := UR sig nD τ) (Lvl := ℕ) spec1 c (Vt4 m c) ∗ Pipeline.unscopedRest (Ix := Unit) (Name := ℕ) (U := UR sig nD τ) (Lvl := ℕ) spec1 c (Vt4 m c)) : sProp 𝕄)
        ⊢ StableHlo.held (c : Thread nD τ) (Pipeline.ucRefs τ sig) (W4 m c) :=
      Entails.of_eq hsplit.symm
    have hr : (Pipeline.unscopedRest (Ix := Unit) (Name := ℕ) (U := UR sig nD τ) (Lvl := ℕ) spec1 c (Vt3 m c) : sProp 𝕄)
        ⊢ Pipeline.unscopedRest (Ix := Unit) (Name := ℕ) (U := UR sig nD τ) (Lvl := ℕ) spec1 c (Vt4 m c) :=
      Entails.of_eq (hrest1 m c)
    iintro ⟨Ha, HO, HY, Hrest⟩
    imodintro
    isplitl [Ha Hrest]
    · iapply hs
      isplitl [Ha]; · iapply harr; iexact Ha
      iapply hr; iexact Hrest
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at `W5`, left at `W6`. Its arrays are
    split out of the buffers behind them (the layer's input array into three shares) and put back at the exit contents;
    the generator register goes into the invariant and comes back; nothing is owed; the kernel has no semaphore of its own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (Vt5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (Vt5 m c)
  hentry c := by
    rw [Pipeline.ownSems0_none]
    have hsplit := Pipeline.unscopedBufs_split₀ (Ix := Unit) (Name := ℕ) (U := UR sig nD τ) (Lvl := ℕ) cfgs 2 winFacts₀2.arr_unscoped c (Vt5 m c)
    rw [Pipeline.unscopedBufs_held] at hsplit
    have harr := arrays_of_arrBufs2 (Vt5 m) c (Vt5 m c) ((pdats m 2 c).arrAt · 0) (fun w => A_eq2 (Vt5 m) c w)
    have hs : StableHlo.held (c : Thread nD τ) (Pipeline.ucRefs τ sig) (W5 m c)
        ⊢ (iprop(Pipeline.arrBufs (Ix := Unit) (Name := ℕ) (U := UR sig nD τ) (Lvl := ℕ) spec2 c (Vt5 m c) ∗ Pipeline.unscopedRest (Ix := Unit) (Name := ℕ) (U := UR sig nD τ) (Lvl := ℕ) spec2 c (Vt5 m c)) : sProp 𝕄) :=
      Entails.of_eq hsplit
    iintro ⟨⟨Hub, Hp, HO⟩, -, -⟩
    ihave Hub' := hs $$ Hub
    icases Hub' with ⟨Hab, Hrest⟩
    ihave Ha := harr $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hsplit := Pipeline.unscopedBufs_split₀ (Ix := Unit) (Name := ℕ) (U := UR sig nD τ) (Lvl := ℕ) cfgs 2 winFacts₀2.arr_unscoped c (Vt6 m c)
    rw [Pipeline.unscopedBufs_held] at hsplit
    have harr := arrBufs_of_arrays2 (Vt5 m) c (Vt6 m c) ((pdats m 2 c).arrAt · cfg2.N) (hF2 m c)
    have hs : (iprop(Pipeline.arrBufs (Ix := Unit) (Name := ℕ) (U := UR sig nD τ) (Lvl := ℕ) spec2 c (Vt6 m c) ∗ Pipeline.unscopedRest (Ix := Unit) (Name := ℕ) (U := UR sig nD τ) (Lvl := ℕ) spec2 c (Vt6 m c)) : sProp 𝕄)
        ⊢ StableHlo.held (c : Thread nD τ) (Pipeline.ucRefs τ sig) (W6 m c) :=
      Entails.of_eq hsplit.symm
    have hr : (Pipeline.unscopedRest (Ix := Unit) (Name := ℕ) (U := UR sig nD τ) (Lvl := ℕ) spec2 c (Vt5 m c) : sProp 𝕄)
        ⊢ Pipeline.unscopedRest (Ix := Unit) (Name := ℕ) (U := UR sig nD τ) (Lvl := ℕ) spec2 c (Vt6 m c) :=
      Entails.of_eq (hrest2 m c)
    iintro ⟨Ha, HO, HY, Hrest⟩
    imodintro
    isplitl [Ha Hrest]
    · iapply hs
      isplitl [Ha]; · iapply harr; iexact Ha
      iapply hr; iexact Hrest
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 3 over the thread state: entered from every unscoped buffer at `W7`, left at `W8`. Its arrays are
    split out of the buffers behind them (the layer's input array into three shares) and put back at the exit contents;
    the generator register goes into the invariant and comes back; nothing is owed; the kernel has no semaphore of its own. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (Vt7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (Vt7 m c)
  hentry c := by
    rw [Pipeline.ownSems0_none]
    have hsplit := Pipeline.unscopedBufs_split₀ (Ix := Unit) (Name := ℕ) (U := UR sig nD τ) (Lvl := ℕ) cfgs 3 winFacts₀3.arr_unscoped c (Vt7 m c)
    rw [Pipeline.unscopedBufs_held] at hsplit
    have harr := arrays_of_arrBufs3 (Vt7 m) c (Vt7 m c) ((pdats m 3 c).arrAt · 0) (fun w => A_eq3 (Vt7 m) c w)
    have hs : StableHlo.held (c : Thread nD τ) (Pipeline.ucRefs τ sig) (W7 m c)
        ⊢ (iprop(Pipeline.arrBufs (Ix := Unit) (Name := ℕ) (U := UR sig nD τ) (Lvl := ℕ) spec3 c (Vt7 m c) ∗ Pipeline.unscopedRest (Ix := Unit) (Name := ℕ) (U := UR sig nD τ) (Lvl := ℕ) spec3 c (Vt7 m c)) : sProp 𝕄) :=
      Entails.of_eq hsplit
    iintro ⟨⟨Hub, Hp, HO⟩, -, -⟩
    ihave Hub' := hs $$ Hub
    icases Hub' with ⟨Hab, Hrest⟩
    ihave Ha := harr $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hsplit := Pipeline.unscopedBufs_split₀ (Ix := Unit) (Name := ℕ) (U := UR sig nD τ) (Lvl := ℕ) cfgs 3 winFacts₀3.arr_unscoped c (Vt8 m c)
    rw [Pipeline.unscopedBufs_held] at hsplit
    have harr := arrBufs_of_arrays3 (Vt7 m) c (Vt8 m c) ((pdats m 3 c).arrAt · cfg3.N) (hF3 m c)
    have hs : (iprop(Pipeline.arrBufs (Ix := Unit) (Name := ℕ) (U := UR sig nD τ) (Lvl := ℕ) spec3 c (Vt8 m c) ∗ Pipeline.unscopedRest (Ix := Unit) (Name := ℕ) (U := UR sig nD τ) (Lvl := ℕ) spec3 c (Vt8 m c)) : sProp 𝕄)
        ⊢ StableHlo.held (c : Thread nD τ) (Pipeline.ucRefs τ sig) (W8 m c) :=
      Entails.of_eq hsplit.symm
    have hr : (Pipeline.unscopedRest (Ix := Unit) (Name := ℕ) (U := UR sig nD τ) (Lvl := ℕ) spec3 c (Vt7 m c) : sProp 𝕄)
        ⊢ Pipeline.unscopedRest (Ix := Unit) (Name := ℕ) (U := UR sig nD τ) (Lvl := ℕ) spec3 c (Vt8 m c) :=
      Entails.of_eq (hrest3 m c)
    iintro ⟨Ha, HO, HY, Hrest⟩
    imodintro
    isplitl [Ha Hrest]
    · iapply hs
      isplitl [Ha]; · iapply harr; iexact Ha
      iapply hr; iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)) ]

theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting; the result buffer ends at the last boundary's contents and the argument arrays as launched. -/
theorem run_main : θ_run defs (onTc (τ := τ) (main (F := F))) ⟨m, fun _ => 0, ρ⟩ (fun r => ∀ c : Dev nD,
      r.2.mem ((c.tc : Thread nD τ).loc main_v44) = W9 m c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c =>
      ⟨h c _ (mem_uc main_v44 (by decide)),
       (h c _ (mem_uc main_arg0 (by decide))).trans (W9_main_arg0 m c),
       (h c _ (mem_uc main_arg1 (by decide))).trans (W9_main_arg1 m c),
       (h c _ (mem_uc main_arg2 (by decide))).trans (W9_main_arg2 m c),
       (h c _ (mem_uc main_arg3 (by decide))).trans (W9_main_arg3 m c)⟩)

end Cert.KernelIdeal.Hand

end
-- ==== Proof.Spec.lean ====
/-
  The network both programs compute, as one function of the argument arrays on the extended reals.

  A layer with dilation δ sends a matrix X (8192 rows of 1024 entries) to
      ½ · X + ½ · max (X · W₀ + Xl · W₁ + Xr · W₂ + b) 0 ,
  where row r of Xl is row r − δ of X (the out-of-bounds row O when r < δ), row r of Xr is row r + δ of X
  (O when r + δ ≥ 8192), W₀, W₁, W₂ are the three consecutive 1024-row stretches of the layer's 3072 × 1024
  weight matrix, and b is the layer's bias row. The three products are added left to right and the bias last.
  The network is the four layers of dilations 1, 2, 4, 1 in turn, with a leading unit axis put on the result.
-/
import Idealize.ShloMosaic.PureOps.Ideal
import Idealize.ShloMosaic.Lib.ValueIdx

noncomputable section

namespace Cert.Dilated

open Idealize.ShloMosaic Idealize.ShloMosaic.ValueIdx

abbrev SX : Shape := ⟨2, ![8192, 1024]⟩
abbrev SW : Shape := ⟨3, ![4, 3072, 1024]⟩
abbrev SB : Shape := ⟨2, ![4, 1024]⟩
abbrev SO : Shape := ⟨1, ![1024]⟩
abbrev SR : Shape := ⟨3, ![1, 8192, 1024]⟩

/-- The word 0x3F000000 read as a float: one half. Never evaluated: both programs carry the same word. -/
def half : EReal := Ideal.ofBits .f32 0x3F000000#32
/-- The zero word read as a float. -/
def zero : EReal := Ideal.ofBits .f32 0x00000000#32

/-- Row `r − δ` of `X`, or the out-of-bounds row when there is no such row. -/
def shiftL (δ : ℕ) (X : SX.Idx → EReal) (O : SO.Idx → EReal) (r : Fin 8192) (j : Fin 1024) : EReal :=
  if h : δ ≤ r.val then X (ix2 (⟨r.val - δ, by omega⟩ : Fin 8192) j) else O (ix1 j)

/-- Row `r + δ` of `X`, or the out-of-bounds row when there is no such row. -/
def shiftR (δ : ℕ) (X : SX.Idx → EReal) (O : SO.Idx → EReal) (r : Fin 8192) (j : Fin 1024) : EReal :=
  if h : r.val + δ < 8192 then X (ix2 (⟨r.val + δ, h⟩ : Fin 8192) j) else O (ix1 j)

/-- Entry `(r, k)` of layer `l` (dilation `δ`) applied to `X`. -/
def layerAt (δ : ℕ) (l : Fin 4) (X : SX.Idx → EReal) (W : SW.Idx → EReal) (B : SB.Idx → EReal) (O : SO.Idx → EReal)
    (r : Fin 8192) (k : Fin 1024) : EReal :=
  half * X (ix2 r k)
    + half * max ((((∑ j : Fin 1024, X (ix2 r j) * W (ix3 l (⟨j.val, by omega⟩ : Fin 3072) k))
                    + ∑ j : Fin 1024, shiftL δ X O r j * W (ix3 l (⟨1024 + j.val, by omega⟩ : Fin 3072) k))
                    + ∑ j : Fin 1024, shiftR δ X O r j * W (ix3 l (⟨2048 + j.val, by omega⟩ : Fin 3072) k))
                  + B (ix2 l k)) zero

/-- Layer `l` (dilation `δ`) applied to `X`, as an array. -/
def layer (δ : ℕ) (l : Fin 4) (X : SX.Idx → EReal) (W : SW.Idx → EReal) (B : SB.Idx → EReal) (O : SO.Idx → EReal) :
    SX.Idx → EReal :=
  fun i => layerAt δ l X W B O (i 0) (i 1)

/-- The four layers in turn (dilations 1, 2, 4, 1). -/
def stack (X : SX.Idx → EReal) (W : SW.Idx → EReal) (B : SB.Idx → EReal) (O : SO.Idx → EReal) : SX.Idx → EReal :=
  layer 1 3 (layer 4 2 (layer 2 1 (layer 1 0 X W B O) W B O) W B O) W B O

/-- The network's result: the stack under a leading unit axis. -/
def net (X : SX.Idx → EReal) (W : SW.Idx → EReal) (B : SB.Idx → EReal) (O : SO.Idx → EReal) : SR.Idx → EReal :=
  fun i => stack X W B O (ix2 (i 1) (i 2))

theorem layer_apply (δ : ℕ) (l : Fin 4) (X : SX.Idx → EReal) (W : SW.Idx → EReal) (B : SB.Idx → EReal) (O : SO.Idx → EReal)
    (r : Fin 8192) (k : Fin 1024) : layer δ l X W B O (ix2 r k) = layerAt δ l X W B O r k := rfl

end Cert.Dilated

end
-- ==== Proof.LibDense.lean ====
/-
  Dense layers on the extended reals, index by index.

  A matrix here is a function of a two-coordinate index into the extended reals.  `mm X W` is the
  textbook product: entry (r, j) is the sum over k of X (r, k) * W (k, j).  A matrix unit's product into a zero
  accumulator, read at an output index, is that sum (`matmul_zero_eq`), whatever the formats of the operands
  (a change of float format is the identity on the extended reals); the host's `dot_general` likewise
  (`dotGeneral_eq`).  `ssp` is the shifted softplus as the kernel spells it,
  max z 0 + log1p (exp (0 - |z - 0|)) - log 2 under a guard `z - 0 ≠ z - 0` that never fires on the
  extended reals, and `ssp_host` says that the host's spelling, with a negation in place of the subtraction
  from zero, is the same number.
-/
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx

/-- Entry (r, j) of the product of an [R, K] matrix and a [K, C] matrix: the sum over k of X (r, k) * W (k, j). -/
def mm {R K C : Nat} (X : (⟨2, ![R, K]⟩ : Shape).Idx → EReal) (W : (⟨2, ![K, C]⟩ : Shape).Idx → EReal) :
    (⟨2, ![R, C]⟩ : Shape).Idx → EReal :=
  fun i => ∑ k : Fin K, X (ix2 (i 0) k) * W (ix2 k (i 1))

/-- A product into the zero accumulator, with dimension numbers that contract the left operand's second axis
    with the right operand's first, is `mm` at every output index. -/
theorem matmul_zero_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision)
    (lhs : FVec Ideal ⟨2, ![R, K]⟩ φ₁) (rhs : FVec Ideal ⟨2, ![K, C]⟩ φ₂) (j : (⟨2, ![R, C]⟩ : Shape).Idx) :
    FloatOps.matmul D prec lhs rhs (constant ⟨2, ![R, C]⟩ .f32 0x00000000#32) j = mm lhs rhs j := by
  rw [Ideal.matmul_constant_zero_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- The host's product of the same operands is the same sum. -/
theorem dotGeneral_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision) (sched : HostSchedule)
    (lhs : FVec Ideal ⟨2, ![R, K]⟩ φ₁) (rhs : FVec Ideal ⟨2, ![K, C]⟩ φ₂) (j : (⟨2, ![R, C]⟩ : Shape).Idx) :
    FloatOps.dotGeneral D prec sched lhs rhs j = mm lhs rhs j := by
  rw [Ideal.dotGeneral_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- Two products agree at two entries when the left operands agree along the two rows and the right operands
    along the two columns. -/
theorem mm_congr {R R' K C C' : Nat} {X : (⟨2, ![R, K]⟩ : Shape).Idx → EReal} {X' : (⟨2, ![R', K]⟩ : Shape).Idx → EReal}
    {W : (⟨2, ![K, C]⟩ : Shape).Idx → EReal} {W' : (⟨2, ![K, C']⟩ : Shape).Idx → EReal}
    (i : (⟨2, ![R, C]⟩ : Shape).Idx) (i' : (⟨2, ![R', C']⟩ : Shape).Idx)
    (hX : ∀ k : Fin K, X (ix2 (i 0) k) = X' (ix2 (i' 0) k))
    (hW : ∀ k : Fin K, W (ix2 k (i 1)) = W' (ix2 k (i' 1))) : mm X W i = mm X' W' i' := by
  unfold mm
  exact Finset.sum_congr rfl fun k _ => by rw [hX k, hW k]

/-- The zero and the shift of the softplus, as the float words both programs spell. -/
abbrev z0 : EReal := Ideal.ofBits .f32 0x00000000#32
abbrev ln2 : EReal := Ideal.ofBits .f32 0x3F317218#32

/-- The shifted softplus of one extended real, in the kernel's spelling. -/
def ssp (z : EReal) : EReal :=
  Scalar.select (Ideal.cmp .one (z - z0) (z - z0)) (z + z0)
    (max z z0 + Ideal.log1p (Ideal.exp (z0 - max (z - z0) (-(z - z0))))) - ln2

/-- The host's spelling: the unordered comparison in the guard (the same comparison on a linear order) and a
    negation where the kernel subtracts from zero. -/
theorem ssp_host (z : EReal) :
    Scalar.select (Ideal.cmp .une (z - z0) (z - z0)) (z + z0)
      (max z z0 + Ideal.log1p (Ideal.exp (-(max (z - z0) (-(z - z0)))))) - ln2 = ssp z := by
  unfold ssp
  have h0 : ∀ a : EReal, z0 - a = -a := fun a => by
    show Ideal.ofBits .f32 0x00000000#32 - a = -a
    rw [Ideal.ofBits_zero_f32, zero_sub]
  rw [h0]
  rfl

/-! ## The layers of the interaction block, entry by entry

  A bias is kept as the [1, C] row both programs hand to the layer; the per-edge distance as an [E, 1] column. -/

/-- The cosine cutoff's constants, as the float words both programs spell: π/10 rounded to f32, one, one half. -/
abbrev kpi : EReal := Ideal.ofBits .f32 0x3EA0D97C#32
abbrev one : EReal := Ideal.ofBits .f32 0x3F800000#32
abbrev half : EReal := Ideal.ofBits .f32 0x3F000000#32

/-- A length-C vector as the [1, C] row a layer takes its bias as, and a length-E vector as an [E, 1] column. -/
def row {C : Nat} (b : (⟨1, ![C]⟩ : Shape).Idx → EReal) : (⟨2, ![1, C]⟩ : Shape).Idx → EReal := fun i => b (ix1 (i 1))
def col {E : Nat} (d : (⟨1, ![E]⟩ : Shape).Idx → EReal) : (⟨2, ![E, 1]⟩ : Shape).Idx → EReal := fun i => d (ix1 (i 0))

/-- A dense layer: entry (r, j) of X · W plus the bias row's entry j. -/
def lin {R K C : Nat} (X : (⟨2, ![R, K]⟩ : Shape).Idx → EReal) (W : (⟨2, ![K, C]⟩ : Shape).Idx → EReal)
    (B : (⟨2, ![1, C]⟩ : Shape).Idx → EReal) : (⟨2, ![R, C]⟩ : Shape).Idx → EReal :=
  fun i => mm X W i + B (ix2 (0 : Fin 1) (i 1))

/-- The cosine cutoff of row r's distance d: one half of (cos (d · π/10) + 1). -/
def cutoff {R : Nat} (D : (⟨2, ![R, 1]⟩ : Shape).Idx → EReal) (r : Fin R) : EReal :=
  half * (Ideal.cos (D (ix2 r (0 : Fin 1)) * kpi) + one)

/-- Two dense layers with the shifted softplus between them. -/
def mlp {R K C C' : Nat} (X : (⟨2, ![R, K]⟩ : Shape).Idx → EReal) (W1 : (⟨2, ![K, C]⟩ : Shape).Idx → EReal)
    (B1 : (⟨2, ![1, C]⟩ : Shape).Idx → EReal) (W2 : (⟨2, ![C, C']⟩ : Shape).Idx → EReal)
    (B2 : (⟨2, ![1, C']⟩ : Shape).Idx → EReal) : (⟨2, ![R, C']⟩ : Shape).Idx → EReal :=
  lin (fun i' => ssp (lin X W1 B1 i')) W2 B2

/-- The edge filter: the two-layer filter network of an edge's features, times the edge's cutoff. -/
def edgeFilter {E K C C' : Nat} (A : (⟨2, ![E, K]⟩ : Shape).Idx → EReal) (D : (⟨2, ![E, 1]⟩ : Shape).Idx → EReal)
    (W1 : (⟨2, ![K, C]⟩ : Shape).Idx → EReal) (B1 : (⟨2, ![1, C]⟩ : Shape).Idx → EReal)
    (W2 : (⟨2, ![C, C']⟩ : Shape).Idx → EReal) (B2 : (⟨2, ![1, C']⟩ : Shape).Idx → EReal) :
    (⟨2, ![E, C']⟩ : Shape).Idx → EReal :=
  fun i => mlp A W1 B1 W2 B2 i * cutoff D (i 0)

/-- Two dense layers agree at an entry when their inputs agree on the entry's row and their weights and biases
    on its column. -/
theorem lin_congr {R R' K C : Nat} {X : (⟨2, ![R, K]⟩ : Shape).Idx → EReal} {X' : (⟨2, ![R', K]⟩ : Shape).Idx → EReal}
    {W W' : (⟨2, ![K, C]⟩ : Shape).Idx → EReal} {B B' : (⟨2, ![1, C]⟩ : Shape).Idx → EReal}
    (i : (⟨2, ![R, C]⟩ : Shape).Idx) (i' : (⟨2, ![R', C]⟩ : Shape).Idx) (h1 : i 1 = i' 1)
    (hX : ∀ k : Fin K, X (ix2 (i 0) k) = X' (ix2 (i' 0) k)) (hW : W = W') (hB : B = B') :
    lin X W B i = lin X' W' B' i' := by
  subst hW hB
  unfold lin mm
  rw [h1]
  exact congrArg (· + B (ix2 (0 : Fin 1) (i' 1))) (Finset.sum_congr rfl fun k _ => by rw [hX k])

end Cert.Dense

end
-- ==== Proof.PayOut.lean ====
/-
  The arithmetic of one tile of a layer, read at an entry.

  Each of the four kernels stores, for a tile x of 512 rows, the value
      ½ · x + ½ · max (x · W₀ + xl · W₁ + xr · W₂ + b) 0
  where xl and xr are the tiles of the rows above and below, W₀, W₁, W₂ are 1024 × 1024 weight blocks and b is a
  bias row repeated over the 512 rows. On the extended reals a change of float format and a cast between equal
  shapes are the identity, and a matrix product into a zero accumulator is the sum over the contracted axis, so
  entry (p, q) of the stored value is
      ½ · x (p, q) + ½ · max (((∑ⱼ x (p, j) · W₀ (j, q) + ∑ⱼ xl (p, j) · W₁ (j, q)) + ∑ⱼ xr (p, j) · W₂ (j, q)) + b (0, q)) 0,
  the three sums added left to right and the bias last, exactly as the kernels add them.
-/
import proofs.«137995_j86517821215731_2_alg».proof.Proof.Gen.KernelIdeal.Skeleton
import proofs.«137995_j86517821215731_2_alg».proof.Proof.Spec
import proofs.«137995_j86517821215731_2_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

namespace Cert.Dilated.Pay

open Idealize.ShloMosaic Idealize.ShloMosaic.ValueIdx Cert.KernelIdeal Cert.KernelIdeal.Gen

/-- The kernels' one product shape: [512, 1024] × [1024, 1024], the left operand's second axis contracted with the
    right operand's first. -/
abbrev dims : DotDims S512x1024 S1024x1024 S512x1024 := dot_S512x1024_S1024x1024_S512x1024_1_0_0_1_n_n

theorem dims_rank : dims.contr.rank = 1 := rfl

theorem dims_size : dims.contr.size ⟨0, by rw [dims_rank]; exact Nat.one_pos⟩ = 1024 := rfl

/-- The left operand is read at (row of the output, contraction position). -/
theorem dims_l0 (i : S512x1024.Idx) (k : dims.contr.Idx) : (dims.lhsIdx i k 0).val = (i 0).val := rfl
theorem dims_l1 (i : S512x1024.Idx) (k : dims.contr.Idx) :
    (dims.lhsIdx i k 1).val = (k ⟨0, by rw [dims_rank]; exact Nat.one_pos⟩).val :=
  dims.lhsIdx_val_of_single (cl := 1) rfl i k
/-- The right operand is read at (contraction position, column of the output). -/
theorem dims_r0 (i : S512x1024.Idx) (k : dims.contr.Idx) :
    (dims.rhsIdx i k 0).val = (k ⟨0, by rw [dims_rank]; exact Nat.one_pos⟩).val :=
  dims.rhsIdx_val_of_single (cr := 0) rfl i k
theorem dims_r1 (i : S512x1024.Idx) (k : dims.contr.Idx) : (dims.rhsIdx i k 1).val = (i 1).val := rfl

/-- A product of a tile with a weight block into the zero accumulator, at entry (p, q): the sum over the
    contracted axis. -/
theorem mm_apply (a : FVec Ideal S512x1024 .bf16) (w : FVec Ideal S1024x1024 .bf16) (p : Fin 512) (q : Fin 1024) :
    matmul dims none a w (constant (F := Ideal) S512x1024 .f32 0x00000000#32) (ix2 p q)
      = ∑ j : Fin 1024, a (ix2 p j) * w (ix2 j q) :=
  Cert.Dense.matmul_zero_eq dims dims_rank dims_size dims_l0 dims_l1 dims_r0 dims_r1 none a w (ix2 p q)

/-! ## The stored value of each kernel at an entry

  In each statement x, xl, xr are the tile and its two shifted companions as loaded (before rounding to the
  matrix unit's format), w0, w1, w2 the three weight blocks and b the bias row. The first kernel (dilation 1)
  takes the tile itself and the zero accumulator of its first product as operands; the other three take the tile
  under a cast to its own shape. -/

/-- The first layer's kernel (dilation 1). -/
theorem out0_apply (x xl xr : Vec Ideal S512x1024 .f32) (w0 w1 w2 : Vec Ideal S1024x1024 .bf16) (b : Vec Ideal S1x1024 .f32)
    (p : Fin 512) (q : Fin 1024) :
    k0_pay1 x (k0_pay7 x) (k0_pay8 xl) (k0_pay9 xr) (k0_pay10 w0) (constant (F := Ideal) S512x1024 .f32 0x00000000#32)
        w1 w2 b (ix2 p q)
      = half * x (ix2 p q)
        + half * max ((((∑ j : Fin 1024, x (ix2 p j) * w0 (ix2 j q)) + ∑ j : Fin 1024, xl (ix2 p j) * w1 (ix2 j q))
                        + ∑ j : Fin 1024, xr (ix2 p j) * w2 (ix2 j q)) + b (ix2 0 q)) zero := by
  unfold k0_pay1 k0_pay7 k0_pay8 k0_pay9 k0_pay10
  simp only [shapeCast_self]
  simp only [addf_apply, mulf_apply, maximumf_apply, broadcast_apply, truncf_apply, mm_apply, broadcastTo_1b_ab_apply]
  rfl

/-- The second layer's kernel (dilation 2). -/
theorem out1_apply (x xl xr : Vec Ideal S512x1024 .f32) (w0 w1 w2 : Vec Ideal S1024x1024 .bf16) (b : Vec Ideal S1x1024 .f32)
    (p : Fin 512) (q : Fin 1024) :
    k1_pay1 (k1_pay2 x) (k1_pay8 x) (k1_pay9 xl) (k1_pay10 xr) w0 w1 w2 b (ix2 p q)
      = half * x (ix2 p q)
        + half * max ((((∑ j : Fin 1024, x (ix2 p j) * w0 (ix2 j q)) + ∑ j : Fin 1024, xl (ix2 p j) * w1 (ix2 j q))
                        + ∑ j : Fin 1024, xr (ix2 p j) * w2 (ix2 j q)) + b (ix2 0 q)) zero := by
  unfold k1_pay1 k1_pay8 k1_pay9 k1_pay10 k1_pay2
  simp only [shapeCast_self]
  simp only [addf_apply, mulf_apply, maximumf_apply, broadcast_apply, truncf_apply, mm_apply, broadcastTo_1b_ab_apply]
  rfl

/-- The third layer's kernel (dilation 4). -/
theorem out2_apply (x xl xr : Vec Ideal S512x1024 .f32) (w0 w1 w2 : Vec Ideal S1024x1024 .bf16) (b : Vec Ideal S1x1024 .f32)
    (p : Fin 512) (q : Fin 1024) :
    k2_pay1 (k2_pay2 x) (k2_pay8 x) (k2_pay9 xl) (k2_pay10 xr) w0 w1 w2 b (ix2 p q)
      = half * x (ix2 p q)
        + half * max ((((∑ j : Fin 1024, x (ix2 p j) * w0 (ix2 j q)) + ∑ j : Fin 1024, xl (ix2 p j) * w1 (ix2 j q))
                        + ∑ j : Fin 1024, xr (ix2 p j) * w2 (ix2 j q)) + b (ix2 0 q)) zero := by
  unfold k2_pay1 k2_pay8 k2_pay9 k2_pay10 k2_pay2
  simp only [shapeCast_self]
  simp only [addf_apply, mulf_apply, maximumf_apply, broadcast_apply, truncf_apply, mm_apply, broadcastTo_1b_ab_apply]
  rfl

/-- The fourth layer's kernel (dilation 1). -/
theorem out3_apply (x xl xr : Vec Ideal S512x1024 .f32) (w0 w1 w2 : Vec Ideal S1024x1024 .bf16) (b : Vec Ideal S1x1024 .f32)
    (p : Fin 512) (q : Fin 1024) :
    k3_pay1 (k3_pay2 x) (k3_pay8 x) (k3_pay9 xl) (k3_pay10 xr) w0 w1 w2 b (ix2 p q)
      = half * x (ix2 p q)
        + half * max ((((∑ j : Fin 1024, x (ix2 p j) * w0 (ix2 j q)) + ∑ j : Fin 1024, xl (ix2 p j) * w1 (ix2 j q))
                        + ∑ j : Fin 1024, xr (ix2 p j) * w2 (ix2 j q)) + b (ix2 0 q)) zero := by
  unfold k3_pay1 k3_pay8 k3_pay9 k3_pay10 k3_pay2
  simp only [shapeCast_self]
  simp only [addf_apply, mulf_apply, maximumf_apply, broadcast_apply, truncf_apply, mm_apply, broadcastTo_1b_ab_apply]
  rfl

end Cert.Dilated.Pay

end
-- ==== Proof.PayHalo.lean ====
/-
  Tools for the two shifted companions of a tile.

  A kernel keeps, beside a tile of 512 rows, the tile shifted down by δ rows (its first δ rows taken from the tile
  above, or the out-of-bounds row) and the tile shifted up by δ rows (its last δ rows taken from the tile below, or
  the out-of-bounds row). Each is written into a buffer as two row blocks, the upper block first and the lower block
  second, and then read whole. Here: the contents two such writes leave, read at an entry (`canon_rows`); the choice
  between two values made by comparing a grid coordinate with a constant (`select_eq_nat`); and a row of a buffer
  read through a one-row rectangle (`ld_row`).
-/
import Idealize.ShloMosaic.Lib.ValueIdx
import Idealize.ShloMosaic.Lib.ValueLayout
import Idealize.ShloMosaic.Lib.Pipeline.Value
import Idealize.ShloMosaic.Lib.Pipeline.FrameBody
import Idealize.ShloMosaic.Lib.Affine

noncomputable section

namespace Cert.Dilated.Halo

open Idealize.ShloMosaic Idealize.ShloMosaic.ValueIdx

/-- A select between two values on the bit of `n = k`, for two numbers that fit a 32-bit word, is the choice on
    whether the numbers are equal. -/
theorem select_eq_nat {α : Type} (n k : ℕ) (hn : n < 4294967296) (hk : k < 4294967296) (A B : α) :
    Scalar.select (Scalar.cmpi .eq (BitVec.ofNat 32 n) (BitVec.ofNat 32 k)) A B = if n = k then A else B := by
  have hiff : BitVec.ofNat 32 n = BitVec.ofNat 32 k ↔ n = k := by
    constructor
    · intro h
      have h' := congrArg BitVec.toNat h
      simp only [BitVec.toNat_ofNat] at h'
      rw [Nat.mod_eq_of_lt (by omega), Nat.mod_eq_of_lt (by omega)] at h'
      exact h'
    · intro h; rw [h]
  unfold Scalar.select Scalar.cmpi
  by_cases h : n = k
  · rw [if_pos h]; exact if_pos (IntOp.cmpi_eq.mpr (hiff.mpr h))
  · rw [if_neg h]; exact if_neg (fun hc => h (hiff.mp (IntOp.cmpi_eq.mp hc)))

variable {Val : EltTy → Type} [∀ e, Nonempty (Val e)] {e : EltTy}

/-- Two row blocks written into an n × m buffer, rows 0 … A − 1 first and rows A … A + B − 1 second (so the
    second is first in the list), cover it when n ≤ A + B; the contents they leave, at (p, j), are the upper block's
    entry (p, j) when p < A and the lower block's entry (p − A, j) otherwise. -/
theorem canon_rows {n m A B : ℕ} (hn : n ≤ A + B)
    (inbT : ∀ a, (![0, 0] : Fin 2 → ℕ) a + (![A, m] : Fin 2 → ℕ) a ≤ (⟨2, ![n, m]⟩ : Shape).size a)
    (inbB : ∀ a, (![A, 0] : Fin 2 → ℕ) a + (![B, m] : Fin 2 → ℕ) a ≤ (⟨2, ![n, m]⟩ : Shape).size a)
    (top : (⟨2, ![A, m]⟩ : Shape).Idx → Val e) (bot : (⟨2, ![B, m]⟩ : Shape).Idx → Val e)
    (p : Fin n) (j : Fin m) :
    View.canon [(⟨Rect.unit ![A, 0] ![B, m] inbB, bot⟩ : View.Piece Val ⟨2, ![n, m]⟩ e),
        ⟨Rect.unit ![0, 0] ![A, m] inbT, top⟩] (ix2 p j)
      = if h : p.val < A then top (ix2 ⟨p.val, h⟩ j)
        else bot (ix2 ⟨p.val - A, by have := p.isLt; omega⟩ j) := by
  by_cases h : p.val < A
  · rw [dif_pos h]
    have hnot : ix2 p j ∉ (Rect.unit (s := ⟨2, ![n, m]⟩) ![A, 0] ![B, m] inbB).set := by
      rw [Rect.mem_set_unit]
      intro hall
      have h0 : A ≤ p.val := (hall 0).1
      omega
    refine (View.canon_cons_of_not_mem (⟨Rect.unit ![A, 0] ![B, m] inbB, bot⟩ : View.Piece Val ⟨2, ![n, m]⟩ e)
      [⟨Rect.unit ![0, 0] ![A, m] inbT, top⟩] hnot).trans ?_
    have hemb : ix2 p j = (Rect.unit (s := ⟨2, ![n, m]⟩) ![0, 0] ![A, m] inbT).emb (ix2 ⟨p.val, h⟩ j) :=
      funext fun a => Fin.ext (by
        match a with
        | ⟨0, _⟩ => show p.val = 0 + 1 * p.val; omega
        | ⟨1, _⟩ => show j.val = 0 + 1 * j.val; omega)
    exact (congrArg _ hemb).trans (View.canon_cons_emb (Val := Val) (Rect.unit (s := ⟨2, ![n, m]⟩) ![0, 0] ![A, m] inbT) top [] (ix2 ⟨p.val, h⟩ j))
  · rw [dif_neg h]
    have hemb : ix2 p j = (Rect.unit (s := ⟨2, ![n, m]⟩) ![A, 0] ![B, m] inbB).emb
        (ix2 ⟨p.val - A, by have := p.isLt; omega⟩ j) :=
      funext fun a => Fin.ext (by
        match a with
        | ⟨0, _⟩ => show p.val = A + 1 * (p.val - A); omega
        | ⟨1, _⟩ => show j.val = 0 + 1 * j.val; omega)
    exact (congrArg _ hemb).trans (View.canon_cons_emb (Val := Val) (Rect.unit (s := ⟨2, ![n, m]⟩) ![A, 0] ![B, m] inbB) bot
      [⟨Rect.unit ![0, 0] ![A, m] inbT, top⟩] (ix2 ⟨p.val - A, by have := p.isLt; omega⟩ j))

/-- A buffer's row r read through the one-row rectangle at (r, 0). -/
theorem ld_row {n m r : ℕ} (hr : r < n) (X : (⟨2, ![n, m]⟩ : Shape).Idx → Val e)
    (inb : ∀ a, (![r, 0] : Fin 2 → ℕ) a + (![1, m] : Fin 2 → ℕ) a ≤ (⟨2, ![n, m]⟩ : Shape).size a) (j : Fin m) :
    View.ld X (Rect.unit ![r, 0] ![1, m] inb) (ix2 (0 : Fin 1) j)
      = X (ix2 ⟨r, hr⟩ j) := by
  show X _ = X _
  refine congrArg X (funext fun a => Fin.ext ?_)
  match a with
  | ⟨0, _⟩ => show r + 1 * 0 = r; omega
  | ⟨1, _⟩ => show 0 + 1 * j.val = j.val; omega

end Cert.Dilated.Halo

end
-- ==== Proof.KI.Val0.lean ====
/-
  The first layer's kernel at one grid point, as values.

  At grid point i the body holds the tile x (512 rows), the 8-row block above it (lm), the 8-row block below it (rm),
  the three weight blocks, the bias row and the out-of-bounds row. It builds the tile shifted down by one row — its
  row 0 is the out-of-bounds row at the first grid point and row 7 of the block above otherwise, its row p ≥ 1 is row
  p − 1 of the tile — and the tile shifted up by one row — its row 511 is the out-of-bounds row at the last grid point
  and row 0 of the block below otherwise, its row p < 511 is row p + 1 of the tile — and stores, at entry (p, q),
      ½ · x (p, q) + ½ · max (((∑ⱼ x (p, j) · W₀ (j, q) + ∑ⱼ xl (p, j) · W₁ (j, q)) + ∑ⱼ xr (p, j) · W₂ (j, q)) + b (0, q)) 0
  with xl, xr the two shifted tiles.
-/
import proofs.«137995_j86517821215731_2_alg».proof.Proof.KI.Out0
import proofs.«137995_j86517821215731_2_alg».proof.Proof.PayOut
import proofs.«137995_j86517821215731_2_alg».proof.Proof.PayHalo
import Idealize.ShloMosaic.Lib.Pipeline.Value
import Idealize.ShloMosaic.Lib.ValueLayout
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL.Sem
open Cert.KernelIdeal Cert.KernelIdeal.Gen

variable {F : FTy → Type} [FloatOps F]

theorem hz0 : (![0, 0] : Fin 2 → Nat) = fun _ => 0 := funext fun a => by fin_cases a <;> rfl

/-- The tile shifted down by one row, as the body leaves it in its first scratch tile: row 0 written first, then
    rows 1 … 511. -/
def haloL0 (i : grid0.Coords) (x : Vec F S512x1024 .f32) (lm : Vec F S8x1024 .f32) (oob : Vec F S1x1024 .f32) :
    Vec F S512x1024 .f32 :=
  View.canon [(⟨Rect.unit ![1, 0] ![511, 1024] inb_S512x1024_S511x1024_1_0, k0_pay4 x⟩ : View.Piece (Elt F) S512x1024 .f32),
    ⟨Rect.unit ![0, 0] ![1, 1024] inb_S512x1024_S1x1024_0_0,
      k0_pay3 i oob (View.ld lm (Rect.unit ![7, 0] ![1, 1024] inb_S8x1024_S1x1024_7_0))⟩]

/-- The tile shifted up by one row, as the body leaves it in its second scratch tile: rows 0 … 510 written first,
    then row 511. -/
def haloR0 (i : grid0.Coords) (x : Vec F S512x1024 .f32) (rm : Vec F S8x1024 .f32) (oob : Vec F S1x1024 .f32) :
    Vec F S512x1024 .f32 :=
  View.canon [(⟨Rect.unit ![511, 0] ![1, 1024] inb_S512x1024_S1x1024_511_0,
      k0_pay6 i oob (View.ld rm (Rect.unit ![0, 0] ![1, 1024] inb_S8x1024_S1x1024_0_0))⟩ : View.Piece (Elt F) S512x1024 .f32),
    ⟨Rect.unit ![0, 0] ![511, 1024] inb_S512x1024_S511x1024_0_0, k0_pay5 x⟩]

/-- A whole-tile load after a list of stores reads what the stores leave. -/
theorem readCov_whole {κ : Kind} {sp : Space} (v : View sig κ sp S512x1024 .f32) (L : List (View.Piece (Elt F) S512x1024 .f32)) :
    v.readCov L (Rect.unit ![0, 0] ![512, 1024] inb_S512x1024_S512x1024_0_0).toLoadRect = View.canon L :=
  (View.readCov_eq_canon' v L _).trans (View.ld_unit_zero (S := S512x1024) hz0 inb_S512x1024_S512x1024_0_0 (View.canon L))

/-- The output tile after the body is the stored value of the tile, the two shifted tiles, the weights and the bias. -/
theorem outG0_eq (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) :
    outG0 c i arg1 harg1 arg2 harg2 arg3 harg3 arg4 harg4 arg5 harg5 arg6 harg6 arg7 harg7 arg8 harg8 arg9 harg9 arg10 harg10 arg11 harg11 x lm rm w0 w1 w2 b oob
      = k0_pay1 x (k0_pay7 x) (k0_pay8 (haloL0 i x lm oob)) (k0_pay9 (haloR0 i x rm oob)) (k0_pay10 w0)
          (constant S512x1024 .f32 0x00000000#32) w1 w2 b := by
  unfold outG0
  rw [View.read_writes_junk_eq_canon]
  unfold kernelRun0
  dsimp only
  sl_unfold_words
  rw [View.canon_unit_zero hz0]
  simp only [View.readAt_eq_ld, harg1.read_unread, harg2.read_unread, harg3.read_unread, harg4.read_unread,
    harg5.read_unread, harg6.read_unread, harg7.read_unread, harg8.read_unread,
    View.ld_unit_zero (S := S512x1024) hz0, View.ld_unit_zero (S := S1024x1024) hz0, View.ld_unit_zero (S := S1x1024) hz0]
  rw [readCov_whole arg10.view, readCov_whole arg11.view]
  rfl

/-- Row p of the tile shifted down by one row: row p − 1 of the tile, or for p = 0 the out-of-bounds row at the first
    grid point and the last row of the block above otherwise. -/
theorem haloL0_apply (i : grid0.Coords) (x : Vec F S512x1024 .f32) (lm : Vec F S8x1024 .f32) (oob : Vec F S1x1024 .f32)
    (p : Fin 512) (j : Fin 1024) :
    haloL0 i x lm oob (ix2 p j)
      = if h : 1 ≤ p.val then x (ix2 (⟨p.val - 1, by omega⟩ : Fin 512) j)
        else if (i 0).val = 0 then oob (ix2 (0 : Fin 1) j) else lm (ix2 (7 : Fin 8) j) := by
  unfold haloL0
  refine (Cert.Dilated.Halo.canon_rows (Val := Elt F) (e := EltTy.f32) (n := 512) (m := 1024) (A := 1) (B := 511) (by omega)
    inb_S512x1024_S1x1024_0_0 inb_S512x1024_S511x1024_1_0
    (k0_pay3 i oob (View.ld lm (Rect.unit ![7, 0] ![1, 1024] inb_S8x1024_S1x1024_7_0))) (k0_pay4 x) p j).trans ?_
  by_cases h : 1 ≤ p.val
  · rw [dif_neg (by omega), dif_pos h]
    unfold k0_pay4
    simp only [shapeCast_self]
    exact slice2_axis0_apply 0 x slices_S512x1024_o0_0_S511x1024 _ j _ (by simp)
  · rw [dif_pos (by omega), dif_neg h]
    have hp : (⟨p.val, by omega⟩ : Fin 1) = 0 := Fin.ext (by show p.val = 0; omega)
    rw [hp]
    unfold k0_pay3 k0_pay2
    simp only [shapeCast_self]
    have h16 : (i 0).val < 16 := (i 0).isLt
    rw [Cert.Dilated.Halo.select_eq_nat (i 0).val 0 (by omega) (by omega)]
    by_cases h0 : (i 0).val = 0
    · rw [if_pos h0, if_pos h0]
    · rw [if_neg h0, if_neg h0]
      exact Cert.Dilated.Halo.ld_row (Val := Elt F) (e := EltTy.f32) (n := 8) (m := 1024) (r := 7) (by omega) lm inb_S8x1024_S1x1024_7_0 j

/-- Row p of the tile shifted up by one row: row p + 1 of the tile, or for p = 511 the out-of-bounds row at the last
    grid point and the first row of the block below otherwise. -/
theorem haloR0_apply (i : grid0.Coords) (x : Vec F S512x1024 .f32) (rm : Vec F S8x1024 .f32) (oob : Vec F S1x1024 .f32)
    (p : Fin 512) (j : Fin 1024) :
    haloR0 i x rm oob (ix2 p j)
      = if h : p.val + 1 < 512 then x (ix2 (⟨p.val + 1, h⟩ : Fin 512) j)
        else if (i 0).val = 15 then oob (ix2 (0 : Fin 1) j) else rm (ix2 (0 : Fin 8) j) := by
  unfold haloR0
  refine (Cert.Dilated.Halo.canon_rows (Val := Elt F) (e := EltTy.f32) (n := 512) (m := 1024) (A := 511) (B := 1) (by omega)
    inb_S512x1024_S511x1024_0_0 inb_S512x1024_S1x1024_511_0
    (k0_pay5 x) (k0_pay6 i oob (View.ld rm (Rect.unit ![0, 0] ![1, 1024] inb_S8x1024_S1x1024_0_0))) p j).trans ?_
  by_cases h : p.val + 1 < 512
  · rw [dif_pos (by omega), dif_pos h]
    unfold k0_pay5
    simp only [shapeCast_self]
    exact slice2_axis0_apply 1 x slices_S512x1024_o1_0_S511x1024 _ j _ (by simp; omega)
  · rw [dif_neg (by omega), dif_neg h]
    have hp : (⟨p.val - 511, by omega⟩ : Fin 1) = 0 := Fin.ext (by show p.val - 511 = 0; omega)
    rw [hp]
    unfold k0_pay6 k0_pay2
    simp only [shapeCast_self]
    have h16 : (i 0).val < 16 := (i 0).isLt
    rw [Cert.Dilated.Halo.select_eq_nat (i 0).val 15 (by omega) (by omega)]
    by_cases h0 : (i 0).val = 15
    · rw [if_pos h0, if_pos h0]
    · rw [if_neg h0, if_neg h0]
      exact Cert.Dilated.Halo.ld_row (Val := Elt F) (e := EltTy.f32) (n := 8) (m := 1024) (r := 0) (by omega) rm inb_S8x1024_S1x1024_0_0 j

/-- The output tile after the body, at entry (p, q), on the extended reals. -/
theorem outG0_apply (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec Ideal S512x1024 .f32) (lm rm : Vec Ideal S8x1024 .f32) (w0 w1 w2 : Vec Ideal S1024x1024 .bf16)
    (b oob : Vec Ideal S1x1024 .f32) (p : Fin 512) (q : Fin 1024) :
    outG0 c i arg1 harg1 arg2 harg2 arg3 harg3 arg4 harg4 arg5 harg5 arg6 harg6 arg7 harg7 arg8 harg8 arg9 harg9 arg10 harg10 arg11 harg11 x lm rm w0 w1 w2 b oob (ix2 p q)
      = Cert.Dilated.half * x (ix2 p q)
        + Cert.Dilated.half * max ((((∑ j : Fin 1024, x (ix2 p j) * w0 (ix2 j q))
            + ∑ j : Fin 1024,
                (if h : 1 ≤ p.val then x (ix2 (⟨p.val - 1, by omega⟩ : Fin 512) j)
                 else if (i 0).val = 0 then oob (ix2 (0 : Fin 1) j) else lm (ix2 (7 : Fin 8) j)) * w1 (ix2 j q))
            + ∑ j : Fin 1024,
                (if h : p.val + 1 < 512 then x (ix2 (⟨p.val + 1, h⟩ : Fin 512) j)
                 else if (i 0).val = 15 then oob (ix2 (0 : Fin 1) j) else rm (ix2 (0 : Fin 8) j)) * w2 (ix2 j q))
            + b (ix2 0 q)) Cert.Dilated.zero := by
  rw [outG0_eq]
  refine (Cert.Dilated.Pay.out0_apply x (haloL0 i x lm oob) (haloR0 i x rm oob) w0 w1 w2 b p q).trans ?_
  simp only [haloL0_apply, haloR0_apply]

end Cert.KernelIdeal.Hand

end
-- ==== Proof.SpecB.lean ====
/-
  A layer of the network stated over the blocks a tile-wise computation is handed: the three 1024 × 1024 weight blocks,
  the bias as a 1 × 1024 row and the out-of-bounds row as a 1 × 1024 row; and the statement that, when those blocks are
  the three stretches of a layer's weight matrix and the rows are the layer's bias and the out-of-bounds vector, it is
  the layer of the common specification.
-/
import proofs.«137995_j86517821215731_2_alg».proof.Proof.Spec

noncomputable section

namespace Cert.Dilated

open Idealize.ShloMosaic Idealize.ShloMosaic.ValueIdx

abbrev SWB : Shape := ⟨2, ![1024, 1024]⟩
abbrev SRow : Shape := ⟨2, ![1, 1024]⟩

/-- Row `r − δ` of `X`, or the out-of-bounds row (given as a 1 × 1024 row) when there is no such row. -/
def shiftLB (δ : ℕ) (X : SX.Idx → EReal) (o : SRow.Idx → EReal) (r : Fin 8192) (j : Fin 1024) : EReal :=
  if h : δ ≤ r.val then X (ix2 (⟨r.val - δ, by omega⟩ : Fin 8192) j) else o (ix2 (0 : Fin 1) j)

/-- Row `r + δ` of `X`, or the out-of-bounds row when there is no such row. -/
def shiftRB (δ : ℕ) (X : SX.Idx → EReal) (o : SRow.Idx → EReal) (r : Fin 8192) (j : Fin 1024) : EReal :=
  if h : r.val + δ < 8192 then X (ix2 (⟨r.val + δ, h⟩ : Fin 8192) j) else o (ix2 (0 : Fin 1) j)

/-- Entry `(r, k)` of a layer of dilation `δ` over blocks. -/
def layerBAt (δ : ℕ) (X : SX.Idx → EReal) (w0 w1 w2 : SWB.Idx → EReal) (b o : SRow.Idx → EReal) (r : Fin 8192) (k : Fin 1024) : EReal :=
  half * X (ix2 r k)
    + half * max ((((∑ j : Fin 1024, X (ix2 r j) * w0 (ix2 j k))
                    + ∑ j : Fin 1024, shiftLB δ X o r j * w1 (ix2 j k))
                    + ∑ j : Fin 1024, shiftRB δ X o r j * w2 (ix2 j k))
                  + b (ix2 (0 : Fin 1) k)) zero

/-- A layer of dilation `δ` over blocks, as an array. -/
def layerB (δ : ℕ) (X : SX.Idx → EReal) (w0 w1 w2 : SWB.Idx → EReal) (b o : SRow.Idx → EReal) : SX.Idx → EReal :=
  fun i => layerBAt δ X w0 w1 w2 b o (i 0) (i 1)

theorem layerB_apply (δ : ℕ) (X : SX.Idx → EReal) (w0 w1 w2 : SWB.Idx → EReal) (b o : SRow.Idx → EReal) (r : Fin 8192) (k : Fin 1024) :
    layerB δ X w0 w1 w2 b o (ix2 r k) = layerBAt δ X w0 w1 w2 b o r k := rfl

/-- Over the three stretches of layer `l`'s weight matrix, its bias row and the out-of-bounds vector as a row, the layer
    over blocks is the layer of the specification. -/
theorem layerB_eq_layer (δ : ℕ) (l : Fin 4) (X : SX.Idx → EReal) (W : SW.Idx → EReal) (B : SB.Idx → EReal) (O : SO.Idx → EReal)
    (w0 w1 w2 : SWB.Idx → EReal) (b o : SRow.Idx → EReal)
    (h0 : ∀ (j k : Fin 1024), w0 (ix2 j k) = W (ix3 l (⟨j.val, by omega⟩ : Fin 3072) k))
    (h1 : ∀ (j k : Fin 1024), w1 (ix2 j k) = W (ix3 l (⟨1024 + j.val, by omega⟩ : Fin 3072) k))
    (h2 : ∀ (j k : Fin 1024), w2 (ix2 j k) = W (ix3 l (⟨2048 + j.val, by omega⟩ : Fin 3072) k))
    (hb : ∀ k : Fin 1024, b (ix2 (0 : Fin 1) k) = B (ix2 l k))
    (ho : ∀ j : Fin 1024, o (ix2 (0 : Fin 1) j) = O (ix1 j)) :
    layerB δ X w0 w1 w2 b o = layer δ l X W B O := by
  funext i
  have hL : ∀ r j, shiftLB δ X o r j = shiftL δ X O r j := fun r j => by
    unfold shiftLB shiftL; split_ifs <;> simp [ho]
  have hR : ∀ r j, shiftRB δ X o r j = shiftR δ X O r j := fun r j => by
    unfold shiftRB shiftR; split_ifs <;> simp [ho]
  obtain ⟨r, k, rfl⟩ : ∃ (r : Fin 8192) (k : Fin 1024), i = ix2 r k := ⟨i 0, i 1, eq_ix2 i⟩
  show layerBAt δ X w0 w1 w2 b o r k = layerAt δ l X W B O r k
  simp only [layerBAt, layerAt, h0, h1, h2, hb, hL, hR]

end Cert.Dilated

end
-- ==== Proof.KI.TileMath.lean ====
/-
  A layer's entry at a row of tile t, from what a tile-wise computation holds at that tile.

  The 8192 rows are cut into 16 tiles of 512 rows; row p of tile t is row 512·t + p of the array. A computation
  working on tile t holds the tile itself (x), the 8 rows above it (the 8-row block number 64·t − 1, when t > 0), the
  8 rows below it (the 8-row block number 64·(t + 1), when t < 15) and the out-of-bounds row. For a dilation δ
  between 1 and 8 the row δ above row p is row p − δ of the tile when p ≥ δ, and otherwise row 8 − δ + p of the block
  above or, in the first tile, the out-of-bounds row; the row δ below row p is row p + δ of the tile when p + δ < 512,
  and otherwise row p + δ − 512 of the block below or, in the last tile, the out-of-bounds row. With the rows so
  found, the layer's entry (512·t + p, q) is the same expression in the tile's data.
-/
import proofs.«137995_j86517821215731_2_alg».proof.Proof.SpecB

noncomputable section

namespace Cert.Dilated.Tile

open Idealize.ShloMosaic Idealize.ShloMosaic.ValueIdx Cert.Dilated

/-- A tile: 512 rows. -/
abbrev STile : Shape := ⟨2, ![512, 1024]⟩
/-- A margin: 8 rows. -/
abbrev SMargin : Shape := ⟨2, ![8, 1024]⟩

/-- The row δ above row p of tile t, in the array. -/
theorem shiftLB_tile (δ : ℕ) (hδ : 0 < δ) (hδ8 : δ ≤ 8) (X : SX.Idx → EReal) (o : SRow.Idx → EReal)
    (t : Fin 16) (p : Fin 512) (j : Fin 1024) :
    shiftLB δ X o (⟨512 * t.val + p.val, by omega⟩ : Fin 8192) j
      = if h : δ ≤ p.val then X (ix2 (⟨512 * t.val + p.val - δ, by omega⟩ : Fin 8192) j)
        else if ht : t.val = 0 then o (ix2 (0 : Fin 1) j)
        else X (ix2 (⟨8 * (64 * t.val - 1) + (8 - δ + p.val), by omega⟩ : Fin 8192) j) := by
  unfold shiftLB
  split_ifs with h1 h2 h3 h4 h5
  all_goals first
    | rfl
    | (exfalso; dsimp only at *; omega)
    | (refine congrArg (fun r : Fin 8192 => X (ix2 r j)) (Fin.ext ?_); dsimp only; omega)

/-- The row δ below row p of tile t, in the array. -/
theorem shiftRB_tile (δ : ℕ) (hδ : 0 < δ) (hδ8 : δ ≤ 8) (X : SX.Idx → EReal) (o : SRow.Idx → EReal)
    (t : Fin 16) (p : Fin 512) (j : Fin 1024) :
    shiftRB δ X o (⟨512 * t.val + p.val, by omega⟩ : Fin 8192) j
      = if h : p.val + δ < 512 then X (ix2 (⟨512 * t.val + p.val + δ, by omega⟩ : Fin 8192) j)
        else if ht : t.val = 15 then o (ix2 (0 : Fin 1) j)
        else X (ix2 (⟨8 * (64 * (t.val + 1)) + (p.val + δ - 512), by omega⟩ : Fin 8192) j) := by
  unfold shiftRB
  split_ifs with h1 h2 h3 h4 h5
  all_goals first
    | rfl
    | (exfalso; dsimp only at *; omega)
    | (refine congrArg (fun r : Fin 8192 => X (ix2 r j)) (Fin.ext ?_); dsimp only; omega)

section Point

variable (δ : ℕ) (hδ : 0 < δ) (hδ8 : δ ≤ 8)
variable (X : SX.Idx → EReal) (o : SRow.Idx → EReal)
variable (t : Fin 16) (i0 : ℕ) (hi0 : i0 = t.val)
variable (x : STile.Idx → EReal) (lm rm : SMargin.Idx → EReal)
variable (hx : ∀ (p : Fin 512) (j : Fin 1024), x (ix2 p j) = X (ix2 (⟨512 * t.val + p.val, by omega⟩ : Fin 8192) j))
variable (hlm : ∀ (_ht : t.val ≠ 0) (r : Fin 8) (j : Fin 1024),
    lm (ix2 r j) = X (ix2 (⟨8 * (64 * t.val - 1) + r.val, by omega⟩ : Fin 8192) j))
variable (hrm : ∀ (_ht : t.val ≠ 15) (r : Fin 8) (j : Fin 1024),
    rm (ix2 r j) = X (ix2 (⟨8 * (64 * (t.val + 1)) + r.val, by omega⟩ : Fin 8192) j))

include hδ hδ8 hi0 hx hlm in
/-- The row δ above row p, as tile t finds it: in the tile, in the out-of-bounds row (first tile) or in row
    rL = 8 − δ + p of the margin above. -/
theorem above_eq (p : Fin 512) (j : Fin 1024) (rL : Fin 8) (hrL : ¬ δ ≤ p.val → rL.val = 8 - δ + p.val) :
    (if h : δ ≤ p.val then x (ix2 (⟨p.val - δ, by omega⟩ : Fin 512) j)
      else if i0 = 0 then o (ix2 (0 : Fin 1) j) else lm (ix2 rL j))
      = shiftLB δ X o (⟨512 * t.val + p.val, by omega⟩ : Fin 8192) j := by
  rw [shiftLB_tile δ hδ hδ8]
  subst hi0
  by_cases h : δ ≤ p.val
  · rw [dif_pos h, dif_pos h, hx]
    refine congrArg (fun r : Fin 8192 => X (ix2 r j)) (Fin.ext ?_); dsimp only; omega
  · rw [dif_neg h, dif_neg h]
    by_cases ht : t.val = 0
    · rw [if_pos ht, dif_pos ht]
    · rw [if_neg ht, dif_neg ht, hlm ht]
      refine congrArg (fun r : Fin 8192 => X (ix2 r j)) (Fin.ext ?_); dsimp only; rw [hrL h]

include hδ hδ8 hi0 hx hrm in
/-- The row δ below row p, as tile t finds it: in the tile, in the out-of-bounds row (last tile) or in row
    rR = p + δ − 512 of the margin below. -/
theorem below_eq (p : Fin 512) (j : Fin 1024) (rR : Fin 8) (hrR : ¬ p.val + δ < 512 → rR.val = p.val + δ - 512) :
    (if h : p.val + δ < 512 then x (ix2 (⟨p.val + δ, h⟩ : Fin 512) j)
      else if i0 = 15 then o (ix2 (0 : Fin 1) j) else rm (ix2 rR j))
      = shiftRB δ X o (⟨512 * t.val + p.val, by omega⟩ : Fin 8192) j := by
  rw [shiftRB_tile δ hδ hδ8]
  subst hi0
  by_cases h : p.val + δ < 512
  · rw [dif_pos h, dif_pos h, hx]
    refine congrArg (fun r : Fin 8192 => X (ix2 r j)) (Fin.ext ?_); dsimp only; omega
  · rw [dif_neg h, dif_neg h]
    by_cases ht : t.val = 15
    · rw [if_pos ht, dif_pos ht]
    · rw [if_neg ht, dif_neg ht, hrm ht]
      refine congrArg (fun r : Fin 8192 => X (ix2 r j)) (Fin.ext ?_); dsimp only; rw [hrR h]

end Point

/-- The layer's entry at row 512·t + p from the tile's own row p and the two neighbouring rows as tile t finds them. -/
theorem layerBAt_tile (δ : ℕ) (X : SX.Idx → EReal) (w0 w1 w2 : SWB.Idx → EReal) (b o : SRow.Idx → EReal)
    (t : Fin 16) (p : Fin 512) (q : Fin 1024) (x : STile.Idx → EReal) (xl xr : Fin 1024 → EReal)
    (hx : ∀ j : Fin 1024, x (ix2 p j) = X (ix2 (⟨512 * t.val + p.val, by omega⟩ : Fin 8192) j))
    (hxl : ∀ j : Fin 1024, xl j = shiftLB δ X o (⟨512 * t.val + p.val, by omega⟩ : Fin 8192) j)
    (hxr : ∀ j : Fin 1024, xr j = shiftRB δ X o (⟨512 * t.val + p.val, by omega⟩ : Fin 8192) j) :
    half * x (ix2 p q)
      + half * max ((((∑ j : Fin 1024, x (ix2 p j) * w0 (ix2 j q))
                      + ∑ j : Fin 1024, xl j * w1 (ix2 j q))
                      + ∑ j : Fin 1024, xr j * w2 (ix2 j q))
                    + b (ix2 (0 : Fin 1) q)) zero
      = layerBAt δ X w0 w1 w2 b o (⟨512 * t.val + p.val, by omega⟩ : Fin 8192) q := by
  unfold layerBAt
  simp only [hx, hxl, hxr]

/-- Dilation 1. The layer's entry at row 512·t + p, in the data tile t holds: the tile x, row 7 of the margin above,
    row 0 of the margin below, the out-of-bounds row, the three weight blocks and the bias row. -/
theorem layerBAt_tile_one (X : SX.Idx → EReal) (W0 W1 W2 : SWB.Idx → EReal) (B O : SRow.Idx → EReal)
    (t : Fin 16) (i0 : ℕ) (hi0 : i0 = t.val)
    (x : STile.Idx → EReal) (lm rm : SMargin.Idx → EReal) (w0 w1 w2 : SWB.Idx → EReal) (b oob : SRow.Idx → EReal)
    (hw0 : w0 = W0) (hw1 : w1 = W1) (hw2 : w2 = W2) (hb : b = B) (ho : oob = O)
    (hx : ∀ (p : Fin 512) (j : Fin 1024), x (ix2 p j) = X (ix2 (⟨512 * t.val + p.val, by omega⟩ : Fin 8192) j))
    (hlm : ∀ (_ht : t.val ≠ 0) (r : Fin 8) (j : Fin 1024),
      lm (ix2 r j) = X (ix2 (⟨8 * (64 * t.val - 1) + r.val, by omega⟩ : Fin 8192) j))
    (hrm : ∀ (_ht : t.val ≠ 15) (r : Fin 8) (j : Fin 1024),
      rm (ix2 r j) = X (ix2 (⟨8 * (64 * (t.val + 1)) + r.val, by omega⟩ : Fin 8192) j))
    (p : Fin 512) (q : Fin 1024) :
    half * x (ix2 p q)
      + half * max ((((∑ j : Fin 1024, x (ix2 p j) * w0 (ix2 j q))
          + ∑ j : Fin 1024,
              (if h : 1 ≤ p.val then x (ix2 (⟨p.val - 1, by omega⟩ : Fin 512) j)
               else if i0 = 0 then oob (ix2 (0 : Fin 1) j) else lm (ix2 (7 : Fin 8) j)) * w1 (ix2 j q))
          + ∑ j : Fin 1024,
              (if h : p.val + 1 < 512 then x (ix2 (⟨p.val + 1, h⟩ : Fin 512) j)
               else if i0 = 15 then oob (ix2 (0 : Fin 1) j) else rm (ix2 (0 : Fin 8) j)) * w2 (ix2 j q))
          + b (ix2 0 q)) zero
      = layerBAt 1 X W0 W1 W2 B O (⟨512 * t.val + p.val, by omega⟩ : Fin 8192) q := by
  subst hw0 hw1 hw2 hb ho
  exact layerBAt_tile 1 X w0 w1 w2 b oob t p q x _ _ (hx p)
    (fun j => above_eq 1 Nat.one_pos (by omega) X oob t i0 hi0 x lm hx hlm p j 7
      (fun h => by show 7 = 8 - 1 + p.val; omega))
    (fun j => below_eq 1 Nat.one_pos (by omega) X oob t i0 hi0 x rm hx hrm p j 0
      (fun h => by show 0 = p.val + 1 - 512; have := p.isLt; omega))

end Cert.Dilated.Tile

end
-- ==== Proof.KI.Tile0.lean ====
/-
  From tiles to the whole array, for the first layer's kernel (dilation 1).

  The kernel's grid has 16 points; point t is handed tile t of the layer's input (rows 512·t … 512·t + 511), the 8-row
  blocks just above and just below it, the three weight blocks, the bias row and the out-of-bounds row, all of them
  blocks of the arrays the region finds, and writes tile t of its output array. Since each point's tile is the tile
  of one whole-array function — the layer over blocks — and the 16 tiles cover the 8192 rows, the output array ends
  holding that function.
-/
import proofs.«137995_j86517821215731_2_alg».proof.Proof.KI.Body0
import proofs.«137995_j86517821215731_2_alg».proof.Proof.KI.Val0
import proofs.«137995_j86517821215731_2_alg».proof.Proof.KI.TileMath
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-! ## The index maps over the grid -/

/-- The grid has 16 points. -/
theorem lt16_0 (t : Fin cfg0.N) : t.val < 16 :=
  lt_of_lt_of_eq t.isLt (show cfg0.N = 16 from N_0)

/-- The input tile's and the output tile's block index at point t is (t, 0); the point's grid coordinate is t. -/
theorem idx0_tile : ∀ t : Fin cfg0.N, win0_0.index t (0 : Fin 2) = t.val ∧ win0_0.index t (1 : Fin 2) = 0
    ∧ win0_8.index t (0 : Fin 2) = t.val ∧ win0_8.index t (1 : Fin 2) = 0 ∧ ((grid0.coords t) 0).val = t.val :=
  (by decide +kernel : ∀ t : Fin grid0.N, _)

/-- The margin above is the 8-row block number 64·t − 1 (block 0 at the first point, where it is not used). -/
theorem idx0_1 : ∀ t : Fin cfg0.N, win0_1.index t (0 : Fin 2) = (if t.val = 0 then 0 else 64 * t.val - 1)
    ∧ win0_1.index t (1 : Fin 2) = 0 :=
  (by decide +kernel : ∀ t : Fin grid0.N, _)

/-- The margin below is the 8-row block number 64·(t + 1) (block 1023 at the last point, where it is not used). -/
theorem idx0_2 : ∀ t : Fin cfg0.N, win0_2.index t (0 : Fin 2) = (if t.val = 15 then 1023 else 64 * (t.val + 1))
    ∧ win0_2.index t (1 : Fin 2) = 0 :=
  (by decide +kernel : ∀ t : Fin grid0.N, _)

theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)

section Region0

variable (V : (c : Dev nD) → (b : Ref sig .tc) → Buf (Elt Ideal) ((c : Thread nD τ).loc b))

/-! ## Each input block, where it sits in its array -/

/-- Row p of the tile at point t is row 512·t + p of the layer's input. -/
theorem blk0_0 (c : Dev nD) (t : Fin cfg0.N) (p : Fin 512) (j : Fin 1024) :
    (iblk0 V c 0 t : Vec Ideal S512x1024 .f32) (ix2 p j)
      = (V c main_arg0 : S8192x1024.Idx → EReal) (ix2 (⟨512 * t.val + p.val, by have := lt16_0 t; omega⟩ : Fin 8192) j) := by
  unfold iblk0
  rw [View.read_apply]
  show V c main_arg0 (((cfg0.win 0).blk t).view.emb (ix2 p j)) = V c main_arg0 _
  refine congrArg (V c main_arg0) ?_
  funext a; apply Fin.ext
  match a with
  | ⟨0, _⟩ => show win0_0.index t (0 : Fin 2) * 512 + 1 * p.val = 512 * t.val + p.val; rw [(idx0_tile t).1]; omega
  | ⟨1, _⟩ => show win0_0.index t (1 : Fin 2) * 1024 + 1 * j.val = j.val; rw [(idx0_tile t).2.1]; omega

/-- Past the first point, row r of the margin above is row 8·(64·t − 1) + r of the layer's input. -/
theorem blk0_1 (c : Dev nD) (t : Fin cfg0.N) (ht : t.val ≠ 0) (r : Fin 8) (j : Fin 1024) :
    (iblk0 V c 1 t : Vec Ideal S8x1024 .f32) (ix2 r j)
      = (V c main_arg0 : S8192x1024.Idx → EReal) (ix2 (⟨8 * (64 * t.val - 1) + r.val, by have := lt16_0 t; omega⟩ : Fin 8192) j) := by
  unfold iblk0
  rw [View.read_apply]
  show V c main_arg0 (((cfg0.win 1).blk t).view.emb (ix2 r j)) = V c main_arg0 _
  refine congrArg (V c main_arg0) ?_
  funext a; apply Fin.ext
  match a with
  | ⟨0, _⟩ => show win0_1.index t (0 : Fin 2) * 8 + 1 * r.val = 8 * (64 * t.val - 1) + r.val; rw [(idx0_1 t).1, if_neg ht]; omega
  | ⟨1, _⟩ => show win0_1.index t (1 : Fin 2) * 1024 + 1 * j.val = j.val; rw [(idx0_1 t).2]; omega

/-- Before the last point, row r of the margin below is row 8·(64·(t + 1)) + r of the layer's input. -/
theorem blk0_2 (c : Dev nD) (t : Fin cfg0.N) (ht : t.val ≠ 15) (r : Fin 8) (j : Fin 1024) :
    (iblk0 V c 2 t : Vec Ideal S8x1024 .f32) (ix2 r j)
      = (V c main_arg0 : S8192x1024.Idx → EReal) (ix2 (⟨8 * (64 * (t.val + 1)) + r.val, by have := lt16_0 t; omega⟩ : Fin 8192) j) := by
  unfold iblk0
  rw [View.read_apply]
  show V c main_arg0 (((cfg0.win 2).blk t).view.emb (ix2 r j)) = V c main_arg0 _
  refine congrArg (V c main_arg0) ?_
  funext a; apply Fin.ext
  match a with
  | ⟨0, _⟩ => show win0_2.index t (0 : Fin 2) * 8 + 1 * r.val = 8 * (64 * (t.val + 1)) + r.val; rw [(idx0_2 t).1, if_neg ht]; omega
  | ⟨1, _⟩ => show win0_2.index t (1 : Fin 2) * 1024 + 1 * j.val = j.val; rw [(idx0_2 t).2]; omega

/-- Window 3's block at any point is the whole array. -/
theorem blk0_3 (c : Dev nD) (t : Fin cfg0.N) :
    (iblk0 V c 3 t : Vec Ideal S1024x1024 .bf16) = (V c main_v3 : S1024x1024.Idx → EReal) := by
  funext y
  unfold iblk0
  rw [View.read_apply]
  show V c main_v3 (((cfg0.win 3).blk t).view.emb y) = V c main_v3 y
  refine congrArg (V c main_v3) ?_
  funext a; apply Fin.ext
  match a with
  | ⟨0, _⟩ => show win0_3.index t (0 : Fin 2) * 1024 + 1 * (y 0).val = (y 0).val; rw [(idx0_3 t).1]; omega
  | ⟨1, _⟩ => show win0_3.index t (1 : Fin 2) * 1024 + 1 * (y 1).val = (y 1).val; rw [(idx0_3 t).2]; omega

/-- Window 4's block at any point is the whole array. -/
theorem blk0_4 (c : Dev nD) (t : Fin cfg0.N) :
    (iblk0 V c 4 t : Vec Ideal S1024x1024 .bf16) = (V c main_v4 : S1024x1024.Idx → EReal) := by
  funext y
  unfold iblk0
  rw [View.read_apply]
  show V c main_v4 (((cfg0.win 4).blk t).view.emb y) = V c main_v4 y
  refine congrArg (V c main_v4) ?_
  funext a; apply Fin.ext
  match a with
  | ⟨0, _⟩ => show win0_4.index t (0 : Fin 2) * 1024 + 1 * (y 0).val = (y 0).val; rw [(idx0_4 t).1]; omega
  | ⟨1, _⟩ => show win0_4.index t (1 : Fin 2) * 1024 + 1 * (y 1).val = (y 1).val; rw [(idx0_4 t).2]; omega

/-- Window 5's block at any point is the whole array. -/
theorem blk0_5 (c : Dev nD) (t : Fin cfg0.N) :
    (iblk0 V c 5 t : Vec Ideal S1024x1024 .bf16) = (V c main_v5 : S1024x1024.Idx → EReal) := by
  funext y
  unfold iblk0
  rw [View.read_apply]
  show V c main_v5 (((cfg0.win 5).blk t).view.emb y) = V c main_v5 y
  refine congrArg (V c main_v5) ?_
  funext a; apply Fin.ext
  match a with
  | ⟨0, _⟩ => show win0_5.index t (0 : Fin 2) * 1024 + 1 * (y 0).val = (y 0).val; rw [(idx0_5 t).1]; omega
  | ⟨1, _⟩ => show win0_5.index t (1 : Fin 2) * 1024 + 1 * (y 1).val = (y 1).val; rw [(idx0_5 t).2]; omega

/-- Window 6's block at any point is the whole array. -/
theorem blk0_6 (c : Dev nD) (t : Fin cfg0.N) :
    (iblk0 V c 6 t : Vec Ideal S1x1024 .f32) = (V c main_v8 : S1x1024.Idx → EReal) := by
  funext y
  unfold iblk0
  rw [View.read_apply]
  show V c main_v8 (((cfg0.win 6).blk t).view.emb y) = V c main_v8 y
  refine congrArg (V c main_v8) ?_
  funext a; apply Fin.ext
  match a with
  | ⟨0, _⟩ => show win0_6.index t (0 : Fin 2) * 1 + 1 * (y 0).val = (y 0).val; rw [(idx0_6 t).1]; omega
  | ⟨1, _⟩ => show win0_6.index t (1 : Fin 2) * 1024 + 1 * (y 1).val = (y 1).val; rw [(idx0_6 t).2]; omega

/-- Window 7's block at any point is the whole array. -/
theorem blk0_7 (c : Dev nD) (t : Fin cfg0.N) :
    (iblk0 V c 7 t : Vec Ideal S1x1024 .f32) = (V c main_v9 : S1x1024.Idx → EReal) := by
  funext y
  unfold iblk0
  rw [View.read_apply]
  show V c main_v9 (((cfg0.win 7).blk t).view.emb y) = V c main_v9 y
  refine congrArg (V c main_v9) ?_
  funext a; apply Fin.ext
  match a with
  | ⟨0, _⟩ => show win0_7.index t (0 : Fin 2) * 1 + 1 * (y 0).val = (y 0).val; rw [(idx0_7 t).1]; omega
  | ⟨1, _⟩ => show win0_7.index t (1 : Fin 2) * 1024 + 1 * (y 1).val = (y 1).val; rw [(idx0_7 t).2]; omega

/-! ## What each point writes back, and the array after the run -/

/-- What point t writes back is tile t of the layer of the arrays the region finds. -/
theorem flushed0_eq (c : Dev nD) (t : Fin cfg0.N) :
    (dat0 (F := Ideal) V c).flushed 8 t
      = ((cfg0.win 8).blk t).view.read (Elt Ideal) (Cert.Dilated.layerB 1 (V c main_arg0) (V c main_v3) (V c main_v4) (V c main_v5) (V c main_v8) (V c main_v9)) := by
  show (cfg0.win 8).cut (cfg0.grid.coords t) ((dat0 V c).after 8 t) = _
  rw [after0_8]
  funext y
  obtain ⟨p, q, rfl⟩ : ∃ (p : Fin 512) (q : Fin 1024), y = ix2 p q := ⟨y 0, y 1, eq_ix2 y⟩
  rw [View.read_apply]
  show out0 V c t (ix2 p q) = (Cert.Dilated.layerB 1 (V c main_arg0) (V c main_v3) (V c main_v4) (V c main_v5) (V c main_v8) (V c main_v9)) (((cfg0.win 8).blk t).view.emb (ix2 p q))
  have he : ((cfg0.win 8).blk t).view.emb (ix2 p q)
      = (ix2 (⟨512 * t.val + p.val, by have := lt16_0 t; omega⟩ : Fin 8192) q : S8192x1024.Idx) := by
    funext a; apply Fin.ext
    match a with
    | ⟨0, _⟩ => show win0_8.index t (0 : Fin 2) * 512 + 1 * p.val = 512 * t.val + p.val; rw [(idx0_tile t).2.2.1]; omega
    | ⟨1, _⟩ => show win0_8.index t (1 : Fin 2) * 1024 + 1 * q.val = q.val; rw [(idx0_tile t).2.2.2.1]; omega
  rw [he, Cert.Dilated.layerB_apply]
  unfold out0
  refine (outG0_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) p q).trans ?_
  exact Cert.Dilated.Tile.layerBAt_tile_one (V c main_arg0) (V c main_v3) (V c main_v4) (V c main_v5) (V c main_v8) (V c main_v9)
    ⟨t.val, lt16_0 t⟩ ((grid0.coords t) 0).val (idx0_tile t).2.2.2.2
    (iblk0 V c 0 t) (iblk0 V c 1 t) (iblk0 V c 2 t) (iblk0 V c 3 t) (iblk0 V c 4 t) (iblk0 V c 5 t) (iblk0 V c 6 t) (iblk0 V c 7 t)
    (blk0_3 V c t) (blk0_4 V c t) (blk0_5 V c t) (blk0_6 V c t) (blk0_7 V c t)
    (blk0_0 V c t) (blk0_1 V c t) (blk0_2 V c t) p q

/-- An index of the output array is in point t's block iff each coordinate is in the block's range on its axis. -/
theorem mem_blk0_8 (t : Fin cfg0.N) (i : S8192x1024.Idx) :
    i ∈ ((cfg0.win 8).blk t).view.set ↔ ∀ a : Fin 2, win0_8.index t a * S512x1024.size a ≤ (i a).val
      ∧ (i a).val < win0_8.index t a * S512x1024.size a + S512x1024.size a := by
  show i ∈ ((View.whole main_v10).slice (win0_8.rect t)).set ↔ _
  rw [View.set_slice_whole, Rect.mem_set_unit]
  exact Iff.rfl

/-- Row r of the output array is written back by point r / 512. -/
theorem cover0_8 (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  obtain ⟨t, ht⟩ : ∃ t : Fin cfg0.N, t.val = (i 0).val / 512 :=
    ⟨⟨(i 0).val / 512, by rw [show cfg0.N = 16 from N_0]; omega⟩, rfl⟩
  refine ⟨t, flush0_8 t, ?_⟩
  rw [mem_blk0_8]
  intro a
  match a with
  | ⟨0, _⟩ =>
    show win0_8.index t (0 : Fin 2) * 512 ≤ (i 0).val ∧ (i 0).val < win0_8.index t (0 : Fin 2) * 512 + 512
    rw [(idx0_tile t).2.2.1, ht]; omega
  | ⟨1, _⟩ =>
    show win0_8.index t (1 : Fin 2) * 1024 ≤ (i 1).val ∧ (i 1).val < win0_8.index t (1 : Fin 2) * 1024 + 1024
    rw [(idx0_tile t).2.2.2.1]; omega

/-- The output array after the run is the layer of the arrays the region finds. -/
theorem res0_eq (c : Dev nD) :
    (dat0 (F := Ideal) V c).arrAt 8 cfg0.N = (Cert.Dilated.layerB 1 (V c main_arg0) (V c main_v3) (V c main_v4) (V c main_v5) (V c main_v8) (V c main_v9)) :=
  (dat0 (F := Ideal) V c).arrAt_eq_of_cover 8 (Cert.Dilated.layerB 1 (V c main_arg0) (V c main_v3) (V c main_v4) (V c main_v5) (V c main_v8) (V c main_v9))
    (fun t _ => flushed0_eq V c t) (fun i => cover0_8 i)

end Region0

end Cert.KernelIdeal.Hand

end
-- ==== Proof.KI.Host.lean ====
/-
  What the host hands each layer's kernel, read at an entry.

  Before the kernel of layer K runs, the host cuts layer K out of the weight array (4 layers of 3072 × 1024), drops
  the unit axis, rounds to the matrix unit's format (the identity on the extended reals) and cuts the 3072 rows into
  three blocks of 1024; cuts row K out of the bias array (4 × 1024) and reshapes it to a vector and back to a row; and
  reshapes the out-of-bounds vector (1024 entries) to a row. So block s of the weights at (j, k) is the weight array
  at (K, 1024·s + j, k), the bias row at (0, k) is the bias array at (K, k), and the out-of-bounds row at (0, j) is
  the out-of-bounds vector at j.
-/
import proofs.«137995_j86517821215731_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen

/-- Rows o … o + 1023 of layer K of the weight array, after the unit axis is dropped and the format changed. -/
theorem weightBlock_apply (A : FVec Ideal S4x3072x1024 .f32) (K : ℕ) (hK : K < 4) (o : ℕ)
    (hs1 : S4x3072x1024.Slices ![K, 0, 0] S1x3072x1024) (hc : S1x3072x1024.ShapeCasts S3072x1024)
    (hs2 : S3072x1024.Slices ![o, 0] S1024x1024) (j k : Fin 1024) (r : Fin 3072) (hr : r.val = o + j.val) :
    extractStridedSlice S1024x1024 ![o, 0]
        (truncf .bf16 (shapeCast S3072x1024 (extractStridedSlice S1x3072x1024 ![K, 0, 0] A hs1) hc) bitsLt_bf16_f32)
        hs2 (ix2 j k)
      = A (ix3 (⟨K, hK⟩ : Fin 4) r k) := by
  refine (slice2_axis0_apply o _ hs2 j k r hr).trans ?_
  show shapeCast S3072x1024 (extractStridedSlice S1x3072x1024 ![K, 0, 0] A hs1) hc (ix2 r k) = _
  refine (shapeCast_1ab_ab_apply _ hc r k).trans ?_
  refine extractStridedSlice_apply _ A hs1 _ (ix3 (⟨K, hK⟩ : Fin 4) r k) fun ax => ?_
  match ax with
  | ⟨0, _⟩ => show K = K + 0; omega
  | ⟨1, _⟩ => show r.val = 0 + r.val; omega
  | ⟨2, _⟩ => show k.val = 0 + k.val; omega

/-- Row K of the bias array, reshaped to a vector and back to a row. -/
theorem biasRow_apply (B : FVec Ideal S4x1024 .f32) (K : ℕ) (hK : K < 4) (hs : S4x1024.Slices ![K, 0] S1x1024)
    (h1 : S1x1024.ShapeCasts S1024) (h2 : S1024.ShapeCasts S1x1024) (k : Fin 1024) :
    shapeCast S1x1024 (shapeCast S1024 (extractStridedSlice S1x1024 ![K, 0] B hs) h1) h2 (ix2 (0 : Fin 1) k)
      = B (ix2 (⟨K, hK⟩ : Fin 4) k) := by
  refine (shapeCast_a_1a_apply _ h2 0 k).trans ?_
  refine (shapeCast_1a_a_apply _ h1 k).trans ?_
  exact slice2_axis0_apply K B hs 0 k ⟨K, hK⟩ (by show K = K + 0; omega)

/-- The out-of-bounds vector reshaped to a row. -/
theorem oobRow_apply (O : FVec Ideal S1024 .f32) (h : S1024.ShapeCasts S1x1024) (j : Fin 1024) :
    shapeCast S1x1024 O h (ix2 (0 : Fin 1) j) = O (ix1 j) :=
  shapeCast_a_1a_apply O h 0 j

/-! ## Layer 0 -/

theorem host0_w0 (W : Valuation τ sig (Elt Ideal)) (j k : Fin 1024) :
    (StableHlo.after (hostOps0 (F := Ideal)) W (Proc.devRef .tc main_v3) : S1024x1024.Idx → EReal) (ix2 j k)
      = (W (Proc.devRef .tc main_arg1) : S4x3072x1024.Idx → EReal) (ix3 (0 : Fin 4) (⟨j.val, by omega⟩ : Fin 3072) k) := by
  after_results
  exact weightBlock_apply (W (Proc.devRef .tc main_arg1)) 0 (by omega) 0 slices_S4x3072x1024_S1x3072x1024_0_0_0
    shapeCasts_S1x3072x1024_S3072x1024 slices_S3072x1024_S1024x1024_0_0 j k ⟨j.val, by omega⟩ (by show j.val = 0 + j.val; omega)

theorem host0_w1 (W : Valuation τ sig (Elt Ideal)) (j k : Fin 1024) :
    (StableHlo.after (hostOps0 (F := Ideal)) W (Proc.devRef .tc main_v4) : S1024x1024.Idx → EReal) (ix2 j k)
      = (W (Proc.devRef .tc main_arg1) : S4x3072x1024.Idx → EReal) (ix3 (0 : Fin 4) (⟨1024 + j.val, by omega⟩ : Fin 3072) k) := by
  after_results
  exact weightBlock_apply (W (Proc.devRef .tc main_arg1)) 0 (by omega) 1024 slices_S4x3072x1024_S1x3072x1024_0_0_0
    shapeCasts_S1x3072x1024_S3072x1024 slices_S3072x1024_S1024x1024_1024_0 j k ⟨1024 + j.val, by omega⟩ (by show 1024 + j.val = 1024 + j.val; rfl)

theorem host0_w2 (W : Valuation τ sig (Elt Ideal)) (j k : Fin 1024) :
    (StableHlo.after (hostOps0 (F := Ideal)) W (Proc.devRef .tc main_v5) : S1024x1024.Idx → EReal) (ix2 j k)
      = (W (Proc.devRef .tc main_arg1) : S4x3072x1024.Idx → EReal) (ix3 (0 : Fin 4) (⟨2048 + j.val, by omega⟩ : Fin 3072) k) := by
  after_results
  exact weightBlock_apply (W (Proc.devRef .tc main_arg1)) 0 (by omega) 2048 slices_S4x3072x1024_S1x3072x1024_0_0_0
    shapeCasts_S1x3072x1024_S3072x1024 slices_S3072x1024_S1024x1024_2048_0 j k ⟨2048 + j.val, by omega⟩ (by show 2048 + j.val = 2048 + j.val; rfl)

theorem host0_b (W : Valuation τ sig (Elt Ideal)) (k : Fin 1024) :
    (StableHlo.after (hostOps0 (F := Ideal)) W (Proc.devRef .tc main_v8) : S1x1024.Idx → EReal) (ix2 (0 : Fin 1) k)
      = (W (Proc.devRef .tc main_arg2) : S4x1024.Idx → EReal) (ix2 (0 : Fin 4) k) := by
  after_results
  exact biasRow_apply (W (Proc.devRef .tc main_arg2)) 0 (by omega) slices_S4x1024_S1x1024_0_0 shapeCasts_S1x1024_S1024
    shapeCasts_S1024_S1x1024 k

theorem host0_oob (W : Valuation τ sig (Elt Ideal)) (j : Fin 1024) :
    (StableHlo.after (hostOps0 (F := Ideal)) W (Proc.devRef .tc main_v9) : S1x1024.Idx → EReal) (ix2 (0 : Fin 1) j)
      = (W (Proc.devRef .tc main_arg3) : S1024.Idx → EReal) (ix1 j) := by
  after_results
  exact oobRow_apply (W (Proc.devRef .tc main_arg3)) shapeCasts_S1024_S1x1024 j

/-! ## Layer 1 -/

theorem host1_w0 (W : Valuation τ sig (Elt Ideal)) (j k : Fin 1024) :
    (StableHlo.after (hostOps1 (F := Ideal)) W (Proc.devRef .tc main_v14) : S1024x1024.Idx → EReal) (ix2 j k)
      = (W (Proc.devRef .tc main_arg1) : S4x3072x1024.Idx → EReal) (ix3 (1 : Fin 4) (⟨j.val, by omega⟩ : Fin 3072) k) := by
  after_results
  exact weightBlock_apply (W (Proc.devRef .tc main_arg1)) 1 (by omega) 0 slices_S4x3072x1024_S1x3072x1024_1_0_0
    shapeCasts_S1x3072x1024_S3072x1024 slices_S3072x1024_S1024x1024_0_0 j k ⟨j.val, by omega⟩ (by show j.val = 0 + j.val; omega)

theorem host1_w1 (W : Valuation τ sig (Elt Ideal)) (j k : Fin 1024) :
    (StableHlo.after (hostOps1 (F := Ideal)) W (Proc.devRef .tc main_v15) : S1024x1024.Idx → EReal) (ix2 j k)
      = (W (Proc.devRef .tc main_arg1) : S4x3072x1024.Idx → EReal) (ix3 (1 : Fin 4) (⟨1024 + j.val, by omega⟩ : Fin 3072) k) := by
  after_results
  exact weightBlock_apply (W (Proc.devRef .tc main_arg1)) 1 (by omega) 1024 slices_S4x3072x1024_S1x3072x1024_1_0_0
    shapeCasts_S1x3072x1024_S3072x1024 slices_S3072x1024_S1024x1024_1024_0 j k ⟨1024 + j.val, by omega⟩ (by show 1024 + j.val = 1024 + j.val; rfl)

theorem host1_w2 (W : Valuation τ sig (Elt Ideal)) (j k : Fin 1024) :
    (StableHlo.after (hostOps1 (F := Ideal)) W (Proc.devRef .tc main_v16) : S1024x1024.Idx → EReal) (ix2 j k)
      = (W (Proc.devRef .tc main_arg1) : S4x3072x1024.Idx → EReal) (ix3 (1 : Fin 4) (⟨2048 + j.val, by omega⟩ : Fin 3072) k) := by
  after_results
  exact weightBlock_apply (W (Proc.devRef .tc main_arg1)) 1 (by omega) 2048 slices_S4x3072x1024_S1x3072x1024_1_0_0
    shapeCasts_S1x3072x1024_S3072x1024 slices_S3072x1024_S1024x1024_2048_0 j k ⟨2048 + j.val, by omega⟩ (by show 2048 + j.val = 2048 + j.val; rfl)

theorem host1_b (W : Valuation τ sig (Elt Ideal)) (k : Fin 1024) :
    (StableHlo.after (hostOps1 (F := Ideal)) W (Proc.devRef .tc main_v19) : S1x1024.Idx → EReal) (ix2 (0 : Fin 1) k)
      = (W (Proc.devRef .tc main_arg2) : S4x1024.Idx → EReal) (ix2 (1 : Fin 4) k) := by
  after_results
  exact biasRow_apply (W (Proc.devRef .tc main_arg2)) 1 (by omega) slices_S4x1024_S1x1024_1_0 shapeCasts_S1x1024_S1024
    shapeCasts_S1024_S1x1024 k

theorem host1_oob (W : Valuation τ sig (Elt Ideal)) (j : Fin 1024) :
    (StableHlo.after (hostOps1 (F := Ideal)) W (Proc.devRef .tc main_v20) : S1x1024.Idx → EReal) (ix2 (0 : Fin 1) j)
      = (W (Proc.devRef .tc main_arg3) : S1024.Idx → EReal) (ix1 j) := by
  after_results
  exact oobRow_apply (W (Proc.devRef .tc main_arg3)) shapeCasts_S1024_S1x1024 j

/-! ## Layer 2 -/

theorem host2_w0 (W : Valuation τ sig (Elt Ideal)) (j k : Fin 1024) :
    (StableHlo.after (hostOps2 (F := Ideal)) W (Proc.devRef .tc main_v25) : S1024x1024.Idx → EReal) (ix2 j k)
      = (W (Proc.devRef .tc main_arg1) : S4x3072x1024.Idx → EReal) (ix3 (2 : Fin 4) (⟨j.val, by omega⟩ : Fin 3072) k) := by
  after_results
  exact weightBlock_apply (W (Proc.devRef .tc main_arg1)) 2 (by omega) 0 slices_S4x3072x1024_S1x3072x1024_2_0_0
    shapeCasts_S1x3072x1024_S3072x1024 slices_S3072x1024_S1024x1024_0_0 j k ⟨j.val, by omega⟩ (by show j.val = 0 + j.val; omega)

theorem host2_w1 (W : Valuation τ sig (Elt Ideal)) (j k : Fin 1024) :
    (StableHlo.after (hostOps2 (F := Ideal)) W (Proc.devRef .tc main_v26) : S1024x1024.Idx → EReal) (ix2 j k)
      = (W (Proc.devRef .tc main_arg1) : S4x3072x1024.Idx → EReal) (ix3 (2 : Fin 4) (⟨1024 + j.val, by omega⟩ : Fin 3072) k) := by
  after_results
  exact weightBlock_apply (W (Proc.devRef .tc main_arg1)) 2 (by omega) 1024 slices_S4x3072x1024_S1x3072x1024_2_0_0
    shapeCasts_S1x3072x1024_S3072x1024 slices_S3072x1024_S1024x1024_1024_0 j k ⟨1024 + j.val, by omega⟩ (by show 1024 + j.val = 1024 + j.val; rfl)

theorem host2_w2 (W : Valuation τ sig (Elt Ideal)) (j k : Fin 1024) :
    (StableHlo.after (hostOps2 (F := Ideal)) W (Proc.devRef .tc main_v27) : S1024x1024.Idx → EReal) (ix2 j k)
      = (W (Proc.devRef .tc main_arg1) : S4x3072x1024.Idx → EReal) (ix3 (2 : Fin 4) (⟨2048 + j.val, by omega⟩ : Fin 3072) k) := by
  after_results
  exact weightBlock_apply (W (Proc.devRef .tc main_arg1)) 2 (by omega) 2048 slices_S4x3072x1024_S1x3072x1024_2_0_0
    shapeCasts_S1x3072x1024_S3072x1024 slices_S3072x1024_S1024x1024_2048_0 j k ⟨2048 + j.val, by omega⟩ (by show 2048 + j.val = 2048 + j.val; rfl)

theorem host2_b (W : Valuation τ sig (Elt Ideal)) (k : Fin 1024) :
    (StableHlo.after (hostOps2 (F := Ideal)) W (Proc.devRef .tc main_v30) : S1x1024.Idx → EReal) (ix2 (0 : Fin 1) k)
      = (W (Proc.devRef .tc main_arg2) : S4x1024.Idx → EReal) (ix2 (2 : Fin 4) k) := by
  after_results
  exact biasRow_apply (W (Proc.devRef .tc main_arg2)) 2 (by omega) slices_S4x1024_S1x1024_2_0 shapeCasts_S1x1024_S1024
    shapeCasts_S1024_S1x1024 k

theorem host2_oob (W : Valuation τ sig (Elt Ideal)) (j : Fin 1024) :
    (StableHlo.after (hostOps2 (F := Ideal)) W (Proc.devRef .tc main_v31) : S1x1024.Idx → EReal) (ix2 (0 : Fin 1) j)
      = (W (Proc.devRef .tc main_arg3) : S1024.Idx → EReal) (ix1 j) := by
  after_results
  exact oobRow_apply (W (Proc.devRef .tc main_arg3)) shapeCasts_S1024_S1x1024 j

/-! ## Layer 3 -/

theorem host3_w0 (W : Valuation τ sig (Elt Ideal)) (j k : Fin 1024) :
    (StableHlo.after (hostOps3 (F := Ideal)) W (Proc.devRef .tc main_v36) : S1024x1024.Idx → EReal) (ix2 j k)
      = (W (Proc.devRef .tc main_arg1) : S4x3072x1024.Idx → EReal) (ix3 (3 : Fin 4) (⟨j.val, by omega⟩ : Fin 3072) k) := by
  after_results
  exact weightBlock_apply (W (Proc.devRef .tc main_arg1)) 3 (by omega) 0 slices_S4x3072x1024_S1x3072x1024_3_0_0
    shapeCasts_S1x3072x1024_S3072x1024 slices_S3072x1024_S1024x1024_0_0 j k ⟨j.val, by omega⟩ (by show j.val = 0 + j.val; omega)

theorem host3_w1 (W : Valuation τ sig (Elt Ideal)) (j k : Fin 1024) :
    (StableHlo.after (hostOps3 (F := Ideal)) W (Proc.devRef .tc main_v37) : S1024x1024.Idx → EReal) (ix2 j k)
      = (W (Proc.devRef .tc main_arg1) : S4x3072x1024.Idx → EReal) (ix3 (3 : Fin 4) (⟨1024 + j.val, by omega⟩ : Fin 3072) k) := by
  after_results
  exact weightBlock_apply (W (Proc.devRef .tc main_arg1)) 3 (by omega) 1024 slices_S4x3072x1024_S1x3072x1024_3_0_0
    shapeCasts_S1x3072x1024_S3072x1024 slices_S3072x1024_S1024x1024_1024_0 j k ⟨1024 + j.val, by omega⟩ (by show 1024 + j.val = 1024 + j.val; rfl)

theorem host3_w2 (W : Valuation τ sig (Elt Ideal)) (j k : Fin 1024) :
    (StableHlo.after (hostOps3 (F := Ideal)) W (Proc.devRef .tc main_v38) : S1024x1024.Idx → EReal) (ix2 j k)
      = (W (Proc.devRef .tc main_arg1) : S4x3072x1024.Idx → EReal) (ix3 (3 : Fin 4) (⟨2048 + j.val, by omega⟩ : Fin 3072) k) := by
  after_results
  exact weightBlock_apply (W (Proc.devRef .tc main_arg1)) 3 (by omega) 2048 slices_S4x3072x1024_S1x3072x1024_3_0_0
    shapeCasts_S1x3072x1024_S3072x1024 slices_S3072x1024_S1024x1024_2048_0 j k ⟨2048 + j.val, by omega⟩ (by show 2048 + j.val = 2048 + j.val; rfl)

theorem host3_b (W : Valuation τ sig (Elt Ideal)) (k : Fin 1024) :
    (StableHlo.after (hostOps3 (F := Ideal)) W (Proc.devRef .tc main_v41) : S1x1024.Idx → EReal) (ix2 (0 : Fin 1) k)
      = (W (Proc.devRef .tc main_arg2) : S4x1024.Idx → EReal) (ix2 (3 : Fin 4) k) := by
  after_results
  exact biasRow_apply (W (Proc.devRef .tc main_arg2)) 3 (by omega) slices_S4x1024_S1x1024_3_0 shapeCasts_S1x1024_S1024
    shapeCasts_S1024_S1x1024 k

theorem host3_oob (W : Valuation τ sig (Elt Ideal)) (j : Fin 1024) :
    (StableHlo.after (hostOps3 (F := Ideal)) W (Proc.devRef .tc main_v42) : S1x1024.Idx → EReal) (ix2 (0 : Fin 1) j)
      = (W (Proc.devRef .tc main_arg3) : S1024.Idx → EReal) (ix1 j) := by
  after_results
  exact oobRow_apply (W (Proc.devRef .tc main_arg3)) shapeCasts_S1024_S1x1024 j

end Cert.KernelIdeal.Hand

end
-- ==== Proof.KI.ValueA.lean ====
/-
  The arguments reach every region as launched; the first region leaves the first layer of the argument.
-/
import proofs.«137995_j86517821215731_2_alg».proof.Proof.KI.Main
import proofs.«137995_j86517821215731_2_alg».proof.Proof.KI.Tile0
import proofs.«137995_j86517821215731_2_alg».proof.Proof.KI.Host
import proofs.«137995_j86517821215731_2_alg».proof.Proof.SpecB
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Dilated Idealize.ShloMosaic.ValueIdx

variable (m : (ℓ : Loc nD τ sig) → Buf (Elt Ideal) ℓ)

/-! ## No host stretch and no region writes an argument -/
theorem W2_main_arg1 (c : Dev nD) : W2 m c (Proc.devRef .tc main_arg1) = m ((c : Thread nD τ).loc main_arg1) :=
  (W2_of_ne m c main_arg1 (by decide)).trans <|
  (StableHlo.after_of_writes_sub hostOps0 _ hostOps0_writes (by decide : main_arg1 ∉ hostOps0_W)).trans rfl
theorem W2_main_arg2 (c : Dev nD) : W2 m c (Proc.devRef .tc main_arg2) = m ((c : Thread nD τ).loc main_arg2) :=
  (W2_of_ne m c main_arg2 (by decide)).trans <|
  (StableHlo.after_of_writes_sub hostOps0 _ hostOps0_writes (by decide : main_arg2 ∉ hostOps0_W)).trans rfl
theorem W2_main_arg3 (c : Dev nD) : W2 m c (Proc.devRef .tc main_arg3) = m ((c : Thread nD τ).loc main_arg3) :=
  (W2_of_ne m c main_arg3 (by decide)).trans <|
  (StableHlo.after_of_writes_sub hostOps0 _ hostOps0_writes (by decide : main_arg3 ∉ hostOps0_W)).trans rfl
theorem W4_main_arg1 (c : Dev nD) : W4 m c (Proc.devRef .tc main_arg1) = m ((c : Thread nD τ).loc main_arg1) :=
  (W4_of_ne m c main_arg1 (by decide)).trans <|
  (StableHlo.after_of_writes_sub hostOps1 _ hostOps1_writes (by decide : main_arg1 ∉ hostOps1_W)).trans <|
  (W2_of_ne m c main_arg1 (by decide)).trans <|
  (StableHlo.after_of_writes_sub hostOps0 _ hostOps0_writes (by decide : main_arg1 ∉ hostOps0_W)).trans rfl
theorem W4_main_arg2 (c : Dev nD) : W4 m c (Proc.devRef .tc main_arg2) = m ((c : Thread nD τ).loc main_arg2) :=
  (W4_of_ne m c main_arg2 (by decide)).trans <|
  (StableHlo.after_of_writes_sub hostOps1 _ hostOps1_writes (by decide : main_arg2 ∉ hostOps1_W)).trans <|
  (W2_of_ne m c main_arg2 (by decide)).trans <|
  (StableHlo.after_of_writes_sub hostOps0 _ hostOps0_writes (by decide : main_arg2 ∉ hostOps0_W)).trans rfl
theorem W4_main_arg3 (c : Dev nD) : W4 m c (Proc.devRef .tc main_arg3) = m ((c : Thread nD τ).loc main_arg3) :=
  (W4_of_ne m c main_arg3 (by decide)).trans <|
  (StableHlo.after_of_writes_sub hostOps1 _ hostOps1_writes (by decide : main_arg3 ∉ hostOps1_W)).trans <|
  (W2_of_ne m c main_arg3 (by decide)).trans <|
  (StableHlo.after_of_writes_sub hostOps0 _ hostOps0_writes (by decide : main_arg3 ∉ hostOps0_W)).trans rfl
theorem W6_main_arg1 (c : Dev nD) : W6 m c (Proc.devRef .tc main_arg1) = m ((c : Thread nD τ).loc main_arg1) :=
  (W6_of_ne m c main_arg1 (by decide)).trans <|
  (StableHlo.after_of_writes_sub hostOps2 _ hostOps2_writes (by decide : main_arg1 ∉ hostOps2_W)).trans <|
  (W4_of_ne m c main_arg1 (by decide)).trans <|
  (StableHlo.after_of_writes_sub hostOps1 _ hostOps1_writes (by decide : main_arg1 ∉ hostOps1_W)).trans <|
  (W2_of_ne m c main_arg1 (by decide)).trans <|
  (StableHlo.after_of_writes_sub hostOps0 _ hostOps0_writes (by decide : main_arg1 ∉ hostOps0_W)).trans rfl
theorem W6_main_arg2 (c : Dev nD) : W6 m c (Proc.devRef .tc main_arg2) = m ((c : Thread nD τ).loc main_arg2) :=
  (W6_of_ne m c main_arg2 (by decide)).trans <|
  (StableHlo.after_of_writes_sub hostOps2 _ hostOps2_writes (by decide : main_arg2 ∉ hostOps2_W)).trans <|
  (W4_of_ne m c main_arg2 (by decide)).trans <|
  (StableHlo.after_of_writes_sub hostOps1 _ hostOps1_writes (by decide : main_arg2 ∉ hostOps1_W)).trans <|
  (W2_of_ne m c main_arg2 (by decide)).trans <|
  (StableHlo.after_of_writes_sub hostOps0 _ hostOps0_writes (by decide : main_arg2 ∉ hostOps0_W)).trans rfl
theorem W6_main_arg3 (c : Dev nD) : W6 m c (Proc.devRef .tc main_arg3) = m ((c : Thread nD τ).loc main_arg3) :=
  (W6_of_ne m c main_arg3 (by decide)).trans <|
  (StableHlo.after_of_writes_sub hostOps2 _ hostOps2_writes (by decide : main_arg3 ∉ hostOps2_W)).trans <|
  (W4_of_ne m c main_arg3 (by decide)).trans <|
  (StableHlo.after_of_writes_sub hostOps1 _ hostOps1_writes (by decide : main_arg3 ∉ hostOps1_W)).trans <|
  (W2_of_ne m c main_arg3 (by decide)).trans <|
  (StableHlo.after_of_writes_sub hostOps0 _ hostOps0_writes (by decide : main_arg3 ∉ hostOps0_W)).trans rfl
theorem W8_main_arg1 (c : Dev nD) : W8 m c (Proc.devRef .tc main_arg1) = m ((c : Thread nD τ).loc main_arg1) :=
  (W8_of_ne m c main_arg1 (by decide)).trans <|
  (StableHlo.after_of_writes_sub hostOps3 _ hostOps3_writes (by decide : main_arg1 ∉ hostOps3_W)).trans <|
  (W6_of_ne m c main_arg1 (by decide)).trans <|
  (StableHlo.after_of_writes_sub hostOps2 _ hostOps2_writes (by decide : main_arg1 ∉ hostOps2_W)).trans <|
  (W4_of_ne m c main_arg1 (by decide)).trans <|
  (StableHlo.after_of_writes_sub hostOps1 _ hostOps1_writes (by decide : main_arg1 ∉ hostOps1_W)).trans <|
  (W2_of_ne m c main_arg1 (by decide)).trans <|
  (StableHlo.after_of_writes_sub hostOps0 _ hostOps0_writes (by decide : main_arg1 ∉ hostOps0_W)).trans rfl
theorem W8_main_arg2 (c : Dev nD) : W8 m c (Proc.devRef .tc main_arg2) = m ((c : Thread nD τ).loc main_arg2) :=
  (W8_of_ne m c main_arg2 (by decide)).trans <|
  (StableHlo.after_of_writes_sub hostOps3 _ hostOps3_writes (by decide : main_arg2 ∉ hostOps3_W)).trans <|
  (W6_of_ne m c main_arg2 (by decide)).trans <|
  (StableHlo.after_of_writes_sub hostOps2 _ hostOps2_writes (by decide : main_arg2 ∉ hostOps2_W)).trans <|
  (W4_of_ne m c main_arg2 (by decide)).trans <|
  (StableHlo.after_of_writes_sub hostOps1 _ hostOps1_writes (by decide : main_arg2 ∉ hostOps1_W)).trans <|
  (W2_of_ne m c main_arg2 (by decide)).trans <|
  (StableHlo.after_of_writes_sub hostOps0 _ hostOps0_writes (by decide : main_arg2 ∉ hostOps0_W)).trans rfl
theorem W8_main_arg3 (c : Dev nD) : W8 m c (Proc.devRef .tc main_arg3) = m ((c : Thread nD τ).loc main_arg3) :=
  (W8_of_ne m c main_arg3 (by decide)).trans <|
  (StableHlo.after_of_writes_sub hostOps3 _ hostOps3_writes (by decide : main_arg3 ∉ hostOps3_W)).trans <|
  (W6_of_ne m c main_arg3 (by decide)).trans <|
  (StableHlo.after_of_writes_sub hostOps2 _ hostOps2_writes (by decide : main_arg3 ∉ hostOps2_W)).trans <|
  (W4_of_ne m c main_arg3 (by decide)).trans <|
  (StableHlo.after_of_writes_sub hostOps1 _ hostOps1_writes (by decide : main_arg3 ∉ hostOps1_W)).trans <|
  (W2_of_ne m c main_arg3 (by decide)).trans <|
  (StableHlo.after_of_writes_sub hostOps0 _ hostOps0_writes (by decide : main_arg3 ∉ hostOps0_W)).trans rfl

/-! ## The arguments, as arrays -/

abbrev Xa (c : Dev nD) : SX.Idx → EReal := m ((c : Thread nD τ).loc main_arg0)
abbrev Wa (c : Dev nD) : SW.Idx → EReal := m ((c : Thread nD τ).loc main_arg1)
abbrev Ba (c : Dev nD) : SB.Idx → EReal := m ((c : Thread nD τ).loc main_arg2)
abbrev Oa (c : Dev nD) : SO.Idx → EReal := m ((c : Thread nD τ).loc main_arg3)

/-- The input array of each layer: the argument, then the layers in turn. -/
def lay0 (c : Dev nD) : SX.Idx → EReal := layer 1 0 (Xa m c) (Wa m c) (Ba m c) (Oa m c)
def lay1 (c : Dev nD) : SX.Idx → EReal := layer 2 1 (lay0 m c) (Wa m c) (Ba m c) (Oa m c)
def lay2 (c : Dev nD) : SX.Idx → EReal := layer 4 2 (lay1 m c) (Wa m c) (Ba m c) (Oa m c)
def lay3 (c : Dev nD) : SX.Idx → EReal := layer 1 3 (lay2 m c) (Wa m c) (Ba m c) (Oa m c)

/-! ## Each region leaves its layer -/

/-- Region 0: the first layer of the argument. -/
theorem res0_val (c : Dev nD) : (res0 m c : SX.Idx → EReal) = lay0 m c := by
  unfold res0 lay0
  rw [res0_eq (Vt1 m) c]
  have hin : (Vt1 m c main_arg0 : SX.Idx → EReal) = Xa m c :=
    (StableHlo.after_of_writes_sub hostOps0 _ hostOps0_writes (by decide : main_arg0 ∉ hostOps0_W)).trans rfl
  refine (congrArg (fun X => layerB 1 X (Vt1 m c main_v3) (Vt1 m c main_v4) (Vt1 m c main_v5) (Vt1 m c main_v8) (Vt1 m c main_v9)) hin).trans ?_
  exact layerB_eq_layer 1 0 _ _ _ _ _ _ _ _ _
    (fun j k => host0_w0 (W0 m c) j k) (fun j k => host0_w1 (W0 m c) j k) (fun j k => host0_w2 (W0 m c) j k)
    (fun k => host0_b (W0 m c) k) (fun j => host0_oob (W0 m c) j)

end Cert.KernelIdeal.Hand

end
-- ==== Proof.PayHaloRows.lean ====
/-
  A block of consecutive rows of a buffer read through a rectangle: what a kernel loads of the 8-row block above or
  below its tile when the dilation is more than one row.
-/
import Idealize.ShloMosaic.Lib.ValueIdx
import Idealize.ShloMosaic.Lib.ValueLayout
import Idealize.ShloMosaic.Lib.Pipeline.Value
import Idealize.ShloMosaic.Lib.Pipeline.FrameBody

noncomputable section

namespace Cert.Dilated.Halo

open Idealize.ShloMosaic Idealize.ShloMosaic.ValueIdx

variable {Val : EltTy → Type} [∀ e, Nonempty (Val e)] {e : EltTy}

/-- Rows r … r + k − 1 of a buffer read through the k-row rectangle at (r, 0): entry (a, j) is the buffer's entry
    (r + a, j). -/
theorem ld_rows {n m r k : ℕ} (X : (⟨2, ![n, m]⟩ : Shape).Idx → Val e)
    (inb : ∀ a, (![r, 0] : Fin 2 → ℕ) a + (![k, m] : Fin 2 → ℕ) a ≤ (⟨2, ![n, m]⟩ : Shape).size a)
    (a : Fin k) (j : Fin m) (hr : r + a.val < n) :
    View.ld X (Rect.unit ![r, 0] ![k, m] inb) (ix2 a j) = X (ix2 ⟨r + a.val, hr⟩ j) := by
  show X _ = X _
  refine congrArg X (funext fun b => Fin.ext ?_)
  match b with
  | ⟨0, _⟩ => show r + 1 * a.val = r + a.val; omega
  | ⟨1, _⟩ => show 0 + 1 * j.val = j.val; omega

end Cert.Dilated.Halo

end
-- ==== Proof.KI.Val1.lean ====
/-
  The second layer's kernel (dilation 2) at one grid point, as values.

  At grid point i the body holds the tile x (512 rows), the 8-row block above it (lm), the 8-row block below it (rm),
  the three weight blocks, the bias row and the out-of-bounds row. It builds the tile shifted down by 2 rows — its
  rows p < 2 are the out-of-bounds row at the first grid point and rows 6 + p of the block above otherwise, its rows
  p ≥ 2 are rows p − 2 of the tile — and the tile shifted up by 2 rows — its rows p ≥ 510 are the out-of-bounds row at
  the last grid point and rows p − 510 of the block below otherwise, its rows p < 510 are rows p + 2 of the tile — and
  stores, at entry (p, q),
      ½ · x (p, q) + ½ · max (((∑ⱼ x (p, j) · W₀ (j, q) + ∑ⱼ xl (p, j) · W₁ (j, q)) + ∑ⱼ xr (p, j) · W₂ (j, q)) + b (0, q)) 0
  with xl, xr the two shifted tiles.
-/
import proofs.«137995_j86517821215731_2_alg».proof.Proof.KI.Out1
import proofs.«137995_j86517821215731_2_alg».proof.Proof.KI.Val0
import proofs.«137995_j86517821215731_2_alg».proof.Proof.PayOut
import proofs.«137995_j86517821215731_2_alg».proof.Proof.PayHalo
import proofs.«137995_j86517821215731_2_alg».proof.Proof.PayHaloRows
import Idealize.ShloMosaic.Lib.Pipeline.Value
import Idealize.ShloMosaic.Lib.ValueLayout
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL.Sem
open Cert.KernelIdeal Cert.KernelIdeal.Gen

variable {F : FTy → Type} [FloatOps F]

/-- The tile shifted down by 2 rows, as the body leaves it in its first scratch tile: rows 0 … 1 written first,
    then rows 2 … 511. -/
def haloL1 (i : grid1.Coords) (x : Vec F S512x1024 .f32) (lm : Vec F S8x1024 .f32) (oob : Vec F S1x1024 .f32) :
    Vec F S512x1024 .f32 :=
  View.canon [(⟨Rect.unit ![2, 0] ![510, 1024] inb_S512x1024_S510x1024_2_0, k1_pay5 x⟩ : View.Piece (Elt F) S512x1024 .f32),
    ⟨Rect.unit ![0, 0] ![2, 1024] inb_S512x1024_S2x1024_0_0,
      k1_pay4 i oob (View.ld lm (Rect.unit ![6, 0] ![2, 1024] inb_S8x1024_S2x1024_6_0))⟩]

/-- The tile shifted up by 2 rows, as the body leaves it in its second scratch tile: rows 0 … 509 written first,
    then rows 510 … 511. -/
def haloR1 (i : grid1.Coords) (x : Vec F S512x1024 .f32) (rm : Vec F S8x1024 .f32) (oob : Vec F S1x1024 .f32) :
    Vec F S512x1024 .f32 :=
  View.canon [(⟨Rect.unit ![510, 0] ![2, 1024] inb_S512x1024_S2x1024_510_0,
      k1_pay7 i oob (View.ld rm (Rect.unit ![0, 0] ![2, 1024] inb_S8x1024_S2x1024_0_0))⟩ : View.Piece (Elt F) S512x1024 .f32),
    ⟨Rect.unit ![0, 0] ![510, 1024] inb_S512x1024_S510x1024_0_0, k1_pay6 x⟩]

/-- The output tile after the body is the stored value of the tile, the two shifted tiles, the weights and the bias. -/
theorem outG1_eq (c : Dev nD) (i : grid1.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) :
    outG1 c i arg1 harg1 arg2 harg2 arg3 harg3 arg4 harg4 arg5 harg5 arg6 harg6 arg7 harg7 arg8 harg8 arg9 harg9 arg10 harg10 arg11 harg11 x lm rm w0 w1 w2 b oob
      = k1_pay1 (k1_pay2 x) (k1_pay8 x) (k1_pay9 (haloL1 i x lm oob)) (k1_pay10 (haloR1 i x rm oob)) w0 w1 w2 b := by
  unfold outG1
  rw [View.read_writes_junk_eq_canon]
  unfold kernelRun1
  dsimp only
  sl_unfold_words
  rw [View.canon_unit_zero hz0]
  simp only [View.readAt_eq_ld, harg1.read_unread, harg2.read_unread, harg3.read_unread, harg4.read_unread,
    harg5.read_unread, harg6.read_unread, harg7.read_unread, harg8.read_unread,
    View.ld_unit_zero (S := S512x1024) hz0, View.ld_unit_zero (S := S1024x1024) hz0, View.ld_unit_zero (S := S1x1024) hz0]
  rw [readCov_whole arg10.view, readCov_whole arg11.view]
  rfl

/-- Row p of the tile shifted down by 2: row p − 2 of the tile, or for p < 2 the out-of-bounds row at the first grid
    point and row 6 + p of the block above otherwise. -/
theorem haloL1_apply (i : grid1.Coords) (x : Vec F S512x1024 .f32) (lm : Vec F S8x1024 .f32) (oob : Vec F S1x1024 .f32)
    (p : Fin 512) (j : Fin 1024) :
    haloL1 i x lm oob (ix2 p j)
      = if h : 2 ≤ p.val then x (ix2 (⟨p.val - 2, by omega⟩ : Fin 512) j)
        else if (i 0).val = 0 then oob (ix2 (0 : Fin 1) j) else lm (ix2 (⟨8 - 2 + p.val, by omega⟩ : Fin 8) j) := by
  unfold haloL1
  refine (Cert.Dilated.Halo.canon_rows (Val := Elt F) (e := EltTy.f32) (n := 512) (m := 1024) (A := 2) (B := 510) (by omega)
    inb_S512x1024_S2x1024_0_0 inb_S512x1024_S510x1024_2_0
    (k1_pay4 i oob (View.ld lm (Rect.unit ![6, 0] ![2, 1024] inb_S8x1024_S2x1024_6_0))) (k1_pay5 x) p j).trans ?_
  by_cases h : 2 ≤ p.val
  · rw [dif_neg (by omega), dif_pos h]
    unfold k1_pay5 k1_pay2
    simp only [shapeCast_self]
    exact slice2_axis0_apply 0 x slices_S512x1024_o0_0_S510x1024 _ j _ (by simp)
  · rw [dif_pos (by omega), dif_neg h]
    unfold k1_pay4 k1_pay3
    simp only [shapeCast_self]
    have h16 : (i 0).val < 16 := (i 0).isLt
    rw [Cert.Dilated.Halo.select_eq_nat (i 0).val 0 (by omega) (by omega)]
    by_cases h0 : (i 0).val = 0
    · rw [if_pos h0, if_pos h0]
      exact broadcastTo_1b_ab_apply oob broadcasts_S1x1024_S2x1024 _ j
    · rw [if_neg h0, if_neg h0]
      exact (Cert.Dilated.Halo.ld_rows (Val := Elt F) (e := EltTy.f32) (n := 8) (m := 1024) (r := 6) (k := 2) lm
        inb_S8x1024_S2x1024_6_0 ⟨p.val, by omega⟩ j (by show 6 + p.val < 8; omega)).trans
        (congrArg (fun r : Fin 8 => lm (ix2 r j)) (Fin.ext (by show 6 + p.val = 8 - 2 + p.val; omega)))

/-- Row p of the tile shifted up by 2: row p + 2 of the tile, or for p ≥ 510 the out-of-bounds row at the last grid
    point and row p − 510 of the block below otherwise. -/
theorem haloR1_apply (i : grid1.Coords) (x : Vec F S512x1024 .f32) (rm : Vec F S8x1024 .f32) (oob : Vec F S1x1024 .f32)
    (p : Fin 512) (j : Fin 1024) :
    haloR1 i x rm oob (ix2 p j)
      = if h : p.val + 2 < 512 then x (ix2 (⟨p.val + 2, h⟩ : Fin 512) j)
        else if (i 0).val = 15 then oob (ix2 (0 : Fin 1) j) else rm (ix2 (⟨p.val + 2 - 512, by omega⟩ : Fin 8) j) := by
  unfold haloR1
  refine (Cert.Dilated.Halo.canon_rows (Val := Elt F) (e := EltTy.f32) (n := 512) (m := 1024) (A := 510) (B := 2) (by omega)
    inb_S512x1024_S510x1024_0_0 inb_S512x1024_S2x1024_510_0
    (k1_pay6 x) (k1_pay7 i oob (View.ld rm (Rect.unit ![0, 0] ![2, 1024] inb_S8x1024_S2x1024_0_0))) p j).trans ?_
  by_cases h : p.val + 2 < 512
  · rw [dif_pos (by omega), dif_pos h]
    unfold k1_pay6 k1_pay2
    simp only [shapeCast_self]
    exact slice2_axis0_apply 2 x slices_S512x1024_o2_0_S510x1024 _ j _ (by simp; omega)
  · rw [dif_neg (by omega), dif_neg h]
    unfold k1_pay7 k1_pay3
    simp only [shapeCast_self]
    have h16 : (i 0).val < 16 := (i 0).isLt
    rw [Cert.Dilated.Halo.select_eq_nat (i 0).val 15 (by omega) (by omega)]
    by_cases h0 : (i 0).val = 15
    · rw [if_pos h0, if_pos h0]
      exact broadcastTo_1b_ab_apply oob broadcasts_S1x1024_S2x1024 _ j
    · rw [if_neg h0, if_neg h0]
      exact (Cert.Dilated.Halo.ld_rows (Val := Elt F) (e := EltTy.f32) (n := 8) (m := 1024) (r := 0) (k := 2) rm
        inb_S8x1024_S2x1024_0_0 ⟨p.val - 510, by omega⟩ j (by show 0 + (p.val - 510) < 8; omega)).trans
        (congrArg (fun r : Fin 8 => rm (ix2 r j)) (Fin.ext (by show 0 + (p.val - 510) = p.val + 2 - 512; omega)))

/-- The output tile after the body, at entry (p, q), on the extended reals. -/
theorem outG1_apply (c : Dev nD) (i : grid1.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec Ideal S512x1024 .f32) (lm rm : Vec Ideal S8x1024 .f32) (w0 w1 w2 : Vec Ideal S1024x1024 .bf16)
    (b oob : Vec Ideal S1x1024 .f32) (p : Fin 512) (q : Fin 1024) :
    outG1 c i arg1 harg1 arg2 harg2 arg3 harg3 arg4 harg4 arg5 harg5 arg6 harg6 arg7 harg7 arg8 harg8 arg9 harg9 arg10 harg10 arg11 harg11 x lm rm w0 w1 w2 b oob (ix2 p q)
      = Cert.Dilated.half * x (ix2 p q)
        + Cert.Dilated.half * max ((((∑ j : Fin 1024, x (ix2 p j) * w0 (ix2 j q))
            + ∑ j : Fin 1024,
                (if h : 2 ≤ p.val then x (ix2 (⟨p.val - 2, by omega⟩ : Fin 512) j)
                 else if (i 0).val = 0 then oob (ix2 (0 : Fin 1) j)
                 else lm (ix2 (⟨8 - 2 + p.val, by omega⟩ : Fin 8) j)) * w1 (ix2 j q))
            + ∑ j : Fin 1024,
                (if h : p.val + 2 < 512 then x (ix2 (⟨p.val + 2, h⟩ : Fin 512) j)
                 else if (i 0).val = 15 then oob (ix2 (0 : Fin 1) j)
                 else rm (ix2 (⟨p.val + 2 - 512, by omega⟩ : Fin 8) j)) * w2 (ix2 j q))
            + b (ix2 0 q)) Cert.Dilated.zero := by
  rw [outG1_eq]
  refine (Cert.Dilated.Pay.out1_apply x (haloL1 i x lm oob) (haloR1 i x rm oob) w0 w1 w2 b p q).trans ?_
  simp only [haloL1_apply, haloR1_apply]

end Cert.KernelIdeal.Hand

end
-- ==== Proof.KI.TileMathDil.lean ====
/-
  A layer's entry at a row of tile t, from what a tile-wise computation holds at that tile, for any dilation δ
  between 1 and 8: the row δ above row p is row p − δ of the tile, or row 8 − δ + p of the 8 rows above the tile, or
  (first tile) the out-of-bounds row; the row δ below row p is row p + δ of the tile, or row p + δ − 512 of the 8 rows
  below the tile, or (last tile) the out-of-bounds row.
-/
import proofs.«137995_j86517821215731_2_alg».proof.Proof.KI.TileMath

noncomputable section

namespace Cert.Dilated.Tile

open Idealize.ShloMosaic Idealize.ShloMosaic.ValueIdx Cert.Dilated

section Point

variable (δ : ℕ) (hδ : 0 < δ) (hδ8 : δ ≤ 8)
variable (X : SX.Idx → EReal) (o : SRow.Idx → EReal)
variable (t : Fin 16) (i0 : ℕ) (hi0 : i0 = t.val)
variable (x : STile.Idx → EReal) (lm rm : SMargin.Idx → EReal)
variable (hx : ∀ (p : Fin 512) (j : Fin 1024), x (ix2 p j) = X (ix2 (⟨512 * t.val + p.val, by omega⟩ : Fin 8192) j))
variable (hlm : ∀ (_ht : t.val ≠ 0) (r : Fin 8) (j : Fin 1024),
    lm (ix2 r j) = X (ix2 (⟨8 * (64 * t.val - 1) + r.val, by omega⟩ : Fin 8192) j))
variable (hrm : ∀ (_ht : t.val ≠ 15) (r : Fin 8) (j : Fin 1024),
    rm (ix2 r j) = X (ix2 (⟨8 * (64 * (t.val + 1)) + r.val, by omega⟩ : Fin 8192) j))

include hδ hδ8 hi0 hx hlm in
/-- The row δ above row p, as tile t finds it. -/
theorem above_dil (p : Fin 512) (j : Fin 1024) :
    (if h : δ ≤ p.val then x (ix2 (⟨p.val - δ, by omega⟩ : Fin 512) j)
      else if i0 = 0 then o (ix2 (0 : Fin 1) j) else lm (ix2 (⟨8 - δ + p.val, by omega⟩ : Fin 8) j))
      = shiftLB δ X o (⟨512 * t.val + p.val, by omega⟩ : Fin 8192) j := by
  by_cases h : δ ≤ p.val
  · rw [dif_pos h]
    exact (dif_pos h).symm.trans (above_eq δ hδ hδ8 X o t i0 hi0 x lm hx hlm p j 0 (fun h' => absurd h h'))
  · rw [dif_neg h]
    exact (dif_neg h).symm.trans
      (above_eq δ hδ hδ8 X o t i0 hi0 x lm hx hlm p j (⟨8 - δ + p.val, by omega⟩ : Fin 8) (fun _ => rfl))

include hδ hδ8 hi0 hx hrm in
/-- The row δ below row p, as tile t finds it. -/
theorem below_dil (p : Fin 512) (j : Fin 1024) :
    (if h : p.val + δ < 512 then x (ix2 (⟨p.val + δ, h⟩ : Fin 512) j)
      else if i0 = 15 then o (ix2 (0 : Fin 1) j) else rm (ix2 (⟨p.val + δ - 512, by omega⟩ : Fin 8) j))
      = shiftRB δ X o (⟨512 * t.val + p.val, by omega⟩ : Fin 8192) j := by
  by_cases h : p.val + δ < 512
  · rw [dif_pos h]
    exact (dif_pos h).symm.trans (below_eq δ hδ hδ8 X o t i0 hi0 x rm hx hrm p j 0 (fun h' => absurd h h'))
  · rw [dif_neg h]
    exact (dif_neg h).symm.trans
      (below_eq δ hδ hδ8 X o t i0 hi0 x rm hx hrm p j (⟨p.val + δ - 512, by omega⟩ : Fin 8) (fun _ => rfl))

end Point

/-- The layer's entry at row 512·t + p, in the data tile t holds: the tile x, the margins above and below, the
    out-of-bounds row, the three weight blocks and the bias row. -/
theorem layerBAt_tile_dil (δ : ℕ) (hδ : 0 < δ) (hδ8 : δ ≤ 8)
    (X : SX.Idx → EReal) (W0 W1 W2 : SWB.Idx → EReal) (B O : SRow.Idx → EReal)
    (t : Fin 16) (i0 : ℕ) (hi0 : i0 = t.val)
    (x : STile.Idx → EReal) (lm rm : SMargin.Idx → EReal) (w0 w1 w2 : SWB.Idx → EReal) (b oob : SRow.Idx → EReal)
    (hw0 : w0 = W0) (hw1 : w1 = W1) (hw2 : w2 = W2) (hb : b = B) (ho : oob = O)
    (hx : ∀ (p : Fin 512) (j : Fin 1024), x (ix2 p j) = X (ix2 (⟨512 * t.val + p.val, by omega⟩ : Fin 8192) j))
    (hlm : ∀ (_ht : t.val ≠ 0) (r : Fin 8) (j : Fin 1024),
      lm (ix2 r j) = X (ix2 (⟨8 * (64 * t.val - 1) + r.val, by omega⟩ : Fin 8192) j))
    (hrm : ∀ (_ht : t.val ≠ 15) (r : Fin 8) (j : Fin 1024),
      rm (ix2 r j) = X (ix2 (⟨8 * (64 * (t.val + 1)) + r.val, by omega⟩ : Fin 8192) j))
    (p : Fin 512) (q : Fin 1024) :
    half * x (ix2 p q)
      + half * max ((((∑ j : Fin 1024, x (ix2 p j) * w0 (ix2 j q))
          + ∑ j : Fin 1024,
              (if h : δ ≤ p.val then x (ix2 (⟨p.val - δ, by omega⟩ : Fin 512) j)
               else if i0 = 0 then oob (ix2 (0 : Fin 1) j)
               else lm (ix2 (⟨8 - δ + p.val, by omega⟩ : Fin 8) j)) * w1 (ix2 j q))
          + ∑ j : Fin 1024,
              (if h : p.val + δ < 512 then x (ix2 (⟨p.val + δ, h⟩ : Fin 512) j)
               else if i0 = 15 then oob (ix2 (0 : Fin 1) j)
               else rm (ix2 (⟨p.val + δ - 512, by omega⟩ : Fin 8) j)) * w2 (ix2 j q))
          + b (ix2 0 q)) zero
      = layerBAt δ X W0 W1 W2 B O (⟨512 * t.val + p.val, by omega⟩ : Fin 8192) q := by
  subst hw0 hw1 hw2 hb ho
  exact layerBAt_tile δ X w0 w1 w2 b oob t p q x _ _ (hx p)
    (fun j => above_dil δ hδ hδ8 X oob t i0 hi0 x lm hx hlm p j)
    (fun j => below_dil δ hδ hδ8 X oob t i0 hi0 x rm hx hrm p j)

end Cert.Dilated.Tile

end
-- ==== Proof.KI.Tile1.lean ====
/-
  From tiles to the whole array, for the second layer's kernel (dilation 2).

  The kernel's grid has 16 points; point t is handed tile t of the layer's input (rows 512·t … 512·t + 511), the 8-row
  blocks just above and just below it, the three weight blocks, the bias row and the out-of-bounds row, all of them
  blocks of the arrays the region finds, and writes tile t of its output array. Since each point's tile is the tile
  of one whole-array function — the layer over blocks — and the 16 tiles cover the 8192 rows, the output array ends
  holding that function.
-/
import proofs.«137995_j86517821215731_2_alg».proof.Proof.KI.Body1
import proofs.«137995_j86517821215731_2_alg».proof.Proof.KI.Val1
import proofs.«137995_j86517821215731_2_alg».proof.Proof.KI.TileMathDil
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-! ## The index maps over the grid -/

/-- The grid has 16 points. -/
theorem lt16_1 (t : Fin cfg1.N) : t.val < 16 :=
  lt_of_lt_of_eq t.isLt (show cfg1.N = 16 from N_1)

/-- The input tile's and the output tile's block index at point t is (t, 0); the point's grid coordinate is t. -/
theorem idx1_tile : ∀ t : Fin cfg1.N, win1_0.index t (0 : Fin 2) = t.val ∧ win1_0.index t (1 : Fin 2) = 0
    ∧ win1_8.index t (0 : Fin 2) = t.val ∧ win1_8.index t (1 : Fin 2) = 0 ∧ ((grid1.coords t) 0).val = t.val :=
  (by decide +kernel : ∀ t : Fin grid1.N, _)

/-- The margin above is the 8-row block number 64·t − 1 (block 0 at the first point, where it is not used). -/
theorem idx1_1 : ∀ t : Fin cfg1.N, win1_1.index t (0 : Fin 2) = (if t.val = 0 then 0 else 64 * t.val - 1)
    ∧ win1_1.index t (1 : Fin 2) = 0 :=
  (by decide +kernel : ∀ t : Fin grid1.N, _)

/-- The margin below is the 8-row block number 64·(t + 1) (block 1023 at the last point, where it is not used). -/
theorem idx1_2 : ∀ t : Fin cfg1.N, win1_2.index t (0 : Fin 2) = (if t.val = 15 then 1023 else 64 * (t.val + 1))
    ∧ win1_2.index t (1 : Fin 2) = 0 :=
  (by decide +kernel : ∀ t : Fin grid1.N, _)

theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)

section Region1

variable (V : (c : Dev nD) → (b : Ref sig .tc) → Buf (Elt Ideal) ((c : Thread nD τ).loc b))

/-! ## Each input block, where it sits in its array -/

/-- Row p of the tile at point t is row 512·t + p of the layer's input. -/
theorem blk1_0 (c : Dev nD) (t : Fin cfg1.N) (p : Fin 512) (j : Fin 1024) :
    (iblk1 V c 0 t : Vec Ideal S512x1024 .f32) (ix2 p j)
      = (V c main_v10 : S8192x1024.Idx → EReal) (ix2 (⟨512 * t.val + p.val, by have := lt16_1 t; omega⟩ : Fin 8192) j) := by
  unfold iblk1
  rw [View.read_apply]
  show V c main_v10 (((cfg1.win 0).blk t).view.emb (ix2 p j)) = V c main_v10 _
  refine congrArg (V c main_v10) ?_
  funext a; apply Fin.ext
  match a with
  | ⟨0, _⟩ => show win1_0.index t (0 : Fin 2) * 512 + 1 * p.val = 512 * t.val + p.val; rw [(idx1_tile t).1]; omega
  | ⟨1, _⟩ => show win1_0.index t (1 : Fin 2) * 1024 + 1 * j.val = j.val; rw [(idx1_tile t).2.1]; omega

/-- Past the first point, row r of the margin above is row 8·(64·t − 1) + r of the layer's input. -/
theorem blk1_1 (c : Dev nD) (t : Fin cfg1.N) (ht : t.val ≠ 0) (r : Fin 8) (j : Fin 1024) :
    (iblk1 V c 1 t : Vec Ideal S8x1024 .f32) (ix2 r j)
      = (V c main_v10 : S8192x1024.Idx → EReal) (ix2 (⟨8 * (64 * t.val - 1) + r.val, by have := lt16_1 t; omega⟩ : Fin 8192) j) := by
  unfold iblk1
  rw [View.read_apply]
  show V c main_v10 (((cfg1.win 1).blk t).view.emb (ix2 r j)) = V c main_v10 _
  refine congrArg (V c main_v10) ?_
  funext a; apply Fin.ext
  match a with
  | ⟨0, _⟩ => show win1_1.index t (0 : Fin 2) * 8 + 1 * r.val = 8 * (64 * t.val - 1) + r.val; rw [(idx1_1 t).1, if_neg ht]; omega
  | ⟨1, _⟩ => show win1_1.index t (1 : Fin 2) * 1024 + 1 * j.val = j.val; rw [(idx1_1 t).2]; omega

/-- Before the last point, row r of the margin below is row 8·(64·(t + 1)) + r of the layer's input. -/
theorem blk1_2 (c : Dev nD) (t : Fin cfg1.N) (ht : t.val ≠ 15) (r : Fin 8) (j : Fin 1024) :
    (iblk1 V c 2 t : Vec Ideal S8x1024 .f32) (ix2 r j)
      = (V c main_v10 : S8192x1024.Idx → EReal) (ix2 (⟨8 * (64 * (t.val + 1)) + r.val, by have := lt16_1 t; omega⟩ : Fin 8192) j) := by
  unfold iblk1
  rw [View.read_apply]
  show V c main_v10 (((cfg1.win 2).blk t).view.emb (ix2 r j)) = V c main_v10 _
  refine congrArg (V c main_v10) ?_
  funext a; apply Fin.ext
  match a with
  | ⟨0, _⟩ => show win1_2.index t (0 : Fin 2) * 8 + 1 * r.val = 8 * (64 * (t.val + 1)) + r.val; rw [(idx1_2 t).1, if_neg ht]; omega
  | ⟨1, _⟩ => show win1_2.index t (1 : Fin 2) * 1024 + 1 * j.val = j.val; rw [(idx1_2 t).2]; omega

/-- Window 3's block at any point is the whole array. -/
theorem blk1_3 (c : Dev nD) (t : Fin cfg1.N) :
    (iblk1 V c 3 t : Vec Ideal S1024x1024 .bf16) = (V c main_v14 : S1024x1024.Idx → EReal) := by
  funext y
  unfold iblk1
  rw [View.read_apply]
  show V c main_v14 (((cfg1.win 3).blk t).view.emb y) = V c main_v14 y
  refine congrArg (V c main_v14) ?_
  funext a; apply Fin.ext
  match a with
  | ⟨0, _⟩ => show win1_3.index t (0 : Fin 2) * 1024 + 1 * (y 0).val = (y 0).val; rw [(idx1_3 t).1]; omega
  | ⟨1, _⟩ => show win1_3.index t (1 : Fin 2) * 1024 + 1 * (y 1).val = (y 1).val; rw [(idx1_3 t).2]; omega

/-- Window 4's block at any point is the whole array. -/
theorem blk1_4 (c : Dev nD) (t : Fin cfg1.N) :
    (iblk1 V c 4 t : Vec Ideal S1024x1024 .bf16) = (V c main_v15 : S1024x1024.Idx → EReal) := by
  funext y
  unfold iblk1
  rw [View.read_apply]
  show V c main_v15 (((cfg1.win 4).blk t).view.emb y) = V c main_v15 y
  refine congrArg (V c main_v15) ?_
  funext a; apply Fin.ext
  match a with
  | ⟨0, _⟩ => show win1_4.index t (0 : Fin 2) * 1024 + 1 * (y 0).val = (y 0).val; rw [(idx1_4 t).1]; omega
  | ⟨1, _⟩ => show win1_4.index t (1 : Fin 2) * 1024 + 1 * (y 1).val = (y 1).val; rw [(idx1_4 t).2]; omega

/-- Window 5's block at any point is the whole array. -/
theorem blk1_5 (c : Dev nD) (t : Fin cfg1.N) :
    (iblk1 V c 5 t : Vec Ideal S1024x1024 .bf16) = (V c main_v16 : S1024x1024.Idx → EReal) := by
  funext y
  unfold iblk1
  rw [View.read_apply]
  show V c main_v16 (((cfg1.win 5).blk t).view.emb y) = V c main_v16 y
  refine congrArg (V c main_v16) ?_
  funext a; apply Fin.ext
  match a with
  | ⟨0, _⟩ => show win1_5.index t (0 : Fin 2) * 1024 + 1 * (y 0).val = (y 0).val; rw [(idx1_5 t).1]; omega
  | ⟨1, _⟩ => show win1_5.index t (1 : Fin 2) * 1024 + 1 * (y 1).val = (y 1).val; rw [(idx1_5 t).2]; omega

/-- Window 6's block at any point is the whole array. -/
theorem blk1_6 (c : Dev nD) (t : Fin cfg1.N) :
    (iblk1 V c 6 t : Vec Ideal S1x1024 .f32) = (V c main_v19 : S1x1024.Idx → EReal) := by
  funext y
  unfold iblk1
  rw [View.read_apply]
  show V c main_v19 (((cfg1.win 6).blk t).view.emb y) = V c main_v19 y
  refine congrArg (V c main_v19) ?_
  funext a; apply Fin.ext
  match a with
  | ⟨0, _⟩ => show win1_6.index t (0 : Fin 2) * 1 + 1 * (y 0).val = (y 0).val; rw [(idx1_6 t).1]; omega
  | ⟨1, _⟩ => show win1_6.index t (1 : Fin 2) * 1024 + 1 * (y 1).val = (y 1).val; rw [(idx1_6 t).2]; omega

/-- Window 7's block at any point is the whole array. -/
theorem blk1_7 (c : Dev nD) (t : Fin cfg1.N) :
    (iblk1 V c 7 t : Vec Ideal S1x1024 .f32) = (V c main_v20 : S1x1024.Idx → EReal) := by
  funext y
  unfold iblk1
  rw [View.read_apply]
  show V c main_v20 (((cfg1.win 7).blk t).view.emb y) = V c main_v20 y
  refine congrArg (V c main_v20) ?_
  funext a; apply Fin.ext
  match a with
  | ⟨0, _⟩ => show win1_7.index t (0 : Fin 2) * 1 + 1 * (y 0).val = (y 0).val; rw [(idx1_7 t).1]; omega
  | ⟨1, _⟩ => show win1_7.index t (1 : Fin 2) * 1024 + 1 * (y 1).val = (y 1).val; rw [(idx1_7 t).2]; omega

/-! ## What each point writes back, and the array after the run -/

/-- What point t writes back is tile t of the layer of the arrays the region finds. -/
theorem flushed1_eq (c : Dev nD) (t : Fin cfg1.N) :
    (dat1 (F := Ideal) V c).flushed 8 t
      = ((cfg1.win 8).blk t).view.read (Elt Ideal) (Cert.Dilated.layerB 2 (V c main_v10) (V c main_v14) (V c main_v15) (V c main_v16) (V c main_v19) (V c main_v20)) := by
  show (cfg1.win 8).cut (cfg1.grid.coords t) ((dat1 V c).after 8 t) = _
  rw [after1_8]
  funext y
  obtain ⟨p, q, rfl⟩ : ∃ (p : Fin 512) (q : Fin 1024), y = ix2 p q := ⟨y 0, y 1, eq_ix2 y⟩
  rw [View.read_apply]
  show out1 V c t (ix2 p q) = (Cert.Dilated.layerB 2 (V c main_v10) (V c main_v14) (V c main_v15) (V c main_v16) (V c main_v19) (V c main_v20)) (((cfg1.win 8).blk t).view.emb (ix2 p q))
  have he : ((cfg1.win 8).blk t).view.emb (ix2 p q)
      = (ix2 (⟨512 * t.val + p.val, by have := lt16_1 t; omega⟩ : Fin 8192) q : S8192x1024.Idx) := by
    funext a; apply Fin.ext
    match a with
    | ⟨0, _⟩ => show win1_8.index t (0 : Fin 2) * 512 + 1 * p.val = 512 * t.val + p.val; rw [(idx1_tile t).2.2.1]; omega
    | ⟨1, _⟩ => show win1_8.index t (1 : Fin 2) * 1024 + 1 * q.val = q.val; rw [(idx1_tile t).2.2.2.1]; omega
  rw [he, Cert.Dilated.layerB_apply]
  unfold out1
  refine (outG1_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) p q).trans ?_
  exact Cert.Dilated.Tile.layerBAt_tile_dil 2 (by omega) (by omega) (V c main_v10) (V c main_v14) (V c main_v15) (V c main_v16) (V c main_v19) (V c main_v20)
    ⟨t.val, lt16_1 t⟩ ((grid1.coords t) 0).val (idx1_tile t).2.2.2.2
    (iblk1 V c 0 t) (iblk1 V c 1 t) (iblk1 V c 2 t) (iblk1 V c 3 t) (iblk1 V c 4 t) (iblk1 V c 5 t) (iblk1 V c 6 t) (iblk1 V c 7 t)
    (blk1_3 V c t) (blk1_4 V c t) (blk1_5 V c t) (blk1_6 V c t) (blk1_7 V c t)
    (blk1_0 V c t) (blk1_1 V c t) (blk1_2 V c t) p q

/-- An index of the output array is in point t's block iff each coordinate is in the block's range on its axis. -/
theorem mem_blk1_8 (t : Fin cfg1.N) (i : S8192x1024.Idx) :
    i ∈ ((cfg1.win 8).blk t).view.set ↔ ∀ a : Fin 2, win1_8.index t a * S512x1024.size a ≤ (i a).val
      ∧ (i a).val < win1_8.index t a * S512x1024.size a + S512x1024.size a := by
  show i ∈ ((View.whole main_v21).slice (win1_8.rect t)).set ↔ _
  rw [View.set_slice_whole, Rect.mem_set_unit]
  exact Iff.rfl

/-- Row r of the output array is written back by point r / 512. -/
theorem cover1_8 (i : S8192x1024.Idx) :
    ∃ t : Fin cfg1.N, (cfg1.win 8).flush t = true ∧ i ∈ ((cfg1.win 8).blk t).view.set := by
  have hi0 : (i 0).val < 8192 := (i 0).isLt
  have hi1 : (i 1).val < 1024 := (i 1).isLt
  obtain ⟨t, ht⟩ : ∃ t : Fin cfg1.N, t.val = (i 0).val / 512 :=
    ⟨⟨(i 0).val / 512, by rw [show cfg1.N = 16 from N_1]; omega⟩, rfl⟩
  refine ⟨t, flush1_8 t, ?_⟩
  rw [mem_blk1_8]
  intro a
  match a with
  | ⟨0, _⟩ =>
    show win1_8.index t (0 : Fin 2) * 512 ≤ (i 0).val ∧ (i 0).val < win1_8.index t (0 : Fin 2) * 512 + 512
    rw [(idx1_tile t).2.2.1, ht]; omega
  | ⟨1, _⟩ =>
    show win1_8.index t (1 : Fin 2) * 1024 ≤ (i 1).val ∧ (i 1).val < win1_8.index t (1 : Fin 2) * 1024 + 1024
    rw [(idx1_tile t).2.2.2.1]; omega

/-- The output array after the run is the layer of the arrays the region finds. -/
theorem res1_eq (c : Dev nD) :
    (dat1 (F := Ideal) V c).arrAt 8 cfg1.N = (Cert.Dilated.layerB 2 (V c main_v10) (V c main_v14) (V c main_v15) (V c main_v16) (V c main_v19) (V c main_v20)) :=
  (dat1 (F := Ideal) V c).arrAt_eq_of_cover 8 (Cert.Dilated.layerB 2 (V c main_v10) (V c main_v14) (V c main_v15) (V c main_v16) (V c main_v19) (V c main_v20))
    (fun t _ => flushed1_eq V c t) (fun i => cover1_8 i)

end Region1

end Cert.KernelIdeal.Hand

end
-- ==== Proof.KI.ValueB.lean ====
/-
  Region 1 leaves layer 1 of what region 0 left.
-/
import proofs.«137995_j86517821215731_2_alg».proof.Proof.KI.ValueA
import proofs.«137995_j86517821215731_2_alg».proof.Proof.KI.Tile1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Dilated Idealize.ShloMosaic.ValueIdx

variable (m : (ℓ : Loc nD τ sig) → Buf (Elt Ideal) ℓ)

/-- Region 1: the layer of what region 0 left. -/
theorem res1_val (c : Dev nD) : (res1 m c : SX.Idx → EReal) = lay1 m c := by
  unfold res1 lay1
  rw [res1_eq (Vt3 m) c]
  have hin : (Vt3 m c main_v10 : SX.Idx → EReal) = lay0 m c :=
    ((StableHlo.after_of_writes_sub hostOps1 _ hostOps1_writes (by decide : main_v10 ∉ hostOps1_W)).trans (W2_out m c)).trans (res0_val m c)
  refine (congrArg (fun X => layerB 2 X (Vt3 m c main_v14) (Vt3 m c main_v15) (Vt3 m c main_v16) (Vt3 m c main_v19) (Vt3 m c main_v20)) hin).trans ?_
  exact layerB_eq_layer 2 1 _ _ _ _ _ _ _ _ _
    (fun j k => (host1_w0 (W2 m c) j k).trans (congrFun (W2_main_arg1 m c) _))
    (fun j k => (host1_w1 (W2 m c) j k).trans (congrFun (W2_main_arg1 m c) _))
    (fun j k => (host1_w2 (W2 m c) j k).trans (congrFun (W2_main_arg1 m c) _))
    (fun k => (host1_b (W2 m c) k).trans (congrFun (W2_main_arg2 m c) _))
    (fun j => (host1_oob (W2 m c) j).trans (congrFun (W2_main_arg3 m c) _))

end Cert.KernelIdeal.Hand

end
-- ==== Proof.KI.Val2.lean ====
/-
  The third layer's kernel (dilation 4) at one grid point, as values.

  At grid point i the body holds the tile x (512 rows), the 8-row block above it (lm), the 8-row block below it (rm),
  the three weight blocks, the bias row and the out-of-bounds row. It builds the tile shifted down by 4 rows — its
  rows p < 4 are the out-of-bounds row at the first grid point and rows 4 + p of the block above otherwise, its rows
  p ≥ 4 are rows p − 4 of the tile — and the tile shifted up by 4 rows — its rows p ≥ 508 are the out-of-bounds row at
  the last grid point and rows p − 508 of the block below otherwise, its rows p < 508 are rows p + 4 of the tile — and
  stores, at entry (p, q),
      ½ · x (p, q) + ½ · max (((∑ⱼ x (p, j) · W₀ (j, q) + ∑ⱼ xl (p, j) · W₁ (j, q)) + ∑ⱼ xr (p, j) · W₂ (j, q)) + b (0, q)) 0
  with xl, xr the two shifted tiles.
-/
import proofs.«137995_j86517821215731_2_alg».proof.Proof.KI.Out2
import proofs.«137995_j86517821215731_2_alg».proof.Proof.KI.Val0
import proofs.«137995_j86517821215731_2_alg».proof.Proof.PayOut
import proofs.«137995_j86517821215731_2_alg».proof.Proof.PayHalo
import proofs.«137995_j86517821215731_2_alg».proof.Proof.PayHaloRows
import Idealize.ShloMosaic.Lib.Pipeline.Value
import Idealize.ShloMosaic.Lib.ValueLayout
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL.Sem
open Cert.KernelIdeal Cert.KernelIdeal.Gen

variable {F : FTy → Type} [FloatOps F]

/-- The tile shifted down by 4 rows, as the body leaves it in its first scratch tile: rows 0 … 3 written first,
    then rows 4 … 511. -/
def haloL2 (i : grid2.Coords) (x : Vec F S512x1024 .f32) (lm : Vec F S8x1024 .f32) (oob : Vec F S1x1024 .f32) :
    Vec F S512x1024 .f32 :=
  View.canon [(⟨Rect.unit ![4, 0] ![508, 1024] inb_S512x1024_S508x1024_4_0, k2_pay5 x⟩ : View.Piece (Elt F) S512x1024 .f32),
    ⟨Rect.unit ![0, 0] ![4, 1024] inb_S512x1024_S4x1024_0_0,
      k2_pay4 i oob (View.ld lm (Rect.unit ![4, 0] ![4, 1024] inb_S8x1024_S4x1024_4_0))⟩]

/-- The tile shifted up by 4 rows, as the body leaves it in its second scratch tile: rows 0 … 507 written first,
    then rows 508 … 511. -/
def haloR2 (i : grid2.Coords) (x : Vec F S512x1024 .f32) (rm : Vec F S8x1024 .f32) (oob : Vec F S1x1024 .f32) :
    Vec F S512x1024 .f32 :=
  View.canon [(⟨Rect.unit ![508, 0] ![4, 1024] inb_S512x1024_S4x1024_508_0,
      k2_pay7 i oob (View.ld rm (Rect.unit ![0, 0] ![4, 1024] inb_S8x1024_S4x1024_0_0))⟩ : View.Piece (Elt F) S512x1024 .f32),
    ⟨Rect.unit ![0, 0] ![508, 1024] inb_S512x1024_S508x1024_0_0, k2_pay6 x⟩]

/-- The output tile after the body is the stored value of the tile, the two shifted tiles, the weights and the bias. -/
theorem outG2_eq (c : Dev nD) (i : grid2.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) :
    outG2 c i arg1 harg1 arg2 harg2 arg3 harg3 arg4 harg4 arg5 harg5 arg6 harg6 arg7 harg7 arg8 harg8 arg9 harg9 arg10 harg10 arg11 harg11 x lm rm w0 w1 w2 b oob
      = k2_pay1 (k2_pay2 x) (k2_pay8 x) (k2_pay9 (haloL2 i x lm oob)) (k2_pay10 (haloR2 i x rm oob)) w0 w1 w2 b := by
  unfold outG2
  rw [View.read_writes_junk_eq_canon]
  unfold kernelRun2
  dsimp only
  sl_unfold_words
  rw [View.canon_unit_zero hz0]
  simp only [View.readAt_eq_ld, harg1.read_unread, harg2.read_unread, harg3.read_unread, harg4.read_unread,
    harg5.read_unread, harg6.read_unread, harg7.read_unread, harg8.read_unread,
    View.ld_unit_zero (S := S512x1024) hz0, View.ld_unit_zero (S := S1024x1024) hz0, View.ld_unit_zero (S := S1x1024) hz0]
  rw [readCov_whole arg10.view, readCov_whole arg11.view]
  rfl

/-- Row p of the tile shifted down by 4: row p − 4 of the tile, or for p < 4 the out-of-bounds row at the first grid
    point and row 4 + p of the block above otherwise. -/
theorem haloL2_apply (i : grid2.Coords) (x : Vec F S512x1024 .f32) (lm : Vec F S8x1024 .f32) (oob : Vec F S1x1024 .f32)
    (p : Fin 512) (j : Fin 1024) :
    haloL2 i x lm oob (ix2 p j)
      = if h : 4 ≤ p.val then x (ix2 (⟨p.val - 4, by omega⟩ : Fin 512) j)
        else if (i 0).val = 0 then oob (ix2 (0 : Fin 1) j) else lm (ix2 (⟨8 - 4 + p.val, by omega⟩ : Fin 8) j) := by
  unfold haloL2
  refine (Cert.Dilated.Halo.canon_rows (Val := Elt F) (e := EltTy.f32) (n := 512) (m := 1024) (A := 4) (B := 508) (by omega)
    inb_S512x1024_S4x1024_0_0 inb_S512x1024_S508x1024_4_0
    (k2_pay4 i oob (View.ld lm (Rect.unit ![4, 0] ![4, 1024] inb_S8x1024_S4x1024_4_0))) (k2_pay5 x) p j).trans ?_
  by_cases h : 4 ≤ p.val
  · rw [dif_neg (by omega), dif_pos h]
    unfold k2_pay5 k2_pay2
    simp only [shapeCast_self]
    exact slice2_axis0_apply 0 x slices_S512x1024_o0_0_S508x1024 _ j _ (by simp)
  · rw [dif_pos (by omega), dif_neg h]
    unfold k2_pay4 k2_pay3
    simp only [shapeCast_self]
    have h16 : (i 0).val < 16 := (i 0).isLt
    rw [Cert.Dilated.Halo.select_eq_nat (i 0).val 0 (by omega) (by omega)]
    by_cases h0 : (i 0).val = 0
    · rw [if_pos h0, if_pos h0]
      exact broadcastTo_1b_ab_apply oob broadcasts_S1x1024_S4x1024 _ j
    · rw [if_neg h0, if_neg h0]
      exact (Cert.Dilated.Halo.ld_rows (Val := Elt F) (e := EltTy.f32) (n := 8) (m := 1024) (r := 4) (k := 4) lm
        inb_S8x1024_S4x1024_4_0 ⟨p.val, by omega⟩ j (by show 4 + p.val < 8; omega)).trans
        (congrArg (fun r : Fin 8 => lm (ix2 r j)) (Fin.ext (by show 4 + p.val = 8 - 4 + p.val; omega)))

/-- Row p of the tile shifted up by 4: row p + 4 of the tile, or for p ≥ 508 the out-of-bounds row at the last grid
    point and row p − 508 of the block below otherwise. -/
theorem haloR2_apply (i : grid2.Coords) (x : Vec F S512x1024 .f32) (rm : Vec F S8x1024 .f32) (oob : Vec F S1x1024 .f32)
    (p : Fin 512) (j : Fin 1024) :
    haloR2 i x rm oob (ix2 p j)
      = if h : p.val + 4 < 512 then x (ix2 (⟨p.val + 4, h⟩ : Fin 512) j)
        else if (i 0).val = 15 then oob (ix2 (0 : Fin 1) j) else rm (ix2 (⟨p.val + 4 - 512, by omega⟩ : Fin 8) j) := by
  unfold haloR2
  refine (Cert.Dilated.Halo.canon_rows (Val := Elt F) (e := EltTy.f32) (n := 512) (m := 1024) (A := 508) (B := 4) (by omega)
    inb_S512x1024_S508x1024_0_0 inb_S512x1024_S4x1024_508_0
    (k2_pay6 x) (k2_pay7 i oob (View.ld rm (Rect.unit ![0, 0] ![4, 1024] inb_S8x1024_S4x1024_0_0))) p j).trans ?_
  by_cases h : p.val + 4 < 512
  · rw [dif_pos (by omega), dif_pos h]
    unfold k2_pay6 k2_pay2
    simp only [shapeCast_self]
    exact slice2_axis0_apply 4 x slices_S512x1024_o4_0_S508x1024 _ j _ (by simp; omega)
  · rw [dif_neg (by omega), dif_neg h]
    unfold k2_pay7 k2_pay3
    simp only [shapeCast_self]
    have h16 : (i 0).val < 16 := (i 0).isLt
    rw [Cert.Dilated.Halo.select_eq_nat (i 0).val 15 (by omega) (by omega)]
    by_cases h0 : (i 0).val = 15
    · rw [if_pos h0, if_pos h0]
      exact broadcastTo_1b_ab_apply oob broadcasts_S1x1024_S4x1024 _ j
    · rw [if_neg h0, if_neg h0]
      exact (Cert.Dilated.Halo.ld_rows (Val := Elt F) (e := EltTy.f32) (n := 8) (m := 1024) (r := 0) (k := 4) rm
        inb_S8x1024_S4x1024_0_0 ⟨p.val - 508, by omega⟩ j (by show 0 + (p.val - 508) < 8; omega)).trans
        (congrArg (fun r : Fin 8 => rm (ix2 r j)) (Fin.ext (by show 0 + (p.val - 508) = p.val + 4 - 512; omega)))

/-- The output tile after the body, at entry (p, q), on the extended reals. -/
theorem outG2_apply (c : Dev nD) (i : grid2.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec Ideal S512x1024 .f32) (lm rm : Vec Ideal S8x1024 .f32) (w0 w1 w2 : Vec Ideal S1024x1024 .bf16)
    (b oob : Vec Ideal S1x1024 .f32) (p : Fin 512) (q : Fin 1024) :
    outG2 c i arg1 harg1 arg2 harg2 arg3 harg3 arg4 harg4 arg5 harg5 arg6 harg6 arg7 harg7 arg8 harg8 arg9 harg9 arg10 harg10 arg11 harg11 x lm rm w0 w1 w2 b oob (ix2 p q)
      = Cert.Dilated.half * x (ix2 p q)
        + Cert.Dilated.half * max ((((∑ j : Fin 1024, x (ix2 p j) * w0 (ix2 j q))
            + ∑ j : Fin 1024,
                (if h : 4 ≤ p.val then x (ix2 (⟨p.val - 4, by omega⟩ : Fin 512) j)
                 else if (i 0).val = 0 then oob (ix2 (0 : Fin 1) j)
                 else lm (ix2 (⟨8 - 4 + p.val, by omega⟩ : Fin 8) j)) * w1 (ix2 j q))
            + ∑ j : Fin 1024,
                (if h : p.val + 4 < 512 then x (ix2 (⟨p.val + 4, h⟩ : Fin 512) j)
                 else if (i 0).val = 15 then oob (ix2 (0 : Fin 1) j)
                 else rm (ix2 (⟨p.val + 4 - 512, by omega⟩ : Fin 8) j)) * w2 (ix2 j q))
            + b (ix2 0 q)) Cert.Dilated.zero := by
  rw [outG2_eq]
  refine (Cert.Dilated.Pay.out2_apply x (haloL2 i x lm oob) (haloR2 i x rm oob) w0 w1 w2 b p q).trans ?_
  simp only [haloL2_apply, haloR2_apply]

end Cert.KernelIdeal.Hand

end
-- ==== Proof.KI.Tile2.lean ====
/-
  From tiles to the whole array, for the third layer's kernel (dilation 4).

  The kernel's grid has 16 points; point t is handed tile t of the layer's input (rows 512·t … 512·t + 511), the 8-row
  blocks just above and just below it, the three weight blocks, the bias row and the out-of-bounds row, all of them
  blocks of the arrays the region finds, and writes tile t of its output array. Since each point's tile is the tile
  of one whole-array function — the layer over blocks — and the 16 tiles cover the 8192 rows, the output array ends
  holding that function.
-/
import proofs.«137995_j86517821215731_2_alg».proof.Proof.KI.Body2
import proofs.«137995_j86517821215731_2_alg».proof.Proof.KI.Val2
import proofs.«137995_j86517821215731_2_alg».proof.Proof.KI.TileMathDil
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-! ## The index maps over the grid -/

/-- The grid has 16 points. -/
theorem lt16_2 (t : Fin cfg2.N) : t.val < 16 :=
  lt_of_lt_of_eq t.isLt (show cfg2.N = 16 from N_2)

/-- The input tile's and the output tile's block index at point t is (t, 0); the point's grid coordinate is t. -/
theorem idx2_tile : ∀ t : Fin cfg2.N, win2_0.index t (0 : Fin 2) = t.val ∧ win2_0.index t (1 : Fin 2) = 0
    ∧ win2_8.index t (0 : Fin 2) = t.val ∧ win2_8.index t (1 : Fin 2) = 0 ∧ ((grid2.coords t) 0).val = t.val :=
  (by decide +kernel : ∀ t : Fin grid2.N, _)

/-- The margin above is the 8-row block number 64·t − 1 (block 0 at the first point, where it is not used). -/
theorem idx2_1 : ∀ t : Fin cfg2.N, win2_1.index t (0 : Fin 2) = (if t.val = 0 then 0 else 64 * t.val - 1)
    ∧ win2_1.index t (1 : Fin 2) = 0 :=
  (by decide +kernel : ∀ t : Fin grid2.N, _)

/-- The margin below is the 8-row block number 64·(t + 1) (block 1023 at the last point, where it is not used). -/
theorem idx2_2 : ∀ t : Fin cfg2.N, win2_2.index t (0 : Fin 2) = (if t.val = 15 then 1023 else 64 * (t.val + 1))
    ∧ win2_2.index t (1 : Fin 2) = 0 :=
  (by decide +kernel : ∀ t : Fin grid2.N, _)

theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)

section Region2

variable (V : (c : Dev nD) → (b : Ref sig .tc) → Buf (Elt Ideal) ((c : Thread nD τ).loc b))

/-! ## Each input block, where it sits in its array -/

/-- Row p of the tile at point t is row 512·t + p of the layer's input. -/
theorem blk2_0 (c : Dev nD) (t : Fin cfg2.N) (p : Fin 512) (j : Fin 1024) :
    (iblk2 V c 0 t : Vec Ideal S512x1024 .f32) (ix2 p j)
      = (V c main_v21 : S8192x1024.Idx → EReal) (ix2 (⟨512 * t.val + p.val, by have := lt16_2 t; omega⟩ : Fin 8192) j) := by
  unfold iblk2
  rw [View.read_apply]
  show V c main_v21 (((cfg2.win 0).blk t).view.emb (ix2 p j)) = V c main_v21 _
  refine congrArg (V c main_v21) ?_
  funext a; apply Fin.ext
  match a with
  | ⟨0, _⟩ => show win2_0.index t (0 : Fin 2) * 512 + 1 * p.val = 512 * t.val + p.val; rw [(idx2_tile t).1]; omega
  | ⟨1, _⟩ => show win2_0.index t (1 : Fin 2) * 1024 + 1 * j.val = j.val; rw [(idx2_tile t).2.1]; omega

/-- Past the first point, row r of the margin above is row 8·(64·t − 1) + r of the layer's input. -/
theorem blk2_1 (c : Dev nD) (t : Fin cfg2.N) (ht : t.val ≠ 0) (r : Fin 8) (j : Fin 1024) :
    (iblk2 V c 1 t : Vec Ideal S8x1024 .f32) (ix2 r j)
      = (V c main_v21 : S8192x1024.Idx → EReal) (ix2 (⟨8 * (64 * t.val - 1) + r.val, by have := lt16_2 t; omega⟩ : Fin 8192) j) := by
  unfold iblk2
  rw [View.read_apply]
  show V c main_v21 (((cfg2.win 1).blk t).view.emb (ix2 r j)) = V c main_v21 _
  refine congrArg (V c main_v21) ?_
  funext a; apply Fin.ext
  match a with
  | ⟨0, _⟩ => show win2_1.index t (0 : Fin 2) * 8 + 1 * r.val = 8 * (64 * t.val - 1) + r.val; rw [(idx2_1 t).1, if_neg ht]; omega
  | ⟨1, _⟩ => show win2_1.index t (1 : Fin 2) * 1024 + 1 * j.val = j.val; rw [(idx2_1 t).2]; omega

/-- Before the last point, row r of the margin below is row 8·(64·(t + 1)) + r of the layer's input. -/
theorem blk2_2 (c : Dev nD) (t : Fin cfg2.N) (ht : t.val ≠ 15) (r : Fin 8) (j : Fin 1024) :
    (iblk2 V c 2 t : Vec Ideal S8x1024 .f32) (ix2 r j)
      = (V c main_v21 : S8192x1024.Idx → EReal) (ix2 (⟨8 * (64 * (t.val + 1)) + r.val, by have := lt16_2 t; omega⟩ : Fin 8192) j) := by
  unfold iblk2
  rw [View.read_apply]
  show V c main_v21 (((cfg2.win 2).blk t).view.emb (ix2 r j)) = V c main_v21 _
  refine congrArg (V c main_v21) ?_
  funext a; apply Fin.ext
  match a with
  | ⟨0, _⟩ => show win2_2.index t (0 : Fin 2) * 8 + 1 * r.val = 8 * (64 * (t.val + 1)) + r.val; rw [(idx2_2 t).1, if_neg ht]; omega
  | ⟨1, _⟩ => show win2_2.index t (1 : Fin 2) * 1024 + 1 * j.val = j.val; rw [(idx2_2 t).2]; omega

/-- Window 3's block at any point is the whole array. -/
theorem blk2_3 (c : Dev nD) (t : Fin cfg2.N) :
    (iblk2 V c 3 t : Vec Ideal S1024x1024 .bf16) = (V c main_v25 : S1024x1024.Idx → EReal) := by
  funext y
  unfold iblk2
  rw [View.read_apply]
  show V c main_v25 (((cfg2.win 3).blk t).view.emb y) = V c main_v25 y
  refine congrArg (V c main_v25) ?_
  funext a; apply Fin.ext
  match a with
  | ⟨0, _⟩ => show win2_3.index t (0 : Fin 2) * 1024 + 1 * (y 0).val = (y 0).val; rw [(idx2_3 t).1]; omega
  | ⟨1, _⟩ => show win2_3.index t (1 : Fin 2) * 1024 + 1 * (y 1).val = (y 1).val; rw [(idx2_3 t).2]; omega

/-- Window 4's block at any point is the whole array. -/
theorem blk2_4 (c : Dev nD) (t : Fin cfg2.N) :
    (iblk2 V c 4 t : Vec Ideal S1024x1024 .bf16) = (V c main_v26 : S1024x1024.Idx → EReal) := by
  funext y
  unfold iblk2
  rw [View.read_apply]
  show V c main_v26 (((cfg2.win 4).blk t).view.emb y) = V c main_v26 y
  refine congrArg (V c main_v26) ?_
  funext a; apply Fin.ext
  match a with
  | ⟨0, _⟩ => show win2_4.index t (0 : Fin 2) * 1024 + 1 * (y 0).val = (y 0).val; rw [(idx2_4 t).1]; omega
  | ⟨1, _⟩ => show win2_4.index t (1 : Fin 2) * 1024 + 1 * (y 1).val = (y 1).val; rw [(idx2_4 t).2]; omega

/-- Window 5's block at any point is the whole array. -/
theorem blk2_5 (c : Dev nD) (t : Fin cfg2.N) :
    (iblk2 V c 5 t : Vec Ideal S1024x1024 .bf16) = (V c main_v27 : S1024x1024.Idx → EReal) := by
  funext y
  unfold iblk2
  rw [View.read_apply]
  show V c main_v27 (((cfg2.win 5).blk t).view.emb y) = V c main_v27 y
  refine congrArg (V c main_v27) ?_
  funext a; apply Fin.ext
  match a with
  | ⟨0, _⟩ => show win2_5.index t (0 : Fin 2) * 1024 + 1 * (y 0).val = (y 0).val; rw [(idx2_5 t).1]; omega
  | ⟨1, _⟩ => show win2_5.index t (1 : Fin 2) * 1024 + 1 * (y 1).val = (y 1).val; rw [(idx2_5 t).2]; omega

/-- Window 6's block at any point is the whole array. -/
theorem blk2_6 (c : Dev nD) (t : Fin cfg2.N) :
    (iblk2 V c 6 t : Vec Ideal S1x1024 .f32) = (V c main_v30 : S1x1024.Idx → EReal) := by
  funext y
  unfold iblk2
  rw [View.read_apply]
  show V c main_v30 (((cfg2.win 6).blk t).view.emb y) = V c main_v30 y
  refine congrArg (V c main_v30) ?_
  funext a; apply Fin.ext
  match a with
  | ⟨0, _⟩ => show win2_6.index t (0 : Fin 2) * 1 + 1 * (y 0).val = (y 0).val; rw [(idx2_6 t).1]; omega
  | ⟨1, _⟩ => show win2_6.index t (1 : Fin 2) * 1024 + 1 * (y 1).val = (y 1).val; rw [(idx2_6 t).2]; omega

/-- Window 7's block at any point is the whole array. -/
theorem blk2_7 (c : Dev nD) (t : Fin cfg2.N) :
    (iblk2 V c 7 t : Vec Ideal S1x1024 .f32) = (V c main_v31 : S1x1024.Idx → EReal) := by
  funext y
  unfold iblk2
  rw [View.read_apply]
  show V c main_v31 (((cfg2.win 7).blk t).view.emb y) = V c main_v31 y
  refine congrArg (V c main_v31) ?_
  funext a; apply Fin.ext
  match a with
  | ⟨0, _⟩ => show win2_7.index t (0 : Fin 2) * 1 + 1 * (y 0).val = (y 0).val; rw [(idx2_7 t).1]; omega
  | ⟨1, _⟩ => show win2_7.index t (1 : Fin 2) * 1024 + 1 * (y 1).val = (y 1).val; rw [(idx2_7 t).2]; omega

/-! ## What each point writes back, and the array after the run -/

/-- What point t writes back is tile t of the layer of the arrays the region finds. -/
theorem flushed2_eq (c : Dev nD) (t : Fin cfg2.N) :
    (dat2 (F := Ideal) V c).flushed 8 t
      = ((cfg2.win 8).blk t).view.read (Elt Ideal) (Cert.Dilated.layerB 4 (V c main_v21) (V c main_v25) (V c main_v26) (V c main_v27) (V c main_v30) (V c main_v31)) := by
  show (cfg2.win 8).cut (cfg2.grid.coords t) ((dat2 V c).after 8 t) = _
  rw [after2_8]
  funext y
  obtain ⟨p, q, rfl⟩ : ∃ (p : Fin 512) (q : Fin 1024), y = ix2 p q := ⟨y 0, y 1, eq_ix2 y⟩
  rw [View.read_apply]
  show out2 V c t (ix2 p q) = (Cert.Dilated.layerB 4 (V c main_v21) (V c main_v25) (V c main_v26) (V c main_v27) (V c main_v30) (V c main_v31)) (((cfg2.win 8).blk t).view.emb (ix2 p q))
  have he : ((cfg2.win 8).blk t).view.emb (ix2 p q)
      = (ix2 (⟨512 * t.val + p.val, by have := lt16_2 t; omega⟩ : Fin 8192) q : S8192x1024.Idx) := by
    funext a; apply Fin.ext
    match a with
    | ⟨0, _⟩ => show win2_8.index t (0 : Fin 2) * 512 + 1 * p.val = 512 * t.val + p.val; rw [(idx2_tile t).2.2.1]; omega
    | ⟨1, _⟩ => show win2_8.index t (1 : Fin 2) * 1024 + 1 * q.val = q.val; rw [(idx2_tile t).2.2.2.1]; omega
  rw [he, Cert.Dilated.layerB_apply]
  unfold out2
  refine (outG2_apply c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (iblk2 V c 0 t) (iblk2 V c 1 t) (iblk2 V c 2 t) (iblk2 V c 3 t) (iblk2 V c 4 t) (iblk2 V c 5 t) (iblk2 V c 6 t) (iblk2 V c 7 t) p q).trans ?_
  exact Cert.Dilated.Tile.layerBAt_tile_dil 4 (by omega) (by omega) (V c main_v21) (V c main_v25) (V c main_v26) (V c main_v27) (V c main_v30) (V c main_v31)
    ⟨t.val, lt16_2 t⟩ ((grid2.coords t) 0).val (idx2_tile t).2.2.2.2
    (iblk2 V c 0 t) (iblk2 V c 1 t) (iblk2 V c 2 t) (iblk2 V c 3 t) (iblk2 V c 4 t) (iblk2 V c 5 t) (iblk2 V c 6 t) (iblk2 V c 7 t)
    (blk2_3 V c t) (blk2_4 V c t) (blk2_5 V c t) (blk2_6 V c t) (blk2_7 V c t)
    (blk2_0 V c t) (blk2_1 V c t) (blk2_2 V c t) p q

/-- An index of the output array is in point t's block iff each coordinate is in the block's range on its axis. -/
theorem mem_blk2_8 (t : Fin cfg2.N) (i : S8192x1024.Idx) :
    i ∈ ((cfg2.win 8).blk t).view.set ↔ ∀ a : Fin 2, win2_8.index t a * S512x1024.size a ≤ (i a).val
      ∧ (i a).val < win2_8.index t a * S512x1024.size a + S512x1024.size a := by
  show i ∈ ((View.whole main_v32).slice (win2_8.rect t)).set ↔ _
  rw [View.set_slice_whole, Rect.mem_set_unit]
  exact Iff.rfl

/-- Row r of the output array is written back by point r / 512. -/
theorem cover2_8 (i : S8192x1024.Idx) :
    ∃ t : Fin cfg2.N, (cfg2.win 8).flush t = true ∧ i ∈ ((cfg2.win 8).blk t).view.set := by
  have hi0 : (i 0).val < 8192 := (i 0).isLt
  have hi1 : (i 1).val < 1024 := (i 1).isLt
  obtain ⟨t, ht⟩ : ∃ t : Fin cfg2.N, t.val = (i 0).val / 512 :=
    ⟨⟨(i 0).val / 512, by rw [show cfg2.N = 16 from N_2]; omega⟩, rfl⟩
  refine ⟨t, flush2_8 t, ?_⟩
  rw [mem_blk2_8]
  intro a
  match a with
  | ⟨0, _⟩ =>
    show win2_8.index t (0 : Fin 2) * 512 ≤ (i 0).val ∧ (i 0).val < win2_8.index t (0 : Fin 2) * 512 + 512
    rw [(idx2_tile t).2.2.1, ht]; omega
  | ⟨1, _⟩ =>
    show win2_8.index t (1 : Fin 2) * 1024 ≤ (i 1).val ∧ (i 1).val < win2_8.index t (1 : Fin 2) * 1024 + 1024
    rw [(idx2_tile t).2.2.2.1]; omega

/-- The output array after the run is the layer of the arrays the region finds. -/
theorem res2_eq (c : Dev nD) :
    (dat2 (F := Ideal) V c).arrAt 8 cfg2.N = (Cert.Dilated.layerB 4 (V c main_v21) (V c main_v25) (V c main_v26) (V c main_v27) (V c main_v30) (V c main_v31)) :=
  (dat2 (F := Ideal) V c).arrAt_eq_of_cover 8 (Cert.Dilated.layerB 4 (V c main_v21) (V c main_v25) (V c main_v26) (V c main_v27) (V c main_v30) (V c main_v31))
    (fun t _ => flushed2_eq V c t) (fun i => cover2_8 i)

end Region2

end Cert.KernelIdeal.Hand

end
-- ==== Proof.KI.ValueC.lean ====
/-
  Region 2 leaves layer 2 of what region 1 left.
-/
import proofs.«137995_j86517821215731_2_alg».proof.Proof.KI.ValueB
import proofs.«137995_j86517821215731_2_alg».proof.Proof.KI.Tile2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Dilated Idealize.ShloMosaic.ValueIdx

variable (m : (ℓ : Loc nD τ sig) → Buf (Elt Ideal) ℓ)

/-- Region 2: the layer of what region 1 left. -/
theorem res2_val (c : Dev nD) : (res2 m c : SX.Idx → EReal) = lay2 m c := by
  unfold res2 lay2
  rw [res2_eq (Vt5 m) c]
  have hin : (Vt5 m c main_v21 : SX.Idx → EReal) = lay1 m c :=
    ((StableHlo.after_of_writes_sub hostOps2 _ hostOps2_writes (by decide : main_v21 ∉ hostOps2_W)).trans (W4_out m c)).trans (res1_val m c)
  refine (congrArg (fun X => layerB 4 X (Vt5 m c main_v25) (Vt5 m c main_v26) (Vt5 m c main_v27) (Vt5 m c main_v30) (Vt5 m c main_v31)) hin).trans ?_
  exact layerB_eq_layer 4 2 _ _ _ _ _ _ _ _ _
    (fun j k => (host2_w0 (W4 m c) j k).trans (congrFun (W4_main_arg1 m c) _))
    (fun j k => (host2_w1 (W4 m c) j k).trans (congrFun (W4_main_arg1 m c) _))
    (fun j k => (host2_w2 (W4 m c) j k).trans (congrFun (W4_main_arg1 m c) _))
    (fun k => (host2_b (W4 m c) k).trans (congrFun (W4_main_arg2 m c) _))
    (fun j => (host2_oob (W4 m c) j).trans (congrFun (W4_main_arg3 m c) _))

end Cert.KernelIdeal.Hand

end
-- ==== Proof.KI.Val3.lean ====
/-
  The fourth layer's kernel (dilation 1) at one grid point, as values.

  At grid point i the body holds the tile x (512 rows), the 8-row block above it (lm), the 8-row block below it (rm),
  the three weight blocks, the bias row and the out-of-bounds row. It builds the tile shifted down by 1 row — its
  rows p < 1 are the out-of-bounds row at the first grid point and rows 7 + p of the block above otherwise, its rows
  p ≥ 1 are rows p − 1 of the tile — and the tile shifted up by 1 row — its rows p ≥ 511 are the out-of-bounds row at
  the last grid point and rows p − 511 of the block below otherwise, its rows p < 511 are rows p + 1 of the tile — and
  stores, at entry (p, q),
      ½ · x (p, q) + ½ · max (((∑ⱼ x (p, j) · W₀ (j, q) + ∑ⱼ xl (p, j) · W₁ (j, q)) + ∑ⱼ xr (p, j) · W₂ (j, q)) + b (0, q)) 0
  with xl, xr the two shifted tiles.
-/
import proofs.«137995_j86517821215731_2_alg».proof.Proof.KI.Out3
import proofs.«137995_j86517821215731_2_alg».proof.Proof.KI.Val0
import proofs.«137995_j86517821215731_2_alg».proof.Proof.PayOut
import proofs.«137995_j86517821215731_2_alg».proof.Proof.PayHalo
import proofs.«137995_j86517821215731_2_alg».proof.Proof.PayHaloRows
import Idealize.ShloMosaic.Lib.Pipeline.Value
import Idealize.ShloMosaic.Lib.ValueLayout
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL.Sem
open Cert.KernelIdeal Cert.KernelIdeal.Gen

variable {F : FTy → Type} [FloatOps F]

/-- The tile shifted down by 1 row, as the body leaves it in its first scratch tile: rows 0 … 0 written first,
    then rows 1 … 511. -/
def haloL3 (i : grid3.Coords) (x : Vec F S512x1024 .f32) (lm : Vec F S8x1024 .f32) (oob : Vec F S1x1024 .f32) :
    Vec F S512x1024 .f32 :=
  View.canon [(⟨Rect.unit ![1, 0] ![511, 1024] inb_S512x1024_S511x1024_1_0, k3_pay5 x⟩ : View.Piece (Elt F) S512x1024 .f32),
    ⟨Rect.unit ![0, 0] ![1, 1024] inb_S512x1024_S1x1024_0_0,
      k3_pay4 i oob (View.ld lm (Rect.unit ![7, 0] ![1, 1024] inb_S8x1024_S1x1024_7_0))⟩]

/-- The tile shifted up by 1 row, as the body leaves it in its second scratch tile: rows 0 … 510 written first,
    then rows 511 … 511. -/
def haloR3 (i : grid3.Coords) (x : Vec F S512x1024 .f32) (rm : Vec F S8x1024 .f32) (oob : Vec F S1x1024 .f32) :
    Vec F S512x1024 .f32 :=
  View.canon [(⟨Rect.unit ![511, 0] ![1, 1024] inb_S512x1024_S1x1024_511_0,
      k3_pay7 i oob (View.ld rm (Rect.unit ![0, 0] ![1, 1024] inb_S8x1024_S1x1024_0_0))⟩ : View.Piece (Elt F) S512x1024 .f32),
    ⟨Rect.unit ![0, 0] ![511, 1024] inb_S512x1024_S511x1024_0_0, k3_pay6 x⟩]

/-- The output tile after the body is the stored value of the tile, the two shifted tiles, the weights and the bias. -/
theorem outG3_eq (c : Dev nD) (i : grid3.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec F S512x1024 .f32) (lm rm : Vec F S8x1024 .f32) (w0 w1 w2 : Vec F S1024x1024 .bf16) (b oob : Vec F S1x1024 .f32) :
    outG3 c i arg1 harg1 arg2 harg2 arg3 harg3 arg4 harg4 arg5 harg5 arg6 harg6 arg7 harg7 arg8 harg8 arg9 harg9 arg10 harg10 arg11 harg11 x lm rm w0 w1 w2 b oob
      = k3_pay1 (k3_pay2 x) (k3_pay8 x) (k3_pay9 (haloL3 i x lm oob)) (k3_pay10 (haloR3 i x rm oob)) w0 w1 w2 b := by
  unfold outG3
  rw [View.read_writes_junk_eq_canon]
  unfold kernelRun3
  dsimp only
  sl_unfold_words
  rw [View.canon_unit_zero hz0]
  simp only [View.readAt_eq_ld, harg1.read_unread, harg2.read_unread, harg3.read_unread, harg4.read_unread,
    harg5.read_unread, harg6.read_unread, harg7.read_unread, harg8.read_unread,
    View.ld_unit_zero (S := S512x1024) hz0, View.ld_unit_zero (S := S1024x1024) hz0, View.ld_unit_zero (S := S1x1024) hz0]
  rw [readCov_whole arg10.view, readCov_whole arg11.view]
  rfl

/-- Row p of the tile shifted down by 1: row p − 1 of the tile, or for p < 1 the out-of-bounds row at the first grid
    point and row 7 + p of the block above otherwise. -/
theorem haloL3_apply (i : grid3.Coords) (x : Vec F S512x1024 .f32) (lm : Vec F S8x1024 .f32) (oob : Vec F S1x1024 .f32)
    (p : Fin 512) (j : Fin 1024) :
    haloL3 i x lm oob (ix2 p j)
      = if h : 1 ≤ p.val then x (ix2 (⟨p.val - 1, by omega⟩ : Fin 512) j)
        else if (i 0).val = 0 then oob (ix2 (0 : Fin 1) j) else lm (ix2 (⟨8 - 1 + p.val, by omega⟩ : Fin 8) j) := by
  unfold haloL3
  refine (Cert.Dilated.Halo.canon_rows (Val := Elt F) (e := EltTy.f32) (n := 512) (m := 1024) (A := 1) (B := 511) (by omega)
    inb_S512x1024_S1x1024_0_0 inb_S512x1024_S511x1024_1_0
    (k3_pay4 i oob (View.ld lm (Rect.unit ![7, 0] ![1, 1024] inb_S8x1024_S1x1024_7_0))) (k3_pay5 x) p j).trans ?_
  by_cases h : 1 ≤ p.val
  · rw [dif_neg (by omega), dif_pos h]
    unfold k3_pay5 k3_pay2
    simp only [shapeCast_self]
    exact slice2_axis0_apply 0 x slices_S512x1024_o0_0_S511x1024 _ j _ (by simp)
  · rw [dif_pos (by omega), dif_neg h]
    unfold k3_pay4 k3_pay3
    simp only [shapeCast_self]
    have h16 : (i 0).val < 16 := (i 0).isLt
    rw [Cert.Dilated.Halo.select_eq_nat (i 0).val 0 (by omega) (by omega)]
    by_cases h0 : (i 0).val = 0
    · rw [if_pos h0, if_pos h0]
      rw [show (⟨p.val, by omega⟩ : Fin 1) = 0 from Fin.ext (by show p.val = 0; omega)]
    · rw [if_neg h0, if_neg h0]
      exact (Cert.Dilated.Halo.ld_rows (Val := Elt F) (e := EltTy.f32) (n := 8) (m := 1024) (r := 7) (k := 1) lm
        inb_S8x1024_S1x1024_7_0 ⟨p.val, by omega⟩ j (by show 7 + p.val < 8; omega)).trans
        (congrArg (fun r : Fin 8 => lm (ix2 r j)) (Fin.ext (by show 7 + p.val = 8 - 1 + p.val; omega)))

/-- Row p of the tile shifted up by 1: row p + 1 of the tile, or for p ≥ 511 the out-of-bounds row at the last grid
    point and row p − 511 of the block below otherwise. -/
theorem haloR3_apply (i : grid3.Coords) (x : Vec F S512x1024 .f32) (rm : Vec F S8x1024 .f32) (oob : Vec F S1x1024 .f32)
    (p : Fin 512) (j : Fin 1024) :
    haloR3 i x rm oob (ix2 p j)
      = if h : p.val + 1 < 512 then x (ix2 (⟨p.val + 1, h⟩ : Fin 512) j)
        else if (i 0).val = 15 then oob (ix2 (0 : Fin 1) j) else rm (ix2 (⟨p.val + 1 - 512, by omega⟩ : Fin 8) j) := by
  unfold haloR3
  refine (Cert.Dilated.Halo.canon_rows (Val := Elt F) (e := EltTy.f32) (n := 512) (m := 1024) (A := 511) (B := 1) (by omega)
    inb_S512x1024_S511x1024_0_0 inb_S512x1024_S1x1024_511_0
    (k3_pay6 x) (k3_pay7 i oob (View.ld rm (Rect.unit ![0, 0] ![1, 1024] inb_S8x1024_S1x1024_0_0))) p j).trans ?_
  by_cases h : p.val + 1 < 512
  · rw [dif_pos (by omega), dif_pos h]
    unfold k3_pay6 k3_pay2
    simp only [shapeCast_self]
    exact slice2_axis0_apply 1 x slices_S512x1024_o1_0_S511x1024 _ j _ (by simp; omega)
  · rw [dif_neg (by omega), dif_neg h]
    unfold k3_pay7 k3_pay3
    simp only [shapeCast_self]
    have h16 : (i 0).val < 16 := (i 0).isLt
    rw [Cert.Dilated.Halo.select_eq_nat (i 0).val 15 (by omega) (by omega)]
    by_cases h0 : (i 0).val = 15
    · rw [if_pos h0, if_pos h0]
      rw [show (⟨p.val - 511, by omega⟩ : Fin 1) = 0 from Fin.ext (by show p.val - 511 = 0; omega)]
    · rw [if_neg h0, if_neg h0]
      exact (Cert.Dilated.Halo.ld_rows (Val := Elt F) (e := EltTy.f32) (n := 8) (m := 1024) (r := 0) (k := 1) rm
        inb_S8x1024_S1x1024_0_0 ⟨p.val - 511, by omega⟩ j (by show 0 + (p.val - 511) < 8; omega)).trans
        (congrArg (fun r : Fin 8 => rm (ix2 r j)) (Fin.ext (by show 0 + (p.val - 511) = p.val + 1 - 512; omega)))

/-- The output tile after the body, at entry (p, q), on the extended reals. -/
theorem outG3_apply (c : Dev nD) (i : grid3.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole)
    (x : Vec Ideal S512x1024 .f32) (lm rm : Vec Ideal S8x1024 .f32) (w0 w1 w2 : Vec Ideal S1024x1024 .bf16)
    (b oob : Vec Ideal S1x1024 .f32) (p : Fin 512) (q : Fin 1024) :
    outG3 c i arg1 harg1 arg2 harg2 arg3 harg3 arg4 harg4 arg5 harg5 arg6 harg6 arg7 harg7 arg8 harg8 arg9 harg9 arg10 harg10 arg11 harg11 x lm rm w0 w1 w2 b oob (ix2 p q)
      = Cert.Dilated.half * x (ix2 p q)
        + Cert.Dilated.half * max ((((∑ j : Fin 1024, x (ix2 p j) * w0 (ix2 j q))
            + ∑ j : Fin 1024,
                (if h : 1 ≤ p.val then x (ix2 (⟨p.val - 1, by omega⟩ : Fin 512) j)
                 else if (i 0).val = 0 then oob (ix2 (0 : Fin 1) j)
                 else lm (ix2 (⟨8 - 1 + p.val, by omega⟩ : Fin 8) j)) * w1 (ix2 j q))
            + ∑ j : Fin 1024,
                (if h : p.val + 1 < 512 then x (ix2 (⟨p.val + 1, h⟩ : Fin 512) j)
                 else if (i 0).val = 15 then oob (ix2 (0 : Fin 1) j)
                 else rm (ix2 (⟨p.val + 1 - 512, by omega⟩ : Fin 8) j)) * w2 (ix2 j q))
            + b (ix2 0 q)) Cert.Dilated.zero := by
  rw [outG3_eq]
  refine (Cert.Dilated.Pay.out3_apply x (haloL3 i x lm oob) (haloR3 i x rm oob) w0 w1 w2 b p q).trans ?_
  simp only [haloL3_apply, haloR3_apply]

end Cert.KernelIdeal.Hand

end
-- ==== Proof.KI.Tile3.lean ====
/-
  From tiles to the whole array, for the fourth layer's kernel (dilation 1).

  The kernel's grid has 16 points; point t is handed tile t of the layer's input (rows 512·t … 512·t + 511), the 8-row
  blocks just above and just below it, the three weight blocks, the bias row and the out-of-bounds row, all of them
  blocks of the arrays the region finds, and writes tile t of its output array. Since each point's tile is the tile
  of one whole-array function — the layer over blocks — and the 16 tiles cover the 8192 rows, the output array ends
  holding that function.
-/
import proofs.«137995_j86517821215731_2_alg».proof.Proof.KI.Body3
import proofs.«137995_j86517821215731_2_alg».proof.Proof.KI.Val3
import proofs.«137995_j86517821215731_2_alg».proof.Proof.KI.TileMathDil
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-! ## The index maps over the grid -/

/-- The grid has 16 points. -/
theorem lt16_3 (t : Fin cfg3.N) : t.val < 16 :=
  lt_of_lt_of_eq t.isLt (show cfg3.N = 16 from N_3)

/-- The input tile's and the output tile's block index at point t is (t, 0); the point's grid coordinate is t. -/
theorem idx3_tile : ∀ t : Fin cfg3.N, win3_0.index t (0 : Fin 2) = t.val ∧ win3_0.index t (1 : Fin 2) = 0
    ∧ win3_8.index t (0 : Fin 2) = t.val ∧ win3_8.index t (1 : Fin 2) = 0 ∧ ((grid3.coords t) 0).val = t.val :=
  (by decide +kernel : ∀ t : Fin grid3.N, _)

/-- The margin above is the 8-row block number 64·t − 1 (block 0 at the first point, where it is not used). -/
theorem idx3_1 : ∀ t : Fin cfg3.N, win3_1.index t (0 : Fin 2) = (if t.val = 0 then 0 else 64 * t.val - 1)
    ∧ win3_1.index t (1 : Fin 2) = 0 :=
  (by decide +kernel : ∀ t : Fin grid3.N, _)

/-- The margin below is the 8-row block number 64·(t + 1) (block 1023 at the last point, where it is not used). -/
theorem idx3_2 : ∀ t : Fin cfg3.N, win3_2.index t (0 : Fin 2) = (if t.val = 15 then 1023 else 64 * (t.val + 1))
    ∧ win3_2.index t (1 : Fin 2) = 0 :=
  (by decide +kernel : ∀ t : Fin grid3.N, _)

theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = 0 ∧ win3_7.index t (1 : Fin 2) = 0 :=
  (by decide +kernel : ∀ t : Fin grid3.N, _)

section Region3

variable (V : (c : Dev nD) → (b : Ref sig .tc) → Buf (Elt Ideal) ((c : Thread nD τ).loc b))

/-! ## Each input block, where it sits in its array -/

/-- Row p of the tile at point t is row 512·t + p of the layer's input. -/
theorem blk3_0 (c : Dev nD) (t : Fin cfg3.N) (p : Fin 512) (j : Fin 1024) :
    (iblk3 V c 0 t : Vec Ideal S512x1024 .f32) (ix2 p j)
      = (V c main_v32 : S8192x1024.Idx → EReal) (ix2 (⟨512 * t.val + p.val, by have := lt16_3 t; omega⟩ : Fin 8192) j) := by
  unfold iblk3
  rw [View.read_apply]
  show V c main_v32 (((cfg3.win 0).blk t).view.emb (ix2 p j)) = V c main_v32 _
  refine congrArg (V c main_v32) ?_
  funext a; apply Fin.ext
  match a with
  | ⟨0, _⟩ => show win3_0.index t (0 : Fin 2) * 512 + 1 * p.val = 512 * t.val + p.val; rw [(idx3_tile t).1]; omega
  | ⟨1, _⟩ => show win3_0.index t (1 : Fin 2) * 1024 + 1 * j.val = j.val; rw [(idx3_tile t).2.1]; omega

/-- Past the first point, row r of the margin above is row 8·(64·t − 1) + r of the layer's input. -/
theorem blk3_1 (c : Dev nD) (t : Fin cfg3.N) (ht : t.val ≠ 0) (r : Fin 8) (j : Fin 1024) :
    (iblk3 V c 1 t : Vec Ideal S8x1024 .f32) (ix2 r j)
      = (V c main_v32 : S8192x1024.Idx → EReal) (ix2 (⟨8 * (64 * t.val - 1) + r.val, by have := lt16_3 t; omega⟩ : Fin 8192) j) := by
  unfold iblk3
  rw [View.read_apply]
  show V c main_v32 (((cfg3.win 1).blk t).view.emb (ix2 r j)) = V c main_v32 _
  refine congrArg (V c main_v32) ?_
  funext a; apply Fin.ext
  match a with
  | ⟨0, _⟩ => show win3_1.index t (0 : Fin 2) * 8 + 1 * r.val = 8 * (64 * t.val - 1) + r.val; rw [(idx3_1 t).1, if_neg ht]; omega
  | ⟨1, _⟩ => show win3_1.index t (1 : Fin 2) * 1024 + 1 * j.val = j.val; rw [(idx3_1 t).2]; omega

/-- Before the last point, row r of the margin below is row 8·(64·(t + 1)) + r of the layer's input. -/
theorem blk3_2 (c : Dev nD) (t : Fin cfg3.N) (ht : t.val ≠ 15) (r : Fin 8) (j : Fin 1024) :
    (iblk3 V c 2 t : Vec Ideal S8x1024 .f32) (ix2 r j)
      = (V c main_v32 : S8192x1024.Idx → EReal) (ix2 (⟨8 * (64 * (t.val + 1)) + r.val, by have := lt16_3 t; omega⟩ : Fin 8192) j) := by
  unfold iblk3
  rw [View.read_apply]
  show V c main_v32 (((cfg3.win 2).blk t).view.emb (ix2 r j)) = V c main_v32 _
  refine congrArg (V c main_v32) ?_
  funext a; apply Fin.ext
  match a with
  | ⟨0, _⟩ => show win3_2.index t (0 : Fin 2) * 8 + 1 * r.val = 8 * (64 * (t.val + 1)) + r.val; rw [(idx3_2 t).1, if_neg ht]; omega
  | ⟨1, _⟩ => show win3_2.index t (1 : Fin 2) * 1024 + 1 * j.val = j.val; rw [(idx3_2 t).2]; omega

/-- Window 3's block at any point is the whole array. -/
theorem blk3_3 (c : Dev nD) (t : Fin cfg3.N) :
    (iblk3 V c 3 t : Vec Ideal S1024x1024 .bf16) = (V c main_v36 : S1024x1024.Idx → EReal) := by
  funext y
  unfold iblk3
  rw [View.read_apply]
  show V c main_v36 (((cfg3.win 3).blk t).view.emb y) = V c main_v36 y
  refine congrArg (V c main_v36) ?_
  funext a; apply Fin.ext
  match a with
  | ⟨0, _⟩ => show win3_3.index t (0 : Fin 2) * 1024 + 1 * (y 0).val = (y 0).val; rw [(idx3_3 t).1]; omega
  | ⟨1, _⟩ => show win3_3.index t (1 : Fin 2) * 1024 + 1 * (y 1).val = (y 1).val; rw [(idx3_3 t).2]; omega

/-- Window 4's block at any point is the whole array. -/
theorem blk3_4 (c : Dev nD) (t : Fin cfg3.N) :
    (iblk3 V c 4 t : Vec Ideal S1024x1024 .bf16) = (V c main_v37 : S1024x1024.Idx → EReal) := by
  funext y
  unfold iblk3
  rw [View.read_apply]
  show V c main_v37 (((cfg3.win 4).blk t).view.emb y) = V c main_v37 y
  refine congrArg (V c main_v37) ?_
  funext a; apply Fin.ext
  match a with
  | ⟨0, _⟩ => show win3_4.index t (0 : Fin 2) * 1024 + 1 * (y 0).val = (y 0).val; rw [(idx3_4 t).1]; omega
  | ⟨1, _⟩ => show win3_4.index t (1 : Fin 2) * 1024 + 1 * (y 1).val = (y 1).val; rw [(idx3_4 t).2]; omega

/-- Window 5's block at any point is the whole array. -/
theorem blk3_5 (c : Dev nD) (t : Fin cfg3.N) :
    (iblk3 V c 5 t : Vec Ideal S1024x1024 .bf16) = (V c main_v38 : S1024x1024.Idx → EReal) := by
  funext y
  unfold iblk3
  rw [View.read_apply]
  show V c main_v38 (((cfg3.win 5).blk t).view.emb y) = V c main_v38 y
  refine congrArg (V c main_v38) ?_
  funext a; apply Fin.ext
  match a with
  | ⟨0, _⟩ => show win3_5.index t (0 : Fin 2) * 1024 + 1 * (y 0).val = (y 0).val; rw [(idx3_5 t).1]; omega
  | ⟨1, _⟩ => show win3_5.index t (1 : Fin 2) * 1024 + 1 * (y 1).val = (y 1).val; rw [(idx3_5 t).2]; omega

/-- Window 6's block at any point is the whole array. -/
theorem blk3_6 (c : Dev nD) (t : Fin cfg3.N) :
    (iblk3 V c 6 t : Vec Ideal S1x1024 .f32) = (V c main_v41 : S1x1024.Idx → EReal) := by
  funext y
  unfold iblk3
  rw [View.read_apply]
  show V c main_v41 (((cfg3.win 6).blk t).view.emb y) = V c main_v41 y
  refine congrArg (V c main_v41) ?_
  funext a; apply Fin.ext
  match a with
  | ⟨0, _⟩ => show win3_6.index t (0 : Fin 2) * 1 + 1 * (y 0).val = (y 0).val; rw [(idx3_6 t).1]; omega
  | ⟨1, _⟩ => show win3_6.index t (1 : Fin 2) * 1024 + 1 * (y 1).val = (y 1).val; rw [(idx3_6 t).2]; omega

/-- Window 7's block at any point is the whole array. -/
theorem blk3_7 (c : Dev nD) (t : Fin cfg3.N) :
    (iblk3 V c 7 t : Vec Ideal S1x1024 .f32) = (V c main_v42 : S1x1024.Idx → EReal) := by
  funext y
  unfold iblk3
  rw [View.read_apply]
  show V c main_v42 (((cfg3.win 7).blk t).view.emb y) = V c main_v42 y
  refine congrArg (V c main_v42) ?_
  funext a; apply Fin.ext
  match a with
  | ⟨0, _⟩ => show win3_7.index t (0 : Fin 2) * 1 + 1 * (y 0).val = (y 0).val; rw [(idx3_7 t).1]; omega
  | ⟨1, _⟩ => show win3_7.index t (1 : Fin 2) * 1024 + 1 * (y 1).val = (y 1).val; rw [(idx3_7 t).2]; omega

/-! ## What each point writes back, and the array after the run -/

/-- What point t writes back is tile t of the layer of the arrays the region finds. -/
theorem flushed3_eq (c : Dev nD) (t : Fin cfg3.N) :
    (dat3 (F := Ideal) V c).flushed 8 t
      = ((cfg3.win 8).blk t).view.read (Elt Ideal) (Cert.Dilated.layerB 1 (V c main_v32) (V c main_v36) (V c main_v37) (V c main_v38) (V c main_v41) (V c main_v42)) := by
  show (cfg3.win 8).cut (cfg3.grid.coords t) ((dat3 V c).after 8 t) = _
  rw [after3_8]
  funext y
  obtain ⟨p, q, rfl⟩ : ∃ (p : Fin 512) (q : Fin 1024), y = ix2 p q := ⟨y 0, y 1, eq_ix2 y⟩
  rw [View.read_apply]
  show out3 V c t (ix2 p q) = (Cert.Dilated.layerB 1 (V c main_v32) (V c main_v36) (V c main_v37) (V c main_v38) (V c main_v41) (V c main_v42)) (((cfg3.win 8).blk t).view.emb (ix2 p q))
  have he : ((cfg3.win 8).blk t).view.emb (ix2 p q)
      = (ix2 (⟨512 * t.val + p.val, by have := lt16_3 t; omega⟩ : Fin 8192) q : S8192x1024.Idx) := by
    funext a; apply Fin.ext
    match a with
    | ⟨0, _⟩ => show win3_8.index t (0 : Fin 2) * 512 + 1 * p.val = 512 * t.val + p.val; rw [(idx3_tile t).2.2.1]; omega
    | ⟨1, _⟩ => show win3_8.index t (1 : Fin 2) * 1024 + 1 * q.val = q.val; rw [(idx3_tile t).2.2.2.1]; omega
  rw [he, Cert.Dilated.layerB_apply]
  unfold out3
  refine (outG3_apply c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (iblk3 V c 0 t) (iblk3 V c 1 t) (iblk3 V c 2 t) (iblk3 V c 3 t) (iblk3 V c 4 t) (iblk3 V c 5 t) (iblk3 V c 6 t) (iblk3 V c 7 t) p q).trans ?_
  exact Cert.Dilated.Tile.layerBAt_tile_dil 1 (by omega) (by omega) (V c main_v32) (V c main_v36) (V c main_v37) (V c main_v38) (V c main_v41) (V c main_v42)
    ⟨t.val, lt16_3 t⟩ ((grid3.coords t) 0).val (idx3_tile t).2.2.2.2
    (iblk3 V c 0 t) (iblk3 V c 1 t) (iblk3 V c 2 t) (iblk3 V c 3 t) (iblk3 V c 4 t) (iblk3 V c 5 t) (iblk3 V c 6 t) (iblk3 V c 7 t)
    (blk3_3 V c t) (blk3_4 V c t) (blk3_5 V c t) (blk3_6 V c t) (blk3_7 V c t)
    (blk3_0 V c t) (blk3_1 V c t) (blk3_2 V c t) p q

/-- An index of the output array is in point t's block iff each coordinate is in the block's range on its axis. -/
theorem mem_blk3_8 (t : Fin cfg3.N) (i : S8192x1024.Idx) :
    i ∈ ((cfg3.win 8).blk t).view.set ↔ ∀ a : Fin 2, win3_8.index t a * S512x1024.size a ≤ (i a).val
      ∧ (i a).val < win3_8.index t a * S512x1024.size a + S512x1024.size a := by
  show i ∈ ((View.whole main_v43).slice (win3_8.rect t)).set ↔ _
  rw [View.set_slice_whole, Rect.mem_set_unit]
  exact Iff.rfl

/-- Row r of the output array is written back by point r / 512. -/
theorem cover3_8 (i : S8192x1024.Idx) :
    ∃ t : Fin cfg3.N, (cfg3.win 8).flush t = true ∧ i ∈ ((cfg3.win 8).blk t).view.set := by
  have hi0 : (i 0).val < 8192 := (i 0).isLt
  have hi1 : (i 1).val < 1024 := (i 1).isLt
  obtain ⟨t, ht⟩ : ∃ t : Fin cfg3.N, t.val = (i 0).val / 512 :=
    ⟨⟨(i 0).val / 512, by rw [show cfg3.N = 16 from N_3]; omega⟩, rfl⟩
  refine ⟨t, flush3_8 t, ?_⟩
  rw [mem_blk3_8]
  intro a
  match a with
  | ⟨0, _⟩ =>
    show win3_8.index t (0 : Fin 2) * 512 ≤ (i 0).val ∧ (i 0).val < win3_8.index t (0 : Fin 2) * 512 + 512
    rw [(idx3_tile t).2.2.1, ht]; omega
  | ⟨1, _⟩ =>
    show win3_8.index t (1 : Fin 2) * 1024 ≤ (i 1).val ∧ (i 1).val < win3_8.index t (1 : Fin 2) * 1024 + 1024
    rw [(idx3_tile t).2.2.2.1]; omega

/-- The output array after the run is the layer of the arrays the region finds. -/
theorem res3_eq (c : Dev nD) :
    (dat3 (F := Ideal) V c).arrAt 8 cfg3.N = (Cert.Dilated.layerB 1 (V c main_v32) (V c main_v36) (V c main_v37) (V c main_v38) (V c main_v41) (V c main_v42)) :=
  (dat3 (F := Ideal) V c).arrAt_eq_of_cover 8 (Cert.Dilated.layerB 1 (V c main_v32) (V c main_v36) (V c main_v37) (V c main_v38) (V c main_v41) (V c main_v42))
    (fun t _ => flushed3_eq V c t) (fun i => cover3_8 i)

end Region3

end Cert.KernelIdeal.Hand

end
-- ==== Proof.KI.ValueD.lean ====
/-
  Region 3 leaves layer 3 of what region 2 left.
-/
import proofs.«137995_j86517821215731_2_alg».proof.Proof.KI.ValueC
import proofs.«137995_j86517821215731_2_alg».proof.Proof.KI.Tile3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Dilated Idealize.ShloMosaic.ValueIdx

variable (m : (ℓ : Loc nD τ sig) → Buf (Elt Ideal) ℓ)

/-- Region 3: the layer of what region 2 left. -/
theorem res3_val (c : Dev nD) : (res3 m c : SX.Idx → EReal) = lay3 m c := by
  unfold res3 lay3
  rw [res3_eq (Vt7 m) c]
  have hin : (Vt7 m c main_v32 : SX.Idx → EReal) = lay2 m c :=
    ((StableHlo.after_of_writes_sub hostOps3 _ hostOps3_writes (by decide : main_v32 ∉ hostOps3_W)).trans (W6_out m c)).trans (res2_val m c)
  refine (congrArg (fun X => layerB 1 X (Vt7 m c main_v36) (Vt7 m c main_v37) (Vt7 m c main_v38) (Vt7 m c main_v41) (Vt7 m c main_v42)) hin).trans ?_
  exact layerB_eq_layer 1 3 _ _ _ _ _ _ _ _ _
    (fun j k => (host3_w0 (W6 m c) j k).trans (congrFun (W6_main_arg1 m c) _))
    (fun j k => (host3_w1 (W6 m c) j k).trans (congrFun (W6_main_arg1 m c) _))
    (fun j k => (host3_w2 (W6 m c) j k).trans (congrFun (W6_main_arg1 m c) _))
    (fun k => (host3_b (W6 m c) k).trans (congrFun (W6_main_arg2 m c) _))
    (fun j => (host3_oob (W6 m c) j).trans (congrFun (W6_main_arg3 m c) _))

end Cert.KernelIdeal.Hand

end
-- ==== Proof.KI.ValueE.lean ====
/-
  The result buffer holds the network: the last region's array under a leading unit axis.

  The last region leaves the fourth layer of what the third left, and so on down to the first layer of the argument:
  the four layers nested, which is the specification's stack. The one host operation after the regions lays that
  array out under a leading unit axis, entry (0, r, k) of the result being entry (r, k) of the array: the network.
-/
import proofs.«137995_j86517821215731_2_alg».proof.Proof.KI.ValueD

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Dilated Idealize.ShloMosaic.ValueIdx

variable (m : (ℓ : Loc nD τ sig) → Buf (Elt Ideal) ℓ)

/-! ## The result buffer holds the network -/

/-- The four layers in turn are the specification's stack. -/
theorem lay3_eq_stack (c : Dev nD) : lay3 m c = stack (Xa m c) (Wa m c) (Ba m c) (Oa m c) := by
  unfold lay3 lay2 lay1 lay0 stack
  rfl

/-- The host operation after the regions, from any contents: the last region's array under a leading unit axis. -/
theorem hostOps4_out (W : Valuation τ sig (Elt Ideal)) :
    StableHlo.after (hostOps4 (F := Ideal)) W (Proc.devRef .tc main_v44)
      = broadcastInDim S1x8192x1024 ![1, 2] bcast_S8192x1024_S1x8192x1024_1_2 (W (Proc.devRef .tc main_v43)) := by
  simp only [StableHlo.after_cons, StableHlo.after_nil]
  rw [StableHlo.unary_result]

/-- An array under a leading unit axis, at (0, r, k): the array at (r, k). -/
theorem unitAxis_apply (Y : SX.Idx → EReal) (i : SR.Idx) :
    broadcastInDim S1x8192x1024 ![1, 2] bcast_S8192x1024_S1x8192x1024_1_2 Y i = Y (ix2 (i 1) (i 2)) :=
  broadcastInDim_apply ![1, 2] bcast_S8192x1024_S1x8192x1024_1_2 Y i (ix2 (i 1) (i 2)) (fun a => match a with
    | ⟨0, _⟩ => by show (i 1).val = if (8192 : ℕ) = 1 then 0 else (i 1).val; rw [if_neg (by decide)]
    | ⟨1, _⟩ => by show (i 2).val = if (1024 : ℕ) = 1 then 0 else (i 2).val; rw [if_neg (by decide)])

theorem W9_result (c : Dev nD) : (W9 m c (Proc.devRef .tc main_v44) : SR.Idx → EReal) = net (Xa m c) (Wa m c) (Ba m c) (Oa m c) := by
  have h43 : (W8 m c (Proc.devRef .tc main_v43) : SX.Idx → EReal) = stack (Xa m c) (Wa m c) (Ba m c) (Oa m c) :=
    ((W8_out m c).trans (res3_val m c)).trans (lay3_eq_stack m c)
  show StableHlo.after (hostOps4 (F := Ideal)) (W8 m c) (Proc.devRef .tc main_v44) = _
  generalize W8 m c = W at h43 ⊢
  rw [hostOps4_out W, h43]
  funext i
  rw [unitAxis_apply]
  rfl

end Cert.KernelIdeal.Hand

end
-- ==== Proof.LibGatherRows.lean ====
/-
  `stablehlo.gather` of whole rows of a matrix, read at an index.

  What `x[idx]` of a table `x : [N, C]` at an integer vector `idx : [E]` lowers to, the vector carried as an
  `[E, 1]` array of start indices: offset axes `[1]`, collapsed axes `[0]`, start index map `[0]`, the index vector on
  axis 1, slice sizes `[1, C]`. Result element `(e, k)` is the table's element `(r, k)`, the row `r` being the start
  word `idx[e, 0]` read as a signed integer and clamped into `[0, N - 1]`: a negative word reads row 0, a word past
  the table its last row.
-/
import Idealize.ShloMosaic.Lib.ValueIdx

noncomputable section

namespace Idealize.ShloMosaic.ValueIdx

open Idealize.ShloMosaic

section Rows
variable {α : Type}

/-- Those dimension numbers for a table `[N, C]`, start indices `[E, 1]` and a result `[E, C]`; their conditions are
    decided on a program's literal shapes. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start word names in a table of `N` rows: the word read signed, clamped into `[0, N - 1]`. -/
def clampRow (N : Nat) {w : Nat} (v : BitVec w) : Nat := min v.toInt.toNat (N - 1)

theorem clampRow_lt {N : Nat} (hN : 0 < N) {w : Nat} (v : BitVec w) : clampRow N v < N := by
  unfold clampRow; omega

/-- THE GATHER READ AT `(e, k)`: the table at row `clampRow N idx[e, 0]`, column `k`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsDims N C E wf) x idx (ix2 e k)
      = x (ix2 ⟨clampRow N (idx (ix2 e (0 : Fin 1))), clampRow_lt hN _⟩ k) := by
  unfold Host.gather
  congr 1
  funext a
  refine Fin.ext ?_
  match a with
  | ⟨0, _⟩ =>
    show (rowsDims N C E wf).start (ix2 e k) idx 0 + (rowsDims N C E wf).batchCoord (ix2 e k) 0
      + (rowsDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e k) ⟨List.idxOf (0 : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N C E wf).start (ix2 e k) idx 1 + (rowsDims N C E wf).batchCoord (ix2 e k) 1
      + (rowsDims N C E wf).offCoord (ix2 e k) 1 = k.val
    rw [GatherDims.batchCoord_eq_zero _ _ _ List.not_mem_nil]
    unfold GatherDims.start
    rw [dif_neg (show ¬ (1 : Fin 2) ∈ (rowsDims N C E wf).startIndexMap from
      fun h => absurd (congrArg Fin.val (List.mem_singleton.mp h)) Nat.one_ne_zero)]
    simp only [Nat.add_zero, Nat.zero_add]
    unfold GatherDims.offCoord
    rw [dif_pos (show (1 : Fin 2) ∈ (rowsDims N C E wf).sKept from (GatherDims.mem_sKept _ _).mpr
      ⟨fun h => absurd (congrArg Fin.val (List.mem_singleton.mp h)) Nat.one_ne_zero, List.not_mem_nil⟩)]
    rfl

end Rows

end Idealize.ShloMosaic.ValueIdx

end
-- ==== Proof.LibSplitSum.lean ====
/-
  A sum over consecutive indices splits into consecutive stretches.

  The reference contracts the concatenation of three (or two) pieces against the whole first weight (or the whole
  update weight); the kernel contracts each piece against its own block of the weight and adds. The two agree because
  a sum over `Fin 288` is the sum over its first 128 indices plus the sum over the next 128 plus the sum over the
  last 32, and a sum over `Fin 256` the sum over its two halves — in any additive commutative monoid, the extended
  reals included: only the order and grouping of the terms change.
-/
import Mathlib.Algebra.BigOperators.Fin

namespace Cert.Split

/-- `Fin (a + b)` summed as its first `a` indices and its last `b`. -/
theorem sum_two {M : Type*} [AddCommMonoid M] (a b n : ℕ) (h : a + b = n) (f : Fin n → M) :
    ∑ q : Fin n, f q
      = (∑ k : Fin a, f ⟨k.val, by omega⟩) + ∑ k : Fin b, f ⟨a + k.val, by omega⟩ := by
  subst h
  rw [Fin.sum_univ_add]
  rfl

/-- `Fin (a + b + c)` summed as three consecutive stretches, the third starting at `ab = a + b`. -/
theorem sum_three {M : Type*} [AddCommMonoid M] (a b c ab n : ℕ) (hab : a + b = ab) (h : ab + c = n) (f : Fin n → M) :
    ∑ q : Fin n, f q
      = ((∑ k : Fin a, f ⟨k.val, by omega⟩) + ∑ k : Fin b, f ⟨a + k.val, by omega⟩)
        + ∑ k : Fin c, f ⟨ab + k.val, by omega⟩ := by
  subst hab
  rw [sum_two (a + b) c n h f, sum_two a b (a + b) rfl fun q => f ⟨q.val, by omega⟩]

end Cert.Split
-- ==== Proof.RefLayer.lean ====
/-
  One layer of the reference, as a function of its ingredients, read entry by entry.

  The reference builds a layer from: a column of start words and a column of conditions for each of the two shifted
  copies of the matrix (rows gathered at the start words, the out-of-bounds row wherever the condition fails), the three
  matrices joined side by side into 8192 rows of 3072 entries, one product of that against the layer's 3072 × 1024
  weight, the bias row added to every row, the maximum with zero, and the half-and-half mix with the layer's input.
  Entry (r, k) of the product is a sum over 3072 indices; split into its three stretches of 1024 it is the sum of the
  three products of the specification, in the same order, so the layer is the specification's `layer` exactly.
-/
import proofs.«137995_j86517821215731_2_alg».proof.Proof.Gen.ReferenceIdeal
import proofs.«137995_j86517821215731_2_alg».proof.Proof.Spec
import proofs.«137995_j86517821215731_2_alg».proof.Proof.LibGatherRows
import proofs.«137995_j86517821215731_2_alg».proof.Proof.LibSplitSum
import Idealize.ShloMosaic.Lib.Pipeline.Value
import Idealize.ShloMosaic.PureOps.Ideal.Laws

noncomputable section

namespace Cert.Dilated.Ref

open Idealize.ShloMosaic Idealize.ShloMosaic.ValueIdx Cert.ReferenceIdeal Cert.ReferenceIdeal.Gen

/-- A shifted copy of the matrix: the rows gathered at the start column `g` where the condition column `c` holds, the
    out-of-bounds row `O` elsewhere. -/
def shifted (c : IVec S8192x1 1) (g : IVec S8192x1 32) (X : FVec Ideal S8192x1024 .f32) (O : FVec Ideal S1024 .f32) :
    FVec Ideal S8192x1024 .f32 :=
  select (broadcastInDim S8192x1024 ![0, 1] bcast_S8192x1_S8192x1024_0_1 c)
    (Host.gather gather_S8192x1024_S8192x1_S8192x1024_1_0_n_n_0_1_11024 X g)
    (broadcastInDim S8192x1024 ![1] bcast_S1024_S8192x1024_1 O)

/-- The matrix and its two shifted copies side by side. -/
def joined (cL cR : IVec S8192x1 1) (gL gR : IVec S8192x1 32) (X : FVec Ideal S8192x1024 .f32) (O : FVec Ideal S1024 .f32) :
    FVec Ideal S8192x3072 .f32 :=
  concatenate S8192x3072 1 [⟨S8192x1024, X⟩, ⟨S8192x1024, shifted cL gL X O⟩, ⟨S8192x1024, shifted cR gR X O⟩]
    concatenates_S8192x1024_S8192x1024_S8192x1024_S8192x3072_d1

/-- One layer of the reference from its ingredients: the condition and start columns of the two shifts, the layer's
    weight matrix `Wl` and bias row `Bl`, the input `X` and the out-of-bounds row `O`. -/
def layerOps (cL cR : IVec S8192x1 1) (gL gR : IVec S8192x1 32) (Wl : FVec Ideal S3072x1024 .f32) (Bl : FVec Ideal S1024 .f32)
    (X : FVec Ideal S8192x1024 .f32) (O : FVec Ideal S1024 .f32) : FVec Ideal S8192x1024 .f32 :=
  addf (mulf (broadcastInDim S8192x1024 ![] bcast_S_S8192x1024 (constant (F := Ideal) S_ .f32 0x3F000000#32)) X)
    (mulf (broadcastInDim S8192x1024 ![] bcast_S_S8192x1024 (constant (F := Ideal) S_ .f32 0x3F000000#32))
      (maximumf
        (addf
          (Host.dotGeneral (F := Ideal) dot_S8192x3072_S3072x1024_S8192x1024_1_0_0_1_n_n none (joined cL cR gL gR X O) Wl)
          (broadcastInDim S8192x1024 ![0, 1] bcast_S1x1024_S8192x1024_0_1
            (broadcastInDim S1x1024 ![1] bcast_S1024_S1x1024_1 Bl)))
        (broadcastInDim S8192x1024 ![] bcast_S_S8192x1024 (constant (F := Ideal) S_ .f32 0x00000000#32))))

/-! ## The pieces at an index -/

/-- A float constant broadcast over the matrix is that constant at every entry. -/
theorem splat_apply (w : BitVec 32) (i : S8192x1024.Idx) :
    broadcastInDim S8192x1024 ![] bcast_S_S8192x1024 (constant (F := Ideal) S_ .f32 w) i = Ideal.ofBits .f32 w := rfl

/-- The bias row laid under every row: entry (r, k) is the row's entry k. -/
theorem biasRows_apply (Bl : FVec Ideal S1024 .f32) (r : Fin 8192) (k : Fin 1024) :
    broadcastInDim S8192x1024 ![0, 1] bcast_S1x1024_S8192x1024_0_1
      (broadcastInDim S1x1024 ![1] bcast_S1024_S1x1024_1 Bl) (ix2 r k) = Bl (ix1 k) := by
  rw [broadcastInDim_apply _ bcast_S1x1024_S8192x1024_0_1 _ (ix2 r k) (ix2 (0 : Fin 1) k) (fun a => match a with
    | ⟨0, _⟩ => by show 0 = if (1 : Nat) = 1 then 0 else r.val; rw [if_pos rfl]
    | ⟨1, _⟩ => by show k.val = if (1024 : Nat) = 1 then 0 else k.val; rw [if_neg (by decide)])]
  exact broadcastInDim_apply _ bcast_S1024_S1x1024_1 Bl (ix2 (0 : Fin 1) k) (ix1 k) (fun a => match a with
    | ⟨0, _⟩ => by show k.val = if (1024 : Nat) = 1 then 0 else k.val; rw [if_neg (by decide)])

/-- The gather of this program is a gather of whole rows. -/
theorem gather_eq_rows :
    gather_S8192x1024_S8192x1_S8192x1024_1_0_n_n_0_1_11024
      = rowsDims 8192 1024 8192 gather_S8192x1024_S8192x1_S8192x1024_1_0_n_n_0_1_11024_wf := rfl

/-- A shifted copy at (r, k): where the row's condition bit is set, the matrix at the row its start word clamps to;
    elsewhere the out-of-bounds row. -/
theorem shifted_apply (c : IVec S8192x1 1) (g : IVec S8192x1 32) (X : FVec Ideal S8192x1024 .f32) (O : FVec Ideal S1024 .f32)
    (r : Fin 8192) (k : Fin 1024) :
    shifted c g X O (ix2 r k)
      = if c (ix2 r (0 : Fin 1)) = 1 then
          X (ix2 (⟨clampRow 8192 (g (ix2 r (0 : Fin 1))), clampRow_lt (by decide) _⟩ : Fin 8192) k)
        else O (ix1 k) := by
  have hc : broadcastInDim S8192x1024 ![0, 1] bcast_S8192x1_S8192x1024_0_1 c (ix2 r k) = c (ix2 r (0 : Fin 1)) :=
    broadcastInDim_apply _ bcast_S8192x1_S8192x1024_0_1 c (ix2 r k) (ix2 r (0 : Fin 1)) (fun a => match a with
      | ⟨0, _⟩ => by show r.val = if (8192 : Nat) = 1 then 0 else r.val; rw [if_neg (by decide)]
      | ⟨1, _⟩ => by show 0 = if (1 : Nat) = 1 then 0 else k.val; rw [if_pos rfl])
  have hO : broadcastInDim S8192x1024 ![1] bcast_S1024_S8192x1024_1 O (ix2 r k) = O (ix1 k) :=
    broadcastInDim_apply _ bcast_S1024_S8192x1024_1 O (ix2 r k) (ix1 k) (fun a => match a with
      | ⟨0, _⟩ => by show k.val = if (1024 : Nat) = 1 then 0 else k.val; rw [if_neg (by decide)])
  have hg : Host.gather gather_S8192x1024_S8192x1_S8192x1024_1_0_n_n_0_1_11024 X g (ix2 r k)
      = X (ix2 (⟨clampRow 8192 (g (ix2 r (0 : Fin 1))), clampRow_lt (by decide) _⟩ : Fin 8192) k) := by
    rw [gather_eq_rows]
    exact gather_rows_apply (by decide) gather_S8192x1024_S8192x1_S8192x1024_1_0_n_n_0_1_11024_wf X g r k
  show Scalar.select (broadcastInDim S8192x1024 ![0, 1] bcast_S8192x1_S8192x1024_0_1 c (ix2 r k))
      (Host.gather gather_S8192x1024_S8192x1_S8192x1024_1_0_n_n_0_1_11024 X g (ix2 r k))
      (broadcastInDim S8192x1024 ![1] bcast_S1024_S8192x1024_1 O (ix2 r k)) = _
  rw [hc, hg, hO]
  rfl

/-! ## The joined matrix and the product -/

/-- The joined matrix at (r, q): its three stretches of 1024 columns are the three matrices. -/
theorem joined_apply_0 (cL cR : IVec S8192x1 1) (gL gR : IVec S8192x1 32) (X : FVec Ideal S8192x1024 .f32)
    (O : FVec Ideal S1024 .f32) (r : Fin 8192) (j : Fin 1024) :
    joined cL cR gL gR X O (ix2 r (⟨j.val, by omega⟩ : Fin 3072)) = X (ix2 r j) :=
  concatenate_apply_piece (t := S8192x3072) 1 [⟨S8192x1024, X⟩, ⟨S8192x1024, shifted cL gL X O⟩, ⟨S8192x1024, shifted cR gR X O⟩]
    concatenates_S8192x1024_S8192x1024_S8192x1024_S8192x3072_d1
    (ix2 r (⟨j.val, by omega⟩ : Fin 3072)) 0 (by show (0 : ℕ) < 3; decide) S8192x1024 X rfl rfl 0 rfl (ix2 r j)
    (fun b hb => match b with
      | ⟨0, _⟩ => rfl
      | ⟨1, _⟩ => absurd rfl hb)
    (by show 0 + j.val = j.val; omega)

theorem joined_apply_1 (cL cR : IVec S8192x1 1) (gL gR : IVec S8192x1 32) (X : FVec Ideal S8192x1024 .f32)
    (O : FVec Ideal S1024 .f32) (r : Fin 8192) (j : Fin 1024) :
    joined cL cR gL gR X O (ix2 r (⟨1024 + j.val, by omega⟩ : Fin 3072)) = shifted cL gL X O (ix2 r j) :=
  concatenate_apply_piece (t := S8192x3072) 1 [⟨S8192x1024, X⟩, ⟨S8192x1024, shifted cL gL X O⟩, ⟨S8192x1024, shifted cR gR X O⟩]
    concatenates_S8192x1024_S8192x1024_S8192x1024_S8192x3072_d1
    (ix2 r (⟨1024 + j.val, by omega⟩ : Fin 3072)) 1 (by show (1 : ℕ) < 3; decide) S8192x1024 (shifted cL gL X O) rfl rfl 1024 rfl (ix2 r j)
    (fun b hb => match b with
      | ⟨0, _⟩ => rfl
      | ⟨1, _⟩ => absurd rfl hb)
    rfl

theorem joined_apply_2 (cL cR : IVec S8192x1 1) (gL gR : IVec S8192x1 32) (X : FVec Ideal S8192x1024 .f32)
    (O : FVec Ideal S1024 .f32) (r : Fin 8192) (j : Fin 1024) :
    joined cL cR gL gR X O (ix2 r (⟨2048 + j.val, by omega⟩ : Fin 3072)) = shifted cR gR X O (ix2 r j) :=
  concatenate_apply_piece (t := S8192x3072) 1 [⟨S8192x1024, X⟩, ⟨S8192x1024, shifted cL gL X O⟩, ⟨S8192x1024, shifted cR gR X O⟩]
    concatenates_S8192x1024_S8192x1024_S8192x1024_S8192x3072_d1
    (ix2 r (⟨2048 + j.val, by omega⟩ : Fin 3072)) 2 (by show (2 : ℕ) < 3; decide) S8192x1024 (shifted cR gR X O) rfl rfl 2048 rfl (ix2 r j)
    (fun b hb => match b with
      | ⟨0, _⟩ => rfl
      | ⟨1, _⟩ => absurd rfl hb)
    rfl

/-- The product's operand indices at entry `i` and contraction index `q`, coordinate by coordinate. -/
theorem lhsIdx_0 (i : S8192x1024.Idx) (q : dot_S8192x3072_S3072x1024_S8192x1024_1_0_0_1_n_n.contr.Idx) :
    (dot_S8192x3072_S3072x1024_S8192x1024_1_0_0_1_n_n.lhsIdx i q 0).val = (i 0).val := by
  unfold DotDims.lhsIdx
  rw [dif_neg (show ¬(0 : Fin S8192x3072.rank) ∈ dot_S8192x3072_S3072x1024_S8192x1024_1_0_0_1_n_n.lhsBatch by decide),
    dif_pos (show (0 : Fin S8192x3072.rank) ∈ dot_S8192x3072_S3072x1024_S8192x1024_1_0_0_1_n_n.lhsNonContracting by decide)]
  rfl

theorem lhsIdx_1 (i : S8192x1024.Idx) (q : dot_S8192x3072_S3072x1024_S8192x1024_1_0_0_1_n_n.contr.Idx) :
    (dot_S8192x3072_S3072x1024_S8192x1024_1_0_0_1_n_n.lhsIdx i q 1).val = (q ⟨0, by decide⟩).val :=
  dot_S8192x3072_S3072x1024_S8192x1024_1_0_0_1_n_n.lhsIdx_val_of_single rfl i q

theorem rhsIdx_0 (i : S8192x1024.Idx) (q : dot_S8192x3072_S3072x1024_S8192x1024_1_0_0_1_n_n.contr.Idx) :
    (dot_S8192x3072_S3072x1024_S8192x1024_1_0_0_1_n_n.rhsIdx i q 0).val = (q ⟨0, by decide⟩).val :=
  dot_S8192x3072_S3072x1024_S8192x1024_1_0_0_1_n_n.rhsIdx_val_of_single rfl i q

theorem rhsIdx_1 (i : S8192x1024.Idx) (q : dot_S8192x3072_S3072x1024_S8192x1024_1_0_0_1_n_n.contr.Idx) :
    (dot_S8192x3072_S3072x1024_S8192x1024_1_0_0_1_n_n.rhsIdx i q 1).val = (i 1).val := by
  unfold DotDims.rhsIdx
  rw [dif_neg (show ¬(1 : Fin S3072x1024.rank) ∈ dot_S8192x3072_S3072x1024_S8192x1024_1_0_0_1_n_n.rhsBatch by decide),
    dif_pos (show (1 : Fin S3072x1024.rank) ∈ dot_S8192x3072_S3072x1024_S8192x1024_1_0_0_1_n_n.rhsNonContracting by decide)]
  rfl

/-- The product at (r, k): the sum over the 3072 joined columns of the row's entry times the weight's. -/
theorem product_apply (A : FVec Ideal S8192x3072 .f32) (Wl : FVec Ideal S3072x1024 .f32) (r : Fin 8192) (k : Fin 1024) :
    Host.dotGeneral (F := Ideal) dot_S8192x3072_S3072x1024_S8192x1024_1_0_0_1_n_n none A Wl (ix2 r k)
      = ∑ q : Fin 3072, A (ix2 r q) * Wl (ix2 q k) := by
  simp only [Host.dotGeneral]
  rw [Ideal.dotGeneral_apply,
    ← Equiv.sum_comp (contrEquiv1 dot_S8192x3072_S3072x1024_S8192x1024_1_0_0_1_n_n 3072 rfl rfl).symm]
  refine Finset.sum_congr rfl fun q _ => ?_
  have hq := contrEquiv1_symm_val dot_S8192x3072_S3072x1024_S8192x1024_1_0_0_1_n_n 3072 rfl rfl q
  have el : dot_S8192x3072_S3072x1024_S8192x1024_1_0_0_1_n_n.lhsIdx (ix2 r k)
      ((contrEquiv1 dot_S8192x3072_S3072x1024_S8192x1024_1_0_0_1_n_n 3072 rfl rfl).symm q) = ix2 r q :=
    funext fun a => Fin.ext (by
      match a with
      | ⟨0, _⟩ => exact lhsIdx_0 _ _
      | ⟨1, _⟩ => exact (lhsIdx_1 _ _).trans hq)
  have er : dot_S8192x3072_S3072x1024_S8192x1024_1_0_0_1_n_n.rhsIdx (ix2 r k)
      ((contrEquiv1 dot_S8192x3072_S3072x1024_S8192x1024_1_0_0_1_n_n 3072 rfl rfl).symm q) = ix2 q k :=
    funext fun a => Fin.ext (by
      match a with
      | ⟨0, _⟩ => exact (rhsIdx_0 _ _).trans hq
      | ⟨1, _⟩ => exact rhsIdx_1 _ _)
  rw [el, er]

/-! ## The layer's slices of the weights and biases -/

/-- Layer `l`'s slab of the weights, its unit axis dropped, at (q, k): the weights at (l, q, k). -/
theorem weightSlice_apply (l : Fin 4) (off : Fin 3 → ℕ) (h0 : off 0 = l.val) (h1 : off 1 = 0) (h2 : off 2 = 0)
    (hs : S4x3072x1024.Slices off S1x3072x1024) (W : FVec Ideal S4x3072x1024 .f32) (q : Fin 3072) (k : Fin 1024) :
    shapeCast S3072x1024 (extractStridedSlice S1x3072x1024 off W hs) shapeCasts_S1x3072x1024_S3072x1024 (ix2 q k)
      = W (ix3 l q k) := by
  rw [shapeCast_apply _ shapeCasts_S1x3072x1024_S3072x1024 (ix2 q k) (ix3 (0 : Fin 1) q k)
    (by rewrite [Shape.rowMajor_val_three, Shape.rowMajor_val_two]
        show (0 * 3072 + q.val) * 1024 + k.val = q.val * 1024 + k.val; omega)]
  exact extractStridedSlice_apply off W hs (ix3 (0 : Fin 1) q k) (ix3 l q k) (fun a => match a with
    | ⟨0, _⟩ => by show l.val = off 0 + 0; omega
    | ⟨1, _⟩ => by show q.val = off 1 + q.val; omega
    | ⟨2, _⟩ => by show k.val = off 2 + k.val; omega)

/-- Layer `l`'s row of the biases, its unit axis dropped, at k: the biases at (l, k). -/
theorem biasSlice_apply (l : Fin 4) (off : Fin 2 → ℕ) (h0 : off 0 = l.val) (h1 : off 1 = 0)
    (hs : S4x1024.Slices off S1x1024) (B : FVec Ideal S4x1024 .f32) (k : Fin 1024) :
    shapeCast S1024 (extractStridedSlice S1x1024 off B hs) shapeCasts_S1x1024_S1024 (ix1 k) = B (ix2 l k) := by
  rw [shapeCast_apply _ shapeCasts_S1x1024_S1024 (ix1 k) (ix2 (0 : Fin 1) k)
    (by rewrite [Shape.rowMajor_val_two, Shape.rowMajor_val_one]
        show 0 * 1024 + k.val = k.val; omega)]
  exact extractStridedSlice_apply off B hs (ix2 (0 : Fin 1) k) (ix2 l k) (fun a => match a with
    | ⟨0, _⟩ => by show l.val = off 0 + 0; omega
    | ⟨1, _⟩ => by show k.val = off 1 + k.val; omega)

/-! ## The layer -/

/-- **The reference's layer is the specification's**, given what the ingredients are: the condition columns say whether
    row r − δ, r + δ exists, the start columns clamp to those rows when they exist, and `Wl`, `Bl` are the layer's
    slices of the weights and biases. Only the order and grouping of the sum over the joined columns changes. -/
theorem layerOps_eq (δ : ℕ) (l : Fin 4) (cL cR : IVec S8192x1 1) (gL gR : IVec S8192x1 32)
    (Wl : FVec Ideal S3072x1024 .f32) (Bl : FVec Ideal S1024 .f32)
    (X : SX.Idx → EReal) (W : SW.Idx → EReal) (B : SB.Idx → EReal) (O : SO.Idx → EReal)
    (hcL : ∀ r : Fin 8192, cL (ix2 r (0 : Fin 1)) = if δ ≤ r.val then 1#1 else 0#1)
    (hgL : ∀ r : Fin 8192, δ ≤ r.val → clampRow 8192 (gL (ix2 r (0 : Fin 1))) = r.val - δ)
    (hcR : ∀ r : Fin 8192, cR (ix2 r (0 : Fin 1)) = if r.val + δ < 8192 then 1#1 else 0#1)
    (hgR : ∀ r : Fin 8192, r.val + δ < 8192 → clampRow 8192 (gR (ix2 r (0 : Fin 1))) = r.val + δ)
    (hW : ∀ (q : Fin 3072) (k : Fin 1024), Wl (ix2 q k) = W (ix3 l q k))
    (hB : ∀ k : Fin 1024, Bl (ix1 k) = B (ix2 l k)) :
    layerOps cL cR gL gR Wl Bl X O = layer δ l X W B O := by
  funext i
  obtain ⟨r, k, rfl⟩ : ∃ (r : Fin 8192) (k : Fin 1024), i = ix2 r k := ⟨i 0, i 1, eq_ix2 i⟩
  rw [layer_apply]
  have hL : ∀ j : Fin 1024, shifted cL gL X O (ix2 r j) = shiftL δ X O r j := fun j => by
    rw [shifted_apply, hcL r]
    unfold shiftL
    by_cases h : δ ≤ r.val
    · rw [if_pos h, if_pos (show (1#1 : BitVec 1) = 1 from rfl), dif_pos h]
      exact congrArg X (congrArg (fun a : Fin 8192 => ix2 a j) (Fin.ext (hgL r h)))
    · rw [if_neg h, if_neg (show ¬ (0#1 : BitVec 1) = 1 by decide), dif_neg h]
  have hR : ∀ j : Fin 1024, shifted cR gR X O (ix2 r j) = shiftR δ X O r j := fun j => by
    rw [shifted_apply, hcR r]
    unfold shiftR
    by_cases h : r.val + δ < 8192
    · rw [if_pos h, if_pos (show (1#1 : BitVec 1) = 1 from rfl), dif_pos h]
      exact congrArg X (congrArg (fun a : Fin 8192 => ix2 a j) (Fin.ext (hgR r h)))
    · rw [if_neg h, if_neg (show ¬ (0#1 : BitVec 1) = 1 by decide), dif_neg h]
  have hsum : ∑ q : Fin 3072, joined cL cR gL gR X O (ix2 r q) * Wl (ix2 q k)
      = ((∑ j : Fin 1024, X (ix2 r j) * W (ix3 l (⟨j.val, by omega⟩ : Fin 3072) k))
          + ∑ j : Fin 1024, shiftL δ X O r j * W (ix3 l (⟨1024 + j.val, by omega⟩ : Fin 3072) k))
          + ∑ j : Fin 1024, shiftR δ X O r j * W (ix3 l (⟨2048 + j.val, by omega⟩ : Fin 3072) k) := by
    rw [Cert.Split.sum_three 1024 1024 1024 2048 3072 rfl rfl]
    refine congrArg₂ (· + ·) (congrArg₂ (· + ·) ?_ ?_) ?_
    · exact Finset.sum_congr rfl fun j _ => by rw [joined_apply_0, hW]
    · exact Finset.sum_congr rfl fun j _ => by rw [joined_apply_1, hL, hW]
    · exact Finset.sum_congr rfl fun j _ => by rw [joined_apply_2, hR, hW]
  have e : layerOps cL cR gL gR Wl Bl X O (ix2 r k)
      = half * X (ix2 r k) + half * max
          (Host.dotGeneral (F := Ideal) dot_S8192x3072_S3072x1024_S8192x1024_1_0_0_1_n_n none (joined cL cR gL gR X O) Wl (ix2 r k)
            + broadcastInDim S8192x1024 ![0, 1] bcast_S1x1024_S8192x1024_0_1
                (broadcastInDim S1x1024 ![1] bcast_S1024_S1x1024_1 Bl) (ix2 r k)) zero := rfl
  rw [e, product_apply, biasRows_apply, hB k, hsum]
  rfl

end Cert.Dilated.Ref

end
-- ==== Proof.RefCols.lean ====
/-
  The integer columns of a layer.

  For a dilation δ the reference computes, for every row r, the words r − δ and r + δ (32-bit, from a row counter),
  a condition bit for each (r − δ ≥ 0; r + δ < 8192, compared as signed integers), and a start word for each: the word
  clipped into [0, 8191] as a signed integer, then raised by 8192 if it were negative — which after the clipping it never is.
  Rows are below 8192 and δ is small, so nothing wraps: the words are the integers r − δ and r + δ. Hence the left bit
  says δ ≤ r, the right bit says r + δ < 8192, and the start words, clamped into the table's rows, are r − δ (cut off at
  0) and r + δ (cut off at 8191).
-/
import proofs.«137995_j86517821215731_2_alg».proof.Proof.Gen.ReferenceIdeal
import proofs.«137995_j86517821215731_2_alg».proof.Proof.LibGatherRows
import Idealize.ShloMosaic.Lib.Pipeline.Value

noncomputable section

namespace Cert.Dilated.Ref

open Idealize.ShloMosaic Idealize.ShloMosaic.ValueIdx Cert.ReferenceIdeal Cert.ReferenceIdeal.Gen

/-! ## Words -/

/-- The difference of two small numbers as 32-bit words is their difference as integers. -/
theorem toInt_sub_small (r δ : ℕ) (hr : r < 8192) (hδ : δ ≤ 8192) :
    (BitVec.ofNat 32 r - BitVec.ofNat 32 δ).toInt = (r : Int) - δ := by
  rw [BitVec.toInt_sub, BitVec.toInt_ofNat', BitVec.toInt_ofNat']
  simp only [Int.bmod_def]
  omega

/-- The sum of two small numbers as 32-bit words is their sum as integers. -/
theorem toInt_add_small (r δ : ℕ) (hr : r < 8192) (hδ : δ ≤ 8192) :
    (BitVec.ofNat 32 r + BitVec.ofNat 32 δ).toInt = (r : Int) + δ := by
  rw [BitVec.toInt_add, BitVec.toInt_ofNat', BitVec.toInt_ofNat']
  simp only [Int.bmod_def]
  omega

/-- A word clipped into `[0, 8191]` as a signed integer, then raised by 8192 if negative (it never is). -/
def wrapClip (x : BitVec 32) : BitVec 32 :=
  Scalar.select (IntOp.cmpi .slt (IntOp.minsi 8191#32 (IntOp.maxsi 0#32 x)) 0#32)
    (IntOp.addi (IntOp.minsi 8191#32 (IntOp.maxsi 0#32 x)) 8192#32) (IntOp.minsi 8191#32 (IntOp.maxsi 0#32 x))

/-- The row such a word names in a table of 8192 rows: the word's signed value cut off at 0 and at 8191. -/
theorem clampRow_wrapClip (x : BitVec 32) : clampRow 8192 (wrapClip x) = min x.toInt.toNat 8191 := by
  have h0 : (0#32 : BitVec 32).toInt = 0 := by decide
  have h1 : (8191#32 : BitVec 32).toInt = 8191 := by decide
  unfold clampRow wrapClip IntOp.minsi IntOp.maxsi IntOp.cmpi IntOp.addi Scalar.select
  simp only [BitVec.slt_eq_decide, h0, h1]
  by_cases hx : x.toInt < 0
  · simp [hx, h0, h1] <;> omega
  · by_cases hy : (8191 : Int) < x.toInt
    · simp [hx, hy, h0, h1] <;> omega
    · simp [hx, hy, h0, h1] <;> omega

/-! ## The columns, as the reference computes them -/

/-- Row counter minus the dilation word. -/
def rowMinus (d : BitVec 32) : IVec S8192 32 :=
  subi (iotaInDim S8192 32 0) (broadcastInDim S8192 ![] bcast_S_S8192 (constantI S_ 32 d))

/-- Row counter plus the dilation word. -/
def rowPlus (d : BitVec 32) : IVec S8192 32 :=
  addi (iotaInDim S8192 32 0) (broadcastInDim S8192 ![] bcast_S_S8192 (constantI S_ 32 d))

/-- A vector of words clipped into `[0, 8191]`. -/
def clipped (t : IVec S8192 32) : IVec S8192 32 :=
  minsi (broadcastInDim S8192 ![] bcast_S_S8192 (id (constantI S_ 32 8191#32)))
    (maxsi (broadcastInDim S8192 ![] bcast_S_S8192 (id (constantI S_ 32 0#32))) t)

/-- The column of start words made from a vector of words. -/
def startCol (t : IVec S8192 32) : IVec S8192x1 32 :=
  broadcastInDim S8192x1 ![0] bcast_S8192_S8192x1_0
    (select (cmpi .slt (clipped t) (broadcastInDim S8192 ![] bcast_S_S8192 (constantI S_ 32 0#32)))
      (addi (clipped t) (broadcastInDim S8192 ![] bcast_S_S8192 (constantI S_ 32 8192#32))) (clipped t))

/-- The column of bits "row − δ is not negative". -/
def condL (d : BitVec 32) : IVec S8192x1 1 :=
  broadcastInDim S8192x1 ![0] bcast_S8192_S8192x1_0
    (cmpi .sge (rowMinus d) (broadcastInDim S8192 ![] bcast_S_S8192 (constantI S_ 32 0#32)))

/-- The column of bits "row + δ is below 8192". -/
def condR (d : BitVec 32) : IVec S8192x1 1 :=
  broadcastInDim S8192x1 ![0] bcast_S8192_S8192x1_0
    (cmpi .slt (rowPlus d) (broadcastInDim S8192 ![] bcast_S_S8192 (constantI S_ 32 8192#32)))

/-! ## The columns at a row -/

/-- A vector laid out as a column: entry (r, 0) is the vector's entry r. -/
theorem col_apply {w : ℕ} (y : IVec S8192 w) (r : Fin 8192) :
    broadcastInDim S8192x1 ![0] bcast_S8192_S8192x1_0 y (ix2 r (0 : Fin 1)) = y (ix1 r) :=
  broadcastInDim_apply _ bcast_S8192_S8192x1_0 y (ix2 r (0 : Fin 1)) (ix1 r) (fun a => match a with
    | ⟨0, _⟩ => by show r.val = if (8192 : Nat) = 1 then 0 else r.val; rw [if_neg (by decide)])

theorem startCol_apply (t : IVec S8192 32) (r : Fin 8192) :
    startCol t (ix2 r (0 : Fin 1)) = wrapClip (t (ix1 r)) := by
  unfold startCol
  rw [col_apply]
  rfl

/-- The left condition bit at row r: set exactly when δ ≤ r. -/
theorem condL_apply (δ : ℕ) (hδ : δ ≤ 8192) (r : Fin 8192) :
    condL (BitVec.ofNat 32 δ) (ix2 r (0 : Fin 1)) = if δ ≤ r.val then 1#1 else 0#1 := by
  have h0 : (0#32 : BitVec 32).toInt = 0 := by decide
  unfold condL
  rw [col_apply]
  show BitVec.ofBool ((0#32 : BitVec 32).sle (BitVec.ofNat 32 r.val - BitVec.ofNat 32 δ)) = _
  rw [BitVec.sle_eq_decide, h0, toInt_sub_small r.val δ r.isLt hδ]
  by_cases h : δ ≤ r.val
  · rw [if_pos h, decide_eq_true (by omega)]; rfl
  · rw [if_neg h, decide_eq_false (by omega)]; rfl

/-- The right condition bit at row r: set exactly when r + δ < 8192. -/
theorem condR_apply (δ : ℕ) (hδ : δ ≤ 8192) (r : Fin 8192) :
    condR (BitVec.ofNat 32 δ) (ix2 r (0 : Fin 1)) = if r.val + δ < 8192 then 1#1 else 0#1 := by
  have h0 : (8192#32 : BitVec 32).toInt = 8192 := by decide
  unfold condR
  rw [col_apply]
  show BitVec.ofBool ((BitVec.ofNat 32 r.val + BitVec.ofNat 32 δ).slt (8192#32 : BitVec 32)) = _
  rw [BitVec.slt_eq_decide, h0, toInt_add_small r.val δ r.isLt hδ]
  by_cases h : r.val + δ < 8192
  · rw [if_pos h, decide_eq_true (by omega)]; rfl
  · rw [if_neg h, decide_eq_false (by omega)]; rfl

/-- The left start word at row r clamps to row r − δ (row 0 when there is no such row). -/
theorem startL_apply (δ : ℕ) (hδ : δ ≤ 8192) (r : Fin 8192) :
    clampRow 8192 (startCol (rowMinus (BitVec.ofNat 32 δ)) (ix2 r (0 : Fin 1))) = r.val - δ := by
  rw [startCol_apply, clampRow_wrapClip]
  show min (BitVec.ofNat 32 r.val - BitVec.ofNat 32 δ).toInt.toNat 8191 = _
  rw [toInt_sub_small r.val δ r.isLt hδ]
  have := r.isLt
  omega

/-- The right start word at row r clamps to row r + δ (the last row when there is no such row). -/
theorem startR_apply (δ : ℕ) (hδ : δ ≤ 8192) (r : Fin 8192) :
    clampRow 8192 (startCol (rowPlus (BitVec.ofNat 32 δ)) (ix2 r (0 : Fin 1))) = min (r.val + δ) 8191 := by
  rw [startCol_apply, clampRow_wrapClip]
  show min (BitVec.ofNat 32 r.val + BitVec.ofNat 32 δ).toInt.toNat 8191 = _
  rw [toInt_add_small r.val δ r.isLt hδ]
  omega

end Cert.Dilated.Ref

end
-- ==== Proof.LibAfterAppend.lean ====
/-
  A straight line of host operations run in two stretches: the fold of the operations' results over a valuation
  (`StableHlo.after`) of a concatenation is the fold of the second stretch over the fold of the first. It lets a
  long line be read stretch by stretch, each against an arbitrary valuation.
-/
import Idealize.ShloMosaic.Lib.StableHlo.Run

namespace Idealize.ShloMosaic.StableHlo

variable {τ : Topo} {sig : RefSig} {Val : EltTy → Type}

/-- The results after `a ++ b` are the results after `b` of the results after `a`. -/
theorem after_append (a b : List (HloOp τ sig Val)) (V : Valuation τ sig Val) :
    after (a ++ b) V = after b (after a V) := by
  induction a generalizing V with
  | nil => rfl
  | cons op a ih => exact ih (op.result V)

end Idealize.ShloMosaic.StableHlo
-- ==== Proof.RefAsm.lean ====
/-
  The reference's line of host operations read stretch by stretch.

  The line is four stretches, one per layer, and a last operation that puts a leading unit axis on the result. The
  first stretch also makes the row counter that every stretch's integer columns are computed from. Given, for each
  stretch, that from ANY starting contents holding the row counter it leaves the layer of the specification (of its
  input buffer and the three argument buffers) in its output buffer, and that no stretch touches the arguments or the
  counter, the whole line leaves the network of the specification in the result buffer: the fold of the operations'
  results over a concatenation is the fold over the second part of the fold over the first.
-/
import proofs.«137995_j86517821215731_2_alg».proof.Proof.RefOps
import proofs.«137995_j86517821215731_2_alg».proof.Proof.RefLayer
import proofs.«137995_j86517821215731_2_alg».proof.Proof.RefCols
import proofs.«137995_j86517821215731_2_alg».proof.Proof.LibAfterAppend

noncomputable section

namespace Cert.Dilated.Ref

open Idealize.ShloMosaic Idealize.ShloMosaic.TcCoe Idealize.ShloMosaic.ValueIdx Idealize.ShloMosaic.StableHlo
open Idealize.SL.Sem
open Cert.ReferenceIdeal Cert.ReferenceIdeal.Gen Cert.ReferenceIdeal.ValueP

/-- **A layer as the line computes it is the specification's layer.** With the condition and start columns made from
    the row counter for the dilation δ, and the layer's slab of the weights and row of the biases (sliced at block
    l and the unit axis dropped), the reference's layer is layer l of the specification. -/
theorem layerOps_line (δ : ℕ) (hδ : δ ≤ 8192) (l : Fin 4)
    (offW : Fin 3 → ℕ) (hW0 : offW 0 = l.val) (hW1 : offW 1 = 0) (hW2 : offW 2 = 0) (hsW : S4x3072x1024.Slices offW S1x3072x1024)
    (offB : Fin 2 → ℕ) (hB0 : offB 0 = l.val) (hB1 : offB 1 = 0) (hsB : S4x1024.Slices offB S1x1024)
    (X : SX.Idx → EReal) (W : SW.Idx → EReal) (B : SB.Idx → EReal) (O : SO.Idx → EReal) :
    layerOps (condL (BitVec.ofNat 32 δ)) (condR (BitVec.ofNat 32 δ))
        (startCol (rowMinus (BitVec.ofNat 32 δ))) (startCol (rowPlus (BitVec.ofNat 32 δ)))
        (shapeCast S3072x1024 (extractStridedSlice S1x3072x1024 offW W hsW) shapeCasts_S1x3072x1024_S3072x1024)
        (shapeCast S1024 (extractStridedSlice S1x1024 offB B hsB) shapeCasts_S1x1024_S1024) X O
      = layer δ l X W B O :=
  layerOps_eq δ l _ _ _ _ _ _ X W B O (condL_apply δ hδ) (fun r _ => startL_apply δ hδ r) (condR_apply δ hδ)
    (fun r h => (startR_apply δ hδ r).trans (by omega))
    (weightSlice_apply l offW hW0 hW1 hW2 hsW W) (biasSlice_apply l offB hB0 hB1 hsB B)

local notation "𝕍" => Valuation τ sig (Elt Ideal)

/-! ## The last operation -/

/-- The last operation puts a leading unit axis on what the fourth layer left. -/
theorem last_out (V : 𝕍) :
    after [last (F := Ideal)] V (Proc.devRef .tc main_v173)
      = broadcastInDim S1x8192x1024 ![1, 2] bcast_S8192x1024_S1x8192x1024_1_2 (V (Proc.devRef .tc main_v172)) := by
  after_results

/-- It writes nothing else. -/
theorem last_keep (V : 𝕍) (r : Ref sig .tc) (hr : r ≠ main_v173) :
    after [last (F := Ideal)] V (Proc.devRef .tc r) = V (Proc.devRef .tc r) := by
  simp only [after_cons, after_nil]
  rw [unary_result_ne]; exact hr

/-- A matrix under a leading unit axis, at (0, r, k): the matrix at (r, k). -/
theorem unitAxis_apply (Y : FVec Ideal S8192x1024 .f32) (i : S1x8192x1024.Idx) :
    broadcastInDim S1x8192x1024 ![1, 2] bcast_S8192x1024_S1x8192x1024_1_2 Y i = Y (ix2 (i 1) (i 2)) :=
  broadcastInDim_apply _ bcast_S8192x1024_S1x8192x1024_1_2 Y i (ix2 (i 1) (i 2)) (fun a => match a with
    | ⟨0, _⟩ => by show (i 1).val = if (8192 : Nat) = 1 then 0 else (i 1).val; rw [if_neg (by decide)]
    | ⟨1, _⟩ => by show (i 2).val = if (1024 : Nat) = 1 then 0 else (i 2).val; rw [if_neg (by decide)])

/-! ## The line from its stretches -/

/-- A stretch leaves the four argument buffers as it finds them. -/
def KeepsArgs (l : List (HloOp τ sig (Elt Ideal))) : Prop :=
  ∀ V : 𝕍, after l V (Proc.devRef .tc main_arg0) = V (Proc.devRef .tc main_arg0) ∧ after l V (Proc.devRef .tc main_arg1) = V (Proc.devRef .tc main_arg1)
    ∧ after l V (Proc.devRef .tc main_arg2) = V (Proc.devRef .tc main_arg2) ∧ after l V (Proc.devRef .tc main_arg3) = V (Proc.devRef .tc main_arg3)

/-- A stretch leaves the row counter as it finds it. -/
def KeepsCounter (l : List (HloOp τ sig (Elt Ideal))) : Prop :=
  ∀ V : 𝕍, after l V (Proc.devRef .tc main_v0) = V (Proc.devRef .tc main_v0)

section Assembly

variable
  (out0 : ∀ V : 𝕍, after (l0 (F := Ideal)) V (Proc.devRef .tc main_v43)
      = layer 1 0 (V (Proc.devRef .tc main_arg0)) (V (Proc.devRef .tc main_arg1)) (V (Proc.devRef .tc main_arg2)) (V (Proc.devRef .tc main_arg3)))
  (cnt0 : ∀ V : 𝕍, after (l0 (F := Ideal)) V (Proc.devRef .tc main_v0) = iotaInDim S8192 32 0)
  (keep0 : KeepsArgs (l0 (F := Ideal)))
  (out1 : ∀ V : 𝕍, V (Proc.devRef .tc main_v0) = iotaInDim S8192 32 0 → after (l1 (F := Ideal)) V (Proc.devRef .tc main_v86)
      = layer 2 1 (V (Proc.devRef .tc main_v43)) (V (Proc.devRef .tc main_arg1)) (V (Proc.devRef .tc main_arg2)) (V (Proc.devRef .tc main_arg3)))
  (cnt1 : KeepsCounter (l1 (F := Ideal))) (keep1 : KeepsArgs (l1 (F := Ideal)))
  (out2 : ∀ V : 𝕍, V (Proc.devRef .tc main_v0) = iotaInDim S8192 32 0 → after (l2 (F := Ideal)) V (Proc.devRef .tc main_v129)
      = layer 4 2 (V (Proc.devRef .tc main_v86)) (V (Proc.devRef .tc main_arg1)) (V (Proc.devRef .tc main_arg2)) (V (Proc.devRef .tc main_arg3)))
  (cnt2 : KeepsCounter (l2 (F := Ideal))) (keep2 : KeepsArgs (l2 (F := Ideal)))
  (out3 : ∀ V : 𝕍, V (Proc.devRef .tc main_v0) = iotaInDim S8192 32 0 → after (l3 (F := Ideal)) V (Proc.devRef .tc main_v172)
      = layer 1 3 (V (Proc.devRef .tc main_v129)) (V (Proc.devRef .tc main_arg1)) (V (Proc.devRef .tc main_arg2)) (V (Proc.devRef .tc main_arg3)))
  (keep3 : KeepsArgs (l3 (F := Ideal)))

include out0 cnt0 keep0 out1 cnt1 keep1 out2 cnt2 keep2 out3 keep3 in
/-- The whole line, from any starting contents: the result buffer ends at the network of the four argument buffers,
    which end as they started. -/
theorem after_ops (V : 𝕍) :
    after (ops (F := Ideal)) V (Proc.devRef .tc main_v173)
        = net (V (Proc.devRef .tc main_arg0)) (V (Proc.devRef .tc main_arg1)) (V (Proc.devRef .tc main_arg2)) (V (Proc.devRef .tc main_arg3))
      ∧ after (ops (F := Ideal)) V (Proc.devRef .tc main_arg0) = V (Proc.devRef .tc main_arg0)
      ∧ after (ops (F := Ideal)) V (Proc.devRef .tc main_arg1) = V (Proc.devRef .tc main_arg1)
      ∧ after (ops (F := Ideal)) V (Proc.devRef .tc main_arg2) = V (Proc.devRef .tc main_arg2)
      ∧ after (ops (F := Ideal)) V (Proc.devRef .tc main_arg3) = V (Proc.devRef .tc main_arg3) := by
  rw [ops_split, after_append, after_append, after_append, after_append]
  generalize h1 : after (l0 (F := Ideal)) V = V1
  generalize h2 : after (l1 (F := Ideal)) V1 = V2
  generalize h3 : after (l2 (F := Ideal)) V2 = V3
  generalize h4 : after (l3 (F := Ideal)) V3 = V4
  obtain ⟨a00, a01, a02, a03⟩ := keep0 V
  obtain ⟨a10, a11, a12, a13⟩ := keep1 V1
  obtain ⟨a20, a21, a22, a23⟩ := keep2 V2
  obtain ⟨a30, a31, a32, a33⟩ := keep3 V3
  rw [h1] at a00 a01 a02 a03
  rw [h2] at a10 a11 a12 a13
  rw [h3] at a20 a21 a22 a23
  rw [h4] at a30 a31 a32 a33
  have c1 : V1 (Proc.devRef .tc main_v0) = iotaInDim S8192 32 0 := by rw [← h1]; exact cnt0 V
  have c2 : V2 (Proc.devRef .tc main_v0) = iotaInDim S8192 32 0 := by rw [← h2, cnt1 V1]; exact c1
  have c3 : V3 (Proc.devRef .tc main_v0) = iotaInDim S8192 32 0 := by rw [← h3, cnt2 V2]; exact c2
  have e1 := out0 V; rw [h1] at e1
  have e2 := out1 V1 c1; rw [h2, e1, a01, a02, a03] at e2
  have e3 := out2 V2 c2; rw [h3, e2, a11, a12, a13, a01, a02, a03] at e3
  have e4 := out3 V3 c3; rw [h4, e3, a21, a22, a23, a11, a12, a13, a01, a02, a03] at e4
  refine ⟨?_, ?_, ?_, ?_, ?_⟩
  · rw [last_out, e4]
    funext i
    rw [unitAxis_apply]
    rfl
  · rw [last_keep V4 main_arg0 (by decide), a30, a20, a10, a00]
  · rw [last_keep V4 main_arg1 (by decide), a31, a21, a11, a01]
  · rw [last_keep V4 main_arg2 (by decide), a32, a22, a12, a02]
  · rw [last_keep V4 main_arg3 (by decide), a33, a23, a13, a03]

include out0 cnt0 keep0 out1 cnt1 keep1 out2 cnt2 keep2 out3 keep3 in
/-- The reference's run: every weakly fair execution terminates with the result buffer at the network of the four
    arguments, and the arguments as they were. -/
theorem run_of_stretches (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v173)
          = net (m ((c.tc : Thread nD τ).loc main_arg0)) (m ((c.tc : Thread nD τ).loc main_arg1))
              (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run (defs (F := Ideal)) _ _).mono (fun r h c => by
      obtain ⟨e, b0, b1, b2, b3⟩ :=
        after_ops out0 cnt0 keep0 out1 cnt1 keep1 out2 cnt2 keep2 out3 keep3 (launchContents m c)
      exact ⟨(h c main_v173).trans e, (h c main_arg0).trans b0, (h c main_arg1).trans b1,
        (h c main_arg2).trans b2, (h c main_arg3).trans b3⟩)
    (run_after (F := Ideal) m ρ)

end Assembly

end Cert.Dilated.Ref

end
-- ==== Proof.RefKeep.lean ====
/-
  What the reference's stretches leave alone.

  No operation of the line writes an argument buffer, and the row counter is written once, by the first operation
  of the first stretch; so every stretch leaves the four argument buffers as it finds them, the first stretch ends
  with the row counter in its buffer whatever it started from, and the later stretches leave the counter alone.
  Each is read off the stretch's list of operations: none of them has the buffer as its result.
-/
import proofs.«137995_j86517821215731_2_alg».proof.Proof.RefAsm

noncomputable section

namespace Cert.Dilated.Ref

open Idealize.ShloMosaic Idealize.ShloMosaic.TcCoe Idealize.ShloMosaic.StableHlo
open Cert.ReferenceIdeal Cert.ReferenceIdeal.Gen Cert.ReferenceIdeal.ValueP

set_option maxHeartbeats 2000000 in
/-- The first stretch makes the row counter. -/
theorem cnt0 (V : Valuation τ sig (Elt Ideal)) :
    after (l0 (F := Ideal)) V (Proc.devRef .tc main_v0) = iotaInDim S8192 32 0 := by
  after_results_simp

set_option maxHeartbeats 2000000 in
theorem keep0 : KeepsArgs (l0 (F := Ideal)) := fun V => by
  refine ⟨?_, ?_, ?_, ?_⟩ <;> after_results_simp

set_option maxHeartbeats 2000000 in
theorem keep1 : KeepsArgs (l1 (F := Ideal)) := fun V => by
  refine ⟨?_, ?_, ?_, ?_⟩ <;> after_results_simp

set_option maxHeartbeats 2000000 in
theorem keep2 : KeepsArgs (l2 (F := Ideal)) := fun V => by
  refine ⟨?_, ?_, ?_, ?_⟩ <;> after_results_simp

set_option maxHeartbeats 2000000 in
theorem keep3 : KeepsArgs (l3 (F := Ideal)) := fun V => by
  refine ⟨?_, ?_, ?_, ?_⟩ <;> after_results_simp

set_option maxHeartbeats 2000000 in
theorem cnt1 : KeepsCounter (l1 (F := Ideal)) := fun V => by
  after_results_simp

set_option maxHeartbeats 2000000 in
theorem cnt2 : KeepsCounter (l2 (F := Ideal)) := fun V => by
  after_results_simp

set_option maxHeartbeats 2000000 in
theorem cnt3 : KeepsCounter (l3 (F := Ideal)) := fun V => by
  after_results_simp

end Cert.Dilated.Ref

end
-- ==== Proof.RefLayerOf.lean ====
/-
  A layer built on the reference's own integer columns for a dilation δ is the specification's layer of that dilation:
  the columns' values at a row (the condition bits say whether row r − δ, r + δ exists; the start words clamp to those
  rows) are what the layer lemma asks of them.
-/
import proofs.«137995_j86517821215731_2_alg».proof.Proof.RefCols
import proofs.«137995_j86517821215731_2_alg».proof.Proof.RefLayer

noncomputable section

namespace Cert.Dilated.Ref

open Idealize.ShloMosaic Idealize.ShloMosaic.ValueIdx Cert.ReferenceIdeal Cert.ReferenceIdeal.Gen

/-- The reference's layer on its own columns for the dilation δ, with layer `l`'s slices of the weights and biases, is
    the specification's `layer δ l`. -/
theorem layer_of_cols (δ : ℕ) (hδ : δ ≤ 8192) (l : Fin 4)
    (Wl : FVec Ideal S3072x1024 .f32) (Bl : FVec Ideal S1024 .f32)
    (X : SX.Idx → EReal) (W : SW.Idx → EReal) (B : SB.Idx → EReal) (O : SO.Idx → EReal)
    (hW : ∀ (q : Fin 3072) (k : Fin 1024), Wl (ix2 q k) = W (ix3 l q k))
    (hB : ∀ k : Fin 1024, Bl (ix1 k) = B (ix2 l k)) :
    layerOps (condL (BitVec.ofNat 32 δ)) (condR (BitVec.ofNat 32 δ))
        (startCol (rowMinus (BitVec.ofNat 32 δ))) (startCol (rowPlus (BitVec.ofNat 32 δ))) Wl Bl X O
      = layer δ l X W B O :=
  layerOps_eq δ l _ _ _ _ Wl Bl X W B O (condL_apply δ hδ) (fun r _ => startL_apply δ hδ r)
    (condR_apply δ hδ) (fun r h => (startR_apply δ hδ r).trans (Nat.min_eq_left (by omega))) hW hB

end Cert.Dilated.Ref

end
-- ==== Proof.LibTypedRef.lean ====
/-
  Typed references of a module-local function's operations. An operation of an outlined function reads and writes its
  buffers through typed references: a result is transported to its buffer's type when written and back to the value's
  type when the next operation reads it. The two transports cancel, so a line of such operations composes to the
  plain composition of their functions.
-/
import Idealize.ShloMosaic.Lib.StableHlo

namespace Idealize.ShloMosaic.StableHlo.TRef

variable {sig : RefSig} {Val : EltTy → Type} {T : BufTy}

/-- Written to the buffer and read back: the value. -/
theorem ofBuf_toBuf (x : TRef sig T) (v : T.Contents Val) : x.ofBuf (x.toBuf v) = v := by
  obtain ⟨r, ty_eq, h1, h2⟩ := x
  subst ty_eq
  rfl

/-- Read from the buffer and written back: the contents. -/
theorem toBuf_ofBuf (x : TRef sig T) (v : x.ref.ty.Contents Val) : x.toBuf (x.ofBuf v) = v := by
  obtain ⟨r, ty_eq, h1, h2⟩ := x
  subst ty_eq
  rfl

end Idealize.ShloMosaic.StableHlo.TRef
-- ==== Proof.RefStretch0.lean ====
/-
  The first stretch of the reference's line — the row counter and the first layer (dilation 1) — read from an
  arbitrary contents of the buffers: its last buffer ends holding the specification's first layer of the argument
  buffers' contents. The stretch is read in two runs: up to the two shifted copies of the matrix, and from the joining
  of the three matrices on; the second run reads the copies as it finds them.
-/
import proofs.«137995_j86517821215731_2_alg».proof.Proof.RefOps
import proofs.«137995_j86517821215731_2_alg».proof.Proof.RefLayerOf
import proofs.«137995_j86517821215731_2_alg».proof.Proof.LibAfterAppend
import proofs.«137995_j86517821215731_2_alg».proof.Proof.LibTypedRef

noncomputable section

namespace Cert.Dilated.Ref

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.ValueP

/-! ## The layer's second half as a function of the three matrices -/

/-- The join of three matrices side by side, the product with the weight, the bias, the maximum with zero, and the
    half-and-half mix with the first matrix. -/
def mixOps (X SL SR : FVec Ideal S8192x1024 .f32) (Wl : FVec Ideal S3072x1024 .f32) (Bl : FVec Ideal S1024 .f32) :
    FVec Ideal S8192x1024 .f32 :=
  addf (mulf (broadcastInDim S8192x1024 ![] bcast_S_S8192x1024 (constant (F := Ideal) S_ .f32 0x3F000000#32)) X)
    (mulf (broadcastInDim S8192x1024 ![] bcast_S_S8192x1024 (constant (F := Ideal) S_ .f32 0x3F000000#32))
      (maximumf
        (addf
          (Host.dotGeneral (F := Ideal) dot_S8192x3072_S3072x1024_S8192x1024_1_0_0_1_n_n none
            (concatenate S8192x3072 1 [⟨S8192x1024, X⟩, ⟨S8192x1024, SL⟩, ⟨S8192x1024, SR⟩]
              concatenates_S8192x1024_S8192x1024_S8192x1024_S8192x3072_d1) Wl)
          (broadcastInDim S8192x1024 ![0, 1] bcast_S1x1024_S8192x1024_0_1
            (broadcastInDim S1x1024 ![1] bcast_S1024_S1x1024_1 Bl)))
        (broadcastInDim S8192x1024 ![] bcast_S_S8192x1024 (constant (F := Ideal) S_ .f32 0x00000000#32))))

/-- A layer is that second half on the matrix and its two shifted copies. -/
theorem layerOps_eq_mixOps (cL cR : IVec S8192x1 1) (gL gR : IVec S8192x1 32) (Wl : FVec Ideal S3072x1024 .f32)
    (Bl : FVec Ideal S1024 .f32) (X : FVec Ideal S8192x1024 .f32) (O : FVec Ideal S1024 .f32) :
    layerOps cL cR gL gR Wl Bl X O = mixOps X (shifted cL gL X O) (shifted cR gR X O) Wl Bl := rfl

/-! ## The stretch in two runs -/

section Runs
variable {F : FTy → Type} [FloatOps F]

/-- The row counter, the two condition columns, the two start columns and the two shifted copies: up to `main_v28`. -/
abbrev s0a : List (HloOp τ sig (Elt F)) :=
  [ nullary main_v0 (iotaInDim S8192 32 0),
    nullary main_c (constantI S_ 32 1#32),
    unary main_c main_v1 (broadcastInDim S8192 ![] bcast_S_S8192 : (⟨S_, .i32⟩ : BufTy).Contents (Elt F) → (⟨S8192, .i32⟩ : BufTy).Contents (Elt F)),
    binary main_v0 main_v1 main_v2 (subi : (⟨S8192, .i32⟩ : BufTy).Contents (Elt F) → (⟨S8192, .i32⟩ : BufTy).Contents (Elt F) → (⟨S8192, .i32⟩ : BufTy).Contents (Elt F)),
    nullary main_c_0 (constantI S_ 32 1#32),
    unary main_c_0 main_v3 (broadcastInDim S8192 ![] bcast_S_S8192 : (⟨S_, .i32⟩ : BufTy).Contents (Elt F) → (⟨S8192, .i32⟩ : BufTy).Contents (Elt F)),
    binary main_v0 main_v3 main_v4 (addi : (⟨S8192, .i32⟩ : BufTy).Contents (Elt F) → (⟨S8192, .i32⟩ : BufTy).Contents (Elt F) → (⟨S8192, .i32⟩ : BufTy).Contents (Elt F)),
    nullary main_c_1 (constantI S_ 32 0#32),
    unary main_c_1 main_v5 (broadcastInDim S8192 ![] bcast_S_S8192 : (⟨S_, .i32⟩ : BufTy).Contents (Elt F) → (⟨S8192, .i32⟩ : BufTy).Contents (Elt F)),
    binary main_v2 main_v5 main_v6 (cmpi .sge : (⟨S8192, .i32⟩ : BufTy).Contents (Elt F) → (⟨S8192, .i32⟩ : BufTy).Contents (Elt F) → (⟨S8192, .i1⟩ : BufTy).Contents (Elt F)),
    unary main_v6 main_v7 (broadcastInDim S8192x1 ![0] bcast_S8192_S8192x1_0 : (⟨S8192, .i1⟩ : BufTy).Contents (Elt F) → (⟨S8192x1, .i1⟩ : BufTy).Contents (Elt F)),
    nullary main_c_2 (constantI S_ 32 0#32),
    nullary main_c_3 (constantI S_ 32 8191#32),
    TRef.unary (TRef.of (T := ⟨S_, .i32⟩) main_c_2) (TRef.of (T := ⟨S_, .i32⟩) main_call0_v0) id,
    TRef.unary (TRef.of (T := ⟨S_, .i32⟩) main_call0_v0) (TRef.of (T := ⟨S8192, .i32⟩) main_call0_v1) (broadcastInDim S8192 ![] bcast_S_S8192),
    TRef.binary (TRef.of (T := ⟨S8192, .i32⟩) main_call0_v1) (TRef.of (T := ⟨S8192, .i32⟩) main_v2) (TRef.of (T := ⟨S8192, .i32⟩) main_call0_v2) maxsi,
    TRef.unary (TRef.of (T := ⟨S_, .i32⟩) main_c_3) (TRef.of (T := ⟨S_, .i32⟩) main_call0_v3) id,
    TRef.unary (TRef.of (T := ⟨S_, .i32⟩) main_call0_v3) (TRef.of (T := ⟨S8192, .i32⟩) main_call0_v4) (broadcastInDim S8192 ![] bcast_S_S8192),
    TRef.binary (TRef.of (T := ⟨S8192, .i32⟩) main_call0_v4) (TRef.of (T := ⟨S8192, .i32⟩) main_call0_v2) (TRef.of (T := ⟨S8192, .i32⟩) main_v8) minsi,
    nullary main_c_4 (constantI S_ 32 0#32),
    unary main_c_4 main_v9 (broadcastInDim S8192 ![] bcast_S_S8192 : (⟨S_, .i32⟩ : BufTy).Contents (Elt F) → (⟨S8192, .i32⟩ : BufTy).Contents (Elt F)),
    binary main_v8 main_v9 main_v10 (cmpi .slt : (⟨S8192, .i32⟩ : BufTy).Contents (Elt F) → (⟨S8192, .i32⟩ : BufTy).Contents (Elt F) → (⟨S8192, .i1⟩ : BufTy).Contents (Elt F)),
    nullary main_c_5 (constantI S_ 32 8192#32),
    unary main_c_5 main_v11 (broadcastInDim S8192 ![] bcast_S_S8192 : (⟨S_, .i32⟩ : BufTy).Contents (Elt F) → (⟨S8192, .i32⟩ : BufTy).Contents (Elt F)),
    binary main_v8 main_v11 main_v12 (addi : (⟨S8192, .i32⟩ : BufTy).Contents (Elt F) → (⟨S8192, .i32⟩ : BufTy).Contents (Elt F) → (⟨S8192, .i32⟩ : BufTy).Contents (Elt F)),
    ternary main_v10 main_v12 main_v8 main_v13 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v13 main_v14 (broadcastInDim S8192x1 ![0] bcast_S8192_S8192x1_0 : (⟨S8192, .i32⟩ : BufTy).Contents (Elt F) → (⟨S8192x1, .i32⟩ : BufTy).Contents (Elt F)),
    binary main_arg0 main_v14 main_v15 ((fun x i => Host.gather gather_S8192x1024_S8192x1_S8192x1024_1_0_n_n_0_1_11024 x i) : (⟨S8192x1024, .f32⟩ : BufTy).Contents (Elt F) → (⟨S8192x1, .i32⟩ : BufTy).Contents (Elt F) → (⟨S8192x1024, .f32⟩ : BufTy).Contents (Elt F)),
    TRef.unary (TRef.of (T := ⟨S8192x1, .i1⟩) main_v7) (TRef.of (T := ⟨S8192x1024, .i1⟩) main_call1_v0) (broadcastInDim S8192x1024 ![0, 1] bcast_S8192x1_S8192x1024_0_1),
    TRef.unary (TRef.of (T := ⟨S1024, .f32⟩) main_arg3) (TRef.of (T := ⟨S8192x1024, .f32⟩) main_call1_v1) (broadcastInDim S8192x1024 ![1] bcast_S1024_S8192x1024_1),
    TRef.ternary (TRef.of (T := ⟨S8192x1024, .i1⟩) main_call1_v0) (TRef.of (T := ⟨S8192x1024, .f32⟩) main_v15) (TRef.of (T := ⟨S8192x1024, .f32⟩) main_call1_v1) (TRef.of (T := ⟨S8192x1024, .f32⟩) main_v16) select,
    nullary main_c_6 (constantI S_ 32 8192#32),
    unary main_c_6 main_v17 (broadcastInDim S8192 ![] bcast_S_S8192 : (⟨S_, .i32⟩ : BufTy).Contents (Elt F) → (⟨S8192, .i32⟩ : BufTy).Contents (Elt F)),
    binary main_v4 main_v17 main_v18 (cmpi .slt : (⟨S8192, .i32⟩ : BufTy).Contents (Elt F) → (⟨S8192, .i32⟩ : BufTy).Contents (Elt F) → (⟨S8192, .i1⟩ : BufTy).Contents (Elt F)),
    unary main_v18 main_v19 (broadcastInDim S8192x1 ![0] bcast_S8192_S8192x1_0 : (⟨S8192, .i1⟩ : BufTy).Contents (Elt F) → (⟨S8192x1, .i1⟩ : BufTy).Contents (Elt F)),
    nullary main_c_7 (constantI S_ 32 0#32),
    nullary main_c_8 (constantI S_ 32 8191#32),
    TRef.unary (TRef.of (T := ⟨S_, .i32⟩) main_c_7) (TRef.of (T := ⟨S_, .i32⟩) main_call2_v0) id,
    TRef.unary (TRef.of (T := ⟨S_, .i32⟩) main_call2_v0) (TRef.of (T := ⟨S8192, .i32⟩) main_call2_v1) (broadcastInDim S8192 ![] bcast_S_S8192),
    TRef.binary (TRef.of (T := ⟨S8192, .i32⟩) main_call2_v1) (TRef.of (T := ⟨S8192, .i32⟩) main_v4) (TRef.of (T := ⟨S8192, .i32⟩) main_call2_v2) maxsi,
    TRef.unary (TRef.of (T := ⟨S_, .i32⟩) main_c_8) (TRef.of (T := ⟨S_, .i32⟩) main_call2_v3) id,
    TRef.unary (TRef.of (T := ⟨S_, .i32⟩) main_call2_v3) (TRef.of (T := ⟨S8192, .i32⟩) main_call2_v4) (broadcastInDim S8192 ![] bcast_S_S8192),
    TRef.binary (TRef.of (T := ⟨S8192, .i32⟩) main_call2_v4) (TRef.of (T := ⟨S8192, .i32⟩) main_call2_v2) (TRef.of (T := ⟨S8192, .i32⟩) main_v20) minsi,
    nullary main_c_9 (constantI S_ 32 0#32),
    unary main_c_9 main_v21 (broadcastInDim S8192 ![] bcast_S_S8192 : (⟨S_, .i32⟩ : BufTy).Contents (Elt F) → (⟨S8192, .i32⟩ : BufTy).Contents (Elt F)),
    binary main_v20 main_v21 main_v22 (cmpi .slt : (⟨S8192, .i32⟩ : BufTy).Contents (Elt F) → (⟨S8192, .i32⟩ : BufTy).Contents (Elt F) → (⟨S8192, .i1⟩ : BufTy).Contents (Elt F)),
    nullary main_c_10 (constantI S_ 32 8192#32),
    unary main_c_10 main_v23 (broadcastInDim S8192 ![] bcast_S_S8192 : (⟨S_, .i32⟩ : BufTy).Contents (Elt F) → (⟨S8192, .i32⟩ : BufTy).Contents (Elt F)),
    binary main_v20 main_v23 main_v24 (addi : (⟨S8192, .i32⟩ : BufTy).Contents (Elt F) → (⟨S8192, .i32⟩ : BufTy).Contents (Elt F) → (⟨S8192, .i32⟩ : BufTy).Contents (Elt F)),
    ternary main_v22 main_v24 main_v20 main_v25 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v25 main_v26 (broadcastInDim S8192x1 ![0] bcast_S8192_S8192x1_0 : (⟨S8192, .i32⟩ : BufTy).Contents (Elt F) → (⟨S8192x1, .i32⟩ : BufTy).Contents (Elt F)),
    binary main_arg0 main_v26 main_v27 ((fun x i => Host.gather gather_S8192x1024_S8192x1_S8192x1024_1_0_n_n_0_1_11024 x i) : (⟨S8192x1024, .f32⟩ : BufTy).Contents (Elt F) → (⟨S8192x1, .i32⟩ : BufTy).Contents (Elt F) → (⟨S8192x1024, .f32⟩ : BufTy).Contents (Elt F)),
    TRef.unary (TRef.of (T := ⟨S8192x1, .i1⟩) main_v19) (TRef.of (T := ⟨S8192x1024, .i1⟩) main_call3_v0) (broadcastInDim S8192x1024 ![0, 1] bcast_S8192x1_S8192x1024_0_1),
    TRef.unary (TRef.of (T := ⟨S1024, .f32⟩) main_arg3) (TRef.of (T := ⟨S8192x1024, .f32⟩) main_call3_v1) (broadcastInDim S8192x1024 ![1] bcast_S1024_S8192x1024_1),
    TRef.ternary (TRef.of (T := ⟨S8192x1024, .i1⟩) main_call3_v0) (TRef.of (T := ⟨S8192x1024, .f32⟩) main_v27) (TRef.of (T := ⟨S8192x1024, .f32⟩) main_call3_v1) (TRef.of (T := ⟨S8192x1024, .f32⟩) main_v28) select ]

/-- The join, the product, the bias, the maximum with zero and the mix: up to `main_v43`. -/
abbrev s0b : List (HloOp τ sig (Elt F)) :=
  [ nary ![main_arg0, main_v16, main_v28] main_v29 (fun u => concatenate S8192x3072 1 [⟨S8192x1024, u 0⟩, ⟨S8192x1024, u 1⟩, ⟨S8192x1024, u 2⟩] concatenates_S8192x1024_S8192x1024_S8192x1024_S8192x3072_d1),
    nullary main_cst (constant S_ .f32 0x3F000000#32),
    unary main_cst main_v30 (broadcastInDim S8192x1024 ![] bcast_S_S8192x1024 : (⟨S_, .f32⟩ : BufTy).Contents (Elt F) → (⟨S8192x1024, .f32⟩ : BufTy).Contents (Elt F)),
    binary main_v30 main_arg0 main_v31 (mulf : (⟨S8192x1024, .f32⟩ : BufTy).Contents (Elt F) → (⟨S8192x1024, .f32⟩ : BufTy).Contents (Elt F) → (⟨S8192x1024, .f32⟩ : BufTy).Contents (Elt F)),
    unary main_arg1 main_v32 ((extractStridedSlice S1x3072x1024 ![0, 0, 0] · slices_S4x3072x1024_S1x3072x1024_0_0_0) : (⟨S4x3072x1024, .f32⟩ : BufTy).Contents (Elt F) → (⟨S1x3072x1024, .f32⟩ : BufTy).Contents (Elt F)),
    reshape main_v32 main_v33 rfl shapeCasts_S1x3072x1024_S3072x1024,
    binary main_v29 main_v33 main_v34 ((fun l r => Host.dotGeneral dot_S8192x3072_S3072x1024_S8192x1024_1_0_0_1_n_n none l r) : (⟨S8192x3072, .f32⟩ : BufTy).Contents (Elt F) → (⟨S3072x1024, .f32⟩ : BufTy).Contents (Elt F) → (⟨S8192x1024, .f32⟩ : BufTy).Contents (Elt F)),
    unary main_arg2 main_v35 ((extractStridedSlice S1x1024 ![0, 0] · slices_S4x1024_S1x1024_0_0) : (⟨S4x1024, .f32⟩ : BufTy).Contents (Elt F) → (⟨S1x1024, .f32⟩ : BufTy).Contents (Elt F)),
    reshape main_v35 main_v36 rfl shapeCasts_S1x1024_S1024,
    unary main_v36 main_v37 (broadcastInDim S1x1024 ![1] bcast_S1024_S1x1024_1 : (⟨S1024, .f32⟩ : BufTy).Contents (Elt F) → (⟨S1x1024, .f32⟩ : BufTy).Contents (Elt F)),
    unary main_v37 main_v38 (broadcastInDim S8192x1024 ![0, 1] bcast_S1x1024_S8192x1024_0_1 : (⟨S1x1024, .f32⟩ : BufTy).Contents (Elt F) → (⟨S8192x1024, .f32⟩ : BufTy).Contents (Elt F)),
    binary main_v34 main_v38 main_v39 (addf : (⟨S8192x1024, .f32⟩ : BufTy).Contents (Elt F) → (⟨S8192x1024, .f32⟩ : BufTy).Contents (Elt F) → (⟨S8192x1024, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S8192x1024, .f32⟩) main_call4_v0) (broadcastInDim S8192x1024 ![] bcast_S_S8192x1024),
    TRef.binary (TRef.of (T := ⟨S8192x1024, .f32⟩) main_v39) (TRef.of (T := ⟨S8192x1024, .f32⟩) main_call4_v0) (TRef.of (T := ⟨S8192x1024, .f32⟩) main_v40) maximumf,
    nullary main_cst_11 (constant S_ .f32 0x3F000000#32),
    unary main_cst_11 main_v41 (broadcastInDim S8192x1024 ![] bcast_S_S8192x1024 : (⟨S_, .f32⟩ : BufTy).Contents (Elt F) → (⟨S8192x1024, .f32⟩ : BufTy).Contents (Elt F)),
    binary main_v41 main_v40 main_v42 (mulf : (⟨S8192x1024, .f32⟩ : BufTy).Contents (Elt F) → (⟨S8192x1024, .f32⟩ : BufTy).Contents (Elt F) → (⟨S8192x1024, .f32⟩ : BufTy).Contents (Elt F)),
    binary main_v31 main_v42 main_v43 (addf : (⟨S8192x1024, .f32⟩ : BufTy).Contents (Elt F) → (⟨S8192x1024, .f32⟩ : BufTy).Contents (Elt F) → (⟨S8192x1024, .f32⟩ : BufTy).Contents (Elt F)) ]

theorem l0_split : (l0 : List (HloOp τ sig (Elt F))) = s0a ++ s0b := rfl

end Runs

variable (W : Valuation τ sig (Elt Ideal))

/-- The first run leaves the left shifted copy in `main_v16`. -/
theorem s0a_left : after (s0a (F := Ideal)) W (Proc.devRef .tc main_v16)
    = shifted (condL 1#32) (startCol (rowMinus 1#32)) (W (Proc.devRef .tc main_arg0)) (W (Proc.devRef .tc main_arg3)) := by
  after_results_simp
  simp only [TRef.ofBuf_toBuf]
  rfl

/-- The first run leaves the right shifted copy in `main_v28`. -/
theorem s0a_right : after (s0a (F := Ideal)) W (Proc.devRef .tc main_v28)
    = shifted (condR 1#32) (startCol (rowPlus 1#32)) (W (Proc.devRef .tc main_arg0)) (W (Proc.devRef .tc main_arg3)) := by
  after_results_simp
  simp only [TRef.ofBuf_toBuf]
  rfl

/-- The first run leaves the matrix, the weights and the biases as they were. -/
theorem s0a_arg0 : after (s0a (F := Ideal)) W (Proc.devRef .tc main_arg0) = W (Proc.devRef .tc main_arg0) := by
  after_results_simp
theorem s0a_arg1 : after (s0a (F := Ideal)) W (Proc.devRef .tc main_arg1) = W (Proc.devRef .tc main_arg1) := by
  after_results_simp
theorem s0a_arg2 : after (s0a (F := Ideal)) W (Proc.devRef .tc main_arg2) = W (Proc.devRef .tc main_arg2) := by
  after_results_simp

/-- The second run's result from what it finds in the matrix's buffer, the two copies' buffers, the weights and the
    biases. -/
theorem s0b_out : after (s0b (F := Ideal)) W (Proc.devRef .tc main_v43)
    = mixOps (W (Proc.devRef .tc main_arg0)) (W (Proc.devRef .tc main_v16)) (W (Proc.devRef .tc main_v28))
        (shapeCast S3072x1024 (extractStridedSlice S1x3072x1024 ![0, 0, 0] (W (Proc.devRef .tc main_arg1))
          slices_S4x3072x1024_S1x3072x1024_0_0_0) shapeCasts_S1x3072x1024_S3072x1024)
        (shapeCast S1024 (extractStridedSlice S1x1024 ![0, 0] (W (Proc.devRef .tc main_arg2))
          slices_S4x1024_S1x1024_0_0) shapeCasts_S1x1024_S1024) := by
  after_results_simp
  simp only [Matrix.cons_val, TRef.ofBuf_toBuf]
  rfl

/-! ## The stretch -/

/-- **The first stretch.** From any contents `V` of the buffers, the stretch's last buffer ends holding the
    specification's first layer (dilation 1, layer 0) of the contents of the four argument buffers. -/
theorem stretch0_out (V : Valuation τ sig (Elt Ideal)) :
    after (l0 (F := Ideal)) V (Proc.devRef .tc main_v43)
      = Cert.Dilated.layer 1 0 (V (Proc.devRef .tc main_arg0)) (V (Proc.devRef .tc main_arg1))
          (V (Proc.devRef .tc main_arg2)) (V (Proc.devRef .tc main_arg3)) := by
  rw [l0_split, after_append, s0b_out, s0a_left, s0a_right, s0a_arg0, s0a_arg1, s0a_arg2, ← layerOps_eq_mixOps]
  exact layer_of_cols 1 (by decide) 0 _ _ _ _ _ _
    (fun q k => weightSlice_apply 0 ![0, 0, 0] rfl rfl rfl slices_S4x3072x1024_S1x3072x1024_0_0_0 _ q k)
    (fun k => biasSlice_apply 0 ![0, 0] rfl rfl slices_S4x1024_S1x1024_0_0 _ k)

end Cert.Dilated.Ref

end
-- ==== Proof.RefStretch1.lean ====
/-
  The second layer of the reference (dilation 2), read as one function of what it is handed.

  The layer's 73 host operations are read in five runs, each from arbitrary contents of the buffers: the row
  counter minus and plus the dilation with the left condition column and the left start column; the left shifted copy
  (rows gathered at the start column where the condition holds, the out-of-bounds row elsewhere); the right condition
  and start columns; the right shifted copy; and the rest — the three matrices joined, the product with the layer's
  weights, the bias, the maximum with zero and the half-and-half mix with the layer's input. A run leaves every buffer
  it does not write as it found it, so the five compose to the layer as a function of its ingredients.
-/
import proofs.«137995_j86517821215731_2_alg».proof.Proof.RefOps
import proofs.«137995_j86517821215731_2_alg».proof.Proof.RefCols
import proofs.«137995_j86517821215731_2_alg».proof.Proof.RefLayer
import proofs.«137995_j86517821215731_2_alg».proof.Proof.LibAfterAppend
import Idealize.ShloMosaic.Lib.StableHlo.Run

set_option maxRecDepth 16384

noncomputable section

namespace Cert.Dilated.Ref.Stretch1

open Idealize.ShloMosaic Idealize.ShloMosaic.TcCoe Idealize.ShloMosaic.ValueIdx Idealize.ShloMosaic.StableHlo
open Idealize.SL.Sem
open Cert.ReferenceIdeal Cert.ReferenceIdeal.Gen Cert.ReferenceIdeal.ValueP Cert.Dilated.Ref

variable {F : FTy → Type} [FloatOps F]

/-- The row counter minus and plus the dilation, the left condition column and the left start column. -/
abbrev sA : List (HloOp τ sig (Elt F)) :=
  [ nullary main_c_12 (constantI S_ 32 2#32),
    unary main_c_12 main_v44 (broadcastInDim S8192 ![] bcast_S_S8192 : (⟨S_, .i32⟩ : BufTy).Contents (Elt F) → (⟨S8192, .i32⟩ : BufTy).Contents (Elt F)),
    binary main_v0 main_v44 main_v45 (subi : (⟨S8192, .i32⟩ : BufTy).Contents (Elt F) → (⟨S8192, .i32⟩ : BufTy).Contents (Elt F) → (⟨S8192, .i32⟩ : BufTy).Contents (Elt F)),
    nullary main_c_13 (constantI S_ 32 2#32),
    unary main_c_13 main_v46 (broadcastInDim S8192 ![] bcast_S_S8192 : (⟨S_, .i32⟩ : BufTy).Contents (Elt F) → (⟨S8192, .i32⟩ : BufTy).Contents (Elt F)),
    binary main_v0 main_v46 main_v47 (addi : (⟨S8192, .i32⟩ : BufTy).Contents (Elt F) → (⟨S8192, .i32⟩ : BufTy).Contents (Elt F) → (⟨S8192, .i32⟩ : BufTy).Contents (Elt F)),
    nullary main_c_14 (constantI S_ 32 0#32),
    unary main_c_14 main_v48 (broadcastInDim S8192 ![] bcast_S_S8192 : (⟨S_, .i32⟩ : BufTy).Contents (Elt F) → (⟨S8192, .i32⟩ : BufTy).Contents (Elt F)),
    binary main_v45 main_v48 main_v49 (cmpi .sge : (⟨S8192, .i32⟩ : BufTy).Contents (Elt F) → (⟨S8192, .i32⟩ : BufTy).Contents (Elt F) → (⟨S8192, .i1⟩ : BufTy).Contents (Elt F)),
    unary main_v49 main_v50 (broadcastInDim S8192x1 ![0] bcast_S8192_S8192x1_0 : (⟨S8192, .i1⟩ : BufTy).Contents (Elt F) → (⟨S8192x1, .i1⟩ : BufTy).Contents (Elt F)),
    nullary main_c_15 (constantI S_ 32 0#32),
    nullary main_c_16 (constantI S_ 32 8191#32),
    TRef.unary (TRef.of (T := ⟨S_, .i32⟩) main_c_15) (TRef.of (T := ⟨S_, .i32⟩) main_call5_v0) id,
    TRef.unary (TRef.of (T := ⟨S_, .i32⟩) main_call5_v0) (TRef.of (T := ⟨S8192, .i32⟩) main_call5_v1) (broadcastInDim S8192 ![] bcast_S_S8192),
    TRef.binary (TRef.of (T := ⟨S8192, .i32⟩) main_call5_v1) (TRef.of (T := ⟨S8192, .i32⟩) main_v45) (TRef.of (T := ⟨S8192, .i32⟩) main_call5_v2) maxsi,
    TRef.unary (TRef.of (T := ⟨S_, .i32⟩) main_c_16) (TRef.of (T := ⟨S_, .i32⟩) main_call5_v3) id,
    TRef.unary (TRef.of (T := ⟨S_, .i32⟩) main_call5_v3) (TRef.of (T := ⟨S8192, .i32⟩) main_call5_v4) (broadcastInDim S8192 ![] bcast_S_S8192),
    TRef.binary (TRef.of (T := ⟨S8192, .i32⟩) main_call5_v4) (TRef.of (T := ⟨S8192, .i32⟩) main_call5_v2) (TRef.of (T := ⟨S8192, .i32⟩) main_v51) minsi,
    nullary main_c_17 (constantI S_ 32 0#32),
    unary main_c_17 main_v52 (broadcastInDim S8192 ![] bcast_S_S8192 : (⟨S_, .i32⟩ : BufTy).Contents (Elt F) → (⟨S8192, .i32⟩ : BufTy).Contents (Elt F)),
    binary main_v51 main_v52 main_v53 (cmpi .slt : (⟨S8192, .i32⟩ : BufTy).Contents (Elt F) → (⟨S8192, .i32⟩ : BufTy).Contents (Elt F) → (⟨S8192, .i1⟩ : BufTy).Contents (Elt F)),
    nullary main_c_18 (constantI S_ 32 8192#32),
    unary main_c_18 main_v54 (broadcastInDim S8192 ![] bcast_S_S8192 : (⟨S_, .i32⟩ : BufTy).Contents (Elt F) → (⟨S8192, .i32⟩ : BufTy).Contents (Elt F)),
    binary main_v51 main_v54 main_v55 (addi : (⟨S8192, .i32⟩ : BufTy).Contents (Elt F) → (⟨S8192, .i32⟩ : BufTy).Contents (Elt F) → (⟨S8192, .i32⟩ : BufTy).Contents (Elt F)),
    ternary main_v53 main_v55 main_v51 main_v56 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v56 main_v57 (broadcastInDim S8192x1 ![0] bcast_S8192_S8192x1_0 : (⟨S8192, .i32⟩ : BufTy).Contents (Elt F) → (⟨S8192x1, .i32⟩ : BufTy).Contents (Elt F)) ]

/-- The left shifted copy. -/
abbrev sB : List (HloOp τ sig (Elt F)) :=
  [ binary main_v43 main_v57 main_v58 ((fun x i => Host.gather gather_S8192x1024_S8192x1_S8192x1024_1_0_n_n_0_1_11024 x i) : (⟨S8192x1024, .f32⟩ : BufTy).Contents (Elt F) → (⟨S8192x1, .i32⟩ : BufTy).Contents (Elt F) → (⟨S8192x1024, .f32⟩ : BufTy).Contents (Elt F)),
    TRef.unary (TRef.of (T := ⟨S8192x1, .i1⟩) main_v50) (TRef.of (T := ⟨S8192x1024, .i1⟩) main_call6_v0) (broadcastInDim S8192x1024 ![0, 1] bcast_S8192x1_S8192x1024_0_1),
    TRef.unary (TRef.of (T := ⟨S1024, .f32⟩) main_arg3) (TRef.of (T := ⟨S8192x1024, .f32⟩) main_call6_v1) (broadcastInDim S8192x1024 ![1] bcast_S1024_S8192x1024_1),
    TRef.ternary (TRef.of (T := ⟨S8192x1024, .i1⟩) main_call6_v0) (TRef.of (T := ⟨S8192x1024, .f32⟩) main_v58) (TRef.of (T := ⟨S8192x1024, .f32⟩) main_call6_v1) (TRef.of (T := ⟨S8192x1024, .f32⟩) main_v59) select ]

/-- The right condition column and the right start column. -/
abbrev sC : List (HloOp τ sig (Elt F)) :=
  [ nullary main_c_19 (constantI S_ 32 8192#32),
    unary main_c_19 main_v60 (broadcastInDim S8192 ![] bcast_S_S8192 : (⟨S_, .i32⟩ : BufTy).Contents (Elt F) → (⟨S8192, .i32⟩ : BufTy).Contents (Elt F)),
    binary main_v47 main_v60 main_v61 (cmpi .slt : (⟨S8192, .i32⟩ : BufTy).Contents (Elt F) → (⟨S8192, .i32⟩ : BufTy).Contents (Elt F) → (⟨S8192, .i1⟩ : BufTy).Contents (Elt F)),
    unary main_v61 main_v62 (broadcastInDim S8192x1 ![0] bcast_S8192_S8192x1_0 : (⟨S8192, .i1⟩ : BufTy).Contents (Elt F) → (⟨S8192x1, .i1⟩ : BufTy).Contents (Elt F)),
    nullary main_c_20 (constantI S_ 32 0#32),
    nullary main_c_21 (constantI S_ 32 8191#32),
    TRef.unary (TRef.of (T := ⟨S_, .i32⟩) main_c_20) (TRef.of (T := ⟨S_, .i32⟩) main_call7_v0) id,
    TRef.unary (TRef.of (T := ⟨S_, .i32⟩) main_call7_v0) (TRef.of (T := ⟨S8192, .i32⟩) main_call7_v1) (broadcastInDim S8192 ![] bcast_S_S8192),
    TRef.binary (TRef.of (T := ⟨S8192, .i32⟩) main_call7_v1) (TRef.of (T := ⟨S8192, .i32⟩) main_v47) (TRef.of (T := ⟨S8192, .i32⟩) main_call7_v2) maxsi,
    TRef.unary (TRef.of (T := ⟨S_, .i32⟩) main_c_21) (TRef.of (T := ⟨S_, .i32⟩) main_call7_v3) id,
    TRef.unary (TRef.of (T := ⟨S_, .i32⟩) main_call7_v3) (TRef.of (T := ⟨S8192, .i32⟩) main_call7_v4) (broadcastInDim S8192 ![] bcast_S_S8192),
    TRef.binary (TRef.of (T := ⟨S8192, .i32⟩) main_call7_v4) (TRef.of (T := ⟨S8192, .i32⟩) main_call7_v2) (TRef.of (T := ⟨S8192, .i32⟩) main_v63) minsi,
    nullary main_c_22 (constantI S_ 32 0#32),
    unary main_c_22 main_v64 (broadcastInDim S8192 ![] bcast_S_S8192 : (⟨S_, .i32⟩ : BufTy).Contents (Elt F) → (⟨S8192, .i32⟩ : BufTy).Contents (Elt F)),
    binary main_v63 main_v64 main_v65 (cmpi .slt : (⟨S8192, .i32⟩ : BufTy).Contents (Elt F) → (⟨S8192, .i32⟩ : BufTy).Contents (Elt F) → (⟨S8192, .i1⟩ : BufTy).Contents (Elt F)),
    nullary main_c_23 (constantI S_ 32 8192#32),
    unary main_c_23 main_v66 (broadcastInDim S8192 ![] bcast_S_S8192 : (⟨S_, .i32⟩ : BufTy).Contents (Elt F) → (⟨S8192, .i32⟩ : BufTy).Contents (Elt F)),
    binary main_v63 main_v66 main_v67 (addi : (⟨S8192, .i32⟩ : BufTy).Contents (Elt F) → (⟨S8192, .i32⟩ : BufTy).Contents (Elt F) → (⟨S8192, .i32⟩ : BufTy).Contents (Elt F)),
    ternary main_v65 main_v67 main_v63 main_v68 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v68 main_v69 (broadcastInDim S8192x1 ![0] bcast_S8192_S8192x1_0 : (⟨S8192, .i32⟩ : BufTy).Contents (Elt F) → (⟨S8192x1, .i32⟩ : BufTy).Contents (Elt F)) ]

/-- The right shifted copy. -/
abbrev sD : List (HloOp τ sig (Elt F)) :=
  [ binary main_v43 main_v69 main_v70 ((fun x i => Host.gather gather_S8192x1024_S8192x1_S8192x1024_1_0_n_n_0_1_11024 x i) : (⟨S8192x1024, .f32⟩ : BufTy).Contents (Elt F) → (⟨S8192x1, .i32⟩ : BufTy).Contents (Elt F) → (⟨S8192x1024, .f32⟩ : BufTy).Contents (Elt F)),
    TRef.unary (TRef.of (T := ⟨S8192x1, .i1⟩) main_v62) (TRef.of (T := ⟨S8192x1024, .i1⟩) main_call8_v0) (broadcastInDim S8192x1024 ![0, 1] bcast_S8192x1_S8192x1024_0_1),
    TRef.unary (TRef.of (T := ⟨S1024, .f32⟩) main_arg3) (TRef.of (T := ⟨S8192x1024, .f32⟩) main_call8_v1) (broadcastInDim S8192x1024 ![1] bcast_S1024_S8192x1024_1),
    TRef.ternary (TRef.of (T := ⟨S8192x1024, .i1⟩) main_call8_v0) (TRef.of (T := ⟨S8192x1024, .f32⟩) main_v70) (TRef.of (T := ⟨S8192x1024, .f32⟩) main_call8_v1) (TRef.of (T := ⟨S8192x1024, .f32⟩) main_v71) select ]

/-- The joined matrix, the product, the bias, the maximum with zero and the mix with the input. -/
abbrev sE : List (HloOp τ sig (Elt F)) :=
  [ nary ![main_v43, main_v59, main_v71] main_v72 (fun u => concatenate S8192x3072 1 [⟨S8192x1024, u 0⟩, ⟨S8192x1024, u 1⟩, ⟨S8192x1024, u 2⟩] concatenates_S8192x1024_S8192x1024_S8192x1024_S8192x3072_d1),
    nullary main_cst_24 (constant S_ .f32 0x3F000000#32),
    unary main_cst_24 main_v73 (broadcastInDim S8192x1024 ![] bcast_S_S8192x1024 : (⟨S_, .f32⟩ : BufTy).Contents (Elt F) → (⟨S8192x1024, .f32⟩ : BufTy).Contents (Elt F)),
    binary main_v73 main_v43 main_v74 (mulf : (⟨S8192x1024, .f32⟩ : BufTy).Contents (Elt F) → (⟨S8192x1024, .f32⟩ : BufTy).Contents (Elt F) → (⟨S8192x1024, .f32⟩ : BufTy).Contents (Elt F)),
    unary main_arg1 main_v75 ((extractStridedSlice S1x3072x1024 ![1, 0, 0] · slices_S4x3072x1024_S1x3072x1024_1_0_0) : (⟨S4x3072x1024, .f32⟩ : BufTy).Contents (Elt F) → (⟨S1x3072x1024, .f32⟩ : BufTy).Contents (Elt F)),
    reshape main_v75 main_v76 rfl shapeCasts_S1x3072x1024_S3072x1024,
    binary main_v72 main_v76 main_v77 ((fun l r => Host.dotGeneral dot_S8192x3072_S3072x1024_S8192x1024_1_0_0_1_n_n none l r) : (⟨S8192x3072, .f32⟩ : BufTy).Contents (Elt F) → (⟨S3072x1024, .f32⟩ : BufTy).Contents (Elt F) → (⟨S8192x1024, .f32⟩ : BufTy).Contents (Elt F)),
    unary main_arg2 main_v78 ((extractStridedSlice S1x1024 ![1, 0] · slices_S4x1024_S1x1024_1_0) : (⟨S4x1024, .f32⟩ : BufTy).Contents (Elt F) → (⟨S1x1024, .f32⟩ : BufTy).Contents (Elt F)),
    reshape main_v78 main_v79 rfl shapeCasts_S1x1024_S1024,
    unary main_v79 main_v80 (broadcastInDim S1x1024 ![1] bcast_S1024_S1x1024_1 : (⟨S1024, .f32⟩ : BufTy).Contents (Elt F) → (⟨S1x1024, .f32⟩ : BufTy).Contents (Elt F)),
    unary main_v80 main_v81 (broadcastInDim S8192x1024 ![0, 1] bcast_S1x1024_S8192x1024_0_1 : (⟨S1x1024, .f32⟩ : BufTy).Contents (Elt F) → (⟨S8192x1024, .f32⟩ : BufTy).Contents (Elt F)),
    binary main_v77 main_v81 main_v82 (addf : (⟨S8192x1024, .f32⟩ : BufTy).Contents (Elt F) → (⟨S8192x1024, .f32⟩ : BufTy).Contents (Elt F) → (⟨S8192x1024, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S8192x1024, .f32⟩) main_call9_v0) (broadcastInDim S8192x1024 ![] bcast_S_S8192x1024),
    TRef.binary (TRef.of (T := ⟨S8192x1024, .f32⟩) main_v82) (TRef.of (T := ⟨S8192x1024, .f32⟩) main_call9_v0) (TRef.of (T := ⟨S8192x1024, .f32⟩) main_v83) maximumf,
    nullary main_cst_25 (constant S_ .f32 0x3F000000#32),
    unary main_cst_25 main_v84 (broadcastInDim S8192x1024 ![] bcast_S_S8192x1024 : (⟨S_, .f32⟩ : BufTy).Contents (Elt F) → (⟨S8192x1024, .f32⟩ : BufTy).Contents (Elt F)),
    binary main_v84 main_v83 main_v85 (mulf : (⟨S8192x1024, .f32⟩ : BufTy).Contents (Elt F) → (⟨S8192x1024, .f32⟩ : BufTy).Contents (Elt F) → (⟨S8192x1024, .f32⟩ : BufTy).Contents (Elt F)),
    binary main_v74 main_v85 main_v86 (addf : (⟨S8192x1024, .f32⟩ : BufTy).Contents (Elt F) → (⟨S8192x1024, .f32⟩ : BufTy).Contents (Elt F) → (⟨S8192x1024, .f32⟩ : BufTy).Contents (Elt F)) ]

theorem split : (l1 : List (HloOp τ sig (Elt F))) = sA ++ (sB ++ (sC ++ (sD ++ sE))) := rfl

/-! ## The first run -/

set_option maxHeartbeats 4000000 in
theorem sA_cL (W : Valuation τ sig (Elt Ideal)) (hW0 : W (Proc.devRef .tc main_v0) = iotaInDim S8192 32 0) :
    StableHlo.after (sA (F := Ideal)) W (Proc.devRef .tc main_v50) = condL 2#32 := by
  after_results
  rw [hW0]
  rfl

set_option maxHeartbeats 4000000 in
theorem sA_gL (W : Valuation τ sig (Elt Ideal)) (hW0 : W (Proc.devRef .tc main_v0) = iotaInDim S8192 32 0) :
    StableHlo.after (sA (F := Ideal)) W (Proc.devRef .tc main_v57) = startCol (rowMinus 2#32) := by
  after_results
  rw [hW0]
  rfl

set_option maxHeartbeats 4000000 in
theorem sA_rP (W : Valuation τ sig (Elt Ideal)) (hW0 : W (Proc.devRef .tc main_v0) = iotaInDim S8192 32 0) :
    StableHlo.after (sA (F := Ideal)) W (Proc.devRef .tc main_v47) = rowPlus 2#32 := by
  after_results
  rw [hW0]
  rfl

set_option maxHeartbeats 4000000 in
theorem sA_keep_main_v43 (W : Valuation τ sig (Elt Ideal)) :
    StableHlo.after (sA (F := Ideal)) W (Proc.devRef .tc main_v43) = W (Proc.devRef .tc main_v43) := by
  after_results

set_option maxHeartbeats 4000000 in
theorem sA_keep_main_arg1 (W : Valuation τ sig (Elt Ideal)) :
    StableHlo.after (sA (F := Ideal)) W (Proc.devRef .tc main_arg1) = W (Proc.devRef .tc main_arg1) := by
  after_results

set_option maxHeartbeats 4000000 in
theorem sA_keep_main_arg2 (W : Valuation τ sig (Elt Ideal)) :
    StableHlo.after (sA (F := Ideal)) W (Proc.devRef .tc main_arg2) = W (Proc.devRef .tc main_arg2) := by
  after_results

set_option maxHeartbeats 4000000 in
theorem sA_keep_main_arg3 (W : Valuation τ sig (Elt Ideal)) :
    StableHlo.after (sA (F := Ideal)) W (Proc.devRef .tc main_arg3) = W (Proc.devRef .tc main_arg3) := by
  after_results

/-! ## The second run -/

theorem sB_out (W : Valuation τ sig (Elt Ideal)) :
    StableHlo.after (sB (F := Ideal)) W (Proc.devRef .tc main_v59)
      = shifted (W (Proc.devRef .tc main_v50)) (W (Proc.devRef .tc main_v57)) (W (Proc.devRef .tc main_v43)) (W (Proc.devRef .tc main_arg3)) := by
  after_results
  rfl

set_option maxHeartbeats 4000000 in
theorem sB_keep_main_v47 (W : Valuation τ sig (Elt Ideal)) :
    StableHlo.after (sB (F := Ideal)) W (Proc.devRef .tc main_v47) = W (Proc.devRef .tc main_v47) := by
  after_results

set_option maxHeartbeats 4000000 in
theorem sB_keep_main_v43 (W : Valuation τ sig (Elt Ideal)) :
    StableHlo.after (sB (F := Ideal)) W (Proc.devRef .tc main_v43) = W (Proc.devRef .tc main_v43) := by
  after_results

set_option maxHeartbeats 4000000 in
theorem sB_keep_main_arg1 (W : Valuation τ sig (Elt Ideal)) :
    StableHlo.after (sB (F := Ideal)) W (Proc.devRef .tc main_arg1) = W (Proc.devRef .tc main_arg1) := by
  after_results

set_option maxHeartbeats 4000000 in
theorem sB_keep_main_arg2 (W : Valuation τ sig (Elt Ideal)) :
    StableHlo.after (sB (F := Ideal)) W (Proc.devRef .tc main_arg2) = W (Proc.devRef .tc main_arg2) := by
  after_results

set_option maxHeartbeats 4000000 in
theorem sB_keep_main_arg3 (W : Valuation τ sig (Elt Ideal)) :
    StableHlo.after (sB (F := Ideal)) W (Proc.devRef .tc main_arg3) = W (Proc.devRef .tc main_arg3) := by
  after_results

/-! ## The third run -/

set_option maxHeartbeats 4000000 in
theorem sC_cR (W : Valuation τ sig (Elt Ideal)) (hP : W (Proc.devRef .tc main_v47) = rowPlus 2#32) :
    StableHlo.after (sC (F := Ideal)) W (Proc.devRef .tc main_v62) = condR 2#32 := by
  after_results
  rw [hP]
  rfl

set_option maxHeartbeats 4000000 in
theorem sC_gR (W : Valuation τ sig (Elt Ideal)) (hP : W (Proc.devRef .tc main_v47) = rowPlus 2#32) :
    StableHlo.after (sC (F := Ideal)) W (Proc.devRef .tc main_v69) = startCol (rowPlus 2#32) := by
  after_results
  rw [hP]
  rfl

set_option maxHeartbeats 4000000 in
theorem sC_keep_main_v59 (W : Valuation τ sig (Elt Ideal)) :
    StableHlo.after (sC (F := Ideal)) W (Proc.devRef .tc main_v59) = W (Proc.devRef .tc main_v59) := by
  after_results

set_option maxHeartbeats 4000000 in
theorem sC_keep_main_v43 (W : Valuation τ sig (Elt Ideal)) :
    StableHlo.after (sC (F := Ideal)) W (Proc.devRef .tc main_v43) = W (Proc.devRef .tc main_v43) := by
  after_results

set_option maxHeartbeats 4000000 in
theorem sC_keep_main_arg1 (W : Valuation τ sig (Elt Ideal)) :
    StableHlo.after (sC (F := Ideal)) W (Proc.devRef .tc main_arg1) = W (Proc.devRef .tc main_arg1) := by
  after_results

set_option maxHeartbeats 4000000 in
theorem sC_keep_main_arg2 (W : Valuation τ sig (Elt Ideal)) :
    StableHlo.after (sC (F := Ideal)) W (Proc.devRef .tc main_arg2) = W (Proc.devRef .tc main_arg2) := by
  after_results

set_option maxHeartbeats 4000000 in
theorem sC_keep_main_arg3 (W : Valuation τ sig (Elt Ideal)) :
    StableHlo.after (sC (F := Ideal)) W (Proc.devRef .tc main_arg3) = W (Proc.devRef .tc main_arg3) := by
  after_results

/-! ## The fourth run -/

theorem sD_out (W : Valuation τ sig (Elt Ideal)) :
    StableHlo.after (sD (F := Ideal)) W (Proc.devRef .tc main_v71)
      = shifted (W (Proc.devRef .tc main_v62)) (W (Proc.devRef .tc main_v69)) (W (Proc.devRef .tc main_v43)) (W (Proc.devRef .tc main_arg3)) := by
  after_results
  rfl

set_option maxHeartbeats 4000000 in
theorem sD_keep_main_v59 (W : Valuation τ sig (Elt Ideal)) :
    StableHlo.after (sD (F := Ideal)) W (Proc.devRef .tc main_v59) = W (Proc.devRef .tc main_v59) := by
  after_results

set_option maxHeartbeats 4000000 in
theorem sD_keep_main_v43 (W : Valuation τ sig (Elt Ideal)) :
    StableHlo.after (sD (F := Ideal)) W (Proc.devRef .tc main_v43) = W (Proc.devRef .tc main_v43) := by
  after_results

set_option maxHeartbeats 4000000 in
theorem sD_keep_main_arg1 (W : Valuation τ sig (Elt Ideal)) :
    StableHlo.after (sD (F := Ideal)) W (Proc.devRef .tc main_arg1) = W (Proc.devRef .tc main_arg1) := by
  after_results

set_option maxHeartbeats 4000000 in
theorem sD_keep_main_arg2 (W : Valuation τ sig (Elt Ideal)) :
    StableHlo.after (sD (F := Ideal)) W (Proc.devRef .tc main_arg2) = W (Proc.devRef .tc main_arg2) := by
  after_results

set_option maxHeartbeats 4000000 in
theorem sD_keep_main_arg3 (W : Valuation τ sig (Elt Ideal)) :
    StableHlo.after (sD (F := Ideal)) W (Proc.devRef .tc main_arg3) = W (Proc.devRef .tc main_arg3) := by
  after_results

/-! ## The fifth run -/

/-- The layer from its input and its two shifted copies: the three joined, the product with the weights, the bias,
    the maximum with zero, and the half-and-half mix with the input. -/
def mix (X SL SR : FVec Ideal S8192x1024 .f32) (Wl : FVec Ideal S3072x1024 .f32) (Bl : FVec Ideal S1024 .f32) :
    FVec Ideal S8192x1024 .f32 :=
  addf (mulf (broadcastInDim S8192x1024 ![] bcast_S_S8192x1024 (constant (F := Ideal) S_ .f32 0x3F000000#32)) X)
    (mulf (broadcastInDim S8192x1024 ![] bcast_S_S8192x1024 (constant (F := Ideal) S_ .f32 0x3F000000#32))
      (maximumf
        (addf
          (Host.dotGeneral (F := Ideal) dot_S8192x3072_S3072x1024_S8192x1024_1_0_0_1_n_n none
            (concatenate S8192x3072 1 [⟨S8192x1024, X⟩, ⟨S8192x1024, SL⟩, ⟨S8192x1024, SR⟩]
              concatenates_S8192x1024_S8192x1024_S8192x1024_S8192x3072_d1) Wl)
          (broadcastInDim S8192x1024 ![0, 1] bcast_S1x1024_S8192x1024_0_1
            (broadcastInDim S1x1024 ![1] bcast_S1024_S1x1024_1 Bl)))
        (broadcastInDim S8192x1024 ![] bcast_S_S8192x1024 (constant (F := Ideal) S_ .f32 0x00000000#32))))

theorem layerOps_eq_mix (cL cR : IVec S8192x1 1) (gL gR : IVec S8192x1 32) (Wl : FVec Ideal S3072x1024 .f32)
    (Bl : FVec Ideal S1024 .f32) (X : FVec Ideal S8192x1024 .f32) (O : FVec Ideal S1024 .f32) :
    layerOps cL cR gL gR Wl Bl X O = mix X (shifted cL gL X O) (shifted cR gR X O) Wl Bl := rfl

set_option maxHeartbeats 4000000 in
theorem sE_out (W : Valuation τ sig (Elt Ideal)) :
    StableHlo.after (sE (F := Ideal)) W (Proc.devRef .tc main_v86)
      = mix (W (Proc.devRef .tc main_v43)) (W (Proc.devRef .tc main_v59)) (W (Proc.devRef .tc main_v71))
          (shapeCast S3072x1024 (extractStridedSlice S1x3072x1024 ![1, 0, 0] (W (Proc.devRef .tc main_arg1)) slices_S4x3072x1024_S1x3072x1024_1_0_0) shapeCasts_S1x3072x1024_S3072x1024)
          (shapeCast S1024 (extractStridedSlice S1x1024 ![1, 0] (W (Proc.devRef .tc main_arg2)) slices_S4x1024_S1x1024_1_0) shapeCasts_S1x1024_S1024) := by
  after_results
  rfl

end Cert.Dilated.Ref.Stretch1

namespace Cert.Dilated.Ref

open Idealize.ShloMosaic Idealize.ShloMosaic.TcCoe Idealize.ShloMosaic.ValueIdx Idealize.ShloMosaic.StableHlo
open Idealize.SL.Sem
open Cert.ReferenceIdeal Cert.ReferenceIdeal.Gen Cert.ReferenceIdeal.ValueP

/-- The second layer's operations, from any contents in which the row counter's buffer holds the row counter, leave in
    the layer's output buffer the layer of its ingredients: the columns for dilation 2, layer 1's slices of the weights and
    biases, the input buffer's contents and the out-of-bounds row. -/
theorem stretch1_ops (V : Valuation τ sig (Elt Ideal)) (hV0 : V (Proc.devRef .tc main_v0) = iotaInDim S8192 32 0) :
    StableHlo.after (l1 (F := Ideal)) V (Proc.devRef .tc main_v86)
      = layerOps (condL 2#32) (condR 2#32) (startCol (rowMinus 2#32)) (startCol (rowPlus 2#32))
          (shapeCast S3072x1024 (extractStridedSlice S1x3072x1024 ![1, 0, 0] (V (Proc.devRef .tc main_arg1)) slices_S4x3072x1024_S1x3072x1024_1_0_0) shapeCasts_S1x3072x1024_S3072x1024)
          (shapeCast S1024 (extractStridedSlice S1x1024 ![1, 0] (V (Proc.devRef .tc main_arg2)) slices_S4x1024_S1x1024_1_0) shapeCasts_S1x1024_S1024)
          (V (Proc.devRef .tc main_v43)) (V (Proc.devRef .tc main_arg3)) := by
  rw [Stretch1.split, after_append, after_append, after_append, after_append]
  -- the contents after each run, named, with what later runs read of them
  have a_cL := Stretch1.sA_cL V hV0
  have a_gL := Stretch1.sA_gL V hV0
  have a_rP := Stretch1.sA_rP V hV0
  have a_in := Stretch1.sA_keep_main_v43 V
  have a_1 := Stretch1.sA_keep_main_arg1 V
  have a_2 := Stretch1.sA_keep_main_arg2 V
  have a_3 := Stretch1.sA_keep_main_arg3 V
  generalize StableHlo.after (Stretch1.sA (F := Ideal)) V = W1 at *
  have b_out := Stretch1.sB_out W1
  rw [a_cL, a_gL, a_in, a_3] at b_out
  have b_rP := (Stretch1.sB_keep_main_v47 W1).trans a_rP
  have b_in := (Stretch1.sB_keep_main_v43 W1).trans a_in
  have b_1 := (Stretch1.sB_keep_main_arg1 W1).trans a_1
  have b_2 := (Stretch1.sB_keep_main_arg2 W1).trans a_2
  have b_3 := (Stretch1.sB_keep_main_arg3 W1).trans a_3
  generalize StableHlo.after (Stretch1.sB (F := Ideal)) W1 = W2 at *
  have c_cR := Stretch1.sC_cR W2 b_rP
  have c_gR := Stretch1.sC_gR W2 b_rP
  have c_sL := (Stretch1.sC_keep_main_v59 W2).trans b_out
  have c_in := (Stretch1.sC_keep_main_v43 W2).trans b_in
  have c_1 := (Stretch1.sC_keep_main_arg1 W2).trans b_1
  have c_2 := (Stretch1.sC_keep_main_arg2 W2).trans b_2
  have c_3 := (Stretch1.sC_keep_main_arg3 W2).trans b_3
  generalize StableHlo.after (Stretch1.sC (F := Ideal)) W2 = W3 at *
  have d_out := Stretch1.sD_out W3
  rw [c_cR, c_gR, c_in, c_3] at d_out
  have d_sL := (Stretch1.sD_keep_main_v59 W3).trans c_sL
  have d_in := (Stretch1.sD_keep_main_v43 W3).trans c_in
  have d_1 := (Stretch1.sD_keep_main_arg1 W3).trans c_1
  have d_2 := (Stretch1.sD_keep_main_arg2 W3).trans c_2
  have d_3 := (Stretch1.sD_keep_main_arg3 W3).trans c_3
  generalize StableHlo.after (Stretch1.sD (F := Ideal)) W3 = W4 at *
  rw [Stretch1.sE_out W4, d_sL, d_out, d_in, d_1, d_2]
  exact (Stretch1.layerOps_eq_mix _ _ _ _ _ _ _ _).symm

/-- So the second layer's operations compute the specification's layer 1 (dilation 2) of the input buffer's contents,
    the weights, the biases and the out-of-bounds row. -/
theorem stretch1_out (V : Valuation τ sig (Elt Ideal)) (hV0 : V (Proc.devRef .tc main_v0) = iotaInDim S8192 32 0) :
    StableHlo.after (l1 (F := Ideal)) V (Proc.devRef .tc main_v86)
      = Cert.Dilated.layer 2 1 (V (Proc.devRef .tc main_v43)) (V (Proc.devRef .tc main_arg1)) (V (Proc.devRef .tc main_arg2)) (V (Proc.devRef .tc main_arg3)) :=
  (stretch1_ops V hV0).trans (layerOps_eq 2 1 _ _ _ _ _ _ _ _ _ _
    (fun r => condL_apply 2 (by omega) r) (fun r _ => startL_apply 2 (by omega) r)
    (fun r => condR_apply 2 (by omega) r)
    (fun r h => (startR_apply 2 (by omega) r).trans (Nat.min_eq_left (by omega)))
    (fun q k => weightSlice_apply 1 ![1, 0, 0] rfl rfl rfl slices_S4x3072x1024_S1x3072x1024_1_0_0 _ q k)
    (fun k => biasSlice_apply 1 ![1, 0] rfl rfl slices_S4x1024_S1x1024_1_0 _ k))

end Cert.Dilated.Ref

end
-- ==== Proof.RefStretch2.lean ====
/-
  The third layer of the reference (dilation 4), read as one function of what it is handed.

  The layer's 73 host operations are read in five runs, each from arbitrary contents of the buffers: the row
  counter minus and plus the dilation with the left condition column and the left start column; the left shifted copy
  (rows gathered at the start column where the condition holds, the out-of-bounds row elsewhere); the right condition
  and start columns; the right shifted copy; and the rest — the three matrices joined, the product with the layer's
  weights, the bias, the maximum with zero and the half-and-half mix with the layer's input. A run leaves every buffer
  it does not write as it found it, so the five compose to the layer as a function of its ingredients.
-/
import proofs.«137995_j86517821215731_2_alg».proof.Proof.RefOps
import proofs.«137995_j86517821215731_2_alg».proof.Proof.RefCols
import proofs.«137995_j86517821215731_2_alg».proof.Proof.RefLayer
import proofs.«137995_j86517821215731_2_alg».proof.Proof.LibAfterAppend
import Idealize.ShloMosaic.Lib.StableHlo.Run

set_option maxRecDepth 16384

noncomputable section

namespace Cert.Dilated.Ref.Stretch2

open Idealize.ShloMosaic Idealize.ShloMosaic.TcCoe Idealize.ShloMosaic.ValueIdx Idealize.ShloMosaic.StableHlo
open Idealize.SL.Sem
open Cert.ReferenceIdeal Cert.ReferenceIdeal.Gen Cert.ReferenceIdeal.ValueP Cert.Dilated.Ref

variable {F : FTy → Type} [FloatOps F]

/-- The row counter minus and plus the dilation, the left condition column and the left start column. -/
abbrev sA : List (HloOp τ sig (Elt F)) :=
  [ nullary main_c_26 (constantI S_ 32 4#32),
    unary main_c_26 main_v87 (broadcastInDim S8192 ![] bcast_S_S8192 : (⟨S_, .i32⟩ : BufTy).Contents (Elt F) → (⟨S8192, .i32⟩ : BufTy).Contents (Elt F)),
    binary main_v0 main_v87 main_v88 (subi : (⟨S8192, .i32⟩ : BufTy).Contents (Elt F) → (⟨S8192, .i32⟩ : BufTy).Contents (Elt F) → (⟨S8192, .i32⟩ : BufTy).Contents (Elt F)),
    nullary main_c_27 (constantI S_ 32 4#32),
    unary main_c_27 main_v89 (broadcastInDim S8192 ![] bcast_S_S8192 : (⟨S_, .i32⟩ : BufTy).Contents (Elt F) → (⟨S8192, .i32⟩ : BufTy).Contents (Elt F)),
    binary main_v0 main_v89 main_v90 (addi : (⟨S8192, .i32⟩ : BufTy).Contents (Elt F) → (⟨S8192, .i32⟩ : BufTy).Contents (Elt F) → (⟨S8192, .i32⟩ : BufTy).Contents (Elt F)),
    nullary main_c_28 (constantI S_ 32 0#32),
    unary main_c_28 main_v91 (broadcastInDim S8192 ![] bcast_S_S8192 : (⟨S_, .i32⟩ : BufTy).Contents (Elt F) → (⟨S8192, .i32⟩ : BufTy).Contents (Elt F)),
    binary main_v88 main_v91 main_v92 (cmpi .sge : (⟨S8192, .i32⟩ : BufTy).Contents (Elt F) → (⟨S8192, .i32⟩ : BufTy).Contents (Elt F) → (⟨S8192, .i1⟩ : BufTy).Contents (Elt F)),
    unary main_v92 main_v93 (broadcastInDim S8192x1 ![0] bcast_S8192_S8192x1_0 : (⟨S8192, .i1⟩ : BufTy).Contents (Elt F) → (⟨S8192x1, .i1⟩ : BufTy).Contents (Elt F)),
    nullary main_c_29 (constantI S_ 32 0#32),
    nullary main_c_30 (constantI S_ 32 8191#32),
    TRef.unary (TRef.of (T := ⟨S_, .i32⟩) main_c_29) (TRef.of (T := ⟨S_, .i32⟩) main_call10_v0) id,
    TRef.unary (TRef.of (T := ⟨S_, .i32⟩) main_call10_v0) (TRef.of (T := ⟨S8192, .i32⟩) main_call10_v1) (broadcastInDim S8192 ![] bcast_S_S8192),
    TRef.binary (TRef.of (T := ⟨S8192, .i32⟩) main_call10_v1) (TRef.of (T := ⟨S8192, .i32⟩) main_v88) (TRef.of (T := ⟨S8192, .i32⟩) main_call10_v2) maxsi,
    TRef.unary (TRef.of (T := ⟨S_, .i32⟩) main_c_30) (TRef.of (T := ⟨S_, .i32⟩) main_call10_v3) id,
    TRef.unary (TRef.of (T := ⟨S_, .i32⟩) main_call10_v3) (TRef.of (T := ⟨S8192, .i32⟩) main_call10_v4) (broadcastInDim S8192 ![] bcast_S_S8192),
    TRef.binary (TRef.of (T := ⟨S8192, .i32⟩) main_call10_v4) (TRef.of (T := ⟨S8192, .i32⟩) main_call10_v2) (TRef.of (T := ⟨S8192, .i32⟩) main_v94) minsi,
    nullary main_c_31 (constantI S_ 32 0#32),
    unary main_c_31 main_v95 (broadcastInDim S8192 ![] bcast_S_S8192 : (⟨S_, .i32⟩ : BufTy).Contents (Elt F) → (⟨S8192, .i32⟩ : BufTy).Contents (Elt F)),
    binary main_v94 main_v95 main_v96 (cmpi .slt : (⟨S8192, .i32⟩ : BufTy).Contents (Elt F) → (⟨S8192, .i32⟩ : BufTy).Contents (Elt F) → (⟨S8192, .i1⟩ : BufTy).Contents (Elt F)),
    nullary main_c_32 (constantI S_ 32 8192#32),
    unary main_c_32 main_v97 (broadcastInDim S8192 ![] bcast_S_S8192 : (⟨S_, .i32⟩ : BufTy).Contents (Elt F) → (⟨S8192, .i32⟩ : BufTy).Contents (Elt F)),
    binary main_v94 main_v97 main_v98 (addi : (⟨S8192, .i32⟩ : BufTy).Contents (Elt F) → (⟨S8192, .i32⟩ : BufTy).Contents (Elt F) → (⟨S8192, .i32⟩ : BufTy).Contents (Elt F)),
    ternary main_v96 main_v98 main_v94 main_v99 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v99 main_v100 (broadcastInDim S8192x1 ![0] bcast_S8192_S8192x1_0 : (⟨S8192, .i32⟩ : BufTy).Contents (Elt F) → (⟨S8192x1, .i32⟩ : BufTy).Contents (Elt F)) ]

/-- The left shifted copy. -/
abbrev sB : List (HloOp τ sig (Elt F)) :=
  [ binary main_v86 main_v100 main_v101 ((fun x i => Host.gather gather_S8192x1024_S8192x1_S8192x1024_1_0_n_n_0_1_11024 x i) : (⟨S8192x1024, .f32⟩ : BufTy).Contents (Elt F) → (⟨S8192x1, .i32⟩ : BufTy).Contents (Elt F) → (⟨S8192x1024, .f32⟩ : BufTy).Contents (Elt F)),
    TRef.unary (TRef.of (T := ⟨S8192x1, .i1⟩) main_v93) (TRef.of (T := ⟨S8192x1024, .i1⟩) main_call11_v0) (broadcastInDim S8192x1024 ![0, 1] bcast_S8192x1_S8192x1024_0_1),
    TRef.unary (TRef.of (T := ⟨S1024, .f32⟩) main_arg3) (TRef.of (T := ⟨S8192x1024, .f32⟩) main_call11_v1) (broadcastInDim S8192x1024 ![1] bcast_S1024_S8192x1024_1),
    TRef.ternary (TRef.of (T := ⟨S8192x1024, .i1⟩) main_call11_v0) (TRef.of (T := ⟨S8192x1024, .f32⟩) main_v101) (TRef.of (T := ⟨S8192x1024, .f32⟩) main_call11_v1) (TRef.of (T := ⟨S8192x1024, .f32⟩) main_v102) select ]

/-- The right condition column and the right start column. -/
abbrev sC : List (HloOp τ sig (Elt F)) :=
  [ nullary main_c_33 (constantI S_ 32 8192#32),
    unary main_c_33 main_v103 (broadcastInDim S8192 ![] bcast_S_S8192 : (⟨S_, .i32⟩ : BufTy).Contents (Elt F) → (⟨S8192, .i32⟩ : BufTy).Contents (Elt F)),
    binary main_v90 main_v103 main_v104 (cmpi .slt : (⟨S8192, .i32⟩ : BufTy).Contents (Elt F) → (⟨S8192, .i32⟩ : BufTy).Contents (Elt F) → (⟨S8192, .i1⟩ : BufTy).Contents (Elt F)),
    unary main_v104 main_v105 (broadcastInDim S8192x1 ![0] bcast_S8192_S8192x1_0 : (⟨S8192, .i1⟩ : BufTy).Contents (Elt F) → (⟨S8192x1, .i1⟩ : BufTy).Contents (Elt F)),
    nullary main_c_34 (constantI S_ 32 0#32),
    nullary main_c_35 (constantI S_ 32 8191#32),
    TRef.unary (TRef.of (T := ⟨S_, .i32⟩) main_c_34) (TRef.of (T := ⟨S_, .i32⟩) main_call12_v0) id,
    TRef.unary (TRef.of (T := ⟨S_, .i32⟩) main_call12_v0) (TRef.of (T := ⟨S8192, .i32⟩) main_call12_v1) (broadcastInDim S8192 ![] bcast_S_S8192),
    TRef.binary (TRef.of (T := ⟨S8192, .i32⟩) main_call12_v1) (TRef.of (T := ⟨S8192, .i32⟩) main_v90) (TRef.of (T := ⟨S8192, .i32⟩) main_call12_v2) maxsi,
    TRef.unary (TRef.of (T := ⟨S_, .i32⟩) main_c_35) (TRef.of (T := ⟨S_, .i32⟩) main_call12_v3) id,
    TRef.unary (TRef.of (T := ⟨S_, .i32⟩) main_call12_v3) (TRef.of (T := ⟨S8192, .i32⟩) main_call12_v4) (broadcastInDim S8192 ![] bcast_S_S8192),
    TRef.binary (TRef.of (T := ⟨S8192, .i32⟩) main_call12_v4) (TRef.of (T := ⟨S8192, .i32⟩) main_call12_v2) (TRef.of (T := ⟨S8192, .i32⟩) main_v106) minsi,
    nullary main_c_36 (constantI S_ 32 0#32),
    unary main_c_36 main_v107 (broadcastInDim S8192 ![] bcast_S_S8192 : (⟨S_, .i32⟩ : BufTy).Contents (Elt F) → (⟨S8192, .i32⟩ : BufTy).Contents (Elt F)),
    binary main_v106 main_v107 main_v108 (cmpi .slt : (⟨S8192, .i32⟩ : BufTy).Contents (Elt F) → (⟨S8192, .i32⟩ : BufTy).Contents (Elt F) → (⟨S8192, .i1⟩ : BufTy).Contents (Elt F)),
    nullary main_c_37 (constantI S_ 32 8192#32),
    unary main_c_37 main_v109 (broadcastInDim S8192 ![] bcast_S_S8192 : (⟨S_, .i32⟩ : BufTy).Contents (Elt F) → (⟨S8192, .i32⟩ : BufTy).Contents (Elt F)),
    binary main_v106 main_v109 main_v110 (addi : (⟨S8192, .i32⟩ : BufTy).Contents (Elt F) → (⟨S8192, .i32⟩ : BufTy).Contents (Elt F) → (⟨S8192, .i32⟩ : BufTy).Contents (Elt F)),
    ternary main_v108 main_v110 main_v106 main_v111 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v111 main_v112 (broadcastInDim S8192x1 ![0] bcast_S8192_S8192x1_0 : (⟨S8192, .i32⟩ : BufTy).Contents (Elt F) → (⟨S8192x1, .i32⟩ : BufTy).Contents (Elt F)) ]

/-- The right shifted copy. -/
abbrev sD : List (HloOp τ sig (Elt F)) :=
  [ binary main_v86 main_v112 main_v113 ((fun x i => Host.gather gather_S8192x1024_S8192x1_S8192x1024_1_0_n_n_0_1_11024 x i) : (⟨S8192x1024, .f32⟩ : BufTy).Contents (Elt F) → (⟨S8192x1, .i32⟩ : BufTy).Contents (Elt F) → (⟨S8192x1024, .f32⟩ : BufTy).Contents (Elt F)),
    TRef.unary (TRef.of (T := ⟨S8192x1, .i1⟩) main_v105) (TRef.of (T := ⟨S8192x1024, .i1⟩) main_call13_v0) (broadcastInDim S8192x1024 ![0, 1] bcast_S8192x1_S8192x1024_0_1),
    TRef.unary (TRef.of (T := ⟨S1024, .f32⟩) main_arg3) (TRef.of (T := ⟨S8192x1024, .f32⟩) main_call13_v1) (broadcastInDim S8192x1024 ![1] bcast_S1024_S8192x1024_1),
    TRef.ternary (TRef.of (T := ⟨S8192x1024, .i1⟩) main_call13_v0) (TRef.of (T := ⟨S8192x1024, .f32⟩) main_v113) (TRef.of (T := ⟨S8192x1024, .f32⟩) main_call13_v1) (TRef.of (T := ⟨S8192x1024, .f32⟩) main_v114) select ]

/-- The joined matrix, the product, the bias, the maximum with zero and the mix with the input. -/
abbrev sE : List (HloOp τ sig (Elt F)) :=
  [ nary ![main_v86, main_v102, main_v114] main_v115 (fun u => concatenate S8192x3072 1 [⟨S8192x1024, u 0⟩, ⟨S8192x1024, u 1⟩, ⟨S8192x1024, u 2⟩] concatenates_S8192x1024_S8192x1024_S8192x1024_S8192x3072_d1),
    nullary main_cst_38 (constant S_ .f32 0x3F000000#32),
    unary main_cst_38 main_v116 (broadcastInDim S8192x1024 ![] bcast_S_S8192x1024 : (⟨S_, .f32⟩ : BufTy).Contents (Elt F) → (⟨S8192x1024, .f32⟩ : BufTy).Contents (Elt F)),
    binary main_v116 main_v86 main_v117 (mulf : (⟨S8192x1024, .f32⟩ : BufTy).Contents (Elt F) → (⟨S8192x1024, .f32⟩ : BufTy).Contents (Elt F) → (⟨S8192x1024, .f32⟩ : BufTy).Contents (Elt F)),
    unary main_arg1 main_v118 ((extractStridedSlice S1x3072x1024 ![2, 0, 0] · slices_S4x3072x1024_S1x3072x1024_2_0_0) : (⟨S4x3072x1024, .f32⟩ : BufTy).Contents (Elt F) → (⟨S1x3072x1024, .f32⟩ : BufTy).Contents (Elt F)),
    reshape main_v118 main_v119 rfl shapeCasts_S1x3072x1024_S3072x1024,
    binary main_v115 main_v119 main_v120 ((fun l r => Host.dotGeneral dot_S8192x3072_S3072x1024_S8192x1024_1_0_0_1_n_n none l r) : (⟨S8192x3072, .f32⟩ : BufTy).Contents (Elt F) → (⟨S3072x1024, .f32⟩ : BufTy).Contents (Elt F) → (⟨S8192x1024, .f32⟩ : BufTy).Contents (Elt F)),
    unary main_arg2 main_v121 ((extractStridedSlice S1x1024 ![2, 0] · slices_S4x1024_S1x1024_2_0) : (⟨S4x1024, .f32⟩ : BufTy).Contents (Elt F) → (⟨S1x1024, .f32⟩ : BufTy).Contents (Elt F)),
    reshape main_v121 main_v122 rfl shapeCasts_S1x1024_S1024,
    unary main_v122 main_v123 (broadcastInDim S1x1024 ![1] bcast_S1024_S1x1024_1 : (⟨S1024, .f32⟩ : BufTy).Contents (Elt F) → (⟨S1x1024, .f32⟩ : BufTy).Contents (Elt F)),
    unary main_v123 main_v124 (broadcastInDim S8192x1024 ![0, 1] bcast_S1x1024_S8192x1024_0_1 : (⟨S1x1024, .f32⟩ : BufTy).Contents (Elt F) → (⟨S8192x1024, .f32⟩ : BufTy).Contents (Elt F)),
    binary main_v120 main_v124 main_v125 (addf : (⟨S8192x1024, .f32⟩ : BufTy).Contents (Elt F) → (⟨S8192x1024, .f32⟩ : BufTy).Contents (Elt F) → (⟨S8192x1024, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S8192x1024, .f32⟩) main_call14_v0) (broadcastInDim S8192x1024 ![] bcast_S_S8192x1024),
    TRef.binary (TRef.of (T := ⟨S8192x1024, .f32⟩) main_v125) (TRef.of (T := ⟨S8192x1024, .f32⟩) main_call14_v0) (TRef.of (T := ⟨S8192x1024, .f32⟩) main_v126) maximumf,
    nullary main_cst_39 (constant S_ .f32 0x3F000000#32),
    unary main_cst_39 main_v127 (broadcastInDim S8192x1024 ![] bcast_S_S8192x1024 : (⟨S_, .f32⟩ : BufTy).Contents (Elt F) → (⟨S8192x1024, .f32⟩ : BufTy).Contents (Elt F)),
    binary main_v127 main_v126 main_v128 (mulf : (⟨S8192x1024, .f32⟩ : BufTy).Contents (Elt F) → (⟨S8192x1024, .f32⟩ : BufTy).Contents (Elt F) → (⟨S8192x1024, .f32⟩ : BufTy).Contents (Elt F)),
    binary main_v117 main_v128 main_v129 (addf : (⟨S8192x1024, .f32⟩ : BufTy).Contents (Elt F) → (⟨S8192x1024, .f32⟩ : BufTy).Contents (Elt F) → (⟨S8192x1024, .f32⟩ : BufTy).Contents (Elt F)) ]

theorem split : (l2 : List (HloOp τ sig (Elt F))) = sA ++ (sB ++ (sC ++ (sD ++ sE))) := rfl

/-! ## The first run -/

set_option maxHeartbeats 4000000 in
theorem sA_cL (W : Valuation τ sig (Elt Ideal)) (hW0 : W (Proc.devRef .tc main_v0) = iotaInDim S8192 32 0) :
    StableHlo.after (sA (F := Ideal)) W (Proc.devRef .tc main_v93) = condL 4#32 := by
  after_results
  rw [hW0]
  rfl

set_option maxHeartbeats 4000000 in
theorem sA_gL (W : Valuation τ sig (Elt Ideal)) (hW0 : W (Proc.devRef .tc main_v0) = iotaInDim S8192 32 0) :
    StableHlo.after (sA (F := Ideal)) W (Proc.devRef .tc main_v100) = startCol (rowMinus 4#32) := by
  after_results
  rw [hW0]
  rfl

set_option maxHeartbeats 4000000 in
theorem sA_rP (W : Valuation τ sig (Elt Ideal)) (hW0 : W (Proc.devRef .tc main_v0) = iotaInDim S8192 32 0) :
    StableHlo.after (sA (F := Ideal)) W (Proc.devRef .tc main_v90) = rowPlus 4#32 := by
  after_results
  rw [hW0]
  rfl

set_option maxHeartbeats 4000000 in
theorem sA_keep_main_v86 (W : Valuation τ sig (Elt Ideal)) :
    StableHlo.after (sA (F := Ideal)) W (Proc.devRef .tc main_v86) = W (Proc.devRef .tc main_v86) := by
  after_results

set_option maxHeartbeats 4000000 in
theorem sA_keep_main_arg1 (W : Valuation τ sig (Elt Ideal)) :
    StableHlo.after (sA (F := Ideal)) W (Proc.devRef .tc main_arg1) = W (Proc.devRef .tc main_arg1) := by
  after_results

set_option maxHeartbeats 4000000 in
theorem sA_keep_main_arg2 (W : Valuation τ sig (Elt Ideal)) :
    StableHlo.after (sA (F := Ideal)) W (Proc.devRef .tc main_arg2) = W (Proc.devRef .tc main_arg2) := by
  after_results

set_option maxHeartbeats 4000000 in
theorem sA_keep_main_arg3 (W : Valuation τ sig (Elt Ideal)) :
    StableHlo.after (sA (F := Ideal)) W (Proc.devRef .tc main_arg3) = W (Proc.devRef .tc main_arg3) := by
  after_results

/-! ## The second run -/

theorem sB_out (W : Valuation τ sig (Elt Ideal)) :
    StableHlo.after (sB (F := Ideal)) W (Proc.devRef .tc main_v102)
      = shifted (W (Proc.devRef .tc main_v93)) (W (Proc.devRef .tc main_v100)) (W (Proc.devRef .tc main_v86)) (W (Proc.devRef .tc main_arg3)) := by
  after_results
  rfl

set_option maxHeartbeats 4000000 in
theorem sB_keep_main_v90 (W : Valuation τ sig (Elt Ideal)) :
    StableHlo.after (sB (F := Ideal)) W (Proc.devRef .tc main_v90) = W (Proc.devRef .tc main_v90) := by
  after_results

set_option maxHeartbeats 4000000 in
theorem sB_keep_main_v86 (W : Valuation τ sig (Elt Ideal)) :
    StableHlo.after (sB (F := Ideal)) W (Proc.devRef .tc main_v86) = W (Proc.devRef .tc main_v86) := by
  after_results

set_option maxHeartbeats 4000000 in
theorem sB_keep_main_arg1 (W : Valuation τ sig (Elt Ideal)) :
    StableHlo.after (sB (F := Ideal)) W (Proc.devRef .tc main_arg1) = W (Proc.devRef .tc main_arg1) := by
  after_results

set_option maxHeartbeats 4000000 in
theorem sB_keep_main_arg2 (W : Valuation τ sig (Elt Ideal)) :
    StableHlo.after (sB (F := Ideal)) W (Proc.devRef .tc main_arg2) = W (Proc.devRef .tc main_arg2) := by
  after_results

set_option maxHeartbeats 4000000 in
theorem sB_keep_main_arg3 (W : Valuation τ sig (Elt Ideal)) :
    StableHlo.after (sB (F := Ideal)) W (Proc.devRef .tc main_arg3) = W (Proc.devRef .tc main_arg3) := by
  after_results

/-! ## The third run -/

set_option maxHeartbeats 4000000 in
theorem sC_cR (W : Valuation τ sig (Elt Ideal)) (hP : W (Proc.devRef .tc main_v90) = rowPlus 4#32) :
    StableHlo.after (sC (F := Ideal)) W (Proc.devRef .tc main_v105) = condR 4#32 := by
  after_results
  rw [hP]
  rfl

set_option maxHeartbeats 4000000 in
theorem sC_gR (W : Valuation τ sig (Elt Ideal)) (hP : W (Proc.devRef .tc main_v90) = rowPlus 4#32) :
    StableHlo.after (sC (F := Ideal)) W (Proc.devRef .tc main_v112) = startCol (rowPlus 4#32) := by
  after_results
  rw [hP]
  rfl

set_option maxHeartbeats 4000000 in
theorem sC_keep_main_v102 (W : Valuation τ sig (Elt Ideal)) :
    StableHlo.after (sC (F := Ideal)) W (Proc.devRef .tc main_v102) = W (Proc.devRef .tc main_v102) := by
  after_results

set_option maxHeartbeats 4000000 in
theorem sC_keep_main_v86 (W : Valuation τ sig (Elt Ideal)) :
    StableHlo.after (sC (F := Ideal)) W (Proc.devRef .tc main_v86) = W (Proc.devRef .tc main_v86) := by
  after_results

set_option maxHeartbeats 4000000 in
theorem sC_keep_main_arg1 (W : Valuation τ sig (Elt Ideal)) :
    StableHlo.after (sC (F := Ideal)) W (Proc.devRef .tc main_arg1) = W (Proc.devRef .tc main_arg1) := by
  after_results

set_option maxHeartbeats 4000000 in
theorem sC_keep_main_arg2 (W : Valuation τ sig (Elt Ideal)) :
    StableHlo.after (sC (F := Ideal)) W (Proc.devRef .tc main_arg2) = W (Proc.devRef .tc main_arg2) := by
  after_results

set_option maxHeartbeats 4000000 in
theorem sC_keep_main_arg3 (W : Valuation τ sig (Elt Ideal)) :
    StableHlo.after (sC (F := Ideal)) W (Proc.devRef .tc main_arg3) = W (Proc.devRef .tc main_arg3) := by
  after_results

/-! ## The fourth run -/

theorem sD_out (W : Valuation τ sig (Elt Ideal)) :
    StableHlo.after (sD (F := Ideal)) W (Proc.devRef .tc main_v114)
      = shifted (W (Proc.devRef .tc main_v105)) (W (Proc.devRef .tc main_v112)) (W (Proc.devRef .tc main_v86)) (W (Proc.devRef .tc main_arg3)) := by
  after_results
  rfl

set_option maxHeartbeats 4000000 in
theorem sD_keep_main_v102 (W : Valuation τ sig (Elt Ideal)) :
    StableHlo.after (sD (F := Ideal)) W (Proc.devRef .tc main_v102) = W (Proc.devRef .tc main_v102) := by
  after_results

set_option maxHeartbeats 4000000 in
theorem sD_keep_main_v86 (W : Valuation τ sig (Elt Ideal)) :
    StableHlo.after (sD (F := Ideal)) W (Proc.devRef .tc main_v86) = W (Proc.devRef .tc main_v86) := by
  after_results

set_option maxHeartbeats 4000000 in
theorem sD_keep_main_arg1 (W : Valuation τ sig (Elt Ideal)) :
    StableHlo.after (sD (F := Ideal)) W (Proc.devRef .tc main_arg1) = W (Proc.devRef .tc main_arg1) := by
  after_results

set_option maxHeartbeats 4000000 in
theorem sD_keep_main_arg2 (W : Valuation τ sig (Elt Ideal)) :
    StableHlo.after (sD (F := Ideal)) W (Proc.devRef .tc main_arg2) = W (Proc.devRef .tc main_arg2) := by
  after_results

set_option maxHeartbeats 4000000 in
theorem sD_keep_main_arg3 (W : Valuation τ sig (Elt Ideal)) :
    StableHlo.after (sD (F := Ideal)) W (Proc.devRef .tc main_arg3) = W (Proc.devRef .tc main_arg3) := by
  after_results

/-! ## The fifth run -/

/-- The layer from its input and its two shifted copies: the three joined, the product with the weights, the bias,
    the maximum with zero, and the half-and-half mix with the input. -/
def mix (X SL SR : FVec Ideal S8192x1024 .f32) (Wl : FVec Ideal S3072x1024 .f32) (Bl : FVec Ideal S1024 .f32) :
    FVec Ideal S8192x1024 .f32 :=
  addf (mulf (broadcastInDim S8192x1024 ![] bcast_S_S8192x1024 (constant (F := Ideal) S_ .f32 0x3F000000#32)) X)
    (mulf (broadcastInDim S8192x1024 ![] bcast_S_S8192x1024 (constant (F := Ideal) S_ .f32 0x3F000000#32))
      (maximumf
        (addf
          (Host.dotGeneral (F := Ideal) dot_S8192x3072_S3072x1024_S8192x1024_1_0_0_1_n_n none
            (concatenate S8192x3072 1 [⟨S8192x1024, X⟩, ⟨S8192x1024, SL⟩, ⟨S8192x1024, SR⟩]
              concatenates_S8192x1024_S8192x1024_S8192x1024_S8192x3072_d1) Wl)
          (broadcastInDim S8192x1024 ![0, 1] bcast_S1x1024_S8192x1024_0_1
            (broadcastInDim S1x1024 ![1] bcast_S1024_S1x1024_1 Bl)))
        (broadcastInDim S8192x1024 ![] bcast_S_S8192x1024 (constant (F := Ideal) S_ .f32 0x00000000#32))))

theorem layerOps_eq_mix (cL cR : IVec S8192x1 1) (gL gR : IVec S8192x1 32) (Wl : FVec Ideal S3072x1024 .f32)
    (Bl : FVec Ideal S1024 .f32) (X : FVec Ideal S8192x1024 .f32) (O : FVec Ideal S1024 .f32) :
    layerOps cL cR gL gR Wl Bl X O = mix X (shifted cL gL X O) (shifted cR gR X O) Wl Bl := rfl

set_option maxHeartbeats 4000000 in
theorem sE_out (W : Valuation τ sig (Elt Ideal)) :
    StableHlo.after (sE (F := Ideal)) W (Proc.devRef .tc main_v129)
      = mix (W (Proc.devRef .tc main_v86)) (W (Proc.devRef .tc main_v102)) (W (Proc.devRef .tc main_v114))
          (shapeCast S3072x1024 (extractStridedSlice S1x3072x1024 ![2, 0, 0] (W (Proc.devRef .tc main_arg1)) slices_S4x3072x1024_S1x3072x1024_2_0_0) shapeCasts_S1x3072x1024_S3072x1024)
          (shapeCast S1024 (extractStridedSlice S1x1024 ![2, 0] (W (Proc.devRef .tc main_arg2)) slices_S4x1024_S1x1024_2_0) shapeCasts_S1x1024_S1024) := by
  after_results
  rfl

end Cert.Dilated.Ref.Stretch2

namespace Cert.Dilated.Ref

open Idealize.ShloMosaic Idealize.ShloMosaic.TcCoe Idealize.ShloMosaic.ValueIdx Idealize.ShloMosaic.StableHlo
open Idealize.SL.Sem
open Cert.ReferenceIdeal Cert.ReferenceIdeal.Gen Cert.ReferenceIdeal.ValueP

/-- The third layer's operations, from any contents in which the row counter's buffer holds the row counter, leave in
    the layer's output buffer the layer of its ingredients: the columns for dilation 4, layer 2's slices of the weights and
    biases, the input buffer's contents and the out-of-bounds row. -/
theorem stretch2_ops (V : Valuation τ sig (Elt Ideal)) (hV0 : V (Proc.devRef .tc main_v0) = iotaInDim S8192 32 0) :
    StableHlo.after (l2 (F := Ideal)) V (Proc.devRef .tc main_v129)
      = layerOps (condL 4#32) (condR 4#32) (startCol (rowMinus 4#32)) (startCol (rowPlus 4#32))
          (shapeCast S3072x1024 (extractStridedSlice S1x3072x1024 ![2, 0, 0] (V (Proc.devRef .tc main_arg1)) slices_S4x3072x1024_S1x3072x1024_2_0_0) shapeCasts_S1x3072x1024_S3072x1024)
          (shapeCast S1024 (extractStridedSlice S1x1024 ![2, 0] (V (Proc.devRef .tc main_arg2)) slices_S4x1024_S1x1024_2_0) shapeCasts_S1x1024_S1024)
          (V (Proc.devRef .tc main_v86)) (V (Proc.devRef .tc main_arg3)) := by
  rw [Stretch2.split, after_append, after_append, after_append, after_append]
  -- the contents after each run, named, with what later runs read of them
  have a_cL := Stretch2.sA_cL V hV0
  have a_gL := Stretch2.sA_gL V hV0
  have a_rP := Stretch2.sA_rP V hV0
  have a_in := Stretch2.sA_keep_main_v86 V
  have a_1 := Stretch2.sA_keep_main_arg1 V
  have a_2 := Stretch2.sA_keep_main_arg2 V
  have a_3 := Stretch2.sA_keep_main_arg3 V
  generalize StableHlo.after (Stretch2.sA (F := Ideal)) V = W1 at *
  have b_out := Stretch2.sB_out W1
  rw [a_cL, a_gL, a_in, a_3] at b_out
  have b_rP := (Stretch2.sB_keep_main_v90 W1).trans a_rP
  have b_in := (Stretch2.sB_keep_main_v86 W1).trans a_in
  have b_1 := (Stretch2.sB_keep_main_arg1 W1).trans a_1
  have b_2 := (Stretch2.sB_keep_main_arg2 W1).trans a_2
  have b_3 := (Stretch2.sB_keep_main_arg3 W1).trans a_3
  generalize StableHlo.after (Stretch2.sB (F := Ideal)) W1 = W2 at *
  have c_cR := Stretch2.sC_cR W2 b_rP
  have c_gR := Stretch2.sC_gR W2 b_rP
  have c_sL := (Stretch2.sC_keep_main_v102 W2).trans b_out
  have c_in := (Stretch2.sC_keep_main_v86 W2).trans b_in
  have c_1 := (Stretch2.sC_keep_main_arg1 W2).trans b_1
  have c_2 := (Stretch2.sC_keep_main_arg2 W2).trans b_2
  have c_3 := (Stretch2.sC_keep_main_arg3 W2).trans b_3
  generalize StableHlo.after (Stretch2.sC (F := Ideal)) W2 = W3 at *
  have d_out := Stretch2.sD_out W3
  rw [c_cR, c_gR, c_in, c_3] at d_out
  have d_sL := (Stretch2.sD_keep_main_v102 W3).trans c_sL
  have d_in := (Stretch2.sD_keep_main_v86 W3).trans c_in
  have d_1 := (Stretch2.sD_keep_main_arg1 W3).trans c_1
  have d_2 := (Stretch2.sD_keep_main_arg2 W3).trans c_2
  have d_3 := (Stretch2.sD_keep_main_arg3 W3).trans c_3
  generalize StableHlo.after (Stretch2.sD (F := Ideal)) W3 = W4 at *
  rw [Stretch2.sE_out W4, d_sL, d_out, d_in, d_1, d_2]
  exact (Stretch2.layerOps_eq_mix _ _ _ _ _ _ _ _).symm

/-- So the third layer's operations compute the specification's layer 2 (dilation 4) of the input buffer's contents,
    the weights, the biases and the out-of-bounds row. -/
theorem stretch2_out (V : Valuation τ sig (Elt Ideal)) (hV0 : V (Proc.devRef .tc main_v0) = iotaInDim S8192 32 0) :
    StableHlo.after (l2 (F := Ideal)) V (Proc.devRef .tc main_v129)
      = Cert.Dilated.layer 4 2 (V (Proc.devRef .tc main_v86)) (V (Proc.devRef .tc main_arg1)) (V (Proc.devRef .tc main_arg2)) (V (Proc.devRef .tc main_arg3)) :=
  (stretch2_ops V hV0).trans (layerOps_eq 4 2 _ _ _ _ _ _ _ _ _ _
    (fun r => condL_apply 4 (by omega) r) (fun r _ => startL_apply 4 (by omega) r)
    (fun r => condR_apply 4 (by omega) r)
    (fun r h => (startR_apply 4 (by omega) r).trans (Nat.min_eq_left (by omega)))
    (fun q k => weightSlice_apply 2 ![2, 0, 0] rfl rfl rfl slices_S4x3072x1024_S1x3072x1024_2_0_0 _ q k)
    (fun k => biasSlice_apply 2 ![2, 0] rfl rfl slices_S4x1024_S1x1024_2_0 _ k))

end Cert.Dilated.Ref

end
-- ==== Proof.RefStretch3.lean ====
/-
  The fourth stretch of the reference's line — the fourth layer (dilation 1) — read from an arbitrary contents of the
  buffers in which the row counter's buffer holds the counter: its last buffer ends holding the specification's
  fourth layer of the contents of the third layer's buffer and of the weights', biases' and out-of-bounds row's
  buffers. The stretch is read in two runs: up to the two shifted copies of the matrix, and from the joining of the
  three matrices on; the second run reads the copies as it finds them.
-/
import proofs.«137995_j86517821215731_2_alg».proof.Proof.RefStretch0

noncomputable section

namespace Cert.Dilated.Ref

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.ValueP

/-! ## The stretch in two runs -/

section Runs
variable {F : FTy → Type} [FloatOps F]

/-- The two condition columns, the two start columns and the two shifted copies: up to `main_v157`. -/
abbrev s3a : List (HloOp τ sig (Elt F)) :=
  [ nullary main_c_40 (constantI S_ 32 1#32),
    unary main_c_40 main_v130 (broadcastInDim S8192 ![] bcast_S_S8192 : (⟨S_, .i32⟩ : BufTy).Contents (Elt F) → (⟨S8192, .i32⟩ : BufTy).Contents (Elt F)),
    binary main_v0 main_v130 main_v131 (subi : (⟨S8192, .i32⟩ : BufTy).Contents (Elt F) → (⟨S8192, .i32⟩ : BufTy).Contents (Elt F) → (⟨S8192, .i32⟩ : BufTy).Contents (Elt F)),
    nullary main_c_41 (constantI S_ 32 1#32),
    unary main_c_41 main_v132 (broadcastInDim S8192 ![] bcast_S_S8192 : (⟨S_, .i32⟩ : BufTy).Contents (Elt F) → (⟨S8192, .i32⟩ : BufTy).Contents (Elt F)),
    binary main_v0 main_v132 main_v133 (addi : (⟨S8192, .i32⟩ : BufTy).Contents (Elt F) → (⟨S8192, .i32⟩ : BufTy).Contents (Elt F) → (⟨S8192, .i32⟩ : BufTy).Contents (Elt F)),
    nullary main_c_42 (constantI S_ 32 0#32),
    unary main_c_42 main_v134 (broadcastInDim S8192 ![] bcast_S_S8192 : (⟨S_, .i32⟩ : BufTy).Contents (Elt F) → (⟨S8192, .i32⟩ : BufTy).Contents (Elt F)),
    binary main_v131 main_v134 main_v135 (cmpi .sge : (⟨S8192, .i32⟩ : BufTy).Contents (Elt F) → (⟨S8192, .i32⟩ : BufTy).Contents (Elt F) → (⟨S8192, .i1⟩ : BufTy).Contents (Elt F)),
    unary main_v135 main_v136 (broadcastInDim S8192x1 ![0] bcast_S8192_S8192x1_0 : (⟨S8192, .i1⟩ : BufTy).Contents (Elt F) → (⟨S8192x1, .i1⟩ : BufTy).Contents (Elt F)),
    nullary main_c_43 (constantI S_ 32 0#32),
    nullary main_c_44 (constantI S_ 32 8191#32),
    TRef.unary (TRef.of (T := ⟨S_, .i32⟩) main_c_43) (TRef.of (T := ⟨S_, .i32⟩) main_call15_v0) id,
    TRef.unary (TRef.of (T := ⟨S_, .i32⟩) main_call15_v0) (TRef.of (T := ⟨S8192, .i32⟩) main_call15_v1) (broadcastInDim S8192 ![] bcast_S_S8192),
    TRef.binary (TRef.of (T := ⟨S8192, .i32⟩) main_call15_v1) (TRef.of (T := ⟨S8192, .i32⟩) main_v131) (TRef.of (T := ⟨S8192, .i32⟩) main_call15_v2) maxsi,
    TRef.unary (TRef.of (T := ⟨S_, .i32⟩) main_c_44) (TRef.of (T := ⟨S_, .i32⟩) main_call15_v3) id,
    TRef.unary (TRef.of (T := ⟨S_, .i32⟩) main_call15_v3) (TRef.of (T := ⟨S8192, .i32⟩) main_call15_v4) (broadcastInDim S8192 ![] bcast_S_S8192),
    TRef.binary (TRef.of (T := ⟨S8192, .i32⟩) main_call15_v4) (TRef.of (T := ⟨S8192, .i32⟩) main_call15_v2) (TRef.of (T := ⟨S8192, .i32⟩) main_v137) minsi,
    nullary main_c_45 (constantI S_ 32 0#32),
    unary main_c_45 main_v138 (broadcastInDim S8192 ![] bcast_S_S8192 : (⟨S_, .i32⟩ : BufTy).Contents (Elt F) → (⟨S8192, .i32⟩ : BufTy).Contents (Elt F)),
    binary main_v137 main_v138 main_v139 (cmpi .slt : (⟨S8192, .i32⟩ : BufTy).Contents (Elt F) → (⟨S8192, .i32⟩ : BufTy).Contents (Elt F) → (⟨S8192, .i1⟩ : BufTy).Contents (Elt F)),
    nullary main_c_46 (constantI S_ 32 8192#32),
    unary main_c_46 main_v140 (broadcastInDim S8192 ![] bcast_S_S8192 : (⟨S_, .i32⟩ : BufTy).Contents (Elt F) → (⟨S8192, .i32⟩ : BufTy).Contents (Elt F)),
    binary main_v137 main_v140 main_v141 (addi : (⟨S8192, .i32⟩ : BufTy).Contents (Elt F) → (⟨S8192, .i32⟩ : BufTy).Contents (Elt F) → (⟨S8192, .i32⟩ : BufTy).Contents (Elt F)),
    ternary main_v139 main_v141 main_v137 main_v142 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v142 main_v143 (broadcastInDim S8192x1 ![0] bcast_S8192_S8192x1_0 : (⟨S8192, .i32⟩ : BufTy).Contents (Elt F) → (⟨S8192x1, .i32⟩ : BufTy).Contents (Elt F)),
    binary main_v129 main_v143 main_v144 ((fun x i => Host.gather gather_S8192x1024_S8192x1_S8192x1024_1_0_n_n_0_1_11024 x i) : (⟨S8192x1024, .f32⟩ : BufTy).Contents (Elt F) → (⟨S8192x1, .i32⟩ : BufTy).Contents (Elt F) → (⟨S8192x1024, .f32⟩ : BufTy).Contents (Elt F)),
    TRef.unary (TRef.of (T := ⟨S8192x1, .i1⟩) main_v136) (TRef.of (T := ⟨S8192x1024, .i1⟩) main_call16_v0) (broadcastInDim S8192x1024 ![0, 1] bcast_S8192x1_S8192x1024_0_1),
    TRef.unary (TRef.of (T := ⟨S1024, .f32⟩) main_arg3) (TRef.of (T := ⟨S8192x1024, .f32⟩) main_call16_v1) (broadcastInDim S8192x1024 ![1] bcast_S1024_S8192x1024_1),
    TRef.ternary (TRef.of (T := ⟨S8192x1024, .i1⟩) main_call16_v0) (TRef.of (T := ⟨S8192x1024, .f32⟩) main_v144) (TRef.of (T := ⟨S8192x1024, .f32⟩) main_call16_v1) (TRef.of (T := ⟨S8192x1024, .f32⟩) main_v145) select,
    nullary main_c_47 (constantI S_ 32 8192#32),
    unary main_c_47 main_v146 (broadcastInDim S8192 ![] bcast_S_S8192 : (⟨S_, .i32⟩ : BufTy).Contents (Elt F) → (⟨S8192, .i32⟩ : BufTy).Contents (Elt F)),
    binary main_v133 main_v146 main_v147 (cmpi .slt : (⟨S8192, .i32⟩ : BufTy).Contents (Elt F) → (⟨S8192, .i32⟩ : BufTy).Contents (Elt F) → (⟨S8192, .i1⟩ : BufTy).Contents (Elt F)),
    unary main_v147 main_v148 (broadcastInDim S8192x1 ![0] bcast_S8192_S8192x1_0 : (⟨S8192, .i1⟩ : BufTy).Contents (Elt F) → (⟨S8192x1, .i1⟩ : BufTy).Contents (Elt F)),
    nullary main_c_48 (constantI S_ 32 0#32),
    nullary main_c_49 (constantI S_ 32 8191#32),
    TRef.unary (TRef.of (T := ⟨S_, .i32⟩) main_c_48) (TRef.of (T := ⟨S_, .i32⟩) main_call17_v0) id,
    TRef.unary (TRef.of (T := ⟨S_, .i32⟩) main_call17_v0) (TRef.of (T := ⟨S8192, .i32⟩) main_call17_v1) (broadcastInDim S8192 ![] bcast_S_S8192),
    TRef.binary (TRef.of (T := ⟨S8192, .i32⟩) main_call17_v1) (TRef.of (T := ⟨S8192, .i32⟩) main_v133) (TRef.of (T := ⟨S8192, .i32⟩) main_call17_v2) maxsi,
    TRef.unary (TRef.of (T := ⟨S_, .i32⟩) main_c_49) (TRef.of (T := ⟨S_, .i32⟩) main_call17_v3) id,
    TRef.unary (TRef.of (T := ⟨S_, .i32⟩) main_call17_v3) (TRef.of (T := ⟨S8192, .i32⟩) main_call17_v4) (broadcastInDim S8192 ![] bcast_S_S8192),
    TRef.binary (TRef.of (T := ⟨S8192, .i32⟩) main_call17_v4) (TRef.of (T := ⟨S8192, .i32⟩) main_call17_v2) (TRef.of (T := ⟨S8192, .i32⟩) main_v149) minsi,
    nullary main_c_50 (constantI S_ 32 0#32),
    unary main_c_50 main_v150 (broadcastInDim S8192 ![] bcast_S_S8192 : (⟨S_, .i32⟩ : BufTy).Contents (Elt F) → (⟨S8192, .i32⟩ : BufTy).Contents (Elt F)),
    binary main_v149 main_v150 main_v151 (cmpi .slt : (⟨S8192, .i32⟩ : BufTy).Contents (Elt F) → (⟨S8192, .i32⟩ : BufTy).Contents (Elt F) → (⟨S8192, .i1⟩ : BufTy).Contents (Elt F)),
    nullary main_c_51 (constantI S_ 32 8192#32),
    unary main_c_51 main_v152 (broadcastInDim S8192 ![] bcast_S_S8192 : (⟨S_, .i32⟩ : BufTy).Contents (Elt F) → (⟨S8192, .i32⟩ : BufTy).Contents (Elt F)),
    binary main_v149 main_v152 main_v153 (addi : (⟨S8192, .i32⟩ : BufTy).Contents (Elt F) → (⟨S8192, .i32⟩ : BufTy).Contents (Elt F) → (⟨S8192, .i32⟩ : BufTy).Contents (Elt F)),
    ternary main_v151 main_v153 main_v149 main_v154 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v154 main_v155 (broadcastInDim S8192x1 ![0] bcast_S8192_S8192x1_0 : (⟨S8192, .i32⟩ : BufTy).Contents (Elt F) → (⟨S8192x1, .i32⟩ : BufTy).Contents (Elt F)),
    binary main_v129 main_v155 main_v156 ((fun x i => Host.gather gather_S8192x1024_S8192x1_S8192x1024_1_0_n_n_0_1_11024 x i) : (⟨S8192x1024, .f32⟩ : BufTy).Contents (Elt F) → (⟨S8192x1, .i32⟩ : BufTy).Contents (Elt F) → (⟨S8192x1024, .f32⟩ : BufTy).Contents (Elt F)),
    TRef.unary (TRef.of (T := ⟨S8192x1, .i1⟩) main_v148) (TRef.of (T := ⟨S8192x1024, .i1⟩) main_call18_v0) (broadcastInDim S8192x1024 ![0, 1] bcast_S8192x1_S8192x1024_0_1),
    TRef.unary (TRef.of (T := ⟨S1024, .f32⟩) main_arg3) (TRef.of (T := ⟨S8192x1024, .f32⟩) main_call18_v1) (broadcastInDim S8192x1024 ![1] bcast_S1024_S8192x1024_1),
    TRef.ternary (TRef.of (T := ⟨S8192x1024, .i1⟩) main_call18_v0) (TRef.of (T := ⟨S8192x1024, .f32⟩) main_v156) (TRef.of (T := ⟨S8192x1024, .f32⟩) main_call18_v1) (TRef.of (T := ⟨S8192x1024, .f32⟩) main_v157) select ]

/-- The join, the product, the bias, the maximum with zero and the mix: up to `main_v172`. -/
abbrev s3b : List (HloOp τ sig (Elt F)) :=
  [ nary ![main_v129, main_v145, main_v157] main_v158 (fun u => concatenate S8192x3072 1 [⟨S8192x1024, u 0⟩, ⟨S8192x1024, u 1⟩, ⟨S8192x1024, u 2⟩] concatenates_S8192x1024_S8192x1024_S8192x1024_S8192x3072_d1),
    nullary main_cst_52 (constant S_ .f32 0x3F000000#32),
    unary main_cst_52 main_v159 (broadcastInDim S8192x1024 ![] bcast_S_S8192x1024 : (⟨S_, .f32⟩ : BufTy).Contents (Elt F) → (⟨S8192x1024, .f32⟩ : BufTy).Contents (Elt F)),
    binary main_v159 main_v129 main_v160 (mulf : (⟨S8192x1024, .f32⟩ : BufTy).Contents (Elt F) → (⟨S8192x1024, .f32⟩ : BufTy).Contents (Elt F) → (⟨S8192x1024, .f32⟩ : BufTy).Contents (Elt F)),
    unary main_arg1 main_v161 ((extractStridedSlice S1x3072x1024 ![3, 0, 0] · slices_S4x3072x1024_S1x3072x1024_3_0_0) : (⟨S4x3072x1024, .f32⟩ : BufTy).Contents (Elt F) → (⟨S1x3072x1024, .f32⟩ : BufTy).Contents (Elt F)),
    reshape main_v161 main_v162 rfl shapeCasts_S1x3072x1024_S3072x1024,
    binary main_v158 main_v162 main_v163 ((fun l r => Host.dotGeneral dot_S8192x3072_S3072x1024_S8192x1024_1_0_0_1_n_n none l r) : (⟨S8192x3072, .f32⟩ : BufTy).Contents (Elt F) → (⟨S3072x1024, .f32⟩ : BufTy).Contents (Elt F) → (⟨S8192x1024, .f32⟩ : BufTy).Contents (Elt F)),
    unary main_arg2 main_v164 ((extractStridedSlice S1x1024 ![3, 0] · slices_S4x1024_S1x1024_3_0) : (⟨S4x1024, .f32⟩ : BufTy).Contents (Elt F) → (⟨S1x1024, .f32⟩ : BufTy).Contents (Elt F)),
    reshape main_v164 main_v165 rfl shapeCasts_S1x1024_S1024,
    unary main_v165 main_v166 (broadcastInDim S1x1024 ![1] bcast_S1024_S1x1024_1 : (⟨S1024, .f32⟩ : BufTy).Contents (Elt F) → (⟨S1x1024, .f32⟩ : BufTy).Contents (Elt F)),
    unary main_v166 main_v167 (broadcastInDim S8192x1024 ![0, 1] bcast_S1x1024_S8192x1024_0_1 : (⟨S1x1024, .f32⟩ : BufTy).Contents (Elt F) → (⟨S8192x1024, .f32⟩ : BufTy).Contents (Elt F)),
    binary main_v163 main_v167 main_v168 (addf : (⟨S8192x1024, .f32⟩ : BufTy).Contents (Elt F) → (⟨S8192x1024, .f32⟩ : BufTy).Contents (Elt F) → (⟨S8192x1024, .f32⟩ : BufTy).Contents (Elt F)),
    TRef.nullary (TRef.of (T := ⟨S_, .f32⟩) main_call19_cst) (constant S_ .f32 0x00000000#32),
    TRef.unary (TRef.of (T := ⟨S_, .f32⟩) main_call19_cst) (TRef.of (T := ⟨S8192x1024, .f32⟩) main_call19_v0) (broadcastInDim S8192x1024 ![] bcast_S_S8192x1024),
    TRef.binary (TRef.of (T := ⟨S8192x1024, .f32⟩) main_v168) (TRef.of (T := ⟨S8192x1024, .f32⟩) main_call19_v0) (TRef.of (T := ⟨S8192x1024, .f32⟩) main_v169) maximumf,
    nullary main_cst_53 (constant S_ .f32 0x3F000000#32),
    unary main_cst_53 main_v170 (broadcastInDim S8192x1024 ![] bcast_S_S8192x1024 : (⟨S_, .f32⟩ : BufTy).Contents (Elt F) → (⟨S8192x1024, .f32⟩ : BufTy).Contents (Elt F)),
    binary main_v170 main_v169 main_v171 (mulf : (⟨S8192x1024, .f32⟩ : BufTy).Contents (Elt F) → (⟨S8192x1024, .f32⟩ : BufTy).Contents (Elt F) → (⟨S8192x1024, .f32⟩ : BufTy).Contents (Elt F)),
    binary main_v160 main_v171 main_v172 (addf : (⟨S8192x1024, .f32⟩ : BufTy).Contents (Elt F) → (⟨S8192x1024, .f32⟩ : BufTy).Contents (Elt F) → (⟨S8192x1024, .f32⟩ : BufTy).Contents (Elt F)) ]

theorem l3_split : (l3 : List (HloOp τ sig (Elt F))) = s3a ++ s3b := rfl

end Runs

variable (W : Valuation τ sig (Elt Ideal))

/-- The first run leaves the left shifted copy in `main_v145`. -/
theorem s3a_left (hW0 : W (Proc.devRef .tc main_v0) = iotaInDim S8192 32 0) :
    after (s3a (F := Ideal)) W (Proc.devRef .tc main_v145)
      = shifted (condL 1#32) (startCol (rowMinus 1#32)) (W (Proc.devRef .tc main_v129)) (W (Proc.devRef .tc main_arg3)) := by
  after_results_simp
  simp only [TRef.ofBuf_toBuf]
  rw [hW0]
  rfl

/-- The first run leaves the right shifted copy in `main_v157`. -/
theorem s3a_right (hW0 : W (Proc.devRef .tc main_v0) = iotaInDim S8192 32 0) :
    after (s3a (F := Ideal)) W (Proc.devRef .tc main_v157)
      = shifted (condR 1#32) (startCol (rowPlus 1#32)) (W (Proc.devRef .tc main_v129)) (W (Proc.devRef .tc main_arg3)) := by
  after_results_simp
  simp only [TRef.ofBuf_toBuf]
  rw [hW0]
  rfl

/-- The first run leaves the third layer's result, the weights and the biases as they were. -/
theorem s3a_in : after (s3a (F := Ideal)) W (Proc.devRef .tc main_v129) = W (Proc.devRef .tc main_v129) := by
  after_results_simp
theorem s3a_arg1 : after (s3a (F := Ideal)) W (Proc.devRef .tc main_arg1) = W (Proc.devRef .tc main_arg1) := by
  after_results_simp
theorem s3a_arg2 : after (s3a (F := Ideal)) W (Proc.devRef .tc main_arg2) = W (Proc.devRef .tc main_arg2) := by
  after_results_simp

/-- The second run's result from what it finds in the matrix's buffer, the two copies' buffers, the weights and the
    biases. -/
theorem s3b_out : after (s3b (F := Ideal)) W (Proc.devRef .tc main_v172)
    = mixOps (W (Proc.devRef .tc main_v129)) (W (Proc.devRef .tc main_v145)) (W (Proc.devRef .tc main_v157))
        (shapeCast S3072x1024 (extractStridedSlice S1x3072x1024 ![3, 0, 0] (W (Proc.devRef .tc main_arg1))
          slices_S4x3072x1024_S1x3072x1024_3_0_0) shapeCasts_S1x3072x1024_S3072x1024)
        (shapeCast S1024 (extractStridedSlice S1x1024 ![3, 0] (W (Proc.devRef .tc main_arg2))
          slices_S4x1024_S1x1024_3_0) shapeCasts_S1x1024_S1024) := by
  after_results_simp
  simp only [Matrix.cons_val, TRef.ofBuf_toBuf]
  rfl

/-! ## The stretch -/

/-- **The fourth stretch.** From any contents `V` of the buffers with the row counter in its buffer, the stretch's
    last buffer ends holding the specification's fourth layer (dilation 1, layer 3) of the contents of the third
    layer's buffer and the three other argument buffers. -/
theorem stretch3_out (V : Valuation τ sig (Elt Ideal)) (hV0 : V (Proc.devRef .tc main_v0) = iotaInDim S8192 32 0) :
    after (l3 (F := Ideal)) V (Proc.devRef .tc main_v172)
      = Cert.Dilated.layer 1 3 (V (Proc.devRef .tc main_v129)) (V (Proc.devRef .tc main_arg1))
          (V (Proc.devRef .tc main_arg2)) (V (Proc.devRef .tc main_arg3)) := by
  rw [l3_split, after_append, s3b_out, s3a_left V hV0, s3a_right V hV0, s3a_in, s3a_arg1, s3a_arg2, ← layerOps_eq_mixOps]
  exact layer_of_cols 1 (by decide) 3 _ _ _ _ _ _
    (fun q k => weightSlice_apply 3 ![3, 0, 0] rfl rfl rfl slices_S4x3072x1024_S1x3072x1024_3_0_0 _ q k)
    (fun k => biasSlice_apply 3 ![3, 0] rfl rfl slices_S4x1024_S1x1024_3_0 _ k)

end Cert.Dilated.Ref

end
-- ==== Proof.RefNet.lean ====
/-
  The reference's run: the network of the specification.

  The four stretches of the reference's line each compute the specification's layer of their input (dilations 1, 2,
  4, 1), no stretch touches the arguments or the row counter the first stretch makes, and the last operation puts a
  leading unit axis on the fourth layer's output; so every weakly fair execution of the reference terminates with the
  result buffer at the network of the four arguments, and the arguments as they were.
-/
import proofs.«137995_j86517821215731_2_alg».proof.Proof.RefAsm
import proofs.«137995_j86517821215731_2_alg».proof.Proof.RefKeep
import proofs.«137995_j86517821215731_2_alg».proof.Proof.RefStretch0
import proofs.«137995_j86517821215731_2_alg».proof.Proof.RefStretch1
import proofs.«137995_j86517821215731_2_alg».proof.Proof.RefStretch2
import proofs.«137995_j86517821215731_2_alg».proof.Proof.RefStretch3

noncomputable section

namespace Cert.Dilated.Ref

open Idealize.ShloMosaic Idealize.ShloMosaic.TcCoe Idealize.SL.Sem
open Cert.ReferenceIdeal Cert.ReferenceIdeal.Gen

/-- Every weakly fair execution of the reference terminates with the result buffer at the network of the four
    arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v173)
          = net (m ((c.tc : Thread nD τ).loc main_arg0)) (m ((c.tc : Thread nD τ).loc main_arg1))
              (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  run_of_stretches stretch0_out cnt0 keep0 stretch1_out cnt1 keep1 stretch2_out cnt2 keep2 stretch3_out keep3 m ρ

end Cert.Dilated.Ref

end
-- ==== Proof.lean ====
/-
  The certificate. A four-layer dilated convolution network on an 8192 × 1024 matrix: each layer sends X to
  ½·X + ½·max (X·W₀ + Xl·W₁ + Xr·W₂ + b) 0, where Xl and Xr are X shifted down and up by the layer's dilation (the
  out-of-bounds row where there is no row) and W₀, W₁, W₂ are the three stretches of the layer's weight matrix.
  The kernel computes each layer tile by tile (512 rows, with 8-row margins of the neighbouring tiles) in a region of
  its own; the reference gathers the shifted rows, concatenates and multiplies once. On the extended reals the two are
  the same function of the arguments: a sum over the 3072 concatenated columns is the sum of the three blocks' sums, and
  every row of a tile's shifted copies is the row the reference gathers. Nothing here needs the inputs to be finite.
  Each program's frame is its run with the result dropped; the idealization rewrote nothing.
-/
import proofs.«137995_j86517821215731_2_alg».proof.Defs
import proofs.«137995_j86517821215731_2_alg».proof.Proof.Gen.Kernel
import proofs.«137995_j86517821215731_2_alg».proof.Proof.Gen.KernelIdeal
import proofs.«137995_j86517821215731_2_alg».proof.Proof.Gen.ReferenceIdeal
import proofs.«137995_j86517821215731_2_alg».proof.Proof.Gen.Pre_finite_inputs
import proofs.«137995_j86517821215731_2_alg».proof.Proof.KB.Main
import proofs.«137995_j86517821215731_2_alg».proof.Proof.KI.ValueE
import proofs.«137995_j86517821215731_2_alg».proof.Proof.RefNet

noncomputable section

namespace Cert.Proof

open Idealize.ShloMosaic Idealize.SL.Sem

/-- The word-level kernel runs and leaves its arguments as launched. -/
theorem frame_k : Cert.frame_Kernel := fun m ρ _ =>
  (θ_run (Cert.Kernel.defs (F := Bits)) _ _).mono (fun _ h c => (h c).2) (Cert.Kernel.Hand.run_main (F := Bits) m ρ)

/-- So does the idealized kernel. -/
theorem frame_ki : Cert.frame_KernelIdeal := fun m ρ _ =>
  (θ_run (Cert.KernelIdeal.defs (F := Ideal)) _ _).mono (fun _ h c => (h c).2) (Cert.KernelIdeal.Hand.run_main (F := Ideal) m ρ)

/-- And the idealized reference. -/
theorem frame_ri : Cert.frame_ReferenceIdeal := fun m ρ _ =>
  (θ_run (Cert.ReferenceIdeal.defs (F := Ideal)) _ _).mono (fun _ h c => (h c).2) (Cert.Dilated.Ref.run m ρ)

/-- From memories agreeing on the arguments both idealized programs end with the network of the arguments in their
    result buffers. -/
theorem algebraic : Cert.algebraic_KernelIdeal_ReferenceIdeal := by
  intro m ρ m' ρ' _ hagree
  refine ⟨fun c => Cert.Dilated.net (Cert.KernelIdeal.Hand.Xa m c) (Cert.KernelIdeal.Hand.Wa m c) (Cert.KernelIdeal.Hand.Ba m c) (Cert.KernelIdeal.Hand.Oa m c), ?_, ?_⟩
  · exact (θ_run (Cert.KernelIdeal.defs (F := Ideal)) _ _).mono
      (fun _ h c => ⟨(h c).1.trans (Cert.KernelIdeal.Hand.W9_result m c), (h c).2⟩) (Cert.KernelIdeal.Hand.run_main (F := Ideal) m ρ)
  · refine (θ_run (Cert.ReferenceIdeal.defs (F := Ideal)) _ _).mono (fun _ h c => ⟨(h c).1.trans ?_, (h c).2⟩) (Cert.Dilated.Ref.run m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
